-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v13)) (v3 : (c : Dev Cert.KernelIdeal.nD) → Buf (Elt Ideal) ((c.tc : Thread Cert.KernelIdeal.nD Cert.KernelIdeal.τ).loc Cert.KernelIdeal.main_v8)) (v4 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_v5) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v255) = v0 c
          ∧ r.2.mem ((c.tc : Thread Cert.ReferenceIdeal.nD Cert.ReferenceIdeal.τ).loc Cert.ReferenceIdeal.main_v245) = v1 c
          ∧ r.2.mem ((c.tc : Thread Cert.ReferenceIdeal.nD Cert.ReferenceIdeal.τ).loc Cert.ReferenceIdeal.main_v252) = v2 c
          ∧ r.2.mem ((c.tc : Thread Cert.ReferenceIdeal.nD Cert.ReferenceIdeal.τ).loc Cert.ReferenceIdeal.main_v27) = v3 c
          ∧ r.2.mem ((c.tc : Thread Cert.ReferenceIdeal.nD Cert.ReferenceIdeal.τ).loc Cert.ReferenceIdeal.main_v14) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x14x14x30 : Shape := ⟨4, ![4096, 14, 14, 30]⟩
abbrev S4096x14x14x4 : Shape := ⟨4, ![4096, 14, 14, 4]⟩
abbrev S4096x14x14x20 : Shape := ⟨4, ![4096, 14, 14, 20]⟩
abbrev S4096x14x14 : Shape := ⟨3, ![4096, 14, 14]⟩
abbrev S_ : Shape := ⟨0, ![]⟩

class Facts : Prop where
  bcast_S_S4096x14x14x30 : S_.BroadcastsInDim S4096x14x14x30 (![] : Fin 0 → Fin S4096x14x14x30.rank)
  reducesTo_S4096x14x14x30_S_d0_1_2_3 : S4096x14x14x30.ReducesTo [0, 1, 2, 3] S_
  h_S_ : 0 < S_.numel
  bcast_S_S4096x14x14x4 : S_.BroadcastsInDim S4096x14x14x4 (![] : Fin 0 → Fin S4096x14x14x4.rank)
  reducesTo_S4096x14x14x4_S_d0_1_2_3 : S4096x14x14x4.ReducesTo [0, 1, 2, 3] S_
  bcast_S_S4096x14x14x20 : S_.BroadcastsInDim S4096x14x14x20 (![] : Fin 0 → Fin S4096x14x14x20.rank)
  reducesTo_S4096x14x14x20_S_d0_1_2_3 : S4096x14x14x20.ReducesTo [0, 1, 2, 3] S_

variable [Facts]

def fn {F : FTy → Type} [FloatOps F] (main_arg0 : FVec F S4096x14x14x30 .f32) (main_arg1 : FVec F S4096x14x14x4 .f32) (main_arg2 : FVec F S4096x14x14x20 .f32) (main_arg3 : IVec S4096x14x14 1) : IVec S_ 1 :=
  let main_v0 : FVec F S4096x14x14x30 .f32 := Host.absf main_arg0
  let main_cst : FVec F S_ .f32 := constant S_ .f32 0x7F800000#32
  let main_v1 : FVec F S4096x14x14x30 .f32 := broadcastInDim S4096x14x14x30 ![] bcast_S_S4096x14x14x30 main_cst
  let main_v2 : IVec S4096x14x14x30 1 := cmpf .olt main_v0 main_v1
  let main_c : IVec S_ 1 := constantI S_ 1 1#1
  let main_v3 : IVec S_ 1 := (fun x v => Host.reduce IntOp.andi x v reducesTo_S4096x14x14x30_S_d0_1_2_3 h_S_) main_v2 main_c
  let main_v4 : FVec F S4096x14x14x4 .f32 := Host.absf main_arg1
  let main_cst_0 : FVec F S_ .f32 := constant S_ .f32 0x7F800000#32
  let main_v5 : FVec F S4096x14x14x4 .f32 := broadcastInDim S4096x14x14x4 ![] bcast_S_S4096x14x14x4 main_cst_0
  let main_v6 : IVec S4096x14x14x4 1 := cmpf .olt main_v4 main_v5
  let main_c_1 : IVec S_ 1 := constantI S_ 1 1#1
  let main_v7 : IVec S_ 1 := (fun x v => Host.reduce IntOp.andi x v reducesTo_S4096x14x14x4_S_d0_1_2_3 h_S_) main_v6 main_c_1
  let main_v8 : IVec S_ 1 := andi main_v3 main_v7
  let main_v9 : FVec F S4096x14x14x20 .f32 := Host.absf main_arg2
  let main_cst_2 : FVec F S_ .f32 := constant S_ .f32 0x7F800000#32
  let main_v10 : FVec F S4096x14x14x20 .f32 := broadcastInDim S4096x14x14x20 ![] bcast_S_S4096x14x14x20 main_cst_2
  let main_v11 : IVec S4096x14x14x20 1 := cmpf .olt main_v9 main_v10
  let main_c_3 : IVec S_ 1 := constantI S_ 1 1#1
  let main_v12 : IVec S_ 1 := (fun x v => Host.reduce IntOp.andi x v reducesTo_S4096x14x14x20_S_d0_1_2_3 h_S_) main_v11 main_c_3
  let main_v13 : IVec S_ 1 := andi main_v8 main_v12
  main_v13
-- ==== Kernel.lean ====
abbrev S4096x14x14x30 : Shape := ⟨4, ![4096, 14, 14, 30]⟩
abbrev S4096x14x14x4 : Shape := ⟨4, ![4096, 14, 14, 4]⟩
abbrev S4096x14x14x20 : Shape := ⟨4, ![4096, 14, 14, 20]⟩
abbrev S4096x14x14 : Shape := ⟨3, ![4096, 14, 14]⟩
abbrev S1x1 : Shape := ⟨2, ![1, 1]⟩
abbrev S32x14x14x30 : Shape := ⟨4, ![32, 14, 14, 30]⟩
abbrev S32x14x14x4 : Shape := ⟨4, ![32, 14, 14, 4]⟩
abbrev S32x14x14x20 : Shape := ⟨4, ![32, 14, 14, 20]⟩
abbrev S32x14x14 : Shape := ⟨3, ![32, 14, 14]⟩
abbrev S32x14x14x5 : Shape := ⟨4, ![32, 14, 14, 5]⟩
abbrev S32x14x14x1 : Shape := ⟨4, ![32, 14, 14, 1]⟩
abbrev S32x14 : Shape := ⟨2, ![32, 14]⟩
abbrev S32 : Shape := ⟨1, ![32]⟩
abbrev S32x1 : Shape := ⟨2, ![32, 1]⟩
abbrev S1 : Shape := ⟨1, ![1]⟩
abbrev S_ : Shape := ⟨0, ![]⟩

abbrev nBuf : Space → Nat
  | .hbm => 29
  | .vmem => 14
  | .smem => 0
  | _ => 0

abbrev bufTy : (tb : Table) → Fin (tcTables nBuf tb) → BufTy
  | .hbm, ⟨0, _⟩ => ⟨S4096x14x14x30, .f32⟩
  | .hbm, ⟨1, _⟩ => ⟨S4096x14x14x4, .f32⟩
  | .hbm, ⟨2, _⟩ => ⟨S4096x14x14x20, .f32⟩
  | .hbm, ⟨3, _⟩ => ⟨S4096x14x14, .i1⟩
  | .hbm, ⟨4, _⟩ => ⟨S4096x14x14, .f32⟩
  | .hbm, ⟨5, _⟩ => ⟨S1x1, .f32⟩
  | .hbm, ⟨6, _⟩ => ⟨S1x1, .f32⟩
  | .hbm, ⟨7, _⟩ => ⟨S1x1, .f32⟩
  | .hbm, ⟨8, _⟩ => ⟨S1x1, .f32⟩
  | .hbm, ⟨9, _⟩ => ⟨S1x1, .f32⟩
  | .hbm, ⟨10, _⟩ => ⟨S1x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .local _ .vmem, ⟨0, _⟩ => ⟨S32x14x14x30, .f32⟩
  | .local _ .vmem, ⟨1, _⟩ => ⟨S32x14x14x30, .f32⟩
  | .local _ .vmem, ⟨2, _⟩ => ⟨S32x14x14x4, .f32⟩
  | .local _ .vmem, ⟨3, _⟩ => ⟨S32x14x14x4, .f32⟩
  | .local _ .vmem, ⟨4, _⟩ => ⟨S32x14x14x20, .f32⟩
  | .local _ .vmem, ⟨5, _⟩ => ⟨S32x14x14x20, .f32⟩
  | .local _ .vmem, ⟨6, _⟩ => ⟨S32x14x14, .f32⟩
  | .local _ .vmem, ⟨7, _⟩ => ⟨S32x14x14, .f32⟩
  | .local _ .vmem, ⟨8, _⟩ => ⟨S1x1, .f32⟩
  | .local _ .vmem, ⟨9, _⟩ => ⟨S1x1, .f32⟩
  | .local _ .vmem, ⟨10, _⟩ => ⟨S1x1, .f32⟩
  | .local _ .vmem, ⟨11, _⟩ => ⟨S1x1, .f32⟩
  | .local _ .vmem, ⟨12, _⟩ => ⟨S1x1, .f32⟩
  | .local _ .vmem, ⟨13, _⟩ => ⟨S1x1, .f32⟩
  | _, _ => ⟨S4096x14x14x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v1_4 : Ref sig .tc := ⟨.hbm, 9, rfl⟩
abbrev main_v1_5 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x14x14x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x14x14x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x14x14x20 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x14x14 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

class Facts₀ : Prop where
  inb_S1x1_S1x1_0_0 : ∀ a, (![0, 0] : Fin 2 → Nat) a + S1x1.size a ≤ S1x1.size a
  h_S1x1 : 0 < S1x1.numel
  inb_S32x14x14x30_S32x14x14x30_0_0_0_0 : ∀ a, (![0, 0, 0, 0] : Fin 4 → Nat) a + S32x14x14x30.size a ≤ S32x14x14x30.size a
  h_S32x14x14x30 : 0 < S32x14x14x30.numel
  inb_S32x14x14x4_S32x14x14x4_0_0_0_0 : ∀ a, (![0, 0, 0, 0] : Fin 4 → Nat) a + S32x14x14x4.size a ≤ S32x14x14x4.size a
  h_S32x14x14x4 : 0 < S32x14x14x4.numel
  inb_S32x14x14x20_S32x14x14x20_0_0_0_0 : ∀ a, (![0, 0, 0, 0] : Fin 4 → Nat) a + S32x14x14x20.size a ≤ S32x14x14x20.size a
  h_S32x14x14x20 : 0 < S32x14x14x20.numel
  inb_S32x14x14_S32x14x14_0_0_0 : ∀ a, (![0, 0, 0] : Fin 3 → Nat) a + S32x14x14.size a ≤ S32x14x14.size a
  h_S32x14x14 : 0 < S32x14x14.numel
  shapeCasts_S32x14x14_S32x14x14 : S32x14x14.ShapeCasts S32x14x14
  slices_S32x14x14x30_o0_0_0_0_S32x14x14x5 : S32x14x14x30.Slices ![0, 0, 0, 0] S32x14x14x5
  slices_S32x14x14x30_o0_0_0_5_S32x14x14x5 : S32x14x14x30.Slices ![0, 0, 0, 5] S32x14x14x5
  slices_S32x14x14x30_o0_0_0_10_S32x14x14x20 : S32x14x14x30.Slices ![0, 0, 0, 10] S32x14x14x20
  shapeCasts_S32x14x14_S32x14x14x1 : S32x14x14.ShapeCasts S32x14x14x1
  broadcasts_S32x14x14x1_S32x14x14x20 : S32x14x14x1.Broadcasts S32x14x14x20
  reduces_S32x14x14x20_S32x14x14 : S32x14x14x20.Reduces [3] S32x14x14
  reduces_S32x14x14_S32x14 : S32x14x14.Reduces [2] S32x14
  reduces_S32x14_S32 : S32x14.Reduces [1] S32
  shapeCasts_S32_S32x1 : S32.ShapeCasts S32x1
  reduces_S32x1_S1 : S32x1.Reduces [0] S1
  shapeCasts_S1_S1x1 : S1.ShapeCasts S1x1
  broadcasts_S32x14x14x1_S32x14x14x5 : S32x14x14x1.Broadcasts S32x14x14x5
  reduces_S32x14x14x5_S32x14x14 : S32x14x14x5.Reduces [3] S32x14x14
  slices_S32x14x14x4_o0_0_0_0_S32x14x14x1 : S32x14x14x4.Slices ![0, 0, 0, 0] S32x14x14x1
  shapeCasts_S32x14x14x1_S32x14x14 : S32x14x14x1.ShapeCasts S32x14x14
  slices_S32x14x14x4_o0_0_0_1_S32x14x14x1 : S32x14x14x4.Slices ![0, 0, 0, 1] S32x14x14x1
  slices_S32x14x14x4_o0_0_0_2_S32x14x14x1 : S32x14x14x4.Slices ![0, 0, 0, 2] S32x14x14x1
  slices_S32x14x14x4_o0_0_0_3_S32x14x14x1 : S32x14x14x4.Slices ![0, 0, 0, 3] S32x14x14x1
  slices_S32x14x14x5_o0_0_0_0_S32x14x14x1 : S32x14x14x5.Slices ![0, 0, 0, 0] S32x14x14x1
  slices_S32x14x14x5_o0_0_0_1_S32x14x14x1 : S32x14x14x5.Slices ![0, 0, 0, 1] S32x14x14x1
  slices_S32x14x14x5_o0_0_0_2_S32x14x14x1 : S32x14x14x5.Slices ![0, 0, 0, 2] S32x14x14x1
  slices_S32x14x14x5_o0_0_0_3_S32x14x14x1 : S32x14x14x5.Slices ![0, 0, 0, 3] S32x14x14x1
  slices_S32x14x14x5_o0_0_0_4_S32x14x14x1 : S32x14x14x5.Slices ![0, 0, 0, 4] S32x14x14x1
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x14x14x30.size a ≤ S4096x14x14x30.size a
  hwx0_0 : ∀ i : grid0.Coords, EltTy.bits .f32 = 32 ∨ (Rect.block (s := S4096x14x14x30) S32x14x14x30.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x14x14x4.size a ≤ S4096x14x14x4.size a
  hwx0_1 : ∀ i : grid0.Coords, EltTy.bits .f32 = 32 ∨ (Rect.block (s := S4096x14x14x4) S32x14x14x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x14x14x20.size a ≤ S4096x14x14x20.size a
  hwx0_2 : ∀ i : grid0.Coords, EltTy.bits .f32 = 32 ∨ (Rect.block (s := S4096x14x14x20) S32x14x14x20.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x14x14.size a ≤ S4096x14x14.size a
  hwx0_3 : ∀ i : grid0.Coords, EltTy.bits .f32 = 32 ∨ (Rect.block (s := S4096x14x14) S32x14x14.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)

variable [Facts₀]

abbrev win0_0 : Pipeline.Window sig grid0 :=
  Pipeline.Window.ofSpec (Memref.whole main_arg0) S32x14x14x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x14x14x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32x14x14x20.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S32x14x14.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x1.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x1.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1_2) S1x1.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1_3) S1x1.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1_4) S1x1.size cc0_transform_8 reads0_8 true true 1 stage0_8 sem0_8
    hrank0 hreads0_8 hinb0_8 nbuf0_8 (Memref.isWhole_whole _) hwx0_8 hstage0_8

abbrev win0_9 : Pipeline.Window sig grid0 :=
  Pipeline.Window.ofSpec (Memref.whole main_v1_5) S1x1.size cc0_transform_9 reads0_9 true true 1 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4096x14x14x30 : Shape := ⟨4, ![4096, 14, 14, 30]⟩
abbrev S4096x14x14x4 : Shape := ⟨4, ![4096, 14, 14, 4]⟩
abbrev S4096x14x14x20 : Shape := ⟨4, ![4096, 14, 14, 20]⟩
abbrev S4096x14x14 : Shape := ⟨3, ![4096, 14, 14]⟩
abbrev S_ : Shape := ⟨0, ![]⟩
abbrev S4096x14x14x5 : Shape := ⟨4, ![4096, 14, 14, 5]⟩
abbrev S4096x14x14x1 : Shape := ⟨4, ![4096, 14, 14, 1]⟩
abbrev S4096x14x14x2 : Shape := ⟨4, ![4096, 14, 14, 2]⟩

abbrev nBuf : Space → Nat
  | .hbm => 298
  | .vmem => 0
  | .smem => 0
  | _ => 0

abbrev hbmTy0_0 (i : Nat) : BufTy := match i % 128 with
  | 0 => ⟨S4096x14x14x30, .f32⟩
  | 1 => ⟨S4096x14x14x4, .f32⟩
  | 2 => ⟨S4096x14x14x20, .f32⟩
  | 3 => ⟨S4096x14x14, .i1⟩
  | 4 => ⟨S4096x14x14, .f32⟩
  | 5 => ⟨S_, .f32⟩
  | 6 => ⟨S4096x14x14, .f32⟩
  | 7 => ⟨S4096x14x14, .f32⟩
  | 8 => ⟨S_, .f32⟩
  | 9 => ⟨S_, .f32⟩
  | 10 => ⟨S_, .f32⟩
  | 11 => ⟨S_, .f32⟩
  | 12 => ⟨S4096x14x14x5, .f32⟩
  | 13 => ⟨S4096x14x14x5, .f32⟩
  | 14 => ⟨S4096x14x14x20, .f32⟩
  | 15 => ⟨S4096x14x14x1, .f32⟩
  | 16 => ⟨S4096x14x14x20, .f32⟩
  | 17 => ⟨S4096x14x14x20, .f32⟩
  | 18 => ⟨S4096x14x14x20, .f32⟩
  | 19 => ⟨S4096x14x14x20, .f32⟩
  | 20 => ⟨S_, .f32⟩
  | 21 => ⟨S_, .f32⟩
  | 22 => ⟨S_, .f32⟩
  | 23 => ⟨S_, .f32⟩
  | 24 => ⟨S4096x14x14x1, .f32⟩
  | 25 => ⟨S4096x14x14x5, .f32⟩
  | 26 => ⟨S4096x14x14x5, .f32⟩
  | 27 => ⟨S4096x14x14x5, .f32⟩
  | 28 => ⟨S_, .f32⟩
  | 29 => ⟨S_, .f32⟩
  | 30 => ⟨S4096x14x14x1, .f32⟩
  | 31 => ⟨S4096x14x14x5, .f32⟩
  | 32 => ⟨S4096x14x14x5, .f32⟩
  | 33 => ⟨S4096x14x14x5, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S4096x14x14x1, .f32⟩
  | 41 => ⟨S4096x14x14, .f32⟩
  | 42 => ⟨S4096x14x14x1, .f32⟩
  | 43 => ⟨S4096x14x14, .f32⟩
  | 44 => ⟨S4096x14x14x1, .f32⟩
  | 45 => ⟨S4096x14x14, .f32⟩
  | 46 => ⟨S4096x14x14x1, .f32⟩
  | 47 => ⟨S4096x14x14, .f32⟩
  | 48 => ⟨S_, .f32⟩
  | 49 => ⟨S4096x14x14, .f32⟩
  | 50 => ⟨S4096x14x14, .f32⟩
  | 51 => ⟨S_, .f32⟩
  | 52 => ⟨S4096x14x14, .f32⟩
  | 53 => ⟨S4096x14x14, .f32⟩
  | 54 => ⟨S4096x14x14, .f32⟩
  | 55 => ⟨S_, .f32⟩
  | 56 => ⟨S4096x14x14, .f32⟩
  | 57 => ⟨S4096x14x14, .f32⟩
  | 58 => ⟨S_, .f32⟩
  | 59 => ⟨S4096x14x14, .f32⟩
  | 60 => ⟨S4096x14x14, .f32⟩
  | 61 => ⟨S4096x14x14, .f32⟩
  | 62 => ⟨S_, .f32⟩
  | 63 => ⟨S4096x14x14, .f32⟩
  | 64 => ⟨S4096x14x14, .f32⟩
  | 65 => ⟨S_, .f32⟩
  | 66 => ⟨S4096x14x14, .f32⟩
  | 67 => ⟨S4096x14x14, .f32⟩
  | 68 => ⟨S4096x14x14, .f32⟩
  | 69 => ⟨S_, .f32⟩
  | 70 => ⟨S4096x14x14, .f32⟩
  | 71 => ⟨S4096x14x14, .f32⟩
  | 72 => ⟨S_, .f32⟩
  | 73 => ⟨S4096x14x14, .f32⟩
  | 74 => ⟨S4096x14x14, .f32⟩
  | 75 => ⟨S4096x14x14, .f32⟩
  | 76 => ⟨S4096x14x14x1, .f32⟩
  | 77 => ⟨S4096x14x14x1, .f32⟩
  | 78 => ⟨S4096x14x14x1, .f32⟩
  | 79 => ⟨S4096x14x14x1, .f32⟩
  | 80 => ⟨S4096x14x14x4, .f32⟩
  | 81 => ⟨S4096x14x14x4, .f32⟩
  | 82 => ⟨S4096x14x14x1, .f32⟩
  | 83 => ⟨S4096x14x14, .f32⟩
  | 84 => ⟨S4096x14x14x1, .f32⟩
  | 85 => ⟨S4096x14x14, .f32⟩
  | 86 => ⟨S4096x14x14x1, .f32⟩
  | 87 => ⟨S4096x14x14, .f32⟩
  | 88 => ⟨S4096x14x14x1, .f32⟩
  | 89 => ⟨S4096x14x14, .f32⟩
  | 90 => ⟨S_, .f32⟩
  | 91 => ⟨S4096x14x14, .f32⟩
  | 92 => ⟨S4096x14x14, .f32⟩
  | 93 => ⟨S_, .f32⟩
  | 94 => ⟨S4096x14x14, .f32⟩
  | 95 => ⟨S4096x14x14, .f32⟩
  | 96 => ⟨S4096x14x14, .f32⟩
  | 97 => ⟨S_, .f32⟩
  | 98 => ⟨S4096x14x14, .f32⟩
  | 99 => ⟨S4096x14x14, .f32⟩
  | 100 => ⟨S_, .f32⟩
  | 101 => ⟨S4096x14x14, .f32⟩
  | 102 => ⟨S4096x14x14, .f32⟩
  | 103 => ⟨S4096x14x14, .f32⟩
  | 104 => ⟨S_, .f32⟩
  | 105 => ⟨S4096x14x14, .f32⟩
  | 106 => ⟨S4096x14x14, .f32⟩
  | 107 => ⟨S_, .f32⟩
  | 108 => ⟨S4096x14x14, .f32⟩
  | 109 => ⟨S4096x14x14, .f32⟩
  | 110 => ⟨S4096x14x14, .f32⟩
  | 111 => ⟨S_, .f32⟩
  | 112 => ⟨S4096x14x14, .f32⟩
  | 113 => ⟨S4096x14x14, .f32⟩
  | 114 => ⟨S_, .f32⟩
  | 115 => ⟨S4096x14x14, .f32⟩
  | 116 => ⟨S4096x14x14, .f32⟩
  | 117 => ⟨S4096x14x14, .f32⟩
  | 118 => ⟨S4096x14x14x1, .f32⟩
  | 119 => ⟨S4096x14x14x1, .f32⟩
  | 120 => ⟨S4096x14x14x1, .f32⟩
  | 121 => ⟨S4096x14x14x1, .f32⟩
  | 122 => ⟨S4096x14x14x4, .f32⟩
  | 123 => ⟨S4096x14x14x2, .f32⟩
  | 124 => ⟨S4096x14x14x2, .f32⟩
  | 125 => ⟨S4096x14x14x2, .f32⟩
  | 126 => ⟨S4096x14x14x2, .f32⟩
  | 127 => ⟨S4096x14x14x2, .f32⟩
  | _ => ⟨S4096x14x14x30, .f32⟩

abbrev hbmTy0_1 (i : Nat) : BufTy := match i % 128 with
  | 0 => ⟨S4096x14x14x2, .f32⟩
  | 1 => ⟨S4096x14x14x2, .f32⟩
  | 2 => ⟨S_, .f32⟩
  | 3 => ⟨S4096x14x14x2, .f32⟩
  | 4 => ⟨S4096x14x14x2, .f32⟩
  | 5 => ⟨S4096x14x14x1, .f32⟩
  | 6 => ⟨S4096x14x14, .f32⟩
  | 7 => ⟨S4096x14x14x1, .f32⟩
  | 8 => ⟨S4096x14x14, .f32⟩
  | 9 => ⟨S4096x14x14, .f32⟩
  | 10 => ⟨S4096x14x14x1, .f32⟩
  | 11 => ⟨S4096x14x14, .f32⟩
  | 12 => ⟨S4096x14x14x1, .f32⟩
  | 13 => ⟨S4096x14x14, .f32⟩
  | 14 => ⟨S4096x14x14, .f32⟩
  | 15 => ⟨S4096x14x14x1, .f32⟩
  | 16 => ⟨S4096x14x14, .f32⟩
  | 17 => ⟨S4096x14x14x1, .f32⟩
  | 18 => ⟨S4096x14x14, .f32⟩
  | 19 => ⟨S4096x14x14, .f32⟩
  | 20 => ⟨S4096x14x14, .f32⟩
  | 21 => ⟨S4096x14x14x1, .f32⟩
  | 22 => ⟨S4096x14x14, .f32⟩
  | 23 => ⟨S4096x14x14x1, .f32⟩
  | 24 => ⟨S4096x14x14, .f32⟩
  | 25 => ⟨S4096x14x14, .f32⟩
  | 26 => ⟨S4096x14x14x1, .f32⟩
  | 27 => ⟨S4096x14x14, .f32⟩
  | 28 => ⟨S4096x14x14x1, .f32⟩
  | 29 => ⟨S4096x14x14, .f32⟩
  | 30 => ⟨S4096x14x14, .f32⟩
  | 31 => ⟨S4096x14x14, .f32⟩
  | 32 => ⟨S4096x14x14, .f32⟩
  | 33 => ⟨S4096x14x14, .f32⟩
  | 34 => ⟨S4096x14x14, .f32⟩
  | 35 => ⟨S4096x14x14x4, .f32⟩
  | 36 => ⟨S4096x14x14x1, .f32⟩
  | 37 => ⟨S4096x14x14, .f32⟩
  | 38 => ⟨S4096x14x14x1, .f32⟩
  | 39 => ⟨S4096x14x14, .f32⟩
  | 40 => ⟨S4096x14x14x1, .f32⟩
  | 41 => ⟨S4096x14x14, .f32⟩
  | 42 => ⟨S4096x14x14x1, .f32⟩
  | 43 => ⟨S4096x14x14, .f32⟩
  | 44 => ⟨S_, .f32⟩
  | 45 => ⟨S4096x14x14, .f32⟩
  | 46 => ⟨S4096x14x14, .f32⟩
  | 47 => ⟨S_, .f32⟩
  | 48 => ⟨S4096x14x14, .f32⟩
  | 49 => ⟨S4096x14x14, .f32⟩
  | 50 => ⟨S4096x14x14, .f32⟩
  | 51 => ⟨S_, .f32⟩
  | 52 => ⟨S4096x14x14, .f32⟩
  | 53 => ⟨S4096x14x14, .f32⟩
  | 54 => ⟨S_, .f32⟩
  | 55 => ⟨S4096x14x14, .f32⟩
  | 56 => ⟨S4096x14x14, .f32⟩
  | 57 => ⟨S4096x14x14, .f32⟩
  | 58 => ⟨S_, .f32⟩
  | 59 => ⟨S4096x14x14, .f32⟩
  | 60 => ⟨S4096x14x14, .f32⟩
  | 61 => ⟨S_, .f32⟩
  | 62 => ⟨S4096x14x14, .f32⟩
  | 63 => ⟨S4096x14x14, .f32⟩
  | 64 => ⟨S4096x14x14, .f32⟩
  | 65 => ⟨S_, .f32⟩
  | 66 => ⟨S4096x14x14, .f32⟩
  | 67 => ⟨S4096x14x14, .f32⟩
  | 68 => ⟨S_, .f32⟩
  | 69 => ⟨S4096x14x14, .f32⟩
  | 70 => ⟨S4096x14x14, .f32⟩
  | 71 => ⟨S4096x14x14, .f32⟩
  | 72 => ⟨S4096x14x14x1, .f32⟩
  | 73 => ⟨S4096x14x14x1, .f32⟩
  | 74 => ⟨S4096x14x14x1, .f32⟩
  | 75 => ⟨S4096x14x14x1, .f32⟩
  | 76 => ⟨S4096x14x14x4, .f32⟩
  | 77 => ⟨S4096x14x14x2, .f32⟩
  | 78 => ⟨S4096x14x14x2, .f32⟩
  | 79 => ⟨S4096x14x14x2, .f32⟩
  | 80 => ⟨S4096x14x14x2, .f32⟩
  | 81 => ⟨S4096x14x14x2, .f32⟩
  | 82 => ⟨S4096x14x14x2, .f32⟩
  | 83 => ⟨S4096x14x14x2, .f32⟩
  | 84 => ⟨S_, .f32⟩
  | 85 => ⟨S4096x14x14x2, .f32⟩
  | 86 => ⟨S4096x14x14x2, .f32⟩
  | 87 => ⟨S4096x14x14x1, .f32⟩
  | 88 => ⟨S4096x14x14, .f32⟩
  | 89 => ⟨S4096x14x14x1, .f32⟩
  | 90 => ⟨S4096x14x14, .f32⟩
  | 91 => ⟨S4096x14x14, .f32⟩
  | 92 => ⟨S4096x14x14x1, .f32⟩
  | 93 => ⟨S4096x14x14, .f32⟩
  | 94 => ⟨S4096x14x14x1, .f32⟩
  | 95 => ⟨S4096x14x14, .f32⟩
  | 96 => ⟨S4096x14x14, .f32⟩
  | 97 => ⟨S4096x14x14x1, .f32⟩
  | 98 => ⟨S4096x14x14, .f32⟩
  | 99 => ⟨S4096x14x14x1, .f32⟩
  | 100 => ⟨S4096x14x14, .f32⟩
  | 101 => ⟨S4096x14x14, .f32⟩
  | 102 => ⟨S4096x14x14, .f32⟩
  | 103 => ⟨S4096x14x14x1, .f32⟩
  | 104 => ⟨S4096x14x14, .f32⟩
  | 105 => ⟨S4096x14x14x1, .f32⟩
  | 106 => ⟨S4096x14x14, .f32⟩
  | 107 => ⟨S4096x14x14, .f32⟩
  | 108 => ⟨S4096x14x14x1, .f32⟩
  | 109 => ⟨S4096x14x14, .f32⟩
  | 110 => ⟨S4096x14x14x1, .f32⟩
  | 111 => ⟨S4096x14x14, .f32⟩
  | 112 => ⟨S4096x14x14, .f32⟩
  | 113 => ⟨S4096x14x14, .f32⟩
  | 114 => ⟨S4096x14x14, .f32⟩
  | 115 => ⟨S4096x14x14, .f32⟩
  | 116 => ⟨S4096x14x14, .f32⟩
  | 117 => ⟨S4096x14x14, .i1⟩
  | 118 => ⟨S4096x14x14x1, .i1⟩
  | 119 => ⟨S4096x14x14x5, .i1⟩
  | 120 => ⟨S4096x14x14x5, .f32⟩
  | 121 => ⟨S4096x14x14, .f32⟩
  | 122 => ⟨S4096x14x14x1, .f32⟩
  | 123 => ⟨S4096x14x14, .f32⟩
  | 124 => ⟨S4096x14x14x1, .f32⟩
  | 125 => ⟨S4096x14x14, .f32⟩
  | 126 => ⟨S4096x14x14x1, .f32⟩
  | 127 => ⟨S4096x14x14, .f32⟩
  | _ => ⟨S4096x14x14x30, .f32⟩

abbrev hbmTy0_2 (i : Nat) : BufTy := match i % 128 with
  | 0 => ⟨S4096x14x14x1, .f32⟩
  | 1 => ⟨S4096x14x14, .f32⟩
  | 2 => ⟨S4096x14x14x1, .f32⟩
  | 3 => ⟨S4096x14x14, .f32⟩
  | 4 => ⟨S4096x14x14x1, .f32⟩
  | 5 => ⟨S4096x14x14, .f32⟩
  | 6 => ⟨S4096x14x14x1, .f32⟩
  | 7 => ⟨S4096x14x14, .f32⟩
  | 8 => ⟨S4096x14x14x1, .f32⟩
  | 9 => ⟨S4096x14x14, .f32⟩
  | 10 => ⟨S4096x14x14, .f32⟩
  | 11 => ⟨S4096x14x14, .f32⟩
  | 12 => ⟨S4096x14x14, .f32⟩
  | 13 => ⟨S4096x14x14, .f32⟩
  | 14 => ⟨S4096x14x14, .f32⟩
  | 15 => ⟨S4096x14x14, .f32⟩
  | 16 => ⟨S4096x14x14, .f32⟩
  | 17 => ⟨S4096x14x14, .f32⟩
  | 18 => ⟨S4096x14x14, .f32⟩
  | 19 => ⟨S4096x14x14, .f32⟩
  | 20 => ⟨S4096x14x14, .f32⟩
  | 21 => ⟨S4096x14x14, .f32⟩
  | 22 => ⟨S4096x14x14, .f32⟩
  | 23 => ⟨S4096x14x14, .f32⟩
  | 24 => ⟨S4096x14x14, .f32⟩
  | 25 => ⟨S4096x14x14, .f32⟩
  | 26 => ⟨S_, .f32⟩
  | 27 => ⟨S_, .f32⟩
  | 28 => ⟨S_, .f32⟩
  | 29 => ⟨S_, .f32⟩
  | 30 => ⟨S_, .f32⟩
  | 31 => ⟨S4096x14x14x1, .f32⟩
  | 32 => ⟨S4096x14x14, .f32⟩
  | 33 => ⟨S4096x14x14, .f32⟩
  | 34 => ⟨S4096x14x14, .f32⟩
  | 35 => ⟨S4096x14x14, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | _ => ⟨S4096x14x14x30, .f32⟩

abbrev hbmTy (i : Nat) : BufTy := match i / 128 with
  | 0 => hbmTy0_0 i
  | 1 => hbmTy0_1 i
  | 2 => hbmTy0_2 i
  | _ => ⟨S4096x14x14x30, .f32⟩

abbrev bufTy : (tb : Table) → Fin (tcTables nBuf tb) → BufTy
  | .hbm, ⟨i, _⟩ => hbmTy i
  | _, _ => ⟨S4096x14x14x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_cst_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_7 : Ref sig .tc := ⟨.hbm, 48, rfl⟩
abbrev main_v36 : Ref sig .tc := ⟨.hbm, 49, rfl⟩
abbrev main_v37 : Ref sig .tc := ⟨.hbm, 50, rfl⟩
abbrev main_cst_8 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_9 : Ref sig .tc := ⟨.hbm, 55, rfl⟩
abbrev main_v41 : Ref sig .tc := ⟨.hbm, 56, rfl⟩
abbrev main_v42 : Ref sig .tc := ⟨.hbm, 57, rfl⟩
abbrev main_cst_10 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_11 : Ref sig .tc := ⟨.hbm, 62, rfl⟩
abbrev main_v46 : Ref sig .tc := ⟨.hbm, 63, rfl⟩
abbrev main_v47 : Ref sig .tc := ⟨.hbm, 64, rfl⟩
abbrev main_cst_12 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_13 : Ref sig .tc := ⟨.hbm, 69, rfl⟩
abbrev main_v51 : Ref sig .tc := ⟨.hbm, 70, rfl⟩
abbrev main_v52 : Ref sig .tc := ⟨.hbm, 71, rfl⟩
abbrev main_cst_14 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_15 : Ref sig .tc := ⟨.hbm, 90, rfl⟩
abbrev main_v70 : Ref sig .tc := ⟨.hbm, 91, rfl⟩
abbrev main_v71 : Ref sig .tc := ⟨.hbm, 92, rfl⟩
abbrev main_cst_16 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_17 : Ref sig .tc := ⟨.hbm, 97, rfl⟩
abbrev main_v75 : Ref sig .tc := ⟨.hbm, 98, rfl⟩
abbrev main_v76 : Ref sig .tc := ⟨.hbm, 99, rfl⟩
abbrev main_cst_18 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_19 : Ref sig .tc := ⟨.hbm, 104, rfl⟩
abbrev main_v80 : Ref sig .tc := ⟨.hbm, 105, rfl⟩
abbrev main_v81 : Ref sig .tc := ⟨.hbm, 106, rfl⟩
abbrev main_cst_20 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_cst_21 : Ref sig .tc := ⟨.hbm, 111, rfl⟩
abbrev main_v85 : Ref sig .tc := ⟨.hbm, 112, rfl⟩
abbrev main_v86 : Ref sig .tc := ⟨.hbm, 113, rfl⟩
abbrev main_cst_22 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_cst_23 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_cst_24 : Ref sig .tc := ⟨.hbm, 172, rfl⟩
abbrev main_v143 : Ref sig .tc := ⟨.hbm, 173, rfl⟩
abbrev main_v144 : Ref sig .tc := ⟨.hbm, 174, rfl⟩
abbrev main_cst_25 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_cst_26 : Ref sig .tc := ⟨.hbm, 179, rfl⟩
abbrev main_v148 : Ref sig .tc := ⟨.hbm, 180, rfl⟩
abbrev main_v149 : Ref sig .tc := ⟨.hbm, 181, rfl⟩
abbrev main_cst_27 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_cst_28 : Ref sig .tc := ⟨.hbm, 186, rfl⟩
abbrev main_v153 : Ref sig .tc := ⟨.hbm, 187, rfl⟩
abbrev main_v154 : Ref sig .tc := ⟨.hbm, 188, rfl⟩
abbrev main_cst_29 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_cst_30 : Ref sig .tc := ⟨.hbm, 193, rfl⟩
abbrev main_v158 : Ref sig .tc := ⟨.hbm, 194, rfl⟩
abbrev main_v159 : Ref sig .tc := ⟨.hbm, 195, rfl⟩
abbrev main_cst_31 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_cst_32 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_v202 : Ref sig .tc := ⟨.hbm, 240, rfl⟩
abbrev main_v203 : Ref sig .tc := ⟨.hbm, 241, rfl⟩
abbrev main_v204 : Ref sig .tc := ⟨.hbm, 242, rfl⟩
abbrev main_v205 : Ref sig .tc := ⟨.hbm, 243, rfl⟩
abbrev main_v206 : Ref sig .tc := ⟨.hbm, 244, rfl⟩
abbrev main_v207 : Ref sig .tc := ⟨.hbm, 245, rfl⟩
abbrev main_v208 : Ref sig .tc := ⟨.hbm, 246, rfl⟩
abbrev main_call0_v0 : Ref sig .tc := ⟨.hbm, 247, rfl⟩
abbrev main_v209 : Ref sig .tc := ⟨.hbm, 248, rfl⟩
abbrev main_v210 : Ref sig .tc := ⟨.hbm, 249, rfl⟩
abbrev main_v211 : Ref sig .tc := ⟨.hbm, 250, rfl⟩
abbrev main_v212 : Ref sig .tc := ⟨.hbm, 251, rfl⟩
abbrev main_v213 : Ref sig .tc := ⟨.hbm, 252, rfl⟩
abbrev main_v214 : Ref sig .tc := ⟨.hbm, 253, rfl⟩
abbrev main_v215 : Ref sig .tc := ⟨.hbm, 254, rfl⟩
abbrev main_v216 : Ref sig .tc := ⟨.hbm, 255, rfl⟩
abbrev main_v217 : Ref sig .tc := ⟨.hbm, 256, rfl⟩
abbrev main_v218 : Ref sig .tc := ⟨.hbm, 257, rfl⟩
abbrev main_v219 : Ref sig .tc := ⟨.hbm, 258, rfl⟩
abbrev main_v220 : Ref sig .tc := ⟨.hbm, 259, rfl⟩
abbrev main_v221 : Ref sig .tc := ⟨.hbm, 260, rfl⟩
abbrev main_v222 : Ref sig .tc := ⟨.hbm, 261, rfl⟩
abbrev main_v223 : Ref sig .tc := ⟨.hbm, 262, rfl⟩
abbrev main_v224 : Ref sig .tc := ⟨.hbm, 263, rfl⟩
abbrev main_v225 : Ref sig .tc := ⟨.hbm, 264, rfl⟩
abbrev main_v226 : Ref sig .tc := ⟨.hbm, 265, rfl⟩
abbrev main_v227 : Ref sig .tc := ⟨.hbm, 266, rfl⟩
abbrev main_v228 : Ref sig .tc := ⟨.hbm, 267, rfl⟩
abbrev main_v229 : Ref sig .tc := ⟨.hbm, 268, rfl⟩
abbrev main_v230 : Ref sig .tc := ⟨.hbm, 269, rfl⟩
abbrev main_v231 : Ref sig .tc := ⟨.hbm, 270, rfl⟩
abbrev main_v232 : Ref sig .tc := ⟨.hbm, 271, rfl⟩
abbrev main_v233 : Ref sig .tc := ⟨.hbm, 272, rfl⟩
abbrev main_v234 : Ref sig .tc := ⟨.hbm, 273, rfl⟩
abbrev main_v235 : Ref sig .tc := ⟨.hbm, 274, rfl⟩
abbrev main_v236 : Ref sig .tc := ⟨.hbm, 275, rfl⟩
abbrev main_v237 : Ref sig .tc := ⟨.hbm, 276, rfl⟩
abbrev main_v238 : Ref sig .tc := ⟨.hbm, 277, rfl⟩
abbrev main_v239 : Ref sig .tc := ⟨.hbm, 278, rfl⟩
abbrev main_v240 : Ref sig .tc := ⟨.hbm, 279, rfl⟩
abbrev main_v241 : Ref sig .tc := ⟨.hbm, 280, rfl⟩
abbrev main_v242 : Ref sig .tc := ⟨.hbm, 281, rfl⟩
abbrev main_cst_33 : Ref sig .tc := ⟨.hbm, 282, rfl⟩
abbrev main_v243 : Ref sig .tc := ⟨.hbm, 283, rfl⟩
abbrev main_cst_34 : Ref sig .tc := ⟨.hbm, 284, rfl⟩
abbrev main_v244 : Ref sig .tc := ⟨.hbm, 285, rfl⟩
abbrev main_v245 : Ref sig .tc := ⟨.hbm, 286, rfl⟩
abbrev main_v246 : Ref sig .tc := ⟨.hbm, 287, rfl⟩
abbrev main_v247 : Ref sig .tc := ⟨.hbm, 288, rfl⟩
abbrev main_v248 : Ref sig .tc := ⟨.hbm, 289, rfl⟩
abbrev main_v249 : Ref sig .tc := ⟨.hbm, 290, rfl⟩
abbrev main_v250 : Ref sig .tc := ⟨.hbm, 291, rfl⟩
abbrev main_cst_35 : Ref sig .tc := ⟨.hbm, 292, rfl⟩
abbrev main_v251 : Ref sig .tc := ⟨.hbm, 293, rfl⟩
abbrev main_v252 : Ref sig .tc := ⟨.hbm, 294, rfl⟩
abbrev main_v253 : Ref sig .tc := ⟨.hbm, 295, rfl⟩
abbrev main_v254 : Ref sig .tc := ⟨.hbm, 296, rfl⟩
abbrev main_v255 : Ref sig .tc := ⟨.hbm, 297, rfl⟩

abbrev nD : Nat := 1
abbrev τ : Topo := Topo.v7x

variable {F : FTy → Type} [FloatOps F]

class Facts₀ : Prop where
  bcast_S_S4096x14x14 : S_.BroadcastsInDim S4096x14x14 (![] : Fin 0 → Fin S4096x14x14.rank)
  reducesTo_S4096x14x14_S_d0_1_2 : S4096x14x14.ReducesTo [0, 1, 2] S_
  h_S_ : 0 < S_.numel
  slices_S4096x14x14x30_S4096x14x14x5_0_0_0_0 : S4096x14x14x30.Slices ![0, 0, 0, 0] S4096x14x14x5
  slices_S4096x14x14x30_S4096x14x14x5_0_0_0_5 : S4096x14x14x30.Slices ![0, 0, 0, 5] S4096x14x14x5
  slices_S4096x14x14x30_S4096x14x14x20_0_0_0_10 : S4096x14x14x30.Slices ![0, 0, 0, 10] S4096x14x14x20
  bcast_S4096x14x14_S4096x14x14x1_0_1_2 : S4096x14x14.BroadcastsInDim S4096x14x14x1 (![0, 1, 2] : Fin 3 → Fin S4096x14x14x1.rank)
  bcast_S4096x14x14x1_S4096x14x14x20_0_1_2_3 : S4096x14x14x1.BroadcastsInDim S4096x14x14x20 (![0, 1, 2, 3] : Fin 4 → Fin S4096x14x14x20.rank)
  reducesTo_S4096x14x14x20_S_d0_1_2_3 : S4096x14x14x20.ReducesTo [0, 1, 2, 3] S_
  bcast_S4096x14x14x1_S4096x14x14x5_0_1_2_3 : S4096x14x14x1.BroadcastsInDim S4096x14x14x5 (![0, 1, 2, 3] : Fin 4 → Fin S4096x14x14x5.rank)
  reducesTo_S4096x14x14x5_S_d0_1_2_3 : S4096x14x14x5.ReducesTo [0, 1, 2, 3] S_
  slices_S4096x14x14x4_S4096x14x14x1_0_0_0_0 : S4096x14x14x4.Slices ![0, 0, 0, 0] S4096x14x14x1
  shapeCasts_S4096x14x14x1_S4096x14x14 : S4096x14x14x1.ShapeCasts S4096x14x14
  slices_S4096x14x14x4_S4096x14x14x1_0_0_0_1 : S4096x14x14x4.Slices ![0, 0, 0, 1] S4096x14x14x1
  slices_S4096x14x14x4_S4096x14x14x1_0_0_0_2 : S4096x14x14x4.Slices ![0, 0, 0, 2] S4096x14x14x1
  slices_S4096x14x14x4_S4096x14x14x1_0_0_0_3 : S4096x14x14x4.Slices ![0, 0, 0, 3] S4096x14x14x1
  concatenates_S4096x14x14x1_S4096x14x14x1_S4096x14x14x1_S4096x14x14x1_S4096x14x14x4_d3 : Shape.Concatenates [S4096x14x14x1, S4096x14x14x1, S4096x14x14x1, S4096x14x14x1] S4096x14x14x4 3
  slices_S4096x14x14x5_S4096x14x14x4_0_0_0_0 : S4096x14x14x5.Slices ![0, 0, 0, 0] S4096x14x14x4
  slices_S4096x14x14x4_S4096x14x14x2_0_0_0_0 : S4096x14x14x4.Slices ![0, 0, 0, 0] S4096x14x14x2
  slices_S4096x14x14x4_S4096x14x14x2_0_0_0_2 : S4096x14x14x4.Slices ![0, 0, 0, 2] S4096x14x14x2
  bcast_S_S4096x14x14x2 : S_.BroadcastsInDim S4096x14x14x2 (![] : Fin 0 → Fin S4096x14x14x2.rank)
  slices_S4096x14x14x2_S4096x14x14x1_0_0_0_0 : S4096x14x14x2.Slices ![0, 0, 0, 0] S4096x14x14x1
  slices_S4096x14x14x2_S4096x14x14x1_0_0_0_1 : S4096x14x14x2.Slices ![0, 0, 0, 1] S4096x14x14x1
  slices_S4096x14x14x5_S4096x14x14x1_0_0_0_0 : S4096x14x14x5.Slices ![0, 0, 0, 0] S4096x14x14x1
  slices_S4096x14x14x5_S4096x14x14x1_0_0_0_1 : S4096x14x14x5.Slices ![0, 0, 0, 1] S4096x14x14x1
  slices_S4096x14x14x5_S4096x14x14x1_0_0_0_2 : S4096x14x14x5.Slices ![0, 0, 0, 2] S4096x14x14x1
  slices_S4096x14x14x5_S4096x14x14x1_0_0_0_3 : S4096x14x14x5.Slices ![0, 0, 0, 3] S4096x14x14x1
  slices_S4096x14x14x5_S4096x14x14x1_0_0_0_4 : S4096x14x14x5.Slices ![0, 0, 0, 4] S4096x14x14x1

variable [Facts₀]

class Facts : Prop extends Facts₀ where

variable [Facts]
-- ==== Proof.LibLastAxis.lean ====
/-
  Arrays whose LAST axis is the one that moves, read at an index written by its coordinates.

  * a slice along the last axis of a rank-4 array: at (a, b, c, j) it reads the source at (a, b, c, o + j);
  * a trailing unit axis dropped or added by a shape cast ([a,b,c,1] ↔ [a,b,c], [a] → [a,1]), and a trailing unit axis
    broadcast ([a,b,c,1] → [a,b,c,d], as a vector broadcast and as the host's broadcast_in_dim), the host's
    broadcast_in_dim that adds the trailing unit axis, and a scalar broadcast to any shape;
  * four [a,b,c,1] arrays joined along the last axis: channel k of the result is the k-th operand;
  * a sum over all indices of a rank-3 / rank-4 shape is the iterated sum over the coordinates;
  * a sum-reduction along the last axis (rank 4 → 3, rank 3 → 2) and of an [a,1] column along axis 0, from the zero
    word, over the extended reals.
-/
import Idealize.ShloMosaic.Lib.ValueIdx
import Idealize.ShloMosaic.Lib.Pipeline.Value
import Idealize.ShloMosaic.PureOps.Ideal.Laws

namespace Idealize.ShloMosaic.ValueIdx

open Idealize.ShloMosaic

variable {α : Type}

/-! ## Indices named by their coordinates -/

/-- An index of a rank-3 shape is the one with the same three coordinates. -/
theorem idx3_eq {n0 n1 n2 : Nat} (j : (⟨3, ![n0, n1, n2]⟩ : Shape).Idx) (a : Fin n0) (b : Fin n1) (c : Fin n2)
    (h0 : (j 0).val = a.val) (h1 : (j 1).val = b.val) (h2 : (j 2).val = c.val) : j = ix3 a b c :=
  funext fun d => Fin.ext (by match d with | ⟨0, _⟩ => exact h0 | ⟨1, _⟩ => exact h1 | ⟨2, _⟩ => exact h2)

/-- An index of a rank-4 shape is the one with the same four coordinates. -/
theorem idx4_eq {n0 n1 n2 n3 : Nat} (j : (⟨4, ![n0, n1, n2, n3]⟩ : Shape).Idx) (a : Fin n0) (b : Fin n1) (c : Fin n2)
    (d : Fin n3) (h0 : (j 0).val = a.val) (h1 : (j 1).val = b.val) (h2 : (j 2).val = c.val) (h3 : (j 3).val = d.val) :
    j = ix4 a b c d :=
  funext fun e => Fin.ext (by
    match e with | ⟨0, _⟩ => exact h0 | ⟨1, _⟩ => exact h1 | ⟨2, _⟩ => exact h2 | ⟨3, _⟩ => exact h3)

/-- An index of a rank-2 shape is the one with the same two coordinates. -/
theorem idx2_eq {n0 n1 : Nat} (j : (⟨2, ![n0, n1]⟩ : Shape).Idx) (a : Fin n0) (b : Fin n1)
    (h0 : (j 0).val = a.val) (h1 : (j 1).val = b.val) : j = ix2 a b :=
  funext fun d => Fin.ext (by match d with | ⟨0, _⟩ => exact h0 | ⟨1, _⟩ => exact h1)

/-! ## A slice along the last axis -/

/-- The slice stays inside the source's last axis. -/
theorem slice4_axis3_lt {n0 n1 n2 n3 m o : Nat}
    (h : (⟨4, ![n0, n1, n2, n3]⟩ : Shape).Slices ![0, 0, 0, o] ⟨4, ![n0, n1, n2, m]⟩) (j : Fin m) : o + j.val < n3 := by
  have h3 : o + m ≤ n3 := h.2 (3 : Fin 4)
  have := j.isLt
  omega

/-- A rank-4 array cut along its last axis from `o` reads, at `(a, b, c, j)`, the source at `(a, b, c, o + j)`. -/
theorem slice4_axis3_apply {n0 n1 n2 n3 m : Nat} (o : Nat) (X : (⟨4, ![n0, n1, n2, n3]⟩ : Shape).Idx → α)
    (h : (⟨4, ![n0, n1, n2, n3]⟩ : Shape).Slices ![0, 0, 0, o] ⟨4, ![n0, n1, n2, m]⟩)
    (a : Fin n0) (b : Fin n1) (c : Fin n2) (j : Fin m) :
    extractStridedSlice ⟨4, ![n0, n1, n2, m]⟩ ![0, 0, 0, o] X h (ix4 a b c j)
      = X (ix4 a b c ⟨o + j.val, slice4_axis3_lt h j⟩) :=
  extractStridedSlice_apply _ _ _ _ _ (fun ax => by
    match ax with
    | ⟨0, _⟩ => exact (Nat.zero_add _).symm
    | ⟨1, _⟩ => exact (Nat.zero_add _).symm
    | ⟨2, _⟩ => exact (Nat.zero_add _).symm
    | ⟨3, _⟩ => rfl)

/-! ## A trailing unit axis -/

/-- An `[a, b, c, 1]` array cast to `[a, b, c]` reads, at `(i, j, k)`, the operand at `(i, j, k, 0)`. -/
theorem shapeCast_abc1_abc_apply {a b c : ℕ} (x : (⟨4, ![a, b, c, 1]⟩ : Shape).Idx → α)
    (h : (⟨4, ![a, b, c, 1]⟩ : Shape).ShapeCasts ⟨3, ![a, b, c]⟩) (i : Fin a) (j : Fin b) (k : Fin c) :
    shapeCast ⟨3, ![a, b, c]⟩ x h (ix3 i j k) = x (ix4 i j k (0 : Fin 1)) :=
  shapeCast_apply x h _ _ (by
    rw [Shape.rowMajor_val_four, Shape.rowMajor_val_three]
    show ((i.val * b + j.val) * c + k.val) * 1 + 0 = (i.val * b + j.val) * c + k.val
    rw [Nat.mul_one, Nat.add_zero])

/-- An `[a, b, c]` array cast to `[a, b, c, 1]` reads, at `(i, j, k, u)`, the operand at `(i, j, k)`. -/
theorem shapeCast_abc_abc1_apply {a b c : ℕ} (x : (⟨3, ![a, b, c]⟩ : Shape).Idx → α)
    (h : (⟨3, ![a, b, c]⟩ : Shape).ShapeCasts ⟨4, ![a, b, c, 1]⟩) (i : Fin a) (j : Fin b) (k : Fin c) (u : Fin 1) :
    shapeCast ⟨4, ![a, b, c, 1]⟩ x h (ix4 i j k u) = x (ix3 i j k) :=
  shapeCast_apply x h _ _ (by
    have hu : u.val = 0 := by omega
    rw [Shape.rowMajor_val_three, Shape.rowMajor_val_four]
    show (i.val * b + j.val) * c + k.val = ((i.val * b + j.val) * c + k.val) * 1 + u.val
    rw [hu, Nat.mul_one, Nat.add_zero])

/-- An `[a]` array cast to `[a, 1]` reads, at `(i, u)`, the operand at `i`. -/
theorem shapeCast_a_a1_apply' {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, b, c, 1]` array broadcast to `[a, b, c, d]` reads, at `(i, j, k, l)`, the operand at `(i, j, k, 0)`. -/
theorem broadcastTo_abc1_abcd_apply {a b c d : ℕ} (x : (⟨4, ![a, b, c, 1]⟩ : Shape).Idx → α)
    (h : (⟨4, ![a, b, c, 1]⟩ : Shape).Broadcasts ⟨4, ![a, b, c, d]⟩) (i : Fin a) (j : Fin b) (k : Fin c) (l : Fin d) :
    broadcastTo ⟨4, ![a, b, c, d]⟩ x h (ix4 i j k l) = x (ix4 i j k (0 : Fin 1)) := by
  refine broadcastTo_apply x h (ix4 i j k l) (ix4 i j k (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show k.val = if c = 1 then 0 else k.val
    split
    · have := k.isLt; omega
    · rfl
  | ⟨3, _⟩ => rfl

/-- The host's `broadcast_in_dim` of an `[a, b, c, 1]` array to `[a, b, c, d]` along the identity: the same reading. -/
theorem broadcastInDim_abc1_abcd_apply {a b c d : ℕ} (x : (⟨4, ![a, b, c, 1]⟩ : Shape).Idx → α)
    (h : (⟨4, ![a, b, c, 1]⟩ : Shape).BroadcastsInDim ⟨4, ![a, b, c, d]⟩ ![0, 1, 2, 3])
    (i : Fin a) (j : Fin b) (k : Fin c) (l : Fin d) :
    broadcastInDim ⟨4, ![a, b, c, d]⟩ (no_index ![0, 1, 2, 3]) h x (ix4 i j k l) = x (ix4 i j k (0 : Fin 1)) := by
  refine broadcastInDim_apply ![0, 1, 2, 3] h x (ix4 i j k l) (ix4 i j k (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show k.val = if c = 1 then 0 else k.val
    split
    · have := k.isLt; omega
    · rfl
  | ⟨3, _⟩ => rfl

/-- The host's `broadcast_in_dim` of an `[a, b, c]` array to `[a, b, c, 1]` (a new trailing unit axis) reads, at
    `(i, j, k, u)`, the operand at `(i, j, k)`. -/
theorem broadcastInDim_abc_abc1_apply {a b c : ℕ} (x : (⟨3, ![a, b, c]⟩ : Shape).Idx → α)
    (h : (⟨3, ![a, b, c]⟩ : Shape).BroadcastsInDim ⟨4, ![a, b, c, 1]⟩ ![0, 1, 2])
    (i : Fin a) (j : Fin b) (k : Fin c) (u : Fin 1) :
    broadcastInDim ⟨4, ![a, b, c, 1]⟩ (no_index ![0, 1, 2]) h x (ix4 i j k u) = x (ix3 i j k) := by
  refine broadcastInDim_apply ![0, 1, 2] h x (ix4 i j k u) (ix3 i j k) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A scalar broadcast by the host to any shape reads the scalar everywhere. -/
theorem broadcastInDim_scalar_apply {t : Shape} (x : (⟨0, ![]⟩ : Shape).Idx → α)
    (dims : Fin (⟨0, ![]⟩ : Shape).rank → Fin t.rank) (h : (⟨0, ![]⟩ : Shape).BroadcastsInDim t dims) (j : t.Idx) :
    broadcastInDim t (no_index dims) h x j = x ix0 :=
  broadcastInDim_apply dims h x j ix0 (fun ax => ax.elim0)

/-! ## Four unit-channel arrays joined along the last axis -/

/-- Four `[a, b, c, 1]` arrays joined along the last axis: channel `k` of the result is the `k`-th operand. -/
theorem concatenate4_last_apply {a b c : ℕ} (x0 x1 x2 x3 : (⟨4, ![a, b, c, 1]⟩ : Shape).Idx → α)
    (h : Shape.Concatenates (([⟨⟨4, ![a, b, c, 1]⟩, x0⟩, ⟨⟨4, ![a, b, c, 1]⟩, x1⟩, ⟨⟨4, ![a, b, c, 1]⟩, x2⟩,
      ⟨⟨4, ![a, b, c, 1]⟩, x3⟩] : List ((s : Shape) × (s.Idx → α))).map (·.1)) ⟨4, ![a, b, c, 4]⟩ (3 : Fin 4))
    (i : Fin a) (j : Fin b) (k : Fin c) (l : Fin 4) :
    concatenate ⟨4, ![a, b, c, 4]⟩ (3 : Fin 4) [⟨⟨4, ![a, b, c, 1]⟩, x0⟩, ⟨⟨4, ![a, b, c, 1]⟩, x1⟩,
        ⟨⟨4, ![a, b, c, 1]⟩, x2⟩, ⟨⟨4, ![a, b, c, 1]⟩, x3⟩] h (ix4 i j k l)
      = ![x0 (ix4 i j k (0 : Fin 1)), x1 (ix4 i j k (0 : Fin 1)), x2 (ix4 i j k (0 : Fin 1)),
          x3 (ix4 i j k (0 : Fin 1))] l := by
  have hi : ∀ bx : Fin (⟨4, ![a, b, c, 1]⟩ : Shape).rank, bx.cast rfl ≠ (3 : Fin 4) →
      ((ix4 i j k (0 : Fin 1)) bx).val = ((ix4 i j k l) (bx.cast rfl)).val := fun bx hb => by
    match bx with
    | ⟨0, _⟩ => rfl
    | ⟨1, _⟩ => rfl
    | ⟨2, _⟩ => rfl
    | ⟨3, _⟩ => exact absurd rfl hb
  let xs : List ((s : Shape) × (s.Idx → α)) := [⟨⟨4, ![a, b, c, 1]⟩, x0⟩, ⟨⟨4, ![a, b, c, 1]⟩, x1⟩,
    ⟨⟨4, ![a, b, c, 1]⟩, x2⟩, ⟨⟨4, ![a, b, c, 1]⟩, x3⟩]
  match l with
  | ⟨0, hl⟩ =>
    exact concatenate_apply_piece (3 : Fin 4) xs h (ix4 i j k ⟨0, hl⟩) 0 (by show (0 : Nat) < 4; decide) _ x0 rfl rfl 0 rfl (ix4 i j k (0 : Fin 1)) hi (by rfl)
  | ⟨1, hl⟩ =>
    exact concatenate_apply_piece (3 : Fin 4) xs h (ix4 i j k ⟨1, hl⟩) 1 (by show (1 : Nat) < 4; decide) _ x1 rfl rfl 1 rfl (ix4 i j k (0 : Fin 1)) hi (by rfl)
  | ⟨2, hl⟩ =>
    exact concatenate_apply_piece (3 : Fin 4) xs h (ix4 i j k ⟨2, hl⟩) 2 (by show (2 : Nat) < 4; decide) _ x2 rfl rfl 2 rfl (ix4 i j k (0 : Fin 1)) hi (by rfl)
  | ⟨3, hl⟩ =>
    exact concatenate_apply_piece (3 : Fin 4) xs h (ix4 i j k ⟨3, hl⟩) 3 (by show (3 : Nat) < 4; decide) _ x3 rfl rfl 3 rfl (ix4 i j k (0 : Fin 1)) hi (by rfl)

/-! ## Sums over all indices -/

/-- A rank-3 index set is the product of its coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-! ## Sum-reductions from the zero word, over the extended reals

The accumulator's neutrality is stated as the printed operations carry it: the zero word equals itself. -/

/-- A sum along the last axis of an `[a, b, c, K]` array read at `(i, j, k)`: `∑ l, src (i, j, k, l)`. -/
theorem multiReduction_add_last4_apply {a b c K : ℕ} (src : FVec Ideal ⟨4, ![a, b, c, K]⟩ .f32)
    (hr : (⟨4, ![a, b, c, K]⟩ : Shape).Reduces [3] ⟨3, ![a, b, c]⟩) (hφ : FKind.Formats .f32)
    (hacc : (0x00000000#32 : BitVec 32) = 0x00000000#32) (i : Fin a) (j : Fin b) (k : Fin c) :
    multiReduction .add [3] ⟨3, ![a, b, c]⟩ src 0x00000000#32 hr hφ hacc (ix3 i j k)
      = ∑ l : Fin K, src (ix4 i j k l) :=
  (Ideal.multiReduction_add_single src _ hr hφ hacc (ix3 i j k)).trans
    (Finset.sum_congr rfl fun l _ => congrArg src (idx4_eq _ i j k l rfl rfl rfl rfl))

/-- A sum along the last axis of an `[a, b, K]` array read at `(i, j)`: `∑ l, src (i, j, l)`. -/
theorem multiReduction_add_last3_apply {a b K : ℕ} (src : FVec Ideal ⟨3, ![a, b, K]⟩ .f32)
    (hr : (⟨3, ![a, b, K]⟩ : Shape).Reduces [2] ⟨2, ![a, b]⟩) (hφ : FKind.Formats .f32)
    (hacc : (0x00000000#32 : BitVec 32) = 0x00000000#32) (i : Fin a) (j : Fin b) :
    multiReduction .add [2] ⟨2, ![a, b]⟩ src 0x00000000#32 hr hφ hacc (ix2 i j) = ∑ l : Fin K, src (ix3 i j l) :=
  (Ideal.multiReduction_add_single src _ hr hφ hacc (ix2 i j)).trans
    (Finset.sum_congr rfl fun l _ => congrArg src (idx3_eq _ i j l rfl rfl rfl))

/-- A sum along the last axis of an `[a, K]` array read at `i`: `∑ l, src (i, l)`. -/
theorem multiReduction_add_last2_apply {a K : ℕ} (src : FVec Ideal ⟨2, ![a, K]⟩ .f32)
    (hr : (⟨2, ![a, K]⟩ : Shape).Reduces [1] ⟨1, ![a]⟩) (hφ : FKind.Formats .f32)
    (hacc : (0x00000000#32 : BitVec 32) = 0x00000000#32) (i : Fin a) :
    multiReduction .add [1] ⟨1, ![a]⟩ src 0x00000000#32 hr hφ hacc (ix1 i) = ∑ l : Fin K, src (ix2 i l) :=
  (Ideal.multiReduction_add_single src _ hr hφ hacc (ix1 i)).trans
    (Finset.sum_congr rfl fun l _ => congrArg src (idx2_eq _ i l rfl rfl))

/-- A sum down an `[a, 1]` column (axis 0) read at its one index: `∑ i, src (i, 0)`. -/
theorem multiReduction_add_col_apply {a : ℕ} (src : FVec Ideal ⟨2, ![a, 1]⟩ .f32)
    (hr : (⟨2, ![a, 1]⟩ : Shape).Reduces [0] ⟨1, ![1]⟩) (hφ : FKind.Formats .f32)
    (hacc : (0x00000000#32 : BitVec 32) = 0x00000000#32) (u : Fin 1) :
    multiReduction .add [0] ⟨1, ![1]⟩ src 0x00000000#32 hr hφ hacc (ix1 u) = ∑ i : Fin a, src (ix2 i (0 : Fin 1)) :=
  (Ideal.multiReduction_add_single src _ hr hφ hacc (ix1 u)).trans
    (Finset.sum_congr rfl fun i _ => congrArg src (idx2_eq _ i (0 : Fin 1) rfl (by
      have h1 : ((hr.lift (ix1 u) i) 1).val < 1 := ((hr.lift (ix1 u) i) 1).isLt
      show ((hr.lift (ix1 u) i) 1).val = 0
      omega)))

/-! ## Summing a whole array one axis at a time

A rank-3 (rank-4) array is summed entirely by reducing its last axis repeatedly down to a vector, casting the vector to
a column, reducing the column and casting the one entry to a 1×1 matrix: that entry is the iterated sum. -/

/-- Every entry of an `[a, b, c]` array, summed axis by axis into a 1×1 matrix. -/
theorem sumAll3_apply {a b c : ℕ} (v : FVec Ideal ⟨3, ![a, b, c]⟩ .f32)
    (h2 : (⟨3, ![a, b, c]⟩ : Shape).Reduces [2] ⟨2, ![a, b]⟩) (h1 : (⟨2, ![a, b]⟩ : Shape).Reduces [1] ⟨1, ![a]⟩)
    (hc : (⟨1, ![a]⟩ : Shape).ShapeCasts ⟨2, ![a, 1]⟩) (h0 : (⟨2, ![a, 1]⟩ : Shape).Reduces [0] ⟨1, ![1]⟩)
    (hc' : (⟨1, ![1]⟩ : Shape).ShapeCasts ⟨2, ![1, 1]⟩) (hφ : FKind.Formats .f32)
    (hacc : (0x00000000#32 : BitVec 32) = 0x00000000#32) :
    shapeCast ⟨2, ![1, 1]⟩ (multiReduction .add [0] ⟨1, ![1]⟩ (shapeCast ⟨2, ![a, 1]⟩
        (multiReduction .add [1] ⟨1, ![a]⟩ (multiReduction .add [2] ⟨2, ![a, b]⟩ v 0x00000000#32 h2 hφ hacc)
          0x00000000#32 h1 hφ hacc) hc) 0x00000000#32 h0 hφ hacc) hc' (ix2 (0 : Fin 1) (0 : Fin 1))
      = ∑ i : Fin a, ∑ j : Fin b, ∑ k : Fin c, v (ix3 i j k) := by
  rw [shapeCast_a_a1_apply', multiReduction_add_col_apply]
  refine Finset.sum_congr rfl fun i _ => ?_
  rw [shapeCast_a_a1_apply', multiReduction_add_last2_apply]
  refine Finset.sum_congr rfl fun j _ => ?_
  rw [multiReduction_add_last3_apply]

/-- Every entry of an `[a, b, c, d]` array, summed axis by axis into a 1×1 matrix. -/
theorem sumAll4_apply {a b c d : ℕ} (v : FVec Ideal ⟨4, ![a, b, c, d]⟩ .f32)
    (h3 : (⟨4, ![a, b, c, d]⟩ : Shape).Reduces [3] ⟨3, ![a, b, c]⟩)
    (h2 : (⟨3, ![a, b, c]⟩ : Shape).Reduces [2] ⟨2, ![a, b]⟩) (h1 : (⟨2, ![a, b]⟩ : Shape).Reduces [1] ⟨1, ![a]⟩)
    (hc : (⟨1, ![a]⟩ : Shape).ShapeCasts ⟨2, ![a, 1]⟩) (h0 : (⟨2, ![a, 1]⟩ : Shape).Reduces [0] ⟨1, ![1]⟩)
    (hc' : (⟨1, ![1]⟩ : Shape).ShapeCasts ⟨2, ![1, 1]⟩) (hφ : FKind.Formats .f32)
    (hacc : (0x00000000#32 : BitVec 32) = 0x00000000#32) :
    shapeCast ⟨2, ![1, 1]⟩ (multiReduction .add [0] ⟨1, ![1]⟩ (shapeCast ⟨2, ![a, 1]⟩
        (multiReduction .add [1] ⟨1, ![a]⟩ (multiReduction .add [2] ⟨2, ![a, b]⟩
          (multiReduction .add [3] ⟨3, ![a, b, c]⟩ v 0x00000000#32 h3 hφ hacc) 0x00000000#32 h2 hφ hacc)
          0x00000000#32 h1 hφ hacc) hc) 0x00000000#32 h0 hφ hacc) hc' (ix2 (0 : Fin 1) (0 : Fin 1))
      = ∑ i : Fin a, ∑ j : Fin b, ∑ k : Fin c, ∑ l : Fin d, v (ix4 i j k l) := by
  rw [shapeCast_a_a1_apply', multiReduction_add_col_apply]
  refine Finset.sum_congr rfl fun i _ => ?_
  rw [shapeCast_a_a1_apply', multiReduction_add_last2_apply]
  refine Finset.sum_congr rfl fun j _ => ?_
  rw [multiReduction_add_last3_apply]
  refine Finset.sum_congr rfl fun k _ => ?_
  rw [multiReduction_add_last4_apply]

/-! ## The host's pointwise operations at an index (definitional) -/

section Pointwise
variable {F : FTy → Type} [FloatOps F] {s : Shape} {φ : FTy}

theorem hostDivf_apply (x y : FVec F s φ) (i : s.Idx) : Host.divf x y i = FloatOps.hostDivf (x i) (y i) := rfl
theorem hostSqrt_apply (x : FVec F s φ) (i : s.Idx) : Host.sqrt x i = FloatOps.hostUnary .sqrt (x i) := rfl
theorem sqrt_apply (x : FVec F s φ) (i : s.Idx) : sqrt x i = FloatOps.sqrt (x i) := rfl
theorem uitofp_apply {w : Nat} (x : IVec s w) (i : s.Idx) : (uitofp φ x : FVec F s φ) i = FloatOps.uitofp φ (x i) := rfl

end Pointwise

end Idealize.ShloMosaic.ValueIdx
-- ==== Proof.Spec.lean ====
/-
  The per-cell mathematics of the loss, over the extended reals.

  One grid cell carries thirty predicted numbers `p` (two boxes (x, y, w, h, confidence) and twenty class scores), a target
  box `tb` (x, y, w, h), twenty target class scores `tc` and an object indicator `o`.  A box (x, y, w, h) has corners
  x/14 ∓ w/2, y/14 ∓ h/2; the overlap ratio of a predicted box with the target box is
  inter / (area_pred + area_target − inter), inter the product of the clipped overlaps along the two axes.  The
  responsible box is the first one when its ratio is at least the second's.  The summands of the five losses are the
  functions below; both programs compute exactly these, cell by cell, and differ only in how they group the sums.
-/
import Idealize.ShloMosaic.PureOps.Ideal

noncomputable section

namespace Yolo

open Idealize.ShloMosaic

/-- The numbers of a cell are extended reals. -/
abbrev R : Type := Ideal .f32

/-- 1, 14, 1/2 and 0 as the programs spell them. -/
abbrev one : R := Ideal.ofBits .f32 0x3F800000#32
abbrev fourteen : R := Ideal.ofBits .f32 0x41600000#32
abbrev half : R := Ideal.ofBits .f32 0x3F000000#32
abbrev zero : R := Ideal.ofBits .f32 0x00000000#32

/-- The lower corner x/14 − w/2 of a box along one axis. -/
def lo (x w : R) : R := Ideal.div x fourteen - half * w
/-- The upper corner x/14 + w/2. -/
def hi (x w : R) : R := Ideal.div x fourteen + half * w

/-- The clipped overlap of a predicted and the target interval along one axis. -/
def overlap (px pw tx tw : R) : R := max (min (hi px pw) (hi tx tw) - max (lo px pw) (lo tx tw)) zero

/-- The overlap ratio of the predicted box (px, py, pw, ph) with the target box (tx, ty, tw, th). -/
def iou (px py pw ph tx ty tw th : R) : R :=
  Ideal.div (overlap px pw tx tw * overlap py ph ty th)
    ((hi px pw - lo px pw) * (hi py ph - lo py ph) + (hi tx tw - lo tx tw) * (hi ty th - lo ty th)
      - overlap px pw tx tw * overlap py ph ty th)

variable (p : Fin 30 → R) (tb : Fin 4 → R) (tc : Fin 20 → R) (o : R)

/-- The first predicted box against the target. -/
def iou1 : R := iou (p 0) (p 1) (p 2) (p 3) (tb 0) (tb 1) (tb 2) (tb 3)
/-- The second predicted box against the target. -/
def iou2 : R := iou (p 5) (p 6) (p 7) (p 8) (tb 0) (tb 1) (tb 2) (tb 3)
/-- Whether the first box is responsible (its ratio is at least the second's). -/
def take : BitVec 1 := FloatOps.cmpf (F := Ideal) .oge (iou1 p tb) (iou2 p tb)
/-- Entry `k` of the responsible box. -/
def best (k : Fin 5) : R :=
  Scalar.select (take p tb) (p ⟨0 + k.val, by omega⟩) (p ⟨5 + k.val, by omega⟩)
/-- The ratio of the responsible box. -/
def bestIou : R := Scalar.select (take p tb) (iou1 p tb) (iou2 p tb)

/-- The coordinate-regression summand of a cell. -/
def regCell : R :=
  o * ((best p tb 0 - tb 0) * (best p tb 0 - tb 0) + (best p tb 1 - tb 1) * (best p tb 1 - tb 1)
    + (Ideal.sqrt (best p tb 2) - Ideal.sqrt (tb 2)) * (Ideal.sqrt (best p tb 2) - Ideal.sqrt (tb 2))
    + (Ideal.sqrt (best p tb 3) - Ideal.sqrt (tb 3)) * (Ideal.sqrt (best p tb 3) - Ideal.sqrt (tb 3)))

/-- The confidence summand of a cell. -/
def confCell : R := o * ((best p tb 4 - bestIou p tb) * (best p tb 4 - bestIou p tb))

/-- The class summand of a cell at class `c`. -/
def clsTerm (c : Fin 20) : R :=
  o * ((p ⟨10 + c.val, by omega⟩ - tc c) * (p ⟨10 + c.val, by omega⟩ - tc c))

/-- The no-object summand of the first box at entry `c`. -/
def noTerm1 (c : Fin 5) : R := (one - o) * (p ⟨0 + c.val, by omega⟩ * p ⟨0 + c.val, by omega⟩)
/-- The no-object summand of the second box at entry `c`. -/
def noTerm2 (c : Fin 5) : R := (one - o) * (p ⟨5 + c.val, by omega⟩ * p ⟨5 + c.val, by omega⟩)

end Yolo

end
-- ==== Proof.KerCells.lean ====
/-
  The kernel's body, cell by cell.  One grid point loads a block of 32 images: predicted numbers x0 [32,14,14,30], target
  boxes x1 [32,14,14,4], target class scores x2 [32,14,14,20] and the object indicator x3 [32,14,14].  Its arithmetic is
  named here value by value; read at a cell (b, i, j) each value is the per-cell function of that cell's numbers, and
  each partial sum the body adds to an accumulator is the sum over the block's cells (and channels) of the summand.
-/
import proofs.«169991_j1297080123428_2_alg».proof.Proof.Gen.KernelIdeal.Skeleton
import proofs.«169991_j1297080123428_2_alg».proof.Proof.LibLastAxis
import proofs.«169991_j1297080123428_2_alg».proof.Proof.Spec

noncomputable section

namespace Cert.KernelIdeal.Cells

open Cert.KernelIdeal Cert.KernelIdeal.Gen Idealize.ShloMosaic Idealize.ShloMosaic.ValueIdx

/-- The thirty predicted numbers of cell (b, i, j) of the block. -/
abbrev cellP (x0 : Vec Ideal S32x14x14x30 .f32) (b : Fin 32) (i j : Fin 14) : Fin 30 → Yolo.R := fun c => x0 (ix4 b i j c)
/-- Its target box. -/
abbrev cellB (x1 : Vec Ideal S32x14x14x4 .f32) (b : Fin 32) (i j : Fin 14) : Fin 4 → Yolo.R := fun c => x1 (ix4 b i j c)
/-- Its target class scores. -/
abbrev cellC (x2 : Vec Ideal S32x14x14x20 .f32) (b : Fin 32) (i j : Fin 14) : Fin 20 → Yolo.R := fun c => x2 (ix4 b i j c)
/-- Its object indicator (already a number when the kernel loads it). -/
abbrev cellO (x3 : Vec Ideal S32x14x14 .f32) (b : Fin 32) (i j : Fin 14) : Yolo.R := x3 (ix3 b i j)

/-! ## The body's values, named -/

/-- The object indicator, one minus it, and the two predicted boxes. -/
def obj (x3 : Vec Ideal S32x14x14 .f32) : FVec Ideal S32x14x14 .f32 := k0_pay8 x3
def noobj (x3 : Vec Ideal S32x14x14 .f32) : FVec Ideal S32x14x14 .f32 := k0_pay9 x3
def box1 (x0 : Vec Ideal S32x14x14x30 .f32) : FVec Ideal S32x14x14x5 .f32 := k0_pay10 x0
def box2 (x0 : Vec Ideal S32x14x14x30 .f32) : FVec Ideal S32x14x14x5 .f32 := k0_pay11 x0
/-- The target box's corners. -/
def tx1 (x1 : Vec Ideal S32x14x14x4 .f32) : FVec Ideal S32x14x14 .f32 := k0_pay19 x1
def ty1 (x1 : Vec Ideal S32x14x14x4 .f32) : FVec Ideal S32x14x14 .f32 := k0_pay20 x1
def tx2 (x1 : Vec Ideal S32x14x14x4 .f32) : FVec Ideal S32x14x14 .f32 := k0_pay21 x1
def ty2 (x1 : Vec Ideal S32x14x14x4 .f32) : FVec Ideal S32x14x14 .f32 := k0_pay22 x1
/-- The first predicted box's entries. -/
def p1x (x0 : Vec Ideal S32x14x14x30 .f32) : FVec Ideal S32x14x14 .f32 := k0_pay23 (box1 x0)
def p1y (x0 : Vec Ideal S32x14x14x30 .f32) : FVec Ideal S32x14x14 .f32 := k0_pay24 (box1 x0)
def p1w (x0 : Vec Ideal S32x14x14x30 .f32) : FVec Ideal S32x14x14 .f32 := k0_pay25 (box1 x0)
def p1h (x0 : Vec Ideal S32x14x14x30 .f32) : FVec Ideal S32x14x14x1 .f32 := k0_pay26 (box1 x0)
/-- Its overlap ratio with the target. -/
def ratio1 (x0 : Vec Ideal S32x14x14x30 .f32) (x1 : Vec Ideal S32x14x14x4 .f32) : FVec Ideal S32x14x14 .f32 :=
  k0_pay27 (tx1 x1) (ty1 x1) (tx2 x1) (ty2 x1) (p1x x0) (p1y x0) (p1w x0) (p1h x0)
/-- The second predicted box's entries. -/
def p2x (x0 : Vec Ideal S32x14x14x30 .f32) : FVec Ideal S32x14x14 .f32 := k0_pay28 (box2 x0)
def p2y (x0 : Vec Ideal S32x14x14x30 .f32) : FVec Ideal S32x14x14 .f32 := k0_pay29 (box2 x0)
def p2w (x0 : Vec Ideal S32x14x14x30 .f32) : FVec Ideal S32x14x14 .f32 := k0_pay30 (box2 x0)
def p2h (x0 : Vec Ideal S32x14x14x30 .f32) : FVec Ideal S32x14x14 .f32 := k0_pay31 (box2 x0)
/-- Fourteen, as the body carries it from one part to the next. -/
def c14 : Ideal .f32 := Scalar.ofBits .f32 0x41600000#32
/-- The second box's overlap ratio. -/
def ratio2 (x0 : Vec Ideal S32x14x14x30 .f32) (x1 : Vec Ideal S32x14x14x4 .f32) : FVec Ideal S32x14x14 .f32 := k0_pay32 (tx1 x1) (ty1 x1) (tx2 x1) (ty2 x1) (p2x x0) (p2y x0) (p2w x0) (p2h x0) c14
/-- Whether the first box is responsible. -/
def first (x0 : Vec Ideal S32x14x14x30 .f32) (x1 : Vec Ideal S32x14x14x4 .f32) : IVec S32x14x14 1 := k0_pay33 (tx1 x1) (ty1 x1) (tx2 x1) (ty2 x1) (ratio1 x0 x1) (p2x x0) (p2y x0) (p2w x0) (p2h x0) c14
/-- The responsible box's x and y. -/
def bestX (x0 : Vec Ideal S32x14x14x30 .f32) (x1 : Vec Ideal S32x14x14x4 .f32) : FVec Ideal S32x14x14 .f32 :=
  k0_pay34 (box1 x0) (box2 x0) (tx1 x1) (ty1 x1) (tx2 x1) (ty2 x1) (ratio1 x0 x1) (p2x x0) (p2y x0) (p2w x0) (p2h x0) c14
def bestY (x0 : Vec Ideal S32x14x14x30 .f32) (x1 : Vec Ideal S32x14x14x4 .f32) : FVec Ideal S32x14x14 .f32 :=
  k0_pay35 (box1 x0) (box2 x0) (tx1 x1) (ty1 x1) (tx2 x1) (ty2 x1) (ratio1 x0 x1) (p2x x0) (p2y x0) (p2w x0) (p2h x0) c14
/-- The block's partial sums. -/
def regPart (x0 : Vec Ideal S32x14x14x30 .f32) (x1 : Vec Ideal S32x14x14x4 .f32) (x3 : Vec Ideal S32x14x14 .f32) : FVec Ideal S1x1 .f32 :=
  k0_pay36 x1 (obj x3) (box1 x0) (box2 x0) (first x0 x1) (bestX x0 x1) (bestY x0 x1)
def confPart (x0 : Vec Ideal S32x14x14x30 .f32) (x1 : Vec Ideal S32x14x14x4 .f32) (x3 : Vec Ideal S32x14x14 .f32) : FVec Ideal S1x1 .f32 :=
  k0_pay37 (obj x3) (box1 x0) (box2 x0) (ratio1 x0 x1) (ratio2 x0 x1) (first x0 x1)
def clsPart (x0 : Vec Ideal S32x14x14x30 .f32) (x2 : Vec Ideal S32x14x14x20 .f32) (x3 : Vec Ideal S32x14x14 .f32) : FVec Ideal S1x1 .f32 := k0_pay12 x0 x2 x3
def noPart (x0 : Vec Ideal S32x14x14x30 .f32) (x3 : Vec Ideal S32x14x14 .f32) : FVec Ideal S1x1 .f32 := k0_pay14 (noobj x3) (box2 x0) (k0_pay13 x0 x3)
def nnobjPart (x3 : Vec Ideal S32x14x14 .f32) : FVec Ideal S1x1 .f32 := k0_pay38 (noobj x3)

/-! ## Read at a cell -/

theorem obj_apply (x3 : Vec Ideal S32x14x14 .f32) (b : Fin 32) (i j : Fin 14) : obj x3 (ix3 b i j) = cellO x3 b i j := by
  simp only [obj, k0_pay8, shapeCast_self]

theorem noobj_apply (x3 : Vec Ideal S32x14x14 .f32) (b : Fin 32) (i j : Fin 14) : noobj x3 (ix3 b i j) = Yolo.one - cellO x3 b i j := by
  simp only [noobj, k0_pay9, k0_pay8, shapeCast_self, mulf_apply, addf_apply, subf_apply, maximumf_apply, minimumf_apply, divf_apply, hostDivf_apply, hostSqrt_apply, sqrt_apply, cmpf_apply, select_apply, uitofp_apply, constant_apply, broadcast_apply, Ideal.hostDivf_def, Ideal.hostUnary_sqrt_def, Ideal.sqrt_def]
  rfl

theorem ratio1_apply (x0 : Vec Ideal S32x14x14x30 .f32) (x1 : Vec Ideal S32x14x14x4 .f32) (b : Fin 32) (i j : Fin 14) :
    ratio1 x0 x1 (ix3 b i j) = Yolo.iou1 (cellP x0 b i j) (cellB x1 b i j) := by
  simp only [ratio1, tx1, ty1, tx2, ty2, p1x, p1y, p1w, p1h, box1, k0_pay27, k0_pay19, k0_pay20, k0_pay21, k0_pay22,
    k0_pay15, k0_pay16, k0_pay17, k0_pay18, k0_pay23, k0_pay24, k0_pay25, k0_pay26, k0_pay10, mulf_apply, addf_apply, subf_apply, maximumf_apply, minimumf_apply, divf_apply, hostDivf_apply, hostSqrt_apply, sqrt_apply, cmpf_apply, select_apply, uitofp_apply, constant_apply, broadcast_apply, Ideal.hostDivf_def, Ideal.hostUnary_sqrt_def, Ideal.sqrt_def, slice4_axis3_apply, shapeCast_abc1_abc_apply, shapeCast_abc_abc1_apply, broadcastTo_abc1_abcd_apply, broadcastInDim_abc_abc1_apply, broadcastInDim_abc1_abcd_apply, broadcastInDim_scalar_apply, concatenate4_last_apply, Yolo.iou1, Yolo.iou2, Yolo.iou, Yolo.overlap, Yolo.lo, Yolo.hi, Yolo.take, Yolo.best, Yolo.bestIou, Yolo.regCell, Yolo.confCell, Yolo.clsTerm, Yolo.noTerm1, Yolo.noTerm2]
  rfl

theorem ratio2_apply (x0 : Vec Ideal S32x14x14x30 .f32) (x1 : Vec Ideal S32x14x14x4 .f32) (b : Fin 32) (i j : Fin 14) :
    ratio2 x0 x1 (ix3 b i j) = Yolo.iou2 (cellP x0 b i j) (cellB x1 b i j) := by
  simp only [ratio2, c14, tx1, ty1, tx2, ty2, p2x, p2y, p2w, p2h, box2, k0_pay32, k0_pay19, k0_pay20, k0_pay21, k0_pay22,
    k0_pay15, k0_pay16, k0_pay17, k0_pay18, k0_pay28, k0_pay29, k0_pay30, k0_pay31, k0_pay11, mulf_apply, addf_apply, subf_apply, maximumf_apply, minimumf_apply, divf_apply, hostDivf_apply, hostSqrt_apply, sqrt_apply, cmpf_apply, select_apply, uitofp_apply, constant_apply, broadcast_apply, Ideal.hostDivf_def, Ideal.hostUnary_sqrt_def, Ideal.sqrt_def, slice4_axis3_apply, shapeCast_abc1_abc_apply, shapeCast_abc_abc1_apply, broadcastTo_abc1_abcd_apply, broadcastInDim_abc_abc1_apply, broadcastInDim_abc1_abcd_apply, broadcastInDim_scalar_apply, concatenate4_last_apply, Yolo.iou1, Yolo.iou2, Yolo.iou, Yolo.overlap, Yolo.lo, Yolo.hi, Yolo.take, Yolo.best, Yolo.bestIou, Yolo.regCell, Yolo.confCell, Yolo.clsTerm, Yolo.noTerm1, Yolo.noTerm2]
  rfl

theorem first_apply (x0 : Vec Ideal S32x14x14x30 .f32) (x1 : Vec Ideal S32x14x14x4 .f32) (b : Fin 32) (i j : Fin 14) :
    first x0 x1 (ix3 b i j) = Yolo.take (cellP x0 b i j) (cellB x1 b i j) := by
  have h2 := ratio2_apply x0 x1 b i j
  unfold ratio2 at h2
  simp only [first, k0_pay33, cmpf_apply, ratio1_apply, h2, Yolo.take]

theorem bestX_apply (x0 : Vec Ideal S32x14x14x30 .f32) (x1 : Vec Ideal S32x14x14x4 .f32) (b : Fin 32) (i j : Fin 14) :
    bestX x0 x1 (ix3 b i j) = Yolo.best (cellP x0 b i j) (cellB x1 b i j) 0 := by
  have h := first_apply x0 x1 b i j
  unfold first at h
  simp only [bestX, k0_pay34, select_apply, h, box1, box2, k0_pay10, k0_pay11, slice4_axis3_apply, shapeCast_abc1_abc_apply, shapeCast_abc_abc1_apply, broadcastTo_abc1_abcd_apply, broadcastInDim_abc_abc1_apply, broadcastInDim_abc1_abcd_apply, broadcastInDim_scalar_apply, concatenate4_last_apply, Yolo.best]
  rfl

theorem bestY_apply (x0 : Vec Ideal S32x14x14x30 .f32) (x1 : Vec Ideal S32x14x14x4 .f32) (b : Fin 32) (i j : Fin 14) :
    bestY x0 x1 (ix3 b i j) = Yolo.best (cellP x0 b i j) (cellB x1 b i j) 1 := by
  have h := first_apply x0 x1 b i j
  unfold first at h
  simp only [bestY, k0_pay35, select_apply, h, box1, box2, k0_pay10, k0_pay11, slice4_axis3_apply, shapeCast_abc1_abc_apply, shapeCast_abc_abc1_apply, broadcastTo_abc1_abcd_apply, broadcastInDim_abc_abc1_apply, broadcastInDim_abc1_abcd_apply, broadcastInDim_scalar_apply, concatenate4_last_apply, Yolo.best]
  rfl

/-! ## The block's partial sums -/

/-- The regression partial sum of a block. -/
theorem regPart_apply (x0 : Vec Ideal S32x14x14x30 .f32) (x1 : Vec Ideal S32x14x14x4 .f32) (x3 : Vec Ideal S32x14x14 .f32) :
    regPart x0 x1 x3 (ix2 (0 : Fin 1) (0 : Fin 1))
      = ∑ b : Fin 32, ∑ i : Fin 14, ∑ j : Fin 14,
          Yolo.regCell (cellP x0 b i j) (cellB x1 b i j) (cellO x3 b i j) := by
  simp only [regPart, k0_pay36]
  refine (sumAll3_apply _ _ _ _ _ _ _ _).trans ?_
  refine Finset.sum_congr rfl fun b _ => Finset.sum_congr rfl fun i _ => Finset.sum_congr rfl fun j _ => ?_
  simp only [mulf_apply, addf_apply, subf_apply, maximumf_apply, minimumf_apply, divf_apply, hostDivf_apply, hostSqrt_apply, sqrt_apply, cmpf_apply, select_apply, uitofp_apply, constant_apply, broadcast_apply, Ideal.hostDivf_def, Ideal.hostUnary_sqrt_def, Ideal.sqrt_def, slice4_axis3_apply, shapeCast_abc1_abc_apply, shapeCast_abc_abc1_apply, broadcastTo_abc1_abcd_apply, broadcastInDim_abc_abc1_apply, broadcastInDim_abc1_abcd_apply, broadcastInDim_scalar_apply, concatenate4_last_apply, first_apply, bestX_apply, bestY_apply, obj_apply, box1, box2,
    k0_pay10, k0_pay11, Yolo.regCell, Yolo.best]
  rfl

/-- The confidence partial sum of a block. -/
theorem confPart_apply (x0 : Vec Ideal S32x14x14x30 .f32) (x1 : Vec Ideal S32x14x14x4 .f32) (x3 : Vec Ideal S32x14x14 .f32) :
    confPart x0 x1 x3 (ix2 (0 : Fin 1) (0 : Fin 1))
      = ∑ b : Fin 32, ∑ i : Fin 14, ∑ j : Fin 14,
          Yolo.confCell (cellP x0 b i j) (cellB x1 b i j) (cellO x3 b i j) := by
  simp only [confPart, k0_pay37]
  refine (sumAll3_apply _ _ _ _ _ _ _ _).trans ?_
  refine Finset.sum_congr rfl fun b _ => Finset.sum_congr rfl fun i _ => Finset.sum_congr rfl fun j _ => ?_
  simp only [mulf_apply, addf_apply, subf_apply, maximumf_apply, minimumf_apply, divf_apply, hostDivf_apply, hostSqrt_apply, sqrt_apply, cmpf_apply, select_apply, uitofp_apply, constant_apply, broadcast_apply, Ideal.hostDivf_def, Ideal.hostUnary_sqrt_def, Ideal.sqrt_def, slice4_axis3_apply, shapeCast_abc1_abc_apply, shapeCast_abc_abc1_apply, broadcastTo_abc1_abcd_apply, broadcastInDim_abc_abc1_apply, broadcastInDim_abc1_abcd_apply, broadcastInDim_scalar_apply, concatenate4_last_apply, first_apply, ratio1_apply, ratio2_apply, obj_apply, box1, box2,
    k0_pay10, k0_pay11, Yolo.confCell, Yolo.best, Yolo.bestIou]
  rfl

/-- The class partial sum of a block. -/
theorem clsPart_apply (x0 : Vec Ideal S32x14x14x30 .f32) (x2 : Vec Ideal S32x14x14x20 .f32) (x3 : Vec Ideal S32x14x14 .f32) :
    clsPart x0 x2 x3 (ix2 (0 : Fin 1) (0 : Fin 1))
      = ∑ b : Fin 32, ∑ i : Fin 14, ∑ j : Fin 14, ∑ c : Fin 20,
          Yolo.clsTerm (cellP x0 b i j) (cellC x2 b i j) (cellO x3 b i j) c := by
  simp only [clsPart, k0_pay12]
  refine (sumAll4_apply _ _ _ _ _ _ _ _ _).trans ?_
  refine Finset.sum_congr rfl fun b _ => Finset.sum_congr rfl fun i _ => Finset.sum_congr rfl fun j _ =>
    Finset.sum_congr rfl fun c _ => ?_
  simp only [k0_pay8, shapeCast_self, mulf_apply, addf_apply, subf_apply, maximumf_apply, minimumf_apply, divf_apply, hostDivf_apply, hostSqrt_apply, sqrt_apply, cmpf_apply, select_apply, uitofp_apply, constant_apply, broadcast_apply, Ideal.hostDivf_def, Ideal.hostUnary_sqrt_def, Ideal.sqrt_def, slice4_axis3_apply, shapeCast_abc1_abc_apply, shapeCast_abc_abc1_apply, broadcastTo_abc1_abcd_apply, broadcastInDim_abc_abc1_apply, broadcastInDim_abc1_abcd_apply, broadcastInDim_scalar_apply, concatenate4_last_apply, Yolo.clsTerm]

/-- The no-object partial sum of a block: the first box's plus the second's. -/
theorem noPart_apply (x0 : Vec Ideal S32x14x14x30 .f32) (x3 : Vec Ideal S32x14x14 .f32) :
    noPart x0 x3 (ix2 (0 : Fin 1) (0 : Fin 1))
      = (∑ b : Fin 32, ∑ i : Fin 14, ∑ j : Fin 14, ∑ c : Fin 5, Yolo.noTerm1 (cellP x0 b i j) (cellO x3 b i j) c)
        + ∑ b : Fin 32, ∑ i : Fin 14, ∑ j : Fin 14, ∑ c : Fin 5, Yolo.noTerm2 (cellP x0 b i j) (cellO x3 b i j) c := by
  simp only [noPart, k0_pay14, k0_pay13, addf_apply]
  refine congrArg₂ (· + ·) ((sumAll4_apply _ _ _ _ _ _ _ _ _).trans ?_) ((sumAll4_apply _ _ _ _ _ _ _ _ _).trans ?_)
  · refine Finset.sum_congr rfl fun b _ => Finset.sum_congr rfl fun i _ => Finset.sum_congr rfl fun j _ =>
    Finset.sum_congr rfl fun c _ => ?_
    have hn := noobj_apply x3 b i j
    unfold noobj at hn
    simp only [k0_pay10, mulf_apply, addf_apply, subf_apply, maximumf_apply, minimumf_apply, divf_apply, hostDivf_apply, hostSqrt_apply, sqrt_apply, cmpf_apply, select_apply, uitofp_apply, constant_apply, broadcast_apply, Ideal.hostDivf_def, Ideal.hostUnary_sqrt_def, Ideal.sqrt_def, slice4_axis3_apply, shapeCast_abc1_abc_apply, shapeCast_abc_abc1_apply, broadcastTo_abc1_abcd_apply, broadcastInDim_abc_abc1_apply, broadcastInDim_abc1_abcd_apply, broadcastInDim_scalar_apply, concatenate4_last_apply, hn, Yolo.noTerm1]
  · refine Finset.sum_congr rfl fun b _ => Finset.sum_congr rfl fun i _ => Finset.sum_congr rfl fun j _ =>
    Finset.sum_congr rfl fun c _ => ?_
    simp only [box2, k0_pay11, mulf_apply, addf_apply, subf_apply, maximumf_apply, minimumf_apply, divf_apply, hostDivf_apply, hostSqrt_apply, sqrt_apply, cmpf_apply, select_apply, uitofp_apply, constant_apply, broadcast_apply, Ideal.hostDivf_def, Ideal.hostUnary_sqrt_def, Ideal.sqrt_def, slice4_axis3_apply, shapeCast_abc1_abc_apply, shapeCast_abc_abc1_apply, broadcastTo_abc1_abcd_apply, broadcastInDim_abc_abc1_apply, broadcastInDim_abc1_abcd_apply, broadcastInDim_scalar_apply, concatenate4_last_apply, noobj_apply, Yolo.noTerm2]

/-- The count of no-object cells of a block. -/
theorem nnobjPart_apply (x3 : Vec Ideal S32x14x14 .f32) :
    nnobjPart x3 (ix2 (0 : Fin 1) (0 : Fin 1))
      = ∑ b : Fin 32, ∑ i : Fin 14, ∑ j : Fin 14, (Yolo.one - cellO x3 b i j) := by
  simp only [nnobjPart, k0_pay38]
  refine (sumAll3_apply _ _ _ _ _ _ _ _).trans ?_
  refine Finset.sum_congr rfl fun b _ => Finset.sum_congr rfl fun i _ => Finset.sum_congr rfl fun j _ => ?_
  exact noobj_apply x3 b i j

/-- The count of object cells of a block, as the last store's payload adds it to the running count `xo`. -/
theorem nobj_apply (x3 : Vec Ideal S32x14x14 .f32) (xo : Vec Ideal S1x1 .f32) :
    k0_pay43 (obj x3) xo (ix2 (0 : Fin 1) (0 : Fin 1))
      = xo (ix2 (0 : Fin 1) (0 : Fin 1)) + ∑ b : Fin 32, ∑ i : Fin 14, ∑ j : Fin 14, cellO x3 b i j := by
  simp only [k0_pay43, addf_apply, shapeCast_self]
  refine congrArg (xo (ix2 (0 : Fin 1) (0 : Fin 1)) + ·) ((sumAll3_apply _ _ _ _ _ _ _ _).trans ?_)
  refine Finset.sum_congr rfl fun b _ => Finset.sum_congr rfl fun i _ => Finset.sum_congr rfl fun j _ => ?_
  exact obj_apply x3 b i j

/-- The other five accumulating stores: the running value plus the block's partial sum. -/
theorem acc39_apply (v : FVec Ideal S1x1 .f32) (xo : Vec Ideal S1x1 .f32) (y : S1x1.Idx) :
    k0_pay39 v xo y = xo y + v y := by simp only [k0_pay39, shapeCast_self, addf_apply]
theorem acc40_apply (v : FVec Ideal S1x1 .f32) (xo : Vec Ideal S1x1 .f32) (y : S1x1.Idx) :
    k0_pay40 v xo y = xo y + v y := by simp only [k0_pay40, shapeCast_self, addf_apply]
theorem acc41_apply (v : FVec Ideal S1x1 .f32) (xo : Vec Ideal S1x1 .f32) (y : S1x1.Idx) :
    k0_pay41 v xo y = xo y + v y := by simp only [k0_pay41, shapeCast_self, addf_apply]
theorem acc42_apply (v : FVec Ideal S1x1 .f32) (xo : Vec Ideal S1x1 .f32) (y : S1x1.Idx) :
    k0_pay42 v xo y = xo y + v y := by simp only [k0_pay42, shapeCast_self, addf_apply]
theorem acc1_apply (v : FVec Ideal S1x1 .f32) (xo : Vec Ideal S1x1 .f32) (y : S1x1.Idx) :
    k0_pay1 v xo y = xo y + v y := by simp only [k0_pay1, shapeCast_self, addf_apply]

end Cert.KernelIdeal.Cells

end
-- ==== Proof.KerStores.lean ====
/-
  What the kernel's six accumulators hold.  The body runs once per block of 32 images; at the first block it resets
  each 1×1 output to zero, and at every block it adds that block's partial sum to it.  Read off the body's stores, case
  by case, each output after a point is the output before it plus the block's partial sum.
-/
import proofs.«169991_j1297080123428_2_alg».proof.Proof.Gen.KernelIdeal.Frame
import proofs.«169991_j1297080123428_2_alg».proof.Proof.KerCells
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Stores

open Cert.KernelIdeal Cert.KernelIdeal.Gen Cert.KernelIdeal.Cells Idealize.ShloMosaic.ValueIdx

theorem hz : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- At the first grid point output 4's buffer is reset to zero and then holds zero plus the block's partial sum. -/
theorem out_A_4 (c : Dev nD) (i : grid0.Coords) (arg1 : Memref sig .tc .vmem S32x14x14x30 .f32) (harg1 : arg1.IsWhole) (arg2 : Memref sig .tc .vmem S32x14x14x4 .f32) (harg2 : arg2.IsWhole) (arg3 : Memref sig .tc .vmem S32x14x14x20 .f32) (harg3 : arg3.IsWhole) (arg4 : Memref sig .tc .vmem S32x14x14 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i) (x0 : Vec Ideal S32x14x14x30 .f32) (x1 : Vec Ideal S32x14x14x4 .f32) (x2 : Vec Ideal S32x14x14x20 .f32) (x3 : Vec Ideal S32x14x14 .f32) :
    out0_A_4 c i arg1 harg1 arg2 harg2 arg3 harg3 arg4 harg4 arg5 harg5 arg6 harg6 arg7 harg7 arg8 harg8 arg9 harg9 arg10 harg10 hc0 x0 x1 x2 x3 = k0_pay39 (clsPart x0 x2 x3) (k0_pay2 (F := Ideal)) := by
  unfold out0_A_4
  rw [View.read_writes_eq_canon _ _ _ (cover0_A_4 c i arg1 harg1 arg2 harg2 arg3 harg3 arg4 harg4 arg5 harg5 arg6 harg6 arg7 harg7 arg8 harg8 arg9 harg9 arg10 harg10 hc0 x0 x1 x2 x3)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S32x14x14x30) hz4, View.ld_unit_zero (S := S32x14x14x4) hz4, View.ld_unit_zero (S := S32x14x14x20) hz4, View.ld_unit_zero (S := S32x14x14) hz3, View.ld_unit_zero (S := S1x1) hz]
  rfl

/-- At every later point it holds what the point before left plus the block's partial sum. -/
theorem out_B_4 (c : Dev nD) (i : grid0.Coords) (arg1 : Memref sig .tc .vmem S32x14x14x30 .f32) (harg1 : arg1.IsWhole) (arg2 : Memref sig .tc .vmem S32x14x14x4 .f32) (harg2 : arg2.IsWhole) (arg3 : Memref sig .tc .vmem S32x14x14x20 .f32) (harg3 : arg3.IsWhole) (arg4 : Memref sig .tc .vmem S32x14x14 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (x0 : Vec Ideal S32x14x14x30 .f32) (x1 : Vec Ideal S32x14x14x4 .f32) (x2 : Vec Ideal S32x14x14x20 .f32) (x3 : Vec Ideal S32x14x14 .f32) (xo4 : Vec Ideal S1x1 .f32) (xo5 : Vec Ideal S1x1 .f32) (xo6 : Vec Ideal S1x1 .f32) (xo7 : Vec Ideal S1x1 .f32) (xo8 : Vec Ideal S1x1 .f32) (xo9 : Vec Ideal S1x1 .f32) :
    out0_B_4 c i arg1 harg1 arg2 harg2 arg3 harg3 arg4 harg4 arg5 harg5 arg6 harg6 arg7 harg7 arg8 harg8 arg9 harg9 arg10 harg10 hc0 x0 x1 x2 x3 xo4 xo5 xo6 xo7 xo8 xo9 = k0_pay39 (clsPart x0 x2 x3) xo4 := by
  unfold out0_B_4
  rw [View.read_writes_eq_canon _ _ _ (cover0_B_4 c i arg1 harg1 arg2 harg2 arg3 harg3 arg4 harg4 arg5 harg5 arg6 harg6 arg7 harg7 arg8 harg8 arg9 harg9 arg10 harg10 hc0 x0 x1 x2 x3 xo4 xo5 xo6 xo7 xo8 xo9)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S32x14x14x30) hz4, View.ld_unit_zero (S := S32x14x14x4) hz4, View.ld_unit_zero (S := S32x14x14x20) hz4, View.ld_unit_zero (S := S32x14x14) hz3, View.ld_unit_zero (S := S1x1) hz]
  rfl

/-- At the first grid point output 5's buffer is reset to zero and then holds zero plus the block's partial sum. -/
theorem out_A_5 (c : Dev nD) (i : grid0.Coords) (arg1 : Memref sig .tc .vmem S32x14x14x30 .f32) (harg1 : arg1.IsWhole) (arg2 : Memref sig .tc .vmem S32x14x14x4 .f32) (harg2 : arg2.IsWhole) (arg3 : Memref sig .tc .vmem S32x14x14x20 .f32) (harg3 : arg3.IsWhole) (arg4 : Memref sig .tc .vmem S32x14x14 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i) (x0 : Vec Ideal S32x14x14x30 .f32) (x1 : Vec Ideal S32x14x14x4 .f32) (x2 : Vec Ideal S32x14x14x20 .f32) (x3 : Vec Ideal S32x14x14 .f32) :
    out0_A_5 c i arg1 harg1 arg2 harg2 arg3 harg3 arg4 harg4 arg5 harg5 arg6 harg6 arg7 harg7 arg8 harg8 arg9 harg9 arg10 harg10 hc0 x0 x1 x2 x3 = k0_pay40 (noPart x0 x3) (k0_pay3 (F := Ideal)) := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 hc0 x0 x1 x2 x3)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S32x14x14x30) hz4, View.ld_unit_zero (S := S32x14x14x4) hz4, View.ld_unit_zero (S := S32x14x14x20) hz4, View.ld_unit_zero (S := S32x14x14) hz3, View.ld_unit_zero (S := S1x1) hz]
  rfl

/-- At every later point it holds what the point before left plus the block's partial sum. -/
theorem out_B_5 (c : Dev nD) (i : grid0.Coords) (arg1 : Memref sig .tc .vmem S32x14x14x30 .f32) (harg1 : arg1.IsWhole) (arg2 : Memref sig .tc .vmem S32x14x14x4 .f32) (harg2 : arg2.IsWhole) (arg3 : Memref sig .tc .vmem S32x14x14x20 .f32) (harg3 : arg3.IsWhole) (arg4 : Memref sig .tc .vmem S32x14x14 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (x0 : Vec Ideal S32x14x14x30 .f32) (x1 : Vec Ideal S32x14x14x4 .f32) (x2 : Vec Ideal S32x14x14x20 .f32) (x3 : Vec Ideal S32x14x14 .f32) (xo4 : Vec Ideal S1x1 .f32) (xo5 : Vec Ideal S1x1 .f32) (xo6 : Vec Ideal S1x1 .f32) (xo7 : Vec Ideal S1x1 .f32) (xo8 : Vec Ideal S1x1 .f32) (xo9 : Vec Ideal S1x1 .f32) :
    out0_B_5 c i arg1 harg1 arg2 harg2 arg3 harg3 arg4 harg4 arg5 harg5 arg6 harg6 arg7 harg7 arg8 harg8 arg9 harg9 arg10 harg10 hc0 x0 x1 x2 x3 xo4 xo5 xo6 xo7 xo8 xo9 = k0_pay40 (noPart x0 x3) xo5 := by
  unfold out0_B_5
  rw [View.read_writes_eq_canon _ _ _ (cover0_B_5 c i arg1 harg1 arg2 harg2 arg3 harg3 arg4 harg4 arg5 harg5 arg6 harg6 arg7 harg7 arg8 harg8 arg9 harg9 arg10 harg10 hc0 x0 x1 x2 x3 xo4 xo5 xo6 xo7 xo8 xo9)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S32x14x14x30) hz4, View.ld_unit_zero (S := S32x14x14x4) hz4, View.ld_unit_zero (S := S32x14x14x20) hz4, View.ld_unit_zero (S := S32x14x14) hz3, View.ld_unit_zero (S := S1x1) hz]
  rfl

/-- At the first grid point output 6's buffer is reset to zero and then holds zero plus the block's partial sum. -/
theorem out_A_6 (c : Dev nD) (i : grid0.Coords) (arg1 : Memref sig .tc .vmem S32x14x14x30 .f32) (harg1 : arg1.IsWhole) (arg2 : Memref sig .tc .vmem S32x14x14x4 .f32) (harg2 : arg2.IsWhole) (arg3 : Memref sig .tc .vmem S32x14x14x20 .f32) (harg3 : arg3.IsWhole) (arg4 : Memref sig .tc .vmem S32x14x14 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i) (x0 : Vec Ideal S32x14x14x30 .f32) (x1 : Vec Ideal S32x14x14x4 .f32) (x2 : Vec Ideal S32x14x14x20 .f32) (x3 : Vec Ideal S32x14x14 .f32) :
    out0_A_6 c i arg1 harg1 arg2 harg2 arg3 harg3 arg4 harg4 arg5 harg5 arg6 harg6 arg7 harg7 arg8 harg8 arg9 harg9 arg10 harg10 hc0 x0 x1 x2 x3 = k0_pay41 (regPart x0 x1 x3) (k0_pay4 (F := Ideal)) := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 hc0 x0 x1 x2 x3)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S32x14x14x30) hz4, View.ld_unit_zero (S := S32x14x14x4) hz4, View.ld_unit_zero (S := S32x14x14x20) hz4, View.ld_unit_zero (S := S32x14x14) hz3, View.ld_unit_zero (S := S1x1) hz]
  rfl

/-- At every later point it holds what the point before left plus the block's partial sum. -/
theorem out_B_6 (c : Dev nD) (i : grid0.Coords) (arg1 : Memref sig .tc .vmem S32x14x14x30 .f32) (harg1 : arg1.IsWhole) (arg2 : Memref sig .tc .vmem S32x14x14x4 .f32) (harg2 : arg2.IsWhole) (arg3 : Memref sig .tc .vmem S32x14x14x20 .f32) (harg3 : arg3.IsWhole) (arg4 : Memref sig .tc .vmem S32x14x14 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (x0 : Vec Ideal S32x14x14x30 .f32) (x1 : Vec Ideal S32x14x14x4 .f32) (x2 : Vec Ideal S32x14x14x20 .f32) (x3 : Vec Ideal S32x14x14 .f32) (xo4 : Vec Ideal S1x1 .f32) (xo5 : Vec Ideal S1x1 .f32) (xo6 : Vec Ideal S1x1 .f32) (xo7 : Vec Ideal S1x1 .f32) (xo8 : Vec Ideal S1x1 .f32) (xo9 : Vec Ideal S1x1 .f32) :
    out0_B_6 c i arg1 harg1 arg2 harg2 arg3 harg3 arg4 harg4 arg5 harg5 arg6 harg6 arg7 harg7 arg8 harg8 arg9 harg9 arg10 harg10 hc0 x0 x1 x2 x3 xo4 xo5 xo6 xo7 xo8 xo9 = k0_pay41 (regPart x0 x1 x3) xo6 := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 hc0 x0 x1 x2 x3 xo4 xo5 xo6 xo7 xo8 xo9)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S32x14x14x30) hz4, View.ld_unit_zero (S := S32x14x14x4) hz4, View.ld_unit_zero (S := S32x14x14x20) hz4, View.ld_unit_zero (S := S32x14x14) hz3, View.ld_unit_zero (S := S1x1) hz]
  rfl

/-- At the first grid point output 7's buffer is reset to zero and then holds zero plus the block's partial sum. -/
theorem out_A_7 (c : Dev nD) (i : grid0.Coords) (arg1 : Memref sig .tc .vmem S32x14x14x30 .f32) (harg1 : arg1.IsWhole) (arg2 : Memref sig .tc .vmem S32x14x14x4 .f32) (harg2 : arg2.IsWhole) (arg3 : Memref sig .tc .vmem S32x14x14x20 .f32) (harg3 : arg3.IsWhole) (arg4 : Memref sig .tc .vmem S32x14x14 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i) (x0 : Vec Ideal S32x14x14x30 .f32) (x1 : Vec Ideal S32x14x14x4 .f32) (x2 : Vec Ideal S32x14x14x20 .f32) (x3 : Vec Ideal S32x14x14 .f32) :
    out0_A_7 c i arg1 harg1 arg2 harg2 arg3 harg3 arg4 harg4 arg5 harg5 arg6 harg6 arg7 harg7 arg8 harg8 arg9 harg9 arg10 harg10 hc0 x0 x1 x2 x3 = k0_pay42 (confPart x0 x1 x3) (k0_pay5 (F := Ideal)) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 hc0 x0 x1 x2 x3)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S32x14x14x30) hz4, View.ld_unit_zero (S := S32x14x14x4) hz4, View.ld_unit_zero (S := S32x14x14x20) hz4, View.ld_unit_zero (S := S32x14x14) hz3, View.ld_unit_zero (S := S1x1) hz]
  rfl

/-- At every later point it holds what the point before left plus the block's partial sum. -/
theorem out_B_7 (c : Dev nD) (i : grid0.Coords) (arg1 : Memref sig .tc .vmem S32x14x14x30 .f32) (harg1 : arg1.IsWhole) (arg2 : Memref sig .tc .vmem S32x14x14x4 .f32) (harg2 : arg2.IsWhole) (arg3 : Memref sig .tc .vmem S32x14x14x20 .f32) (harg3 : arg3.IsWhole) (arg4 : Memref sig .tc .vmem S32x14x14 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (x0 : Vec Ideal S32x14x14x30 .f32) (x1 : Vec Ideal S32x14x14x4 .f32) (x2 : Vec Ideal S32x14x14x20 .f32) (x3 : Vec Ideal S32x14x14 .f32) (xo4 : Vec Ideal S1x1 .f32) (xo5 : Vec Ideal S1x1 .f32) (xo6 : Vec Ideal S1x1 .f32) (xo7 : Vec Ideal S1x1 .f32) (xo8 : Vec Ideal S1x1 .f32) (xo9 : Vec Ideal S1x1 .f32) :
    out0_B_7 c i arg1 harg1 arg2 harg2 arg3 harg3 arg4 harg4 arg5 harg5 arg6 harg6 arg7 harg7 arg8 harg8 arg9 harg9 arg10 harg10 hc0 x0 x1 x2 x3 xo4 xo5 xo6 xo7 xo8 xo9 = k0_pay42 (confPart x0 x1 x3) xo7 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 hc0 x0 x1 x2 x3 xo4 xo5 xo6 xo7 xo8 xo9)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S32x14x14x30) hz4, View.ld_unit_zero (S := S32x14x14x4) hz4, View.ld_unit_zero (S := S32x14x14x20) hz4, View.ld_unit_zero (S := S32x14x14) hz3, View.ld_unit_zero (S := S1x1) hz]
  rfl

/-- At the first grid point output 8's buffer is reset to zero and then holds zero plus the block's partial sum. -/
theorem out_A_8 (c : Dev nD) (i : grid0.Coords) (arg1 : Memref sig .tc .vmem S32x14x14x30 .f32) (harg1 : arg1.IsWhole) (arg2 : Memref sig .tc .vmem S32x14x14x4 .f32) (harg2 : arg2.IsWhole) (arg3 : Memref sig .tc .vmem S32x14x14x20 .f32) (harg3 : arg3.IsWhole) (arg4 : Memref sig .tc .vmem S32x14x14 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i) (x0 : Vec Ideal S32x14x14x30 .f32) (x1 : Vec Ideal S32x14x14x4 .f32) (x2 : Vec Ideal S32x14x14x20 .f32) (x3 : Vec Ideal S32x14x14 .f32) :
    out0_A_8 c i arg1 harg1 arg2 harg2 arg3 harg3 arg4 harg4 arg5 harg5 arg6 harg6 arg7 harg7 arg8 harg8 arg9 harg9 arg10 harg10 hc0 x0 x1 x2 x3 = k0_pay43 (obj x3) (k0_pay6 (F := Ideal)) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 hc0 x0 x1 x2 x3)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S32x14x14x30) hz4, View.ld_unit_zero (S := S32x14x14x4) hz4, View.ld_unit_zero (S := S32x14x14x20) hz4, View.ld_unit_zero (S := S32x14x14) hz3, View.ld_unit_zero (S := S1x1) hz]
  rfl

/-- At every later point it holds what the point before left plus the block's partial sum. -/
theorem out_B_8 (c : Dev nD) (i : grid0.Coords) (arg1 : Memref sig .tc .vmem S32x14x14x30 .f32) (harg1 : arg1.IsWhole) (arg2 : Memref sig .tc .vmem S32x14x14x4 .f32) (harg2 : arg2.IsWhole) (arg3 : Memref sig .tc .vmem S32x14x14x20 .f32) (harg3 : arg3.IsWhole) (arg4 : Memref sig .tc .vmem S32x14x14 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (x0 : Vec Ideal S32x14x14x30 .f32) (x1 : Vec Ideal S32x14x14x4 .f32) (x2 : Vec Ideal S32x14x14x20 .f32) (x3 : Vec Ideal S32x14x14 .f32) (xo4 : Vec Ideal S1x1 .f32) (xo5 : Vec Ideal S1x1 .f32) (xo6 : Vec Ideal S1x1 .f32) (xo7 : Vec Ideal S1x1 .f32) (xo8 : Vec Ideal S1x1 .f32) (xo9 : Vec Ideal S1x1 .f32) :
    out0_B_8 c i arg1 harg1 arg2 harg2 arg3 harg3 arg4 harg4 arg5 harg5 arg6 harg6 arg7 harg7 arg8 harg8 arg9 harg9 arg10 harg10 hc0 x0 x1 x2 x3 xo4 xo5 xo6 xo7 xo8 xo9 = k0_pay43 (obj x3) xo8 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 hc0 x0 x1 x2 x3 xo4 xo5 xo6 xo7 xo8 xo9)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S32x14x14x30) hz4, View.ld_unit_zero (S := S32x14x14x4) hz4, View.ld_unit_zero (S := S32x14x14x20) hz4, View.ld_unit_zero (S := S32x14x14) hz3, View.ld_unit_zero (S := S1x1) hz]
  rfl

/-- At the first grid point output 9's buffer is reset to zero and then holds zero plus the block's partial sum. -/
theorem out_A_9 (c : Dev nD) (i : grid0.Coords) (arg1 : Memref sig .tc .vmem S32x14x14x30 .f32) (harg1 : arg1.IsWhole) (arg2 : Memref sig .tc .vmem S32x14x14x4 .f32) (harg2 : arg2.IsWhole) (arg3 : Memref sig .tc .vmem S32x14x14x20 .f32) (harg3 : arg3.IsWhole) (arg4 : Memref sig .tc .vmem S32x14x14 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : cond0_0 i) (x0 : Vec Ideal S32x14x14x30 .f32) (x1 : Vec Ideal S32x14x14x4 .f32) (x2 : Vec Ideal S32x14x14x20 .f32) (x3 : Vec Ideal S32x14x14 .f32) :
    out0_A_9 c i arg1 harg1 arg2 harg2 arg3 harg3 arg4 harg4 arg5 harg5 arg6 harg6 arg7 harg7 arg8 harg8 arg9 harg9 arg10 harg10 hc0 x0 x1 x2 x3 = k0_pay1 (nnobjPart x3) (k0_pay7 (F := Ideal)) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 hc0 x0 x1 x2 x3)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S32x14x14x30) hz4, View.ld_unit_zero (S := S32x14x14x4) hz4, View.ld_unit_zero (S := S32x14x14x20) hz4, View.ld_unit_zero (S := S32x14x14) hz3, View.ld_unit_zero (S := S1x1) hz]
  rfl

/-- At every later point it holds what the point before left plus the block's partial sum. -/
theorem out_B_9 (c : Dev nD) (i : grid0.Coords) (arg1 : Memref sig .tc .vmem S32x14x14x30 .f32) (harg1 : arg1.IsWhole) (arg2 : Memref sig .tc .vmem S32x14x14x4 .f32) (harg2 : arg2.IsWhole) (arg3 : Memref sig .tc .vmem S32x14x14x20 .f32) (harg3 : arg3.IsWhole) (arg4 : Memref sig .tc .vmem S32x14x14 .f32) (harg4 : arg4.IsWhole) (arg5 : Memref sig .tc .vmem S1x1 .f32) (harg5 : arg5.IsWhole) (arg6 : Memref sig .tc .vmem S1x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (hc0 : ¬cond0_0 i) (x0 : Vec Ideal S32x14x14x30 .f32) (x1 : Vec Ideal S32x14x14x4 .f32) (x2 : Vec Ideal S32x14x14x20 .f32) (x3 : Vec Ideal S32x14x14 .f32) (xo4 : Vec Ideal S1x1 .f32) (xo5 : Vec Ideal S1x1 .f32) (xo6 : Vec Ideal S1x1 .f32) (xo7 : Vec Ideal S1x1 .f32) (xo8 : Vec Ideal S1x1 .f32) (xo9 : Vec Ideal S1x1 .f32) :
    out0_B_9 c i arg1 harg1 arg2 harg2 arg3 harg3 arg4 harg4 arg5 harg5 arg6 harg6 arg7 harg7 arg8 harg8 arg9 harg9 arg10 harg10 hc0 x0 x1 x2 x3 xo4 xo5 xo6 xo7 xo8 xo9 = k0_pay1 (nnobjPart x3) xo9 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 hc0 x0 x1 x2 x3 xo4 xo5 xo6 xo7 xo8 xo9)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, View.ld_unit_zero (S := S32x14x14x30) hz4, View.ld_unit_zero (S := S32x14x14x4) hz4, View.ld_unit_zero (S := S32x14x14x20) hz4, View.ld_unit_zero (S := S32x14x14) hz3, View.ld_unit_zero (S := S1x1) hz]
  rfl

end Cert.KernelIdeal.Stores

end
-- ==== Proof.Sums.lean ====
/-
  The five losses from the six sums, and how the kernel groups its sums.  An accumulator that starts at zero at the first grid point and adds one partial sum
  per point ends at the sum of the partial sums; and summing over 128 blocks of 32 images is summing over the 4096
  images.  Both are facts about a commutative monoid: no finiteness is used.
-/
import proofs.«169991_j1297080123428_2_alg».proof.Proof.Spec
import Idealize.ShloMosaic.PureOps.Ideal.Laws
import Mathlib.Algebra.BigOperators.Fin

noncomputable section

namespace Yolo

open Idealize.ShloMosaic

/-- 4096 and 5 as the programs spell them. -/
abbrev n4096 : R := Ideal.ofBits .f32 0x45800000#32
abbrev five : R := Ideal.ofBits .f32 0x40A00000#32

/-- The five losses from the six sums: the class sum over the batch size, half the no-object sum over the count of
    no-object cells, five times the regression sum and the confidence sum over the count of object cells, and their
    total in the order regression + confidence + no-object + class. -/
def lossCls (cls : R) : R := Ideal.div cls n4096
def lossNo (no nnobj : R) : R := Ideal.div (half * no) nnobj
def lossReg (reg nobj : R) : R := Ideal.div (reg * five) nobj
def lossConf (conf nobj : R) : R := Ideal.div conf nobj
def lossTotal (cls no reg conf nobj nnobj : R) : R :=
  lossReg reg nobj + lossConf conf nobj + lossNo no nnobj + lossCls cls

/-- The accumulator after point `n`: zero plus the first partial sum, then one more partial sum per point. -/
def acc {N : ℕ} (p : Fin N → R) : (n : ℕ) → n < N → R
  | 0, h => zero + p ⟨0, h⟩
  | n + 1, h => acc p n (Nat.lt_of_succ_lt h) + p ⟨n + 1, h⟩

/-- It is the sum of the partial sums so far. -/
theorem acc_eq_sum {N : ℕ} (p : Fin N → R) :
    ∀ (n : ℕ) (h : n < N), acc p n h = ∑ k : Fin (n + 1), p ⟨k.val, by have := k.isLt; omega⟩
  | 0, h => by
    rw [acc, Fin.sum_univ_one]
    show Ideal.ofBits .f32 0x00000000#32 + _ = _
    rw [Ideal.ofBits_zero_f32, zero_add]
    rfl
  | n + 1, h => by
    rw [acc, acc_eq_sum p n]
    refine Eq.symm ((Fin.sum_univ_castSucc _).trans ?_)
    rfl

/-- After the last point it is the sum of all of them. -/
theorem acc_last {N M : ℕ} (hN : N = M + 1) (p : Fin N → R) (h : M < N) : acc p M h = ∑ t : Fin N, p t := by
  subst hN
  rw [acc_eq_sum]

/-- Summing over 128 blocks of 32 is summing over 4096. -/
theorem sum_blocks {M : Type*} [AddCommMonoid M] (g : Fin 4096 → M) :
    ∑ t : Fin 128, ∑ b : Fin 32, g ⟨32 * t.val + b.val, by have := t.isLt; have := b.isLt; omega⟩ = ∑ n : Fin 4096, g n := by
  rw [← Fintype.sum_prod_type']
  exact Fintype.sum_equiv (finProdFinEquiv (m := 128) (n := 32)) _ _
    (fun x => congrArg g (Fin.ext (by
      show 32 * x.1.val + x.2.val = (finProdFinEquiv (m := 128) (n := 32) x).val
      rw [finProdFinEquiv_apply_val]; omega)))

/-! ## The six sums over the whole batch, and the five losses

The batch's numbers enter as four functions of the cell (n, i, j): the predicted numbers `P`, the target box `B`, the
target class scores `C` and the object indicator `O`. -/

section Totals

variable (P : Fin 4096 → Fin 14 → Fin 14 → Fin 30 → R) (B : Fin 4096 → Fin 14 → Fin 14 → Fin 4 → R)
  (C : Fin 4096 → Fin 14 → Fin 14 → Fin 20 → R) (O : Fin 4096 → Fin 14 → Fin 14 → R)

def totCls : R := ∑ n, ∑ i, ∑ j, ∑ c, clsTerm (P n i j) (C n i j) (O n i j) c
def totNo1 : R := ∑ n, ∑ i, ∑ j, ∑ c, noTerm1 (P n i j) (O n i j) c
def totNo2 : R := ∑ n, ∑ i, ∑ j, ∑ c, noTerm2 (P n i j) (O n i j) c
def totReg : R := ∑ n, ∑ i, ∑ j, regCell (P n i j) (B n i j) (O n i j)
def totConf : R := ∑ n, ∑ i, ∑ j, confCell (P n i j) (B n i j) (O n i j)
def totObj : R := ∑ n, ∑ i, ∑ j, O n i j
def totNnobj : R := ∑ n, ∑ i, ∑ j, (one - O n i j)

/-- The five losses of the batch. -/
def LCls : R := lossCls (totCls P C O)
def LNo : R := lossNo (totNo1 P O + totNo2 P O) (totNnobj O)
def LReg : R := lossReg (totReg P B O) (totObj O)
def LConf : R := lossConf (totConf P B O) (totObj O)
def LTotal : R :=
  lossTotal (totCls P C O) (totNo1 P O + totNo2 P O) (totReg P B O) (totConf P B O) (totObj O) (totNnobj O)

end Totals

/-- A sum over the grid points of per-block sums is the sum over the batch, whatever the grid's extent is called. -/
theorem sum_blocks' {N : ℕ} (hN : N = 128) {M : Type*} [AddCommMonoid M] (g : Fin 4096 → M) (f : Fin N → M)
    (hf : ∀ t : Fin N, f t = ∑ b : Fin 32, g ⟨32 * t.val + b.val, by have := t.isLt; have := b.isLt; omega⟩) :
    ∑ t, f t = ∑ n, g n := by
  subst hN
  rw [← sum_blocks g]
  exact Finset.sum_congr rfl fun t _ => hf t

end Yolo

end
-- ==== Proof.KerAcc.lean ====
/-
  The kernel's six result arrays.  Each 1×1 output is an accumulator over the 128 grid points: zero plus the first
  block's partial sum, then one more partial sum per block; only the last point writes it back.  So each output array
  ends holding the sum over all blocks of the block's partial sum (by induction on the point).
-/
import proofs.«169991_j1297080123428_2_alg».proof.Proof.KerStores
import proofs.«169991_j1297080123428_2_alg».proof.Proof.Sums
import Idealize.ShloMosaic.Lib.StableHlo.Run

noncomputable section

open Idealize.ShloMosaic Idealize.ShloMosaic.TcCoe Idealize.SL.Sem
open Idealize.ShloMosaic.Pipeline (Dat)

namespace Cert.KernelIdeal.Acc

open Cert.KernelIdeal Cert.KernelIdeal.Gen Cert.KernelIdeal.Cells Cert.KernelIdeal.Stores Idealize.ShloMosaic.ValueIdx

variable (m : (ℓ : Loc nD τ sig) → Buf (Elt Ideal) ℓ) (ρ : Dev nD → PrngReg)

/-- The four blocks the pipeline hands the body at point `t`. -/
abbrev X0 (c : Dev nD) (t : Fin cfg0.N) : Vec Ideal S32x14x14x30 .f32 := iblk m c 0 t
abbrev X1 (c : Dev nD) (t : Fin cfg0.N) : Vec Ideal S32x14x14x4 .f32 := iblk m c 1 t
abbrev X2 (c : Dev nD) (t : Fin cfg0.N) : Vec Ideal S32x14x14x20 .f32 := iblk m c 2 t
abbrev X3 (c : Dev nD) (t : Fin cfg0.N) : Vec Ideal S32x14x14 .f32 := iblk m c 3 t

/-- Point `t`'s six partial sums. -/
def pCls (c : Dev nD) (t : Fin cfg0.N) : Yolo.R := clsPart (X0 m c t) (X2 m c t) (X3 m c t) (ix2 (0 : Fin 1) (0 : Fin 1))
def pNo (c : Dev nD) (t : Fin cfg0.N) : Yolo.R := noPart (X0 m c t) (X3 m c t) (ix2 (0 : Fin 1) (0 : Fin 1))
def pReg (c : Dev nD) (t : Fin cfg0.N) : Yolo.R := regPart (X0 m c t) (X1 m c t) (X3 m c t) (ix2 (0 : Fin 1) (0 : Fin 1))
def pConf (c : Dev nD) (t : Fin cfg0.N) : Yolo.R := confPart (X0 m c t) (X1 m c t) (X3 m c t) (ix2 (0 : Fin 1) (0 : Fin 1))
def pObj (c : Dev nD) (t : Fin cfg0.N) : Yolo.R := ∑ b : Fin 32, ∑ i : Fin 14, ∑ j : Fin 14, cellO (X3 m c t) b i j
def pNnobj (c : Dev nD) (t : Fin cfg0.N) : Yolo.R := nnobjPart (X3 m c t) (ix2 (0 : Fin 1) (0 : Fin 1))

/-- The 1×1 shape has one index. -/
theorem idx11 (y : S1x1.Idx) : y = ix2 (0 : Fin 1) (0 : Fin 1) :=
  idx2_eq y 0 0 (by have h : (y 0).val < 1 := (y 0).isLt; show (y 0).val = 0; omega)
    (by have h : (y 1).val < 1 := (y 1).isLt; show (y 1).val = 0; omega)

/-- The last grid point. -/
def tLast : Fin cfg0.N := ⟨127, by rw [show cfg0.N = 128 from N_0]; decide⟩

/-- Output 4 after point `n`: the accumulated partial sums. -/
theorem comp4 (c : Dev nD) : ∀ (n : ℕ) (h : n < cfg0.N), (outsAt0 m c n h).1 = fun _ => Yolo.acc (pCls m c) n h
  | 0, h => by
    have e : outsAt0 m c 0 h = _ := outsAt0_A m c ⟨0, h⟩ rfl
    rw [e]
    dsimp only
    rw [out_A_4]
    funext y
    have hy := idx11 y
    subst hy
    rw [acc39_apply]
    rfl
  | n + 1, h => by
    have hN : cfg0.N = 128 := N_0
    have hB : ¬(⟨n + 1, h⟩ : Fin cfg0.N).val % 128 = 0 := by dsimp only; omega
    have e : outsAt0 m c (n + 1) h = _ := outsAt0_B m c ⟨n + 1, h⟩ hB
    rw [e]
    dsimp only
    rw [out_B_4]
    funext y
    have hy := idx11 y
    subst hy
    rw [acc39_apply]
    have ih := comp4 c n (Nat.lt_of_succ_lt h)
    show (outsAt0 m c n (Nat.lt_of_succ_lt h)).1 _ + _ = _
    rw [ih]
    rfl

/-- Output 5 after point `n`: the accumulated partial sums. -/
theorem comp5 (c : Dev nD) : ∀ (n : ℕ) (h : n < cfg0.N), (outsAt0 m c n h).2.1 = fun _ => Yolo.acc (pNo m c) n h
  | 0, h => by
    have e : outsAt0 m c 0 h = _ := outsAt0_A m c ⟨0, h⟩ rfl
    rw [e]
    dsimp only
    rw [out_A_5]
    funext y
    have hy := idx11 y
    subst hy
    rw [acc40_apply]
    rfl
  | n + 1, h => by
    have hN : cfg0.N = 128 := N_0
    have hB : ¬(⟨n + 1, h⟩ : Fin cfg0.N).val % 128 = 0 := by dsimp only; omega
    have e : outsAt0 m c (n + 1) h = _ := outsAt0_B m c ⟨n + 1, h⟩ hB
    rw [e]
    dsimp only
    rw [out_B_5]
    funext y
    have hy := idx11 y
    subst hy
    rw [acc40_apply]
    have ih := comp5 c n (Nat.lt_of_succ_lt h)
    show (outsAt0 m c n (Nat.lt_of_succ_lt h)).2.1 _ + _ = _
    rw [ih]
    rfl

/-- Output 6 after point `n`: the accumulated partial sums. -/
theorem comp6 (c : Dev nD) : ∀ (n : ℕ) (h : n < cfg0.N), (outsAt0 m c n h).2.2.1 = fun _ => Yolo.acc (pReg m c) n h
  | 0, h => by
    have e : outsAt0 m c 0 h = _ := outsAt0_A m c ⟨0, h⟩ rfl
    rw [e]
    dsimp only
    rw [out_A_6]
    funext y
    have hy := idx11 y
    subst hy
    rw [acc41_apply]
    rfl
  | n + 1, h => by
    have hN : cfg0.N = 128 := N_0
    have hB : ¬(⟨n + 1, h⟩ : Fin cfg0.N).val % 128 = 0 := by dsimp only; omega
    have e : outsAt0 m c (n + 1) h = _ := outsAt0_B m c ⟨n + 1, h⟩ hB
    rw [e]
    dsimp only
    rw [out_B_6]
    funext y
    have hy := idx11 y
    subst hy
    rw [acc41_apply]
    have ih := comp6 c n (Nat.lt_of_succ_lt h)
    show (outsAt0 m c n (Nat.lt_of_succ_lt h)).2.2.1 _ + _ = _
    rw [ih]
    rfl

/-- Output 7 after point `n`: the accumulated partial sums. -/
theorem comp7 (c : Dev nD) : ∀ (n : ℕ) (h : n < cfg0.N), (outsAt0 m c n h).2.2.2.1 = fun _ => Yolo.acc (pConf m c) n h
  | 0, h => by
    have e : outsAt0 m c 0 h = _ := outsAt0_A m c ⟨0, h⟩ rfl
    rw [e]
    dsimp only
    rw [out_A_7]
    funext y
    have hy := idx11 y
    subst hy
    rw [acc42_apply]
    rfl
  | n + 1, h => by
    have hN : cfg0.N = 128 := N_0
    have hB : ¬(⟨n + 1, h⟩ : Fin cfg0.N).val % 128 = 0 := by dsimp only; omega
    have e : outsAt0 m c (n + 1) h = _ := outsAt0_B m c ⟨n + 1, h⟩ hB
    rw [e]
    dsimp only
    rw [out_B_7]
    funext y
    have hy := idx11 y
    subst hy
    rw [acc42_apply]
    have ih := comp7 c n (Nat.lt_of_succ_lt h)
    show (outsAt0 m c n (Nat.lt_of_succ_lt h)).2.2.2.1 _ + _ = _
    rw [ih]
    rfl

/-- Output 8 after point `n`: the accumulated partial sums. -/
theorem comp8 (c : Dev nD) : ∀ (n : ℕ) (h : n < cfg0.N), (outsAt0 m c n h).2.2.2.2.1 = fun _ => Yolo.acc (pObj m c) n h
  | 0, h => by
    have e : outsAt0 m c 0 h = _ := outsAt0_A m c ⟨0, h⟩ rfl
    rw [e]
    dsimp only
    rw [out_A_8]
    funext y
    have hy := idx11 y
    subst hy
    rw [nobj_apply]
    rfl
  | n + 1, h => by
    have hN : cfg0.N = 128 := N_0
    have hB : ¬(⟨n + 1, h⟩ : Fin cfg0.N).val % 128 = 0 := by dsimp only; omega
    have e : outsAt0 m c (n + 1) h = _ := outsAt0_B m c ⟨n + 1, h⟩ hB
    rw [e]
    dsimp only
    rw [out_B_8]
    funext y
    have hy := idx11 y
    subst hy
    rw [nobj_apply]
    have ih := comp8 c n (Nat.lt_of_succ_lt h)
    show (outsAt0 m c n (Nat.lt_of_succ_lt h)).2.2.2.2.1 _ + _ = _
    rw [ih]
    rfl

/-- Output 9 after point `n`: the accumulated partial sums. -/
theorem comp9 (c : Dev nD) : ∀ (n : ℕ) (h : n < cfg0.N), (outsAt0 m c n h).2.2.2.2.2 = fun _ => Yolo.acc (pNnobj m c) n h
  | 0, h => by
    have e : outsAt0 m c 0 h = _ := outsAt0_A m c ⟨0, h⟩ rfl
    rw [e]
    dsimp only
    rw [out_A_9]
    funext y
    have hy := idx11 y
    subst hy
    rw [acc1_apply]
    rfl
  | n + 1, h => by
    have hN : cfg0.N = 128 := N_0
    have hB : ¬(⟨n + 1, h⟩ : Fin cfg0.N).val % 128 = 0 := by dsimp only; omega
    have e : outsAt0 m c (n + 1) h = _ := outsAt0_B m c ⟨n + 1, h⟩ hB
    rw [e]
    dsimp only
    rw [out_B_9]
    funext y
    have hy := idx11 y
    subst hy
    rw [acc1_apply]
    have ih := comp9 c n (Nat.lt_of_succ_lt h)
    show (outsAt0 m c n (Nat.lt_of_succ_lt h)).2.2.2.2.2 _ + _ = _
    rw [ih]
    rfl

/-- The sum of output 4's partial sums over all grid points. -/
def sCls (c : Dev nD) : Yolo.R := ∑ t : Fin cfg0.N, pCls m c t

/-- As contents of the output's 1×1 array. -/
abbrev R4 (c : Dev nD) : Buf (Elt Ideal) ((c : Thread nD τ).loc main_v1_0) := fun _ => sCls m c

theorem last4 (c : Dev nD) : (outsAt0 m c tLast.val tLast.isLt).1 = R4 m c := by
  rw [comp4]
  funext _
  exact Yolo.acc_last (N := cfg0.N) (M := tLast.val) N_0 _ _

/-- The one write-back, after the last point, writes the accumulated sum. -/
theorem flushed_eq_4 (c : Dev nD) (t : Fin cfg0.N) (hf : (cfg0.win 4).flush t = true) :
    (dats m 0 c).flushed 4 t = ((cfg0.win 4).blk t).view.read (Elt Ideal) (R4 m c) := by
  have hN : cfg0.N = 128 := N_0
  have h3 : t.val = 127 := by have := (flush0_4 t).mp hf; have := t.isLt; omega
  obtain rfl : t = tLast := Fin.ext h3
  show (cfg0.win 4).cut (grid0.coords tLast) ((dats m 0 c).after 4 tLast) = _
  rw [after0_4, last4]
  have hz' : (fun a => win0_4.index tLast a * main_v1_0.ty.shape.size a) = fun _ => 0 :=
    funext fun a => by fin_cases a <;> decide +kernel
  exact (Memref.read_access_unit_zero (Elt Ideal) main_v1_0 hz' (fun a => by rw [congrFun hz' a]; simp) (R4 m c)).symm

/-- So the output's array ends holding it. -/
theorem final_4 (c : Dev nD) : (dats m 0 c).arrAt 4 cfg0.N = R4 m c :=
  (dats m 0 c).arrAt_eq_of_cover 4 (R4 m c) (flushed_eq_4 m c) fun i =>
    ⟨tLast, (flush0_4 tLast).mpr rfl, by
      show i ∈ ((View.whole main_v1_0).slice (win0_4.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_4.index tLast 0 * win0_4.size 0 ≤ (i 0 : Nat)
          ∧ (i 0 : Nat) < win0_4.index tLast 0 * win0_4.size 0 + win0_4.xsize (grid0.coords tLast) 0
        rw [show win0_4.index tLast 0 * win0_4.size 0 = 0 from by decide +kernel,
          show win0_4.xsize (grid0.coords tLast) 0 = 1 from by decide +kernel]
        omega
      | ⟨1, _⟩ =>
        show win0_4.index tLast 1 * win0_4.size 1 ≤ (i 1 : Nat)
          ∧ (i 1 : Nat) < win0_4.index tLast 1 * win0_4.size 1 + win0_4.xsize (grid0.coords tLast) 1
        rw [show win0_4.index tLast 1 * win0_4.size 1 = 0 from by decide +kernel,
          show win0_4.xsize (grid0.coords tLast) 1 = 1 from by decide +kernel]
        omega⟩

/-- The sum of output 5's partial sums over all grid points. -/
def sNo (c : Dev nD) : Yolo.R := ∑ t : Fin cfg0.N, pNo m c t

/-- As contents of the output's 1×1 array. -/
abbrev R5 (c : Dev nD) : Buf (Elt Ideal) ((c : Thread nD τ).loc main_v1_1) := fun _ => sNo m c

theorem last5 (c : Dev nD) : (outsAt0 m c tLast.val tLast.isLt).2.1 = R5 m c := by
  rw [comp5]
  funext _
  exact Yolo.acc_last (N := cfg0.N) (M := tLast.val) N_0 _ _

/-- The one write-back, after the last point, writes the accumulated sum. -/
theorem flushed_eq_5 (c : Dev nD) (t : Fin cfg0.N) (hf : (cfg0.win 5).flush t = true) :
    (dats m 0 c).flushed 5 t = ((cfg0.win 5).blk t).view.read (Elt Ideal) (R5 m c) := by
  have hN : cfg0.N = 128 := N_0
  have h3 : t.val = 127 := by have := (flush0_5 t).mp hf; have := t.isLt; omega
  obtain rfl : t = tLast := Fin.ext h3
  show (cfg0.win 5).cut (grid0.coords tLast) ((dats m 0 c).after 5 tLast) = _
  rw [after0_5, last5]
  have hz' : (fun a => win0_5.index tLast a * main_v1_1.ty.shape.size a) = fun _ => 0 :=
    funext fun a => by fin_cases a <;> decide +kernel
  exact (Memref.read_access_unit_zero (Elt Ideal) main_v1_1 hz' (fun a => by rw [congrFun hz' a]; simp) (R5 m c)).symm

/-- So the output's array ends holding it. -/
theorem final_5 (c : Dev nD) : (dats m 0 c).arrAt 5 cfg0.N = R5 m c :=
  (dats m 0 c).arrAt_eq_of_cover 5 (R5 m c) (flushed_eq_5 m c) fun i =>
    ⟨tLast, (flush0_5 tLast).mpr rfl, by
      show i ∈ ((View.whole main_v1_1).slice (win0_5.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_5.index tLast 0 * win0_5.size 0 ≤ (i 0 : Nat)
          ∧ (i 0 : Nat) < win0_5.index tLast 0 * win0_5.size 0 + win0_5.xsize (grid0.coords tLast) 0
        rw [show win0_5.index tLast 0 * win0_5.size 0 = 0 from by decide +kernel,
          show win0_5.xsize (grid0.coords tLast) 0 = 1 from by decide +kernel]
        omega
      | ⟨1, _⟩ =>
        show win0_5.index tLast 1 * win0_5.size 1 ≤ (i 1 : Nat)
          ∧ (i 1 : Nat) < win0_5.index tLast 1 * win0_5.size 1 + win0_5.xsize (grid0.coords tLast) 1
        rw [show win0_5.index tLast 1 * win0_5.size 1 = 0 from by decide +kernel,
          show win0_5.xsize (grid0.coords tLast) 1 = 1 from by decide +kernel]
        omega⟩

/-- The sum of output 6's partial sums over all grid points. -/
def sReg (c : Dev nD) : Yolo.R := ∑ t : Fin cfg0.N, pReg m c t

/-- As contents of the output's 1×1 array. -/
abbrev R6 (c : Dev nD) : Buf (Elt Ideal) ((c : Thread nD τ).loc main_v1_2) := fun _ => sReg m c

theorem last6 (c : Dev nD) : (outsAt0 m c tLast.val tLast.isLt).2.2.1 = R6 m c := by
  rw [comp6]
  funext _
  exact Yolo.acc_last (N := cfg0.N) (M := tLast.val) N_0 _ _

/-- The one write-back, after the last point, writes the accumulated sum. -/
theorem flushed_eq_6 (c : Dev nD) (t : Fin cfg0.N) (hf : (cfg0.win 6).flush t = true) :
    (dats m 0 c).flushed 6 t = ((cfg0.win 6).blk t).view.read (Elt Ideal) (R6 m c) := by
  have hN : cfg0.N = 128 := N_0
  have h3 : t.val = 127 := by have := (flush0_6 t).mp hf; have := t.isLt; omega
  obtain rfl : t = tLast := Fin.ext h3
  show (cfg0.win 6).cut (grid0.coords tLast) ((dats m 0 c).after 6 tLast) = _
  rw [after0_6, last6]
  have hz' : (fun a => win0_6.index tLast a * main_v1_2.ty.shape.size a) = fun _ => 0 :=
    funext fun a => by fin_cases a <;> decide +kernel
  exact (Memref.read_access_unit_zero (Elt Ideal) main_v1_2 hz' (fun a => by rw [congrFun hz' a]; simp) (R6 m c)).symm

/-- So the output's array ends holding it. -/
theorem final_6 (c : Dev nD) : (dats m 0 c).arrAt 6 cfg0.N = R6 m c :=
  (dats m 0 c).arrAt_eq_of_cover 6 (R6 m c) (flushed_eq_6 m c) fun i =>
    ⟨tLast, (flush0_6 tLast).mpr rfl, by
      show i ∈ ((View.whole main_v1_2).slice (win0_6.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_6.index tLast 0 * win0_6.size 0 ≤ (i 0 : Nat)
          ∧ (i 0 : Nat) < win0_6.index tLast 0 * win0_6.size 0 + win0_6.xsize (grid0.coords tLast) 0
        rw [show win0_6.index tLast 0 * win0_6.size 0 = 0 from by decide +kernel,
          show win0_6.xsize (grid0.coords tLast) 0 = 1 from by decide +kernel]
        omega
      | ⟨1, _⟩ =>
        show win0_6.index tLast 1 * win0_6.size 1 ≤ (i 1 : Nat)
          ∧ (i 1 : Nat) < win0_6.index tLast 1 * win0_6.size 1 + win0_6.xsize (grid0.coords tLast) 1
        rw [show win0_6.index tLast 1 * win0_6.size 1 = 0 from by decide +kernel,
          show win0_6.xsize (grid0.coords tLast) 1 = 1 from by decide +kernel]
        omega⟩

/-- The sum of output 7's partial sums over all grid points. -/
def sConf (c : Dev nD) : Yolo.R := ∑ t : Fin cfg0.N, pConf m c t

/-- As contents of the output's 1×1 array. -/
abbrev R7 (c : Dev nD) : Buf (Elt Ideal) ((c : Thread nD τ).loc main_v1_3) := fun _ => sConf m c

theorem last7 (c : Dev nD) : (outsAt0 m c tLast.val tLast.isLt).2.2.2.1 = R7 m c := by
  rw [comp7]
  funext _
  exact Yolo.acc_last (N := cfg0.N) (M := tLast.val) N_0 _ _

/-- The one write-back, after the last point, writes the accumulated sum. -/
theorem flushed_eq_7 (c : Dev nD) (t : Fin cfg0.N) (hf : (cfg0.win 7).flush t = true) :
    (dats m 0 c).flushed 7 t = ((cfg0.win 7).blk t).view.read (Elt Ideal) (R7 m c) := by
  have hN : cfg0.N = 128 := N_0
  have h3 : t.val = 127 := by have := (flush0_7 t).mp hf; have := t.isLt; omega
  obtain rfl : t = tLast := Fin.ext h3
  show (cfg0.win 7).cut (grid0.coords tLast) ((dats m 0 c).after 7 tLast) = _
  rw [after0_7, last7]
  have hz' : (fun a => win0_7.index tLast a * main_v1_3.ty.shape.size a) = fun _ => 0 :=
    funext fun a => by fin_cases a <;> decide +kernel
  exact (Memref.read_access_unit_zero (Elt Ideal) main_v1_3 hz' (fun a => by rw [congrFun hz' a]; simp) (R7 m c)).symm

/-- So the output's array ends holding it. -/
theorem final_7 (c : Dev nD) : (dats m 0 c).arrAt 7 cfg0.N = R7 m c :=
  (dats m 0 c).arrAt_eq_of_cover 7 (R7 m c) (flushed_eq_7 m c) fun i =>
    ⟨tLast, (flush0_7 tLast).mpr rfl, by
      show i ∈ ((View.whole main_v1_3).slice (win0_7.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_7.index tLast 0 * win0_7.size 0 ≤ (i 0 : Nat)
          ∧ (i 0 : Nat) < win0_7.index tLast 0 * win0_7.size 0 + win0_7.xsize (grid0.coords tLast) 0
        rw [show win0_7.index tLast 0 * win0_7.size 0 = 0 from by decide +kernel,
          show win0_7.xsize (grid0.coords tLast) 0 = 1 from by decide +kernel]
        omega
      | ⟨1, _⟩ =>
        show win0_7.index tLast 1 * win0_7.size 1 ≤ (i 1 : Nat)
          ∧ (i 1 : Nat) < win0_7.index tLast 1 * win0_7.size 1 + win0_7.xsize (grid0.coords tLast) 1
        rw [show win0_7.index tLast 1 * win0_7.size 1 = 0 from by decide +kernel,
          show win0_7.xsize (grid0.coords tLast) 1 = 1 from by decide +kernel]
        omega⟩

/-- The sum of output 8's partial sums over all grid points. -/
def sObj (c : Dev nD) : Yolo.R := ∑ t : Fin cfg0.N, pObj m c t

/-- As contents of the output's 1×1 array. -/
abbrev R8 (c : Dev nD) : Buf (Elt Ideal) ((c : Thread nD τ).loc main_v1_4) := fun _ => sObj m c

theorem last8 (c : Dev nD) : (outsAt0 m c tLast.val tLast.isLt).2.2.2.2.1 = R8 m c := by
  rw [comp8]
  funext _
  exact Yolo.acc_last (N := cfg0.N) (M := tLast.val) N_0 _ _

/-- The one write-back, after the last point, writes the accumulated sum. -/
theorem flushed_eq_8 (c : Dev nD) (t : Fin cfg0.N) (hf : (cfg0.win 8).flush t = true) :
    (dats m 0 c).flushed 8 t = ((cfg0.win 8).blk t).view.read (Elt Ideal) (R8 m c) := by
  have hN : cfg0.N = 128 := N_0
  have h3 : t.val = 127 := by have := (flush0_8 t).mp hf; have := t.isLt; omega
  obtain rfl : t = tLast := Fin.ext h3
  show (cfg0.win 8).cut (grid0.coords tLast) ((dats m 0 c).after 8 tLast) = _
  rw [after0_8, last8]
  have hz' : (fun a => win0_8.index tLast a * main_v1_4.ty.shape.size a) = fun _ => 0 :=
    funext fun a => by fin_cases a <;> decide +kernel
  exact (Memref.read_access_unit_zero (Elt Ideal) main_v1_4 hz' (fun a => by rw [congrFun hz' a]; simp) (R8 m c)).symm

/-- So the output's array ends holding it. -/
theorem final_8 (c : Dev nD) : (dats m 0 c).arrAt 8 cfg0.N = R8 m c :=
  (dats m 0 c).arrAt_eq_of_cover 8 (R8 m c) (flushed_eq_8 m c) fun i =>
    ⟨tLast, (flush0_8 tLast).mpr rfl, by
      show i ∈ ((View.whole main_v1_4).slice (win0_8.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_8.index tLast 0 * win0_8.size 0 ≤ (i 0 : Nat)
          ∧ (i 0 : Nat) < win0_8.index tLast 0 * win0_8.size 0 + win0_8.xsize (grid0.coords tLast) 0
        rw [show win0_8.index tLast 0 * win0_8.size 0 = 0 from by decide +kernel,
          show win0_8.xsize (grid0.coords tLast) 0 = 1 from by decide +kernel]
        omega
      | ⟨1, _⟩ =>
        show win0_8.index tLast 1 * win0_8.size 1 ≤ (i 1 : Nat)
          ∧ (i 1 : Nat) < win0_8.index tLast 1 * win0_8.size 1 + win0_8.xsize (grid0.coords tLast) 1
        rw [show win0_8.index tLast 1 * win0_8.size 1 = 0 from by decide +kernel,
          show win0_8.xsize (grid0.coords tLast) 1 = 1 from by decide +kernel]
        omega⟩

/-- The sum of output 9's partial sums over all grid points. -/
def sNnobj (c : Dev nD) : Yolo.R := ∑ t : Fin cfg0.N, pNnobj m c t

/-- As contents of the output's 1×1 array. -/
abbrev R9 (c : Dev nD) : Buf (Elt Ideal) ((c : Thread nD τ).loc main_v1_5) := fun _ => sNnobj m c

theorem last9 (c : Dev nD) : (outsAt0 m c tLast.val tLast.isLt).2.2.2.2.2 = R9 m c := by
  rw [comp9]
  funext _
  exact Yolo.acc_last (N := cfg0.N) (M := tLast.val) N_0 _ _

/-- The one write-back, after the last point, writes the accumulated sum. -/
theorem flushed_eq_9 (c : Dev nD) (t : Fin cfg0.N) (hf : (cfg0.win 9).flush t = true) :
    (dats m 0 c).flushed 9 t = ((cfg0.win 9).blk t).view.read (Elt Ideal) (R9 m c) := by
  have hN : cfg0.N = 128 := N_0
  have h3 : t.val = 127 := by have := (flush0_9 t).mp hf; have := t.isLt; omega
  obtain rfl : t = tLast := Fin.ext h3
  show (cfg0.win 9).cut (grid0.coords tLast) ((dats m 0 c).after 9 tLast) = _
  rw [after0_9, last9]
  have hz' : (fun a => win0_9.index tLast a * main_v1_5.ty.shape.size a) = fun _ => 0 :=
    funext fun a => by fin_cases a <;> decide +kernel
  exact (Memref.read_access_unit_zero (Elt Ideal) main_v1_5 hz' (fun a => by rw [congrFun hz' a]; simp) (R9 m c)).symm

/-- So the output's array ends holding it. -/
theorem final_9 (c : Dev nD) : (dats m 0 c).arrAt 9 cfg0.N = R9 m c :=
  (dats m 0 c).arrAt_eq_of_cover 9 (R9 m c) (flushed_eq_9 m c) fun i =>
    ⟨tLast, (flush0_9 tLast).mpr rfl, by
      show i ∈ ((View.whole main_v1_5).slice (win0_9.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_9.index tLast 0 * win0_9.size 0 ≤ (i 0 : Nat)
          ∧ (i 0 : Nat) < win0_9.index tLast 0 * win0_9.size 0 + win0_9.xsize (grid0.coords tLast) 0
        rw [show win0_9.index tLast 0 * win0_9.size 0 = 0 from by decide +kernel,
          show win0_9.xsize (grid0.coords tLast) 0 = 1 from by decide +kernel]
        omega
      | ⟨1, _⟩ =>
        show win0_9.index tLast 1 * win0_9.size 1 ≤ (i 1 : Nat)
          ∧ (i 1 : Nat) < win0_9.index tLast 1 * win0_9.size 1 + win0_9.xsize (grid0.coords tLast) 1
        rw [show win0_9.index tLast 1 * win0_9.size 1 = 0 from by decide +kernel,
          show win0_9.xsize (grid0.coords tLast) 1 = 1 from by decide +kernel]
        omega⟩

end Cert.KernelIdeal.Acc

end
-- ==== Proof.KerBlocks.lean ====
/-
  A block's cell is the batch's cell: the block the pipeline hands the body at grid point t holds images 32 t … 32 t + 31,
  so its cell (b, i, j) is the batch's cell (32 t + b, i, j); the object indicator reaches the kernel already converted to
  a number by the host line before the call.
-/
import proofs.«169991_j1297080123428_2_alg».proof.Proof.KerAcc

noncomputable section

open Idealize.ShloMosaic Idealize.ShloMosaic.TcCoe Idealize.SL.Sem
open Idealize.ShloMosaic.Pipeline (Dat)

namespace Cert.KernelIdeal.Run

open Cert.KernelIdeal Cert.KernelIdeal.Gen Cert.KernelIdeal.Cells Cert.KernelIdeal.Acc Idealize.ShloMosaic.ValueIdx
open Idealize.ShloMosaic.StableHlo

variable (m : (ℓ : Loc nD τ sig) → Buf (Elt Ideal) ℓ) (ρ : Dev nD → PrngReg)

/-- The batch's numbers, read off core `c`'s launch memory. -/
def Pm (c : Dev nD) : Fin 4096 → Fin 14 → Fin 14 → Fin 30 → Yolo.R :=
  fun n i j ch => ((m ((c : Thread nD τ).loc main_arg0)) : S4096x14x14x30.Idx → Ideal .f32) (ix4 n i j ch)
def Bm (c : Dev nD) : Fin 4096 → Fin 14 → Fin 14 → Fin 4 → Yolo.R :=
  fun n i j ch => ((m ((c : Thread nD τ).loc main_arg1)) : S4096x14x14x4.Idx → Ideal .f32) (ix4 n i j ch)
def Cm (c : Dev nD) : Fin 4096 → Fin 14 → Fin 14 → Fin 20 → Yolo.R :=
  fun n i j ch => ((m ((c : Thread nD τ).loc main_arg2)) : S4096x14x14x20.Idx → Ideal .f32) (ix4 n i j ch)
def Om (c : Dev nD) : Fin 4096 → Fin 14 → Fin 14 → Yolo.R :=
  fun n i j => FloatOps.uitofp (F := Ideal) .f32 (((m ((c : Thread nD τ).loc main_arg3)) : S4096x14x14.Idx → BitVec 1) (ix3 n i j))

/-! ## A block's cell is the batch's cell -/

theorem idx0 : ∀ t : Fin cfg0.N, win0_0.index t 0 = t.val ∧ win0_0.index t 1 = 0 ∧ win0_0.index t 2 = 0 ∧ win0_0.index t 3 = 0 :=
  (by decide +kernel : ∀ t : Fin grid0.N, win0_0.index t 0 = t.val ∧ win0_0.index t 1 = 0 ∧ win0_0.index t 2 = 0 ∧ win0_0.index t 3 = 0)
theorem idx1 : ∀ t : Fin cfg0.N, win0_1.index t 0 = t.val ∧ win0_1.index t 1 = 0 ∧ win0_1.index t 2 = 0 ∧ win0_1.index t 3 = 0 :=
  (by decide +kernel : ∀ t : Fin grid0.N, win0_1.index t 0 = t.val ∧ win0_1.index t 1 = 0 ∧ win0_1.index t 2 = 0 ∧ win0_1.index t 3 = 0)
theorem idx2 : ∀ t : Fin cfg0.N, win0_2.index t 0 = t.val ∧ win0_2.index t 1 = 0 ∧ win0_2.index t 2 = 0 ∧ win0_2.index t 3 = 0 :=
  (by decide +kernel : ∀ t : Fin grid0.N, win0_2.index t 0 = t.val ∧ win0_2.index t 1 = 0 ∧ win0_2.index t 2 = 0 ∧ win0_2.index t 3 = 0)
theorem idx3 : ∀ t : Fin cfg0.N, win0_3.index t 0 = t.val ∧ win0_3.index t 1 = 0 ∧ win0_3.index t 2 = 0 :=
  (by decide +kernel : ∀ t : Fin grid0.N, win0_3.index t 0 = t.val ∧ win0_3.index t 1 = 0 ∧ win0_3.index t 2 = 0)

theorem X0_apply (c : Dev nD) (t : Fin cfg0.N) (b : Fin 32) (i j : Fin 14) (ch : Fin 30) (n : Fin 4096)
    (hn : n.val = 32 * t.val + b.val) : X0 m c t (ix4 b i j ch) = Pm m c n i j ch := by
  have hi := idx0 t
  unfold Pm
  show iblk m c 0 t (ix4 b i j ch) = _
  unfold iblk
  rw [View.read_apply]
  show V m c main_arg0 _ = _
  rw [V_main_arg0]
  refine congrArg _ (funext fun a => Fin.ext ?_)
  match a with
  | ⟨0, _⟩ => show win0_0.index t 0 * 32 + 1 * b.val = n.val; rw [hi.1, hn]; omega
  | ⟨1, _⟩ => show win0_0.index t 1 * 14 + 1 * i.val = i.val; rw [hi.2.1]; omega
  | ⟨2, _⟩ => show win0_0.index t 2 * 14 + 1 * j.val = j.val; rw [hi.2.2.1]; omega
  | ⟨3, _⟩ => show win0_0.index t 3 * 30 + 1 * ch.val = ch.val; rw [hi.2.2.2]; omega

theorem X1_apply (c : Dev nD) (t : Fin cfg0.N) (b : Fin 32) (i j : Fin 14) (ch : Fin 4) (n : Fin 4096)
    (hn : n.val = 32 * t.val + b.val) : X1 m c t (ix4 b i j ch) = Bm m c n i j ch := by
  have hi := idx1 t
  unfold Bm
  show iblk m c 1 t (ix4 b i j ch) = _
  unfold iblk
  rw [View.read_apply]
  show V m c main_arg1 _ = _
  rw [V_main_arg1]
  refine congrArg _ (funext fun a => Fin.ext ?_)
  match a with
  | ⟨0, _⟩ => show win0_1.index t 0 * 32 + 1 * b.val = n.val; rw [hi.1, hn]; omega
  | ⟨1, _⟩ => show win0_1.index t 1 * 14 + 1 * i.val = i.val; rw [hi.2.1]; omega
  | ⟨2, _⟩ => show win0_1.index t 2 * 14 + 1 * j.val = j.val; rw [hi.2.2.1]; omega
  | ⟨3, _⟩ => show win0_1.index t 3 * 4 + 1 * ch.val = ch.val; rw [hi.2.2.2]; omega

theorem X2_apply (c : Dev nD) (t : Fin cfg0.N) (b : Fin 32) (i j : Fin 14) (ch : Fin 20) (n : Fin 4096)
    (hn : n.val = 32 * t.val + b.val) : X2 m c t (ix4 b i j ch) = Cm m c n i j ch := by
  have hi := idx2 t
  unfold Cm
  show iblk m c 2 t (ix4 b i j ch) = _
  unfold iblk
  rw [View.read_apply]
  show V m c main_arg2 _ = _
  rw [V_main_arg2]
  refine congrArg _ (funext fun a => Fin.ext ?_)
  match a with
  | ⟨0, _⟩ => show win0_2.index t 0 * 32 + 1 * b.val = n.val; rw [hi.1, hn]; omega
  | ⟨1, _⟩ => show win0_2.index t 1 * 14 + 1 * i.val = i.val; rw [hi.2.1]; omega
  | ⟨2, _⟩ => show win0_2.index t 2 * 14 + 1 * j.val = j.val; rw [hi.2.2.1]; omega
  | ⟨3, _⟩ => show win0_2.index t 3 * 20 + 1 * ch.val = ch.val; rw [hi.2.2.2]; omega

/-- The object indicator reaches the kernel already converted to a number by the host line before the call. -/
theorem V_main_v0_apply (c : Dev nD) (idx : S4096x14x14.Idx) :
    V m c main_v0 idx = FloatOps.uitofp (F := Ideal) .f32 (m ((c : Thread nD τ).loc main_arg3) idx) := by
  show StableHlo.after hostOps0 (fun b => m (c, b)) (Proc.devRef .tc main_v0) idx = _
  simp only [StableHlo.after_cons, StableHlo.after_nil]
  rw [StableHlo.unary_result]
  rfl

theorem X3_apply (c : Dev nD) (t : Fin cfg0.N) (b : Fin 32) (i j : Fin 14) (n : Fin 4096)
    (hn : n.val = 32 * t.val + b.val) : X3 m c t (ix3 b i j) = Om m c n i j := by
  have hi := idx3 t
  unfold Om
  show iblk m c 3 t (ix3 b i j) = _
  unfold iblk
  rw [View.read_apply]
  show V m c main_v0 _ = _
  rw [V_main_v0_apply]
  refine congrArg _ (congrArg _ (funext fun a => Fin.ext ?_))
  match a with
  | ⟨0, _⟩ => show win0_3.index t 0 * 32 + 1 * b.val = n.val; rw [hi.1, hn]; omega
  | ⟨1, _⟩ => show win0_3.index t 1 * 14 + 1 * i.val = i.val; rw [hi.2.1]; omega
  | ⟨2, _⟩ => show win0_3.index t 2 * 14 + 1 * j.val = j.val; rw [hi.2.2]; omega

/-- The batch image a block's image is. -/
def img (t : Fin cfg0.N) (b : Fin 32) : Fin 4096 :=
  ⟨32 * t.val + b.val, by have := t.isLt; have hN : cfg0.N = 128 := N_0; have := b.isLt; omega⟩

theorem cellP_eq (c : Dev nD) (t : Fin cfg0.N) (b : Fin 32) (i j : Fin 14) :
    cellP (X0 m c t) b i j = Pm m c (img t b) i j := funext fun ch => X0_apply m c t b i j ch _ rfl
theorem cellB_eq (c : Dev nD) (t : Fin cfg0.N) (b : Fin 32) (i j : Fin 14) :
    cellB (X1 m c t) b i j = Bm m c (img t b) i j := funext fun ch => X1_apply m c t b i j ch _ rfl
theorem cellC_eq (c : Dev nD) (t : Fin cfg0.N) (b : Fin 32) (i j : Fin 14) :
    cellC (X2 m c t) b i j = Cm m c (img t b) i j := funext fun ch => X2_apply m c t b i j ch _ rfl
theorem cellO_eq (c : Dev nD) (t : Fin cfg0.N) (b : Fin 32) (i j : Fin 14) :
    cellO (X3 m c t) b i j = Om m c (img t b) i j := X3_apply m c t b i j _ rfl

end Cert.KernelIdeal.Run

end
-- ==== Proof.KerSums.lean ====
/-
  The kernel's six accumulated sums are the batch's six sums: a sum over 128 blocks of per-block sums over 32 images is
  the sum over the 4096 images.
-/
import proofs.«169991_j1297080123428_2_alg».proof.Proof.KerBlocks

noncomputable section

open Idealize.ShloMosaic Idealize.ShloMosaic.TcCoe Idealize.SL.Sem
open Idealize.ShloMosaic.Pipeline (Dat)

namespace Cert.KernelIdeal.Run

open Cert.KernelIdeal Cert.KernelIdeal.Gen Cert.KernelIdeal.Cells Cert.KernelIdeal.Acc Idealize.ShloMosaic.ValueIdx
open Idealize.ShloMosaic.StableHlo

variable (m : (ℓ : Loc nD τ sig) → Buf (Elt Ideal) ℓ) (ρ : Dev nD → PrngReg)

/-! ## The six accumulated sums are the batch's sums -/

theorem sCls_eq (c : Dev nD) : sCls m c = Yolo.totCls (Pm m c) (Cm m c) (Om m c) := by
  unfold sCls Yolo.totCls
  refine Yolo.sum_blocks' N_0 (fun n => ∑ i, ∑ j, ∑ ch, Yolo.clsTerm (Pm m c n i j) (Cm m c n i j) (Om m c n i j) ch) _
    (fun t => ?_)
  unfold pCls
  rw [clsPart_apply]
  refine Finset.sum_congr rfl fun b _ => Finset.sum_congr rfl fun i _ => Finset.sum_congr rfl fun j _ => ?_
  rw [cellP_eq, cellC_eq, cellO_eq]
  rfl

theorem sReg_eq (c : Dev nD) : sReg m c = Yolo.totReg (Pm m c) (Bm m c) (Om m c) := by
  unfold sReg Yolo.totReg
  refine Yolo.sum_blocks' N_0 (fun n => ∑ i, ∑ j, Yolo.regCell (Pm m c n i j) (Bm m c n i j) (Om m c n i j)) _ (fun t => ?_)
  unfold pReg
  rw [regPart_apply]
  refine Finset.sum_congr rfl fun b _ => Finset.sum_congr rfl fun i _ => Finset.sum_congr rfl fun j _ => ?_
  rw [cellP_eq, cellB_eq, cellO_eq]
  rfl

theorem sConf_eq (c : Dev nD) : sConf m c = Yolo.totConf (Pm m c) (Bm m c) (Om m c) := by
  unfold sConf Yolo.totConf
  refine Yolo.sum_blocks' N_0 (fun n => ∑ i, ∑ j, Yolo.confCell (Pm m c n i j) (Bm m c n i j) (Om m c n i j)) _ (fun t => ?_)
  unfold pConf
  rw [confPart_apply]
  refine Finset.sum_congr rfl fun b _ => Finset.sum_congr rfl fun i _ => Finset.sum_congr rfl fun j _ => ?_
  rw [cellP_eq, cellB_eq, cellO_eq]
  rfl

theorem sObj_eq (c : Dev nD) : sObj m c = Yolo.totObj (Om m c) := by
  unfold sObj Yolo.totObj
  refine Yolo.sum_blocks' N_0 (fun n => ∑ i, ∑ j, Om m c n i j) _ (fun t => ?_)
  unfold pObj
  refine Finset.sum_congr rfl fun b _ => Finset.sum_congr rfl fun i _ => Finset.sum_congr rfl fun j _ => ?_
  rw [cellO_eq]
  rfl

theorem sNnobj_eq (c : Dev nD) : sNnobj m c = Yolo.totNnobj (Om m c) := by
  unfold sNnobj Yolo.totNnobj
  refine Yolo.sum_blocks' N_0 (fun n => ∑ i, ∑ j, (Yolo.one - Om m c n i j)) _ (fun t => ?_)
  unfold pNnobj
  rw [nnobjPart_apply]
  refine Finset.sum_congr rfl fun b _ => Finset.sum_congr rfl fun i _ => Finset.sum_congr rfl fun j _ => ?_
  rw [cellO_eq]
  rfl

theorem sNo_eq (c : Dev nD) : sNo m c = Yolo.totNo1 (Pm m c) (Om m c) + Yolo.totNo2 (Pm m c) (Om m c) := by
  unfold sNo Yolo.totNo1 Yolo.totNo2
  have h : ∀ t : Fin cfg0.N, pNo m c t
      = (∑ b : Fin 32, ∑ i, ∑ j, ∑ ch, Yolo.noTerm1 (Pm m c (img t b) i j) (Om m c (img t b) i j) ch)
        + ∑ b : Fin 32, ∑ i, ∑ j, ∑ ch, Yolo.noTerm2 (Pm m c (img t b) i j) (Om m c (img t b) i j) ch := fun t => by
    unfold pNo
    rw [noPart_apply]
    refine congrArg₂ (· + ·) ?_ ?_ <;>
      refine Finset.sum_congr rfl fun b _ => Finset.sum_congr rfl fun i _ => Finset.sum_congr rfl fun j _ => ?_ <;>
      rw [cellP_eq, cellO_eq]
  rw [Finset.sum_congr rfl (fun t _ => h t), Finset.sum_add_distrib]
  exact congrArg₂ (· + ·)
    (Yolo.sum_blocks' N_0 (fun n => ∑ i, ∑ j, ∑ ch, Yolo.noTerm1 (Pm m c n i j) (Om m c n i j) ch) _ (fun t => rfl))
    (Yolo.sum_blocks' N_0 (fun n => ∑ i, ∑ j, ∑ ch, Yolo.noTerm2 (Pm m c n i j) (Om m c n i j) ch) _ (fun t => rfl))

end Cert.KernelIdeal.Run

end
-- ==== Proof.KerTailOps.lean ====
/-
  The host lines after the call, on any contents of the six 1×1 output arrays: from a class sum a4, a no-object sum a5, a
  regression sum a6, a confidence sum a7, an object count a8 and a no-object count a9 they leave the five losses.
-/
import proofs.«169991_j1297080123428_2_alg».proof.Proof.Gen.KernelIdeal.Launch
import proofs.«169991_j1297080123428_2_alg».proof.Proof.Sums
import Idealize.ShloMosaic.Lib.StableHlo.Run

noncomputable section

open Idealize.ShloMosaic Idealize.ShloMosaic.TcCoe Idealize.SL.Sem

namespace Cert.KernelIdeal.Run

open Cert.KernelIdeal Cert.KernelIdeal.Gen Idealize.ShloMosaic.StableHlo

variable (W : Valuation τ sig (Elt Ideal)) (a4 a5 a6 a7 a8 a9 : Yolo.R)
  (h4 : W (Proc.devRef .tc main_v1_0) = (fun _ => a4 : S1x1.Idx → Ideal .f32)) (h5 : W (Proc.devRef .tc main_v1_1) = (fun _ => a5 : S1x1.Idx → Ideal .f32))
  (h6 : W (Proc.devRef .tc main_v1_2) = (fun _ => a6 : S1x1.Idx → Ideal .f32)) (h7 : W (Proc.devRef .tc main_v1_3) = (fun _ => a7 : S1x1.Idx → Ideal .f32))
  (h8 : W (Proc.devRef .tc main_v1_4) = (fun _ => a8 : S1x1.Idx → Ideal .f32)) (h9 : W (Proc.devRef .tc main_v1_5) = (fun _ => a9 : S1x1.Idx → Ideal .f32))

include h4 in
theorem tailOps_cls : after hostOps1 W (Proc.devRef .tc main_v5) = fun _ => Yolo.lossCls a4 := by
  after_results
  rw [h4]
  funext i
  rfl

include h5 h9 in
theorem tailOps_no : after hostOps1 W (Proc.devRef .tc main_v8) = fun _ => Yolo.lossNo a5 a9 := by
  after_results
  rw [h5, h9]
  funext i
  rfl

include h6 h8 in
theorem tailOps_reg : after hostOps1 W (Proc.devRef .tc main_v11) = fun _ => Yolo.lossReg a6 a8 := by
  after_results
  rw [h6, h8]
  funext i
  rfl

include h7 h8 in
theorem tailOps_conf : after hostOps1 W (Proc.devRef .tc main_v13) = fun _ => Yolo.lossConf a7 a8 := by
  after_results
  rw [h7, h8]
  funext i
  rfl

set_option maxHeartbeats 4000000 in
include h4 h5 h6 h7 h8 h9 in
theorem tailOps_total :
    after hostOps1 W (Proc.devRef .tc main_v16) = fun _ => Yolo.lossTotal a4 a5 a6 a7 a8 a9 := by
  after_results
  rw [h4, h5, h6, h7, h8, h9]
  funext i
  rfl

end Cert.KernelIdeal.Run

end
-- ==== Proof.KerTail.lean ====
/-
  The host lines after the call: run on the six accumulated sums they leave the five losses in the five result buffers.
-/
import proofs.«169991_j1297080123428_2_alg».proof.Proof.KerSums
import proofs.«169991_j1297080123428_2_alg».proof.Proof.KerTailOps

noncomputable section

open Idealize.ShloMosaic Idealize.ShloMosaic.TcCoe Idealize.SL.Sem
open Idealize.ShloMosaic.Pipeline (Dat)

namespace Cert.KernelIdeal.Run

open Cert.KernelIdeal Cert.KernelIdeal.Gen Cert.KernelIdeal.Cells Cert.KernelIdeal.Acc Idealize.ShloMosaic.ValueIdx
open Idealize.ShloMosaic.StableHlo

variable (m : (ℓ : Loc nD τ sig) → Buf (Elt Ideal) ℓ) (ρ : Dev nD → PrngReg)

/-! ## The five results -/

/-- The five losses of core `c`'s batch, as contents of the five result buffers. -/
abbrev resTotal (c : Dev nD) : Buf (Elt Ideal) ((c : Thread nD τ).loc main_v16) :=
  fun _ => Yolo.LTotal (Pm m c) (Bm m c) (Cm m c) (Om m c)
abbrev resReg (c : Dev nD) : Buf (Elt Ideal) ((c : Thread nD τ).loc main_v11) :=
  fun _ => Yolo.LReg (Pm m c) (Bm m c) (Om m c)
abbrev resConf (c : Dev nD) : Buf (Elt Ideal) ((c : Thread nD τ).loc main_v13) :=
  fun _ => Yolo.LConf (Pm m c) (Bm m c) (Om m c)
abbrev resNo (c : Dev nD) : Buf (Elt Ideal) ((c : Thread nD τ).loc main_v8) :=
  fun _ => Yolo.LNo (Pm m c) (Om m c)
abbrev resCls (c : Dev nD) : Buf (Elt Ideal) ((c : Thread nD τ).loc main_v5) :=
  fun _ => Yolo.LCls (Pm m c) (Cm m c) (Om m c)

set_option maxHeartbeats 4000000 in
/-- The host lines after the call, run on the six accumulated sums, leave the five losses. -/
theorem tail_all (c : Dev nD) :
    Pipeline.afterTail₀ cfgs (dats m) 0 (V0 m) [hostOps1] c main_v16 = resTotal m c
    ∧ Pipeline.afterTail₀ cfgs (dats m) 0 (V0 m) [hostOps1] c main_v11 = resReg m c
    ∧ Pipeline.afterTail₀ cfgs (dats m) 0 (V0 m) [hostOps1] c main_v13 = resConf m c
    ∧ Pipeline.afterTail₀ cfgs (dats m) 0 (V0 m) [hostOps1] c main_v8 = resNo m c
    ∧ Pipeline.afterTail₀ cfgs (dats m) 0 (V0 m) [hostOps1] c main_v5 = resCls m c := by
  unfold resTotal resReg resConf resNo resCls Yolo.LTotal Yolo.LReg Yolo.LConf Yolo.LNo Yolo.LCls
  rw [← sCls_eq, ← sNo_eq, ← sReg_eq, ← sConf_eq, ← sObj_eq, ← sNnobj_eq]
  unfold Pipeline.afterTail₀
  simp only [List.flatten_cons, List.flatten_nil, List.append_nil]
  have h4 := (Pipeline.withArrays_arr (cfgs 0).spec launch0.win.arr_inj c (V0 m c) (fun w => (dats m 0 c).arrAt w (cfgs 0).N) 4).trans (final_4 m c)
  have h5 := (Pipeline.withArrays_arr (cfgs 0).spec launch0.win.arr_inj c (V0 m c) (fun w => (dats m 0 c).arrAt w (cfgs 0).N) 5).trans (final_5 m c)
  have h6 := (Pipeline.withArrays_arr (cfgs 0).spec launch0.win.arr_inj c (V0 m c) (fun w => (dats m 0 c).arrAt w (cfgs 0).N) 6).trans (final_6 m c)
  have h7 := (Pipeline.withArrays_arr (cfgs 0).spec launch0.win.arr_inj c (V0 m c) (fun w => (dats m 0 c).arrAt w (cfgs 0).N) 7).trans (final_7 m c)
  have h8 := (Pipeline.withArrays_arr (cfgs 0).spec launch0.win.arr_inj c (V0 m c) (fun w => (dats m 0 c).arrAt w (cfgs 0).N) 8).trans (final_8 m c)
  have h9 := (Pipeline.withArrays_arr (cfgs 0).spec launch0.win.arr_inj c (V0 m c) (fun w => (dats m 0 c).arrAt w (cfgs 0).N) 9).trans (final_9 m c)
  generalize Pipeline.withArrays _ _ _ _ = W at h4 h5 h6 h7 h8 h9 ⊢
  have h4' : W (Proc.devRef .tc main_v1_0) = R4 m c := h4
  have h5' : W (Proc.devRef .tc main_v1_1) = R5 m c := h5
  have h6' : W (Proc.devRef .tc main_v1_2) = R6 m c := h6
  have h7' : W (Proc.devRef .tc main_v1_3) = R7 m c := h7
  have h8' : W (Proc.devRef .tc main_v1_4) = R8 m c := h8
  have h9' : W (Proc.devRef .tc main_v1_5) = R9 m c := h9
  exact ⟨tailOps_total W _ _ _ _ _ _ h4' h5' h6' h7' h8' h9', tailOps_reg W _ _ h6' h8', tailOps_conf W _ _ h7' h8',
    tailOps_no W _ _ h5' h9', tailOps_cls W _ h4'⟩

end Cert.KernelIdeal.Run

end
-- ==== Proof.KerRun.lean ====
/-
  The kernel's program, read as values: the host lines after the call turn the six accumulated sums into the five losses,
  so every execution ends with the five result buffers at the batch's five losses and the arguments unchanged.
-/
import proofs.«169991_j1297080123428_2_alg».proof.Proof.KerTail

noncomputable section

open Idealize.ShloMosaic Idealize.ShloMosaic.TcCoe Idealize.SL.Sem
open Idealize.ShloMosaic.Pipeline (Dat)

namespace Cert.KernelIdeal.Run

open Cert.KernelIdeal Cert.KernelIdeal.Gen Cert.KernelIdeal.Cells Cert.KernelIdeal.Acc Idealize.ShloMosaic.ValueIdx
open Idealize.ShloMosaic.StableHlo

variable (m : (ℓ : Loc nD τ sig) → Buf (Elt Ideal) ℓ) (ρ : Dev nD → PrngReg)

/-- Every weakly fair execution of the kernel's @main terminates with the five result buffers at the batch's five
    losses and the arguments unchanged. -/
theorem run : θ_run defs (onTc (τ := τ) (main (F := Ideal))) ⟨m, fun _ => 0, ρ⟩ fun r => ∀ c : Dev nD,
      r.2.mem ((c : Thread nD τ).loc main_v16) = resTotal m c
      ∧ r.2.mem ((c : Thread nD τ).loc main_v11) = resReg m c
      ∧ r.2.mem ((c : Thread nD τ).loc main_v13) = resConf m c
      ∧ r.2.mem ((c : Thread nD τ).loc main_v8) = resNo m c
      ∧ r.2.mem ((c : Thread nD τ).loc main_v5) = resCls m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v16 (Pipeline.mem_restRefs_of main_v16 (by decide) (by decide))).trans (tail_all m c).1,
      ((h c).2 main_v11 (Pipeline.mem_restRefs_of main_v11 (by decide) (by decide))).trans (tail_all m c).2.1,
      ((h c).2 main_v13 (Pipeline.mem_restRefs_of main_v13 (by decide) (by decide))).trans (tail_all m c).2.2.1,
      ((h c).2 main_v8 (Pipeline.mem_restRefs_of main_v8 (by decide) (by decide))).trans (tail_all m c).2.2.2.1,
      ((h c).2 main_v5 (Pipeline.mem_restRefs_of main_v5 (by decide) (by decide))).trans (tail_all m c).2.2.2.2,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.Run

end
-- ==== Proof.LibLineOfOps.lean ====
/-
  A straight line of host operations in which every operation writes one buffer of its own (as a printed @main does:
  each tensor value has its buffer), read one operation at a time.

  `after ops V` is what the buffers hold once the line has run from the contents `V`.  If the k-th operation writes
  exactly the k-th reference of a list `wr`, then a reference that is not written from position k on holds, after the
  whole line, what it holds after the first k operations; so the k-th operation's result buffer holds, after the whole
  line, the operation's function of what its operand buffers hold after the whole line (operands are written earlier,
  the result by no later operation).  Each side condition is a non-membership in a literal list of references.
-/
import Idealize.ShloMosaic.Lib.StableHlo.Run
import Mathlib.Data.List.Forall2

noncomputable section

namespace Idealize.ShloMosaic.StableHlo

open Idealize.ShloMosaic.TcCoe

variable {τ : Topo} {sig : RefSig} {Val : EltTy → Type}

/-- The line run in two parts. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Every operation of a line related entry by entry to a list has its partner in the list. -/
theorem exists_of_forall₂_mem {α β : Type*} {R : α → β → Prop} :
    ∀ {l₁ : List α} {l₂ : List β}, List.Forall₂ R l₁ l₂ → ∀ a ∈ l₁, ∃ b ∈ l₂, R a b
  | _, _, .nil, a, ha => absurd ha List.not_mem_nil
  | _, _, .cons hab h, a, ha => by
    rcases List.mem_cons.mp ha with rfl | ha
    · exact ⟨_, List.mem_cons_self, hab⟩
    · obtain ⟨b, hb, hr⟩ := exists_of_forall₂_mem h a ha
      exact ⟨b, List.mem_cons_of_mem _ hb, hr⟩

/-- "The k-th operation writes exactly the k-th reference." -/
abbrev WritesEach (ops : List (HloOp τ sig Val)) (wr : List (Ref sig .tc)) : Prop :=
  List.Forall₂ (fun (op : HloOp τ sig Val) (r : Ref sig .tc) => op.writes = {Proc.devRef .tc r}) ops wr

variable {ops : List (HloOp τ sig Val)} {wr : List (Ref sig .tc)}

/-- A reference not written from position `k` on holds after the line what it holds after the first `k` operations. -/
theorem after_eq_after_take (h : WritesEach ops wr) (V : Valuation τ sig Val) (k : ℕ) (r : Ref sig .tc)
    (hr : r ∉ wr.drop k) : after ops V (Proc.devRef .tc r) = after (ops.take k) V (Proc.devRef .tc r) := by
  have h' := List.forall₂_drop k h
  have e : after ops V = after (ops.drop k) (after (ops.take k) V) := by
    rw [← after_append, List.take_append_drop]
  rw [e]
  refine after_of_forall_not_mem _ _ fun op hop hb => ?_
  obtain ⟨r', hr', hw⟩ := exists_of_forall₂_mem h' op hop
  rw [hw, Finset.mem_singleton] at hb
  exact hr (Proc.devRef_injective _ hb ▸ hr')

/-- A reference the line never writes keeps its launch contents. -/
theorem after_of_not_written (h : WritesEach ops wr) (V : Valuation τ sig Val) (r : Ref sig .tc) (hr : r ∉ wr) :
    after ops V (Proc.devRef .tc r) = V (Proc.devRef .tc r) :=
  (after_eq_after_take h V 0 r hr).trans rfl

/-- The k-th operation's result buffer, not written later, holds what the operation leaves there. -/
theorem after_at (h : WritesEach ops wr) (V : Valuation τ sig Val) (k : ℕ) (op : HloOp τ sig Val) (y : Ref sig .tc)
    (hk : ops[k]? = some op) (hy : y ∉ wr.drop (k + 1)) :
    after ops V (Proc.devRef .tc y) = op.result (after (ops.take k) V) (Proc.devRef .tc y) := by
  rw [after_eq_after_take h V (k + 1) y hy]
  have e : ops.take (k + 1) = ops.take k ++ [op] := by rw [List.take_succ, hk]; rfl
  rw [e, after_append]
  rfl

theorem after_nullary (h : WritesEach ops wr) (V : Valuation τ sig Val) (k : ℕ) (y : Ref sig .tc) (v : y.ty.Contents Val)
    (hy) (hk : ops[k]? = some (nullary y v hy)) (hy' : y ∉ wr.drop (k + 1)) :
    after ops V (Proc.devRef .tc y) = v := by
  rw [after_at h V k _ y hk hy']
  exact nullary_result y v hy _

theorem after_unary (h : WritesEach ops wr) (V : Valuation τ sig Val) (k : ℕ) (x y : Ref sig .tc)
    (f : x.ty.Contents Val → y.ty.Contents Val) (hx hy) (hk : ops[k]? = some (unary x y f hx hy))
    (hy' : y ∉ wr.drop (k + 1)) (hx' : x ∉ wr.drop k) :
    after ops V (Proc.devRef .tc y) = f (after ops V (Proc.devRef .tc x)) := by
  rw [after_at h V k _ y hk hy', after_eq_after_take h V k x hx']
  exact unary_result x y f hx hy _

theorem after_binary (h : WritesEach ops wr) (V : Valuation τ sig Val) (k : ℕ) (a b y : Ref sig .tc)
    (f : a.ty.Contents Val → b.ty.Contents Val → y.ty.Contents Val) (ha hb hy)
    (hk : ops[k]? = some (binary a b y f ha hb hy))
    (hy' : y ∉ wr.drop (k + 1)) (ha' : a ∉ wr.drop k) (hb' : b ∉ wr.drop k) :
    after ops V (Proc.devRef .tc y) = f (after ops V (Proc.devRef .tc a)) (after ops V (Proc.devRef .tc b)) := by
  rw [after_at h V k _ y hk hy', after_eq_after_take h V k a ha', after_eq_after_take h V k b hb']
  exact binary_result a b y f ha hb hy _

theorem after_ternary (h : WritesEach ops wr) (V : Valuation τ sig Val) (k : ℕ) (c a b y : Ref sig .tc)
    (f : c.ty.Contents Val → a.ty.Contents Val → b.ty.Contents Val → y.ty.Contents Val) (hc ha hb hy)
    (hk : ops[k]? = some (ternary c a b y f hc ha hb hy))
    (hy' : y ∉ wr.drop (k + 1)) (hc' : c ∉ wr.drop k) (ha' : a ∉ wr.drop k) (hb' : b ∉ wr.drop k) :
    after ops V (Proc.devRef .tc y)
      = f (after ops V (Proc.devRef .tc c)) (after ops V (Proc.devRef .tc a)) (after ops V (Proc.devRef .tc b)) := by
  rw [after_at h V k _ y hk hy', after_eq_after_take h V k c hc', after_eq_after_take h V k a ha',
    after_eq_after_take h V k b hb']
  exact ternary_result c a b y f hc ha hb hy _

theorem after_reshape (h : WritesEach ops wr) (V : Valuation τ sig Val) (k : ℕ) (x y : Ref sig .tc)
    (he : x.ty.elt = y.ty.elt) (hn : x.ty.shape.ShapeCasts y.ty.shape) (hx hy)
    (hk : ops[k]? = some (reshape x y he hn hx hy)) (hy' : y ∉ wr.drop (k + 1)) (hx' : x ∉ wr.drop k) :
    after ops V (Proc.devRef .tc y)
      = fun i => he ▸ shapeCast y.ty.shape (after ops V (Proc.devRef .tc x)) hn i := by
  rw [after_at h V k _ y hk hy', after_eq_after_take h V k x hx']
  exact reshape_result x y he hn hx hy _

theorem after_nary4 (h : WritesEach ops wr) (V : Valuation τ sig Val) (k : ℕ) (x a b c y : Ref sig .tc)
    (f : ((j : Fin 4) → ((![x, a, b, c] : Fin 4 → Ref sig .tc) j).ty.Contents Val) → y.ty.Contents Val) (hxs hy)
    (hk : ops[k]? = some (nary ![x, a, b, c] y f hxs hy)) (hy' : y ∉ wr.drop (k + 1))
    (hx' : x ∉ wr.drop k) (ha' : a ∉ wr.drop k) (hb' : b ∉ wr.drop k) (hc' : c ∉ wr.drop k) :
    after ops V (Proc.devRef .tc y)
      = f (Fin.cons (after ops V (Proc.devRef .tc x)) (Fin.cons (after ops V (Proc.devRef .tc a))
          (Fin.cons (after ops V (Proc.devRef .tc b)) (Fin.cons (after ops V (Proc.devRef .tc c)) (fun i => i.elim0))))) := by
  rw [after_at h V k _ y hk hy', after_eq_after_take h V k x hx', after_eq_after_take h V k a ha',
    after_eq_after_take h V k b hb', after_eq_after_take h V k c hc']
  exact nary4_result f hxs hy _

end Idealize.ShloMosaic.StableHlo

end
-- ==== Proof.RefProgram.lean ====
/-
  The reference program as a list of its host operations, in the order @main runs them (an outlined function's
  operations standing in its call's place), and one named stage per operation: the operation applied to its operands'
  stages, as a function of @main's four arguments.  Every weakly fair execution of @main ends with each result buffer at
  its stage of the launch contents and the arguments unchanged.
-/
import proofs.«169991_j1297080123428_2_alg».proof.Proof.Gen.ReferenceIdeal
import proofs.«169991_j1297080123428_2_alg».proof.Proof.LibLineOfOps

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- The operations of @main's window 0, in order. -/
abbrev ops0 : List (HloOp τ sig (Elt F)) :=
  [ unary main_arg3 main_v0 (uitofp .f32 : (⟨S4096x14x14, .i1⟩ : BufTy).Contents (Elt F) → (⟨S4096x14x14, .f32⟩ : BufTy).Contents (Elt F)),
    nullary main_cst (constant S_ .f32 0x3F800000#32),
    unary main_cst main_v1 (broadcastInDim S4096x14x14 ![] bcast_S_S4096x14x14 : (⟨S_, .f32⟩ : BufTy).Contents (Elt F) → (⟨S4096x14x14, .f32⟩ : BufTy).Contents (Elt F)),
    binary main_v1 main_v0 main_v2 (subf : (⟨S4096x14x14, .f32⟩ : BufTy).Contents (Elt F) → (⟨S4096x14x14, .f32⟩ : BufTy).Contents (Elt F) → (⟨S4096x14x14, .f32⟩ : BufTy).Contents (Elt F)),
    nullary main_cst_0 (constant S_ .f32 0x00000000#32),
    binary main_v0 main_cst_0 main_v3 ((fun x v => Host.reduceAdd x v reducesTo_S4096x14x14_S_d0_1_2 h_S_) : (⟨S4096x14x14, .f32⟩ : BufTy).Contents (Elt F) → (⟨S_, .f32⟩ : BufTy).Contents (Elt F) → (⟨S_, .f32⟩ : BufTy).Contents (Elt F)),
    nullary main_cst_1 (constant S_ .f32 0x00000000#32),
    binary main_v2 main_cst_1 main_v4 ((fun x v => Host.reduceAdd x v reducesTo_S4096x14x14_S_d0_1_2 h_S_) : (⟨S4096x14x14, .f32⟩ : BufTy).Contents (Elt F) → (⟨S_, .f32⟩ : BufTy).Contents (Elt F) → (⟨S_, .f32⟩ : BufTy).Contents (Elt F)),
    unary main_arg0 main_v5 ((extractStridedSlice S4096x14x14x5 ![0, 0, 0, 0] · slices_S4096x14x14x30_S4096x14x14x5_0_0_0_0) : (⟨S4096x14x14x30, .f32⟩ : BufTy).Contents (Elt F) → (⟨S4096x14x14x5, .f32⟩ : BufTy).Contents (Elt F)),
    unary main_arg0 main_v6 ((extractStridedSlice S4096x14x14x5 ![0, 0, 0, 5] · slices_S4096x14x14x30_S4096x14x14x5_0_0_0_5) : (⟨S4096x14x14x30, .f32⟩ : BufTy).Contents (Elt F) → (⟨S4096x14x14x5, .f32⟩ : BufTy).Contents (Elt F)),
    unary main_arg0 main_v7 ((extractStridedSlice S4096x14x14x20 ![0, 0, 0, 10] · slices_S4096x14x14x30_S4096x14x14x20_0_0_0_10) : (⟨S4096x14x14x30, .f32⟩ : BufTy).Contents (Elt F) → (⟨S4096x14x14x20, .f32⟩ : BufTy).Contents (Elt F)),
    unary main_v0 main_v8 (broadcastInDim S4096x14x14x1 ![0, 1, 2] bcast_S4096x14x14_S4096x14x14x1_0_1_2 : (⟨S4096x14x14, .f32⟩ : BufTy).Contents (Elt F) → (⟨S4096x14x14x1, .f32⟩ : BufTy).Contents (Elt F)),
    binary main_v7 main_arg2 main_v9 (subf : (⟨S4096x14x14x20, .f32⟩ : BufTy).Contents (Elt F) → (⟨S4096x14x14x20, .f32⟩ : BufTy).Contents (Elt F) → (⟨S4096x14x14x20, .f32⟩ : BufTy).Contents (Elt F)),
    binary main_v9 main_v9 main_v10 (mulf : (⟨S4096x14x14x20, .f32⟩ : BufTy).Contents (Elt F) → (⟨S4096x14x14x20, .f32⟩ : BufTy).Contents (Elt F) → (⟨S4096x14x14x20, .f32⟩ : BufTy).Contents (Elt F)),
    unary main_v8 main_v11 (broadcastInDim S4096x14x14x20 ![0, 1, 2, 3] bcast_S4096x14x14x1_S4096x14x14x20_0_1_2_3 : (⟨S4096x14x14x1, .f32⟩ : BufTy).Contents (Elt F) → (⟨S4096x14x14x20, .f32⟩ : BufTy).Contents (Elt F)),
    binary main_v11 main_v10 main_v12 (mulf : (⟨S4096x14x14x20, .f32⟩ : BufTy).Contents (Elt F) → (⟨S4096x14x14x20, .f32⟩ : BufTy).Contents (Elt F) → (⟨S4096x14x14x20, .f32⟩ : BufTy).Contents (Elt F)),
    nullary main_cst_2 (constant S_ .f32 0x00000000#32),
    binary main_v12 main_cst_2 main_v13 ((fun x v => Host.reduceAdd x v reducesTo_S4096x14x14x20_S_d0_1_2_3 h_S_) : (⟨S4096x14x14x20, .f32⟩ : BufTy).Contents (Elt F) → (⟨S_, .f32⟩ : BufTy).Contents (Elt F) → (⟨S_, .f32⟩ : BufTy).Contents (Elt F)),
    nullary main_cst_3 (constant S_ .f32 0x45800000#32),
    binary main_v13 main_cst_3 main_v14 (Host.divf : (⟨S_, .f32⟩ : BufTy).Contents (Elt F) → (⟨S_, .f32⟩ : BufTy).Contents (Elt F) → (⟨S_, .f32⟩ : BufTy).Contents (Elt F)),
    unary main_v2 main_v15 (broadcastInDim S4096x14x14x1 ![0, 1, 2] bcast_S4096x14x14_S4096x14x14x1_0_1_2 : (⟨S4096x14x14, .f32⟩ : BufTy).Contents (Elt F) → (⟨S4096x14x14x1, .f32⟩ : BufTy).Contents (Elt F)),
    binary main_v5 main_v5 main_v16 (mulf : (⟨S4096x14x14x5, .f32⟩ : BufTy).Contents (Elt F) → (⟨S4096x14x14x5, .f32⟩ : BufTy).Contents (Elt F) → (⟨S4096x14x14x5, .f32⟩ : BufTy).Contents (Elt F)),
    unary main_v15 main_v17 (broadcastInDim S4096x14x14x5 ![0, 1, 2, 3] bcast_S4096x14x14x1_S4096x14x14x5_0_1_2_3 : (⟨S4096x14x14x1, .f32⟩ : BufTy).Contents (Elt F) → (⟨S4096x14x14x5, .f32⟩ : BufTy).Contents (Elt F)),
    binary main_v17 main_v16 main_v18 (mulf : (⟨S4096x14x14x5, .f32⟩ : BufTy).Contents (Elt F) → (⟨S4096x14x14x5, .f32⟩ : BufTy).Contents (Elt F) → (⟨S4096x14x14x5, .f32⟩ : BufTy).Contents (Elt F)),
    nullary main_cst_4 (constant S_ .f32 0x00000000#32),
    binary main_v18 main_cst_4 main_v19 ((fun x v => Host.reduceAdd x v reducesTo_S4096x14x14x5_S_d0_1_2_3 h_S_) : (⟨S4096x14x14x5, .f32⟩ : BufTy).Contents (Elt F) → (⟨S_, .f32⟩ : BufTy).Contents (Elt F) → (⟨S_, .f32⟩ : BufTy).Contents (Elt F)),
    unary main_v2 main_v20 (broadcastInDim S4096x14x14x1 ![0, 1, 2] bcast_S4096x14x14_S4096x14x14x1_0_1_2 : (⟨S4096x14x14, .f32⟩ : BufTy).Contents (Elt F) → (⟨S4096x14x14x1, .f32⟩ : BufTy).Contents (Elt F)),
    binary main_v6 main_v6 main_v21 (mulf : (⟨S4096x14x14x5, .f32⟩ : BufTy).Contents (Elt F) → (⟨S4096x14x14x5, .f32⟩ : BufTy).Contents (Elt F) → (⟨S4096x14x14x5, .f32⟩ : BufTy).Contents (Elt F)),
    unary main_v20 main_v22 (broadcastInDim S4096x14x14x5 ![0, 1, 2, 3] bcast_S4096x14x14x1_S4096x14x14x5_0_1_2_3 : (⟨S4096x14x14x1, .f32⟩ : BufTy).Contents (Elt F) → (⟨S4096x14x14x5, .f32⟩ : BufTy).Contents (Elt F)),
    binary main_v22 main_v21 main_v23 (mulf : (⟨S4096x14x14x5, .f32⟩ : BufTy).Contents (Elt F) → (⟨S4096x14x14x5, .f32⟩ : BufTy).Contents (Elt F) → (⟨S4096x14x14x5, .f32⟩ : BufTy).Contents (Elt F)),
    nullary main_cst_5 (constant S_ .f32 0x00000000#32),
    binary main_v23 main_cst_5 main_v24 ((fun x v => Host.reduceAdd x v reducesTo_S4096x14x14x5_S_d0_1_2_3 h_S_) : (⟨S4096x14x14x5, .f32⟩ : BufTy).Contents (Elt F) → (⟨S_, .f32⟩ : BufTy).Contents (Elt F) → (⟨S_, .f32⟩ : BufTy).Contents (Elt F)),
    binary main_v19 main_v24 main_v25 (addf : (⟨S_, .f32⟩ : BufTy).Contents (Elt F) → (⟨S_, .f32⟩ : BufTy).Contents (Elt F) → (⟨S_, .f32⟩ : BufTy).Contents (Elt F)),
    nullary main_cst_6 (constant S_ .f32 0x3F000000#32),
    binary main_cst_6 main_v25 main_v26 (mulf : (⟨S_, .f32⟩ : BufTy).Contents (Elt F) → (⟨S_, .f32⟩ : BufTy).Contents (Elt F) → (⟨S_, .f32⟩ : BufTy).Contents (Elt F)),
    binary main_v26 main_v4 main_v27 (Host.divf : (⟨S_, .f32⟩ : BufTy).Contents (Elt F) → (⟨S_, .f32⟩ : BufTy).Contents (Elt F) → (⟨S_, .f32⟩ : BufTy).Contents (Elt F)),
    unary main_arg1 main_v28 ((extractStridedSlice S4096x14x14x1 ![0, 0, 0, 0] · slices_S4096x14x14x4_S4096x14x14x1_0_0_0_0) : (⟨S4096x14x14x4, .f32⟩ : BufTy).Contents (Elt F) → (⟨S4096x14x14x1, .f32⟩ : BufTy).Contents (Elt F)),
    reshape main_v28 main_v29 rfl shapeCasts_S4096x14x14x1_S4096x14x14,
    unary main_arg1 main_v30 ((extractStridedSlice S4096x14x14x1 ![0, 0, 0, 1] · slices_S4096x14x14x4_S4096x14x14x1_0_0_0_1) : (⟨S4096x14x14x4, .f32⟩ : BufTy).Contents (Elt F) → (⟨S4096x14x14x1, .f32⟩ : BufTy).Contents (Elt F)),
    reshape main_v30 main_v31 rfl shapeCasts_S4096x14x14x1_S4096x14x14,
    unary main_arg1 main_v32 ((extractStridedSlice S4096x14x14x1 ![0, 0, 0, 2] · slices_S4096x14x14x4_S4096x14x14x1_0_0_0_2) : (⟨S4096x14x14x4, .f32⟩ : BufTy).Contents (Elt F) → (⟨S4096x14x14x1, .f32⟩ : BufTy).Contents (Elt F)),
    reshape main_v32 main_v33 rfl shapeCasts_S4096x14x14x1_S4096x14x14,
    unary main_arg1 main_v34 ((extractStridedSlice S4096x14x14x1 ![0, 0, 0, 3] · slices_S4096x14x14x4_S4096x14x14x1_0_0_0_3) : (⟨S4096x14x14x4, .f32⟩ : BufTy).Contents (Elt F) → (⟨S4096x14x14x1, .f32⟩ : BufTy).Contents (Elt F)),
    reshape main_v34 main_v35 rfl shapeCasts_S4096x14x14x1_S4096x14x14,
    nullary main_cst_7 (constant S_ .f32 0x41600000#32),
    unary main_cst_7 main_v36 (broadcastInDim S4096x14x14 ![] bcast_S_S4096x14x14 : (⟨S_, .f32⟩ : BufTy).Contents (Elt F) → (⟨S4096x14x14, .f32⟩ : BufTy).Contents (Elt F)),
    binary main_v29 main_v36 main_v37 (Host.divf : (⟨S4096x14x14, .f32⟩ : BufTy).Contents (Elt F) → (⟨S4096x14x14, .f32⟩ : BufTy).Contents (Elt F) → (⟨S4096x14x14, .f32⟩ : BufTy).Contents (Elt F)),
    nullary main_cst_8 (constant S_ .f32 0x3F000000#32),
    unary main_cst_8 main_v38 (broadcastInDim S4096x14x14 ![] bcast_S_S4096x14x14 : (⟨S_, .f32⟩ : BufTy).Contents (Elt F) → (⟨S4096x14x14, .f32⟩ : BufTy).Contents (Elt F)),
    binary main_v38 main_v33 main_v39 (mulf : (⟨S4096x14x14, .f32⟩ : BufTy).Contents (Elt F) → (⟨S4096x14x14, .f32⟩ : BufTy).Contents (Elt F) → (⟨S4096x14x14, .f32⟩ : BufTy).Contents (Elt F)),
    binary main_v37 main_v39 main_v40 (subf : (⟨S4096x14x14, .f32⟩ : BufTy).Contents (Elt F) → (⟨S4096x14x14, .f32⟩ : BufTy).Contents (Elt F) → (⟨S4096x14x14, .f32⟩ : BufTy).Contents (Elt F)),
    nullary main_cst_9 (constant S_ .f32 0x41600000#32),
    unary main_cst_9 main_v41 (broadcastInDim S4096x14x14 ![] bcast_S_S4096x14x14 : (⟨S_, .f32⟩ : BufTy).Contents (Elt F) → (⟨S4096x14x14, .f32⟩ : BufTy).Contents (Elt F)),
    binary main_v31 main_v41 main_v42 (Host.divf : (⟨S4096x14x14, .f32⟩ : BufTy).Contents (Elt F) → (⟨S4096x14x14, .f32⟩ : BufTy).Contents (Elt F) → (⟨S4096x14x14, .f32⟩ : BufTy).Contents (Elt F)),
    nullary main_cst_10 (constant S_ .f32 0x3F000000#32),
    unary main_cst_10 main_v43 (broadcastInDim S4096x14x14 ![] bcast_S_S4096x14x14 : (⟨S_, .f32⟩ : BufTy).Contents (Elt F) → (⟨S4096x14x14, .f32⟩ : BufTy).Contents (Elt F)),
    binary main_v43 main_v35 main_v44 (mulf : (⟨S4096x14x14, .f32⟩ : BufTy).Contents (Elt F) → (⟨S4096x14x14, .f32⟩ : BufTy).Contents (Elt F) → (⟨S4096x14x14, .f32⟩ : BufTy).Contents (Elt F)),
    binary main_v42 main_v44 main_v45 (subf : (⟨S4096x14x14, .f32⟩ : BufTy).Contents (Elt F) → (⟨S4096x14x14, .f32⟩ : BufTy).Contents (Elt F) → (⟨S4096x14x14, .f32⟩ : BufTy).Contents (Elt F)),
    nullary main_cst_11 (constant S_ .f32 0x41600000#32),
    unary main_cst_11 main_v46 (broadcastInDim S4096x14x14 ![] bcast_S_S4096x14x14 : (⟨S_, .f32⟩ : BufTy).Contents (Elt F) → (⟨S4096x14x14, .f32⟩ : BufTy).Contents (Elt F)) ]

set_option maxRecDepth 8192 in
set_option maxHeartbeats 4000000 in
theorem part0_eq (c : Dev nD) : main_part0 (F := F) c = seq ops0 := rfl

/-- The operations of @main's window 1, in order. -/
abbrev ops1 : List (HloOp τ sig (Elt F)) :=
  [ binary main_v29 main_v46 main_v47 (Host.divf : (⟨S4096x14x14, .f32⟩ : BufTy).Contents (Elt F) → (⟨S4096x14x14, .f32⟩ : BufTy).Contents (Elt F) → (⟨S4096x14x14, .f32⟩ : BufTy).Contents (Elt F)),
    nullary main_cst_12 (constant S_ .f32 0x3F000000#32),
    unary main_cst_12 main_v48 (broadcastInDim S4096x14x14 ![] bcast_S_S4096x14x14 : (⟨S_, .f32⟩ : BufTy).Contents (Elt F) → (⟨S4096x14x14, .f32⟩ : BufTy).Contents (Elt F)),
    binary main_v48 main_v33 main_v49 (mulf : (⟨S4096x14x14, .f32⟩ : BufTy).Contents (Elt F) → (⟨S4096x14x14, .f32⟩ : BufTy).Contents (Elt F) → (⟨S4096x14x14, .f32⟩ : BufTy).Contents (Elt F)),
    binary main_v47 main_v49 main_v50 (addf : (⟨S4096x14x14, .f32⟩ : BufTy).Contents (Elt F) → (⟨S4096x14x14, .f32⟩ : BufTy).Contents (Elt F) → (⟨S4096x14x14, .f32⟩ : BufTy).Contents (Elt F)),
    nullary main_cst_13 (constant S_ .f32 0x41600000#32),
    unary main_cst_13 main_v51 (broadcastInDim S4096x14x14 ![] bcast_S_S4096x14x14 : (⟨S_, .f32⟩ : BufTy).Contents (Elt F) → (⟨S4096x14x14, .f32⟩ : BufTy).Contents (Elt F)),
    binary main_v31 main_v51 main_v52 (Host.divf : (⟨S4096x14x14, .f32⟩ : BufTy).Contents (Elt F) → (⟨S4096x14x14, .f32⟩ : BufTy).Contents (Elt F) → (⟨S4096x14x14, .f32⟩ : BufTy).Contents (Elt F)),
    nullary main_cst_14 (constant S_ .f32 0x3F000000#32),
    unary main_cst_14 main_v53 (broadcastInDim S4096x14x14 ![] bcast_S_S4096x14x14 : (⟨S_, .f32⟩ : BufTy).Contents (Elt F) → (⟨S4096x14x14, .f32⟩ : BufTy).Contents (Elt F)),
    binary main_v53 main_v35 main_v54 (mulf : (⟨S4096x14x14, .f32⟩ : BufTy).Contents (Elt F) → (⟨S4096x14x14, .f32⟩ : BufTy).Contents (Elt F) → (⟨S4096x14x14, .f32⟩ : BufTy).Contents (Elt F)),
    binary main_v52 main_v54 main_v55 (addf : (⟨S4096x14x14, .f32⟩ : BufTy).Contents (Elt F) → (⟨S4096x14x14, .f32⟩ : BufTy).Contents (Elt F) → (⟨S4096x14x14, .f32⟩ : BufTy).Contents (Elt F)),
    unary main_v40 main_v56 (broadcastInDim S4096x14x14x1 ![0, 1, 2] bcast_S4096x14x14_S4096x14x14x1_0_1_2 : (⟨S4096x14x14, .f32⟩ : BufTy).Contents (Elt F) → (⟨S4096x14x14x1, .f32⟩ : BufTy).Contents (Elt F)),
    unary main_v45 main_v57 (broadcastInDim S4096x14x14x1 ![0, 1, 2] bcast_S4096x14x14_S4096x14x14x1_0_1_2 : (⟨S4096x14x14, .f32⟩ : BufTy).Contents (Elt F) → (⟨S4096x14x14x1, .f32⟩ : BufTy).Contents (Elt F)),
    unary main_v50 main_v58 (broadcastInDim S4096x14x14x1 ![0, 1, 2] bcast_S4096x14x14_S4096x14x14x1_0_1_2 : (⟨S4096x14x14, .f32⟩ : BufTy).Contents (Elt F) → (⟨S4096x14x14x1, .f32⟩ : BufTy).Contents (Elt F)),
    unary main_v55 main_v59 (broadcastInDim S4096x14x14x1 ![0, 1, 2] bcast_S4096x14x14_S4096x14x14x1_0_1_2 : (⟨S4096x14x14, .f32⟩ : BufTy).Contents (Elt F) → (⟨S4096x14x14x1, .f32⟩ : BufTy).Contents (Elt F)),
    nary ![main_v56, main_v57, main_v58, main_v59] main_v60 (fun u => concatenate S4096x14x14x4 3 [⟨S4096x14x14x1, u 0⟩, ⟨S4096x14x14x1, u 1⟩, ⟨S4096x14x14x1, u 2⟩, ⟨S4096x14x14x1, u 3⟩] concatenates_S4096x14x14x1_S4096x14x14x1_S4096x14x14x1_S4096x14x14x1_S4096x14x14x4_d3),
    unary main_v5 main_v61 ((extractStridedSlice S4096x14x14x4 ![0, 0, 0, 0] · slices_S4096x14x14x5_S4096x14x14x4_0_0_0_0) : (⟨S4096x14x14x5, .f32⟩ : BufTy).Contents (Elt F) → (⟨S4096x14x14x4, .f32⟩ : BufTy).Contents (Elt F)),
    unary main_v61 main_v62 ((extractStridedSlice S4096x14x14x1 ![0, 0, 0, 0] · slices_S4096x14x14x4_S4096x14x14x1_0_0_0_0) : (⟨S4096x14x14x4, .f32⟩ : BufTy).Contents (Elt F) → (⟨S4096x14x14x1, .f32⟩ : BufTy).Contents (Elt F)),
    reshape main_v62 main_v63 rfl shapeCasts_S4096x14x14x1_S4096x14x14,
    unary main_v61 main_v64 ((extractStridedSlice S4096x14x14x1 ![0, 0, 0, 1] · slices_S4096x14x14x4_S4096x14x14x1_0_0_0_1) : (⟨S4096x14x14x4, .f32⟩ : BufTy).Contents (Elt F) → (⟨S4096x14x14x1, .f32⟩ : BufTy).Contents (Elt F)),
    reshape main_v64 main_v65 rfl shapeCasts_S4096x14x14x1_S4096x14x14,
    unary main_v61 main_v66 ((extractStridedSlice S4096x14x14x1 ![0, 0, 0, 2] · slices_S4096x14x14x4_S4096x14x14x1_0_0_0_2) : (⟨S4096x14x14x4, .f32⟩ : BufTy).Contents (Elt F) → (⟨S4096x14x14x1, .f32⟩ : BufTy).Contents (Elt F)),
    reshape main_v66 main_v67 rfl shapeCasts_S4096x14x14x1_S4096x14x14,
    unary main_v61 main_v68 ((extractStridedSlice S4096x14x14x1 ![0, 0, 0, 3] · slices_S4096x14x14x4_S4096x14x14x1_0_0_0_3) : (⟨S4096x14x14x4, .f32⟩ : BufTy).Contents (Elt F) → (⟨S4096x14x14x1, .f32⟩ : BufTy).Contents (Elt F)),
    reshape main_v68 main_v69 rfl shapeCasts_S4096x14x14x1_S4096x14x14,
    nullary main_cst_15 (constant S_ .f32 0x41600000#32),
    unary main_cst_15 main_v70 (broadcastInDim S4096x14x14 ![] bcast_S_S4096x14x14 : (⟨S_, .f32⟩ : BufTy).Contents (Elt F) → (⟨S4096x14x14, .f32⟩ : BufTy).Contents (Elt F)),
    binary main_v63 main_v70 main_v71 (Host.divf : (⟨S4096x14x14, .f32⟩ : BufTy).Contents (Elt F) → (⟨S4096x14x14, .f32⟩ : BufTy).Contents (Elt F) → (⟨S4096x14x14, .f32⟩ : BufTy).Contents (Elt F)),
    nullary main_cst_16 (constant S_ .f32 0x3F000000#32),
    unary main_cst_16 main_v72 (broadcastInDim S4096x14x14 ![] bcast_S_S4096x14x14 : (⟨S_, .f32⟩ : BufTy).Contents (Elt F) → (⟨S4096x14x14, .f32⟩ : BufTy).Contents (Elt F)),
    binary main_v72 main_v67 main_v73 (mulf : (⟨S4096x14x14, .f32⟩ : BufTy).Contents (Elt F) → (⟨S4096x14x14, .f32⟩ : BufTy).Contents (Elt F) → (⟨S4096x14x14, .f32⟩ : BufTy).Contents (Elt F)),
    binary main_v71 main_v73 main_v74 (subf : (⟨S4096x14x14, .f32⟩ : BufTy).Contents (Elt F) → (⟨S4096x14x14, .f32⟩ : BufTy).Contents (Elt F) → (⟨S4096x14x14, .f32⟩ : BufTy).Contents (Elt F)),
    nullary main_cst_17 (constant S_ .f32 0x41600000#32),
    unary main_cst_17 main_v75 (broadcastInDim S4096x14x14 ![] bcast_S_S4096x14x14 : (⟨S_, .f32⟩ : BufTy).Contents (Elt F) → (⟨S4096x14x14, .f32⟩ : BufTy).Contents (Elt F)),
    binary main_v65 main_v75 main_v76 (Host.divf : (⟨S4096x14x14, .f32⟩ : BufTy).Contents (Elt F) → (⟨S4096x14x14, .f32⟩ : BufTy).Contents (Elt F) → (⟨S4096x14x14, .f32⟩ : BufTy).Contents (Elt F)),
    nullary main_cst_18 (constant S_ .f32 0x3F000000#32),
    unary main_cst_18 main_v77 (broadcastInDim S4096x14x14 ![] bcast_S_S4096x14x14 : (⟨S_, .f32⟩ : BufTy).Contents (Elt F) → (⟨S4096x14x14, .f32⟩ : BufTy).Contents (Elt F)),
    binary main_v77 main_v69 main_v78 (mulf : (⟨S4096x14x14, .f32⟩ : BufTy).Contents (Elt F) → (⟨S4096x14x14, .f32⟩ : BufTy).Contents (Elt F) → (⟨S4096x14x14, .f32⟩ : BufTy).Contents (Elt F)),
    binary main_v76 main_v78 main_v79 (subf : (⟨S4096x14x14, .f32⟩ : BufTy).Contents (Elt F) → (⟨S4096x14x14, .f32⟩ : BufTy).Contents (Elt F) → (⟨S4096x14x14, .f32⟩ : BufTy).Contents (Elt F)),
    nullary main_cst_19 (constant S_ .f32 0x41600000#32),
    unary main_cst_19 main_v80 (broadcastInDim S4096x14x14 ![] bcast_S_S4096x14x14 : (⟨S_, .f32⟩ : BufTy).Contents (Elt F) → (⟨S4096x14x14, .f32⟩ : BufTy).Contents (Elt F)),
    binary main_v63 main_v80 main_v81 (Host.divf : (⟨S4096x14x14, .f32⟩ : BufTy).Contents (Elt F) → (⟨S4096x14x14, .f32⟩ : BufTy).Contents (Elt F) → (⟨S4096x14x14, .f32⟩ : BufTy).Contents (Elt F)),
    nullary main_cst_20 (constant S_ .f32 0x3F000000#32),
    unary main_cst_20 main_v82 (broadcastInDim S4096x14x14 ![] bcast_S_S4096x14x14 : (⟨S_, .f32⟩ : BufTy).Contents (Elt F) → (⟨S4096x14x14, .f32⟩ : BufTy).Contents (Elt F)),
    binary main_v82 main_v67 main_v83 (mulf : (⟨S4096x14x14, .f32⟩ : BufTy).Contents (Elt F) → (⟨S4096x14x14, .f32⟩ : BufTy).Contents (Elt F) → (⟨S4096x14x14, .f32⟩ : BufTy).Contents (Elt F)),
    binary main_v81 main_v83 main_v84 (addf : (⟨S4096x14x14, .f32⟩ : BufTy).Contents (Elt F) → (⟨S4096x14x14, .f32⟩ : BufTy).Contents (Elt F) → (⟨S4096x14x14, .f32⟩ : BufTy).Contents (Elt F)),
    nullary main_cst_21 (constant S_ .f32 0x41600000#32),
    unary main_cst_21 main_v85 (broadcastInDim S4096x14x14 ![] bcast_S_S4096x14x14 : (⟨S_, .f32⟩ : BufTy).Contents (Elt F) → (⟨S4096x14x14, .f32⟩ : BufTy).Contents (Elt F)),
    binary main_v65 main_v85 main_v86 (Host.divf : (⟨S4096x14x14, .f32⟩ : BufTy).Contents (Elt F) → (⟨S4096x14x14, .f32⟩ : BufTy).Contents (Elt F) → (⟨S4096x14x14, .f32⟩ : BufTy).Contents (Elt F)),
    nullary main_cst_22 (constant S_ .f32 0x3F000000#32),
    unary main_cst_22 main_v87 (broadcastInDim S4096x14x14 ![] bcast_S_S4096x14x14 : (⟨S_, .f32⟩ : BufTy).Contents (Elt F) → (⟨S4096x14x14, .f32⟩ : BufTy).Contents (Elt F)),
    binary main_v87 main_v69 main_v88 (mulf : (⟨S4096x14x14, .f32⟩ : BufTy).Contents (Elt F) → (⟨S4096x14x14, .f32⟩ : BufTy).Contents (Elt F) → (⟨S4096x14x14, .f32⟩ : BufTy).Contents (Elt F)),
    binary main_v86 main_v88 main_v89 (addf : (⟨S4096x14x14, .f32⟩ : BufTy).Contents (Elt F) → (⟨S4096x14x14, .f32⟩ : BufTy).Contents (Elt F) → (⟨S4096x14x14, .f32⟩ : BufTy).Contents (Elt F)),
    unary main_v74 main_v90 (broadcastInDim S4096x14x14x1 ![0, 1, 2] bcast_S4096x14x14_S4096x14x14x1_0_1_2 : (⟨S4096x14x14, .f32⟩ : BufTy).Contents (Elt F) → (⟨S4096x14x14x1, .f32⟩ : BufTy).Contents (Elt F)),
    unary main_v79 main_v91 (broadcastInDim S4096x14x14x1 ![0, 1, 2] bcast_S4096x14x14_S4096x14x14x1_0_1_2 : (⟨S4096x14x14, .f32⟩ : BufTy).Contents (Elt F) → (⟨S4096x14x14x1, .f32⟩ : BufTy).Contents (Elt F)),
    unary main_v84 main_v92 (broadcastInDim S4096x14x14x1 ![0, 1, 2] bcast_S4096x14x14_S4096x14x14x1_0_1_2 : (⟨S4096x14x14, .f32⟩ : BufTy).Contents (Elt F) → (⟨S4096x14x14x1, .f32⟩ : BufTy).Contents (Elt F)),
    unary main_v89 main_v93 (broadcastInDim S4096x14x14x1 ![0, 1, 2] bcast_S4096x14x14_S4096x14x14x1_0_1_2 : (⟨S4096x14x14, .f32⟩ : BufTy).Contents (Elt F) → (⟨S4096x14x14x1, .f32⟩ : BufTy).Contents (Elt F)),
    nary ![main_v90, main_v91, main_v92, main_v93] main_v94 (fun u => concatenate S4096x14x14x4 3 [⟨S4096x14x14x1, u 0⟩, ⟨S4096x14x14x1, u 1⟩, ⟨S4096x14x14x1, u 2⟩, ⟨S4096x14x14x1, u 3⟩] concatenates_S4096x14x14x1_S4096x14x14x1_S4096x14x14x1_S4096x14x14x1_S4096x14x14x4_d3),
    unary main_v94 main_v95 ((extractStridedSlice S4096x14x14x2 ![0, 0, 0, 0] · slices_S4096x14x14x4_S4096x14x14x2_0_0_0_0) : (⟨S4096x14x14x4, .f32⟩ : BufTy).Contents (Elt F) → (⟨S4096x14x14x2, .f32⟩ : BufTy).Contents (Elt F)) ]

set_option maxRecDepth 8192 in
set_option maxHeartbeats 4000000 in
theorem part1_eq (c : Dev nD) : main_part1 (F := F) c = seq ops1 := rfl

/-- The operations of @main's window 2, in order. -/
abbrev ops2 : List (HloOp τ sig (Elt F)) :=
  [ unary main_v60 main_v96 ((extractStridedSlice S4096x14x14x2 ![0, 0, 0, 0] · slices_S4096x14x14x4_S4096x14x14x2_0_0_0_0) : (⟨S4096x14x14x4, .f32⟩ : BufTy).Contents (Elt F) → (⟨S4096x14x14x2, .f32⟩ : BufTy).Contents (Elt F)),
    binary main_v95 main_v96 main_v97 (maximumf : (⟨S4096x14x14x2, .f32⟩ : BufTy).Contents (Elt F) → (⟨S4096x14x14x2, .f32⟩ : BufTy).Contents (Elt F) → (⟨S4096x14x14x2, .f32⟩ : BufTy).Contents (Elt F)),
    unary main_v94 main_v98 ((extractStridedSlice S4096x14x14x2 ![0, 0, 0, 2] · slices_S4096x14x14x4_S4096x14x14x2_0_0_0_2) : (⟨S4096x14x14x4, .f32⟩ : BufTy).Contents (Elt F) → (⟨S4096x14x14x2, .f32⟩ : BufTy).Contents (Elt F)),
    unary main_v60 main_v99 ((extractStridedSlice S4096x14x14x2 ![0, 0, 0, 2] · slices_S4096x14x14x4_S4096x14x14x2_0_0_0_2) : (⟨S4096x14x14x4, .f32⟩ : BufTy).Contents (Elt F) → (⟨S4096x14x14x2, .f32⟩ : BufTy).Contents (Elt F)),
    binary main_v98 main_v99 main_v100 (minimumf : (⟨S4096x14x14x2, .f32⟩ : BufTy).Contents (Elt F) → (⟨S4096x14x14x2, .f32⟩ : BufTy).Contents (Elt F) → (⟨S4096x14x14x2, .f32⟩ : BufTy).Contents (Elt F)),
    binary main_v100 main_v97 main_v101 (subf : (⟨S4096x14x14x2, .f32⟩ : BufTy).Contents (Elt F) → (⟨S4096x14x14x2, .f32⟩ : BufTy).Contents (Elt F) → (⟨S4096x14x14x2, .f32⟩ : BufTy).Contents (Elt F)),
    nullary main_cst_23 (constant S_ .f32 0x00000000#32),
    unary main_cst_23 main_v102 (broadcastInDim S4096x14x14x2 ![] bcast_S_S4096x14x14x2 : (⟨S_, .f32⟩ : BufTy).Contents (Elt F) → (⟨S4096x14x14x2, .f32⟩ : BufTy).Contents (Elt F)),
    binary main_v101 main_v102 main_v103 (maximumf : (⟨S4096x14x14x2, .f32⟩ : BufTy).Contents (Elt F) → (⟨S4096x14x14x2, .f32⟩ : BufTy).Contents (Elt F) → (⟨S4096x14x14x2, .f32⟩ : BufTy).Contents (Elt F)),
    unary main_v103 main_v104 ((extractStridedSlice S4096x14x14x1 ![0, 0, 0, 0] · slices_S4096x14x14x2_S4096x14x14x1_0_0_0_0) : (⟨S4096x14x14x2, .f32⟩ : BufTy).Contents (Elt F) → (⟨S4096x14x14x1, .f32⟩ : BufTy).Contents (Elt F)),
    reshape main_v104 main_v105 rfl shapeCasts_S4096x14x14x1_S4096x14x14,
    unary main_v103 main_v106 ((extractStridedSlice S4096x14x14x1 ![0, 0, 0, 1] · slices_S4096x14x14x2_S4096x14x14x1_0_0_0_1) : (⟨S4096x14x14x2, .f32⟩ : BufTy).Contents (Elt F) → (⟨S4096x14x14x1, .f32⟩ : BufTy).Contents (Elt F)),
    reshape main_v106 main_v107 rfl shapeCasts_S4096x14x14x1_S4096x14x14,
    binary main_v105 main_v107 main_v108 (mulf : (⟨S4096x14x14, .f32⟩ : BufTy).Contents (Elt F) → (⟨S4096x14x14, .f32⟩ : BufTy).Contents (Elt F) → (⟨S4096x14x14, .f32⟩ : BufTy).Contents (Elt F)),
    unary main_v94 main_v109 ((extractStridedSlice S4096x14x14x1 ![0, 0, 0, 2] · slices_S4096x14x14x4_S4096x14x14x1_0_0_0_2) : (⟨S4096x14x14x4, .f32⟩ : BufTy).Contents (Elt F) → (⟨S4096x14x14x1, .f32⟩ : BufTy).Contents (Elt F)),
    reshape main_v109 main_v110 rfl shapeCasts_S4096x14x14x1_S4096x14x14,
    unary main_v94 main_v111 ((extractStridedSlice S4096x14x14x1 ![0, 0, 0, 0] · slices_S4096x14x14x4_S4096x14x14x1_0_0_0_0) : (⟨S4096x14x14x4, .f32⟩ : BufTy).Contents (Elt F) → (⟨S4096x14x14x1, .f32⟩ : BufTy).Contents (Elt F)),
    reshape main_v111 main_v112 rfl shapeCasts_S4096x14x14x1_S4096x14x14,
    binary main_v110 main_v112 main_v113 (subf : (⟨S4096x14x14, .f32⟩ : BufTy).Contents (Elt F) → (⟨S4096x14x14, .f32⟩ : BufTy).Contents (Elt F) → (⟨S4096x14x14, .f32⟩ : BufTy).Contents (Elt F)),
    unary main_v94 main_v114 ((extractStridedSlice S4096x14x14x1 ![0, 0, 0, 3] · slices_S4096x14x14x4_S4096x14x14x1_0_0_0_3) : (⟨S4096x14x14x4, .f32⟩ : BufTy).Contents (Elt F) → (⟨S4096x14x14x1, .f32⟩ : BufTy).Contents (Elt F)),
    reshape main_v114 main_v115 rfl shapeCasts_S4096x14x14x1_S4096x14x14,
    unary main_v94 main_v116 ((extractStridedSlice S4096x14x14x1 ![0, 0, 0, 1] · slices_S4096x14x14x4_S4096x14x14x1_0_0_0_1) : (⟨S4096x14x14x4, .f32⟩ : BufTy).Contents (Elt F) → (⟨S4096x14x14x1, .f32⟩ : BufTy).Contents (Elt F)),
    reshape main_v116 main_v117 rfl shapeCasts_S4096x14x14x1_S4096x14x14,
    binary main_v115 main_v117 main_v118 (subf : (⟨S4096x14x14, .f32⟩ : BufTy).Contents (Elt F) → (⟨S4096x14x14, .f32⟩ : BufTy).Contents (Elt F) → (⟨S4096x14x14, .f32⟩ : BufTy).Contents (Elt F)),
    binary main_v113 main_v118 main_v119 (mulf : (⟨S4096x14x14, .f32⟩ : BufTy).Contents (Elt F) → (⟨S4096x14x14, .f32⟩ : BufTy).Contents (Elt F) → (⟨S4096x14x14, .f32⟩ : BufTy).Contents (Elt F)),
    unary main_v60 main_v120 ((extractStridedSlice S4096x14x14x1 ![0, 0, 0, 2] · slices_S4096x14x14x4_S4096x14x14x1_0_0_0_2) : (⟨S4096x14x14x4, .f32⟩ : BufTy).Contents (Elt F) → (⟨S4096x14x14x1, .f32⟩ : BufTy).Contents (Elt F)),
    reshape main_v120 main_v121 rfl shapeCasts_S4096x14x14x1_S4096x14x14,
    unary main_v60 main_v122 ((extractStridedSlice S4096x14x14x1 ![0, 0, 0, 0] · slices_S4096x14x14x4_S4096x14x14x1_0_0_0_0) : (⟨S4096x14x14x4, .f32⟩ : BufTy).Contents (Elt F) → (⟨S4096x14x14x1, .f32⟩ : BufTy).Contents (Elt F)),
    reshape main_v122 main_v123 rfl shapeCasts_S4096x14x14x1_S4096x14x14,
    binary main_v121 main_v123 main_v124 (subf : (⟨S4096x14x14, .f32⟩ : BufTy).Contents (Elt F) → (⟨S4096x14x14, .f32⟩ : BufTy).Contents (Elt F) → (⟨S4096x14x14, .f32⟩ : BufTy).Contents (Elt F)),
    unary main_v60 main_v125 ((extractStridedSlice S4096x14x14x1 ![0, 0, 0, 3] · slices_S4096x14x14x4_S4096x14x14x1_0_0_0_3) : (⟨S4096x14x14x4, .f32⟩ : BufTy).Contents (Elt F) → (⟨S4096x14x14x1, .f32⟩ : BufTy).Contents (Elt F)),
    reshape main_v125 main_v126 rfl shapeCasts_S4096x14x14x1_S4096x14x14,
    unary main_v60 main_v127 ((extractStridedSlice S4096x14x14x1 ![0, 0, 0, 1] · slices_S4096x14x14x4_S4096x14x14x1_0_0_0_1) : (⟨S4096x14x14x4, .f32⟩ : BufTy).Contents (Elt F) → (⟨S4096x14x14x1, .f32⟩ : BufTy).Contents (Elt F)),
    reshape main_v127 main_v128 rfl shapeCasts_S4096x14x14x1_S4096x14x14,
    binary main_v126 main_v128 main_v129 (subf : (⟨S4096x14x14, .f32⟩ : BufTy).Contents (Elt F) → (⟨S4096x14x14, .f32⟩ : BufTy).Contents (Elt F) → (⟨S4096x14x14, .f32⟩ : BufTy).Contents (Elt F)),
    binary main_v124 main_v129 main_v130 (mulf : (⟨S4096x14x14, .f32⟩ : BufTy).Contents (Elt F) → (⟨S4096x14x14, .f32⟩ : BufTy).Contents (Elt F) → (⟨S4096x14x14, .f32⟩ : BufTy).Contents (Elt F)),
    binary main_v119 main_v130 main_v131 (addf : (⟨S4096x14x14, .f32⟩ : BufTy).Contents (Elt F) → (⟨S4096x14x14, .f32⟩ : BufTy).Contents (Elt F) → (⟨S4096x14x14, .f32⟩ : BufTy).Contents (Elt F)),
    binary main_v131 main_v108 main_v132 (subf : (⟨S4096x14x14, .f32⟩ : BufTy).Contents (Elt F) → (⟨S4096x14x14, .f32⟩ : BufTy).Contents (Elt F) → (⟨S4096x14x14, .f32⟩ : BufTy).Contents (Elt F)),
    binary main_v108 main_v132 main_v133 (Host.divf : (⟨S4096x14x14, .f32⟩ : BufTy).Contents (Elt F) → (⟨S4096x14x14, .f32⟩ : BufTy).Contents (Elt F) → (⟨S4096x14x14, .f32⟩ : BufTy).Contents (Elt F)),
    unary main_v6 main_v134 ((extractStridedSlice S4096x14x14x4 ![0, 0, 0, 0] · slices_S4096x14x14x5_S4096x14x14x4_0_0_0_0) : (⟨S4096x14x14x5, .f32⟩ : BufTy).Contents (Elt F) → (⟨S4096x14x14x4, .f32⟩ : BufTy).Contents (Elt F)),
    unary main_v134 main_v135 ((extractStridedSlice S4096x14x14x1 ![0, 0, 0, 0] · slices_S4096x14x14x4_S4096x14x14x1_0_0_0_0) : (⟨S4096x14x14x4, .f32⟩ : BufTy).Contents (Elt F) → (⟨S4096x14x14x1, .f32⟩ : BufTy).Contents (Elt F)),
    reshape main_v135 main_v136 rfl shapeCasts_S4096x14x14x1_S4096x14x14,
    unary main_v134 main_v137 ((extractStridedSlice S4096x14x14x1 ![0, 0, 0, 1] · slices_S4096x14x14x4_S4096x14x14x1_0_0_0_1) : (⟨S4096x14x14x4, .f32⟩ : BufTy).Contents (Elt F) → (⟨S4096x14x14x1, .f32⟩ : BufTy).Contents (Elt F)),
    reshape main_v137 main_v138 rfl shapeCasts_S4096x14x14x1_S4096x14x14,
    unary main_v134 main_v139 ((extractStridedSlice S4096x14x14x1 ![0, 0, 0, 2] · slices_S4096x14x14x4_S4096x14x14x1_0_0_0_2) : (⟨S4096x14x14x4, .f32⟩ : BufTy).Contents (Elt F) → (⟨S4096x14x14x1, .f32⟩ : BufTy).Contents (Elt F)),
    reshape main_v139 main_v140 rfl shapeCasts_S4096x14x14x1_S4096x14x14,
    unary main_v134 main_v141 ((extractStridedSlice S4096x14x14x1 ![0, 0, 0, 3] · slices_S4096x14x14x4_S4096x14x14x1_0_0_0_3) : (⟨S4096x14x14x4, .f32⟩ : BufTy).Contents (Elt F) → (⟨S4096x14x14x1, .f32⟩ : BufTy).Contents (Elt F)),
    reshape main_v141 main_v142 rfl shapeCasts_S4096x14x14x1_S4096x14x14,
    nullary main_cst_24 (constant S_ .f32 0x41600000#32),
    unary main_cst_24 main_v143 (broadcastInDim S4096x14x14 ![] bcast_S_S4096x14x14 : (⟨S_, .f32⟩ : BufTy).Contents (Elt F) → (⟨S4096x14x14, .f32⟩ : BufTy).Contents (Elt F)),
    binary main_v136 main_v143 main_v144 (Host.divf : (⟨S4096x14x14, .f32⟩ : BufTy).Contents (Elt F) → (⟨S4096x14x14, .f32⟩ : BufTy).Contents (Elt F) → (⟨S4096x14x14, .f32⟩ : BufTy).Contents (Elt F)),
    nullary main_cst_25 (constant S_ .f32 0x3F000000#32),
    unary main_cst_25 main_v145 (broadcastInDim S4096x14x14 ![] bcast_S_S4096x14x14 : (⟨S_, .f32⟩ : BufTy).Contents (Elt F) → (⟨S4096x14x14, .f32⟩ : BufTy).Contents (Elt F)),
    binary main_v145 main_v140 main_v146 (mulf : (⟨S4096x14x14, .f32⟩ : BufTy).Contents (Elt F) → (⟨S4096x14x14, .f32⟩ : BufTy).Contents (Elt F) → (⟨S4096x14x14, .f32⟩ : BufTy).Contents (Elt F)),
    binary main_v144 main_v146 main_v147 (subf : (⟨S4096x14x14, .f32⟩ : BufTy).Contents (Elt F) → (⟨S4096x14x14, .f32⟩ : BufTy).Contents (Elt F) → (⟨S4096x14x14, .f32⟩ : BufTy).Contents (Elt F)),
    nullary main_cst_26 (constant S_ .f32 0x41600000#32),
    unary main_cst_26 main_v148 (broadcastInDim S4096x14x14 ![] bcast_S_S4096x14x14 : (⟨S_, .f32⟩ : BufTy).Contents (Elt F) → (⟨S4096x14x14, .f32⟩ : BufTy).Contents (Elt F)),
    binary main_v138 main_v148 main_v149 (Host.divf : (⟨S4096x14x14, .f32⟩ : BufTy).Contents (Elt F) → (⟨S4096x14x14, .f32⟩ : BufTy).Contents (Elt F) → (⟨S4096x14x14, .f32⟩ : BufTy).Contents (Elt F)),
    nullary main_cst_27 (constant S_ .f32 0x3F000000#32),
    unary main_cst_27 main_v150 (broadcastInDim S4096x14x14 ![] bcast_S_S4096x14x14 : (⟨S_, .f32⟩ : BufTy).Contents (Elt F) → (⟨S4096x14x14, .f32⟩ : BufTy).Contents (Elt F)) ]

set_option maxRecDepth 8192 in
set_option maxHeartbeats 4000000 in
theorem part2_eq (c : Dev nD) : main_part2 (F := F) c = seq ops2 := rfl

/-- The operations of @main's window 3, in order. -/
abbrev ops3 : List (HloOp τ sig (Elt F)) :=
  [ binary main_v150 main_v142 main_v151 (mulf : (⟨S4096x14x14, .f32⟩ : BufTy).Contents (Elt F) → (⟨S4096x14x14, .f32⟩ : BufTy).Contents (Elt F) → (⟨S4096x14x14, .f32⟩ : BufTy).Contents (Elt F)),
    binary main_v149 main_v151 main_v152 (subf : (⟨S4096x14x14, .f32⟩ : BufTy).Contents (Elt F) → (⟨S4096x14x14, .f32⟩ : BufTy).Contents (Elt F) → (⟨S4096x14x14, .f32⟩ : BufTy).Contents (Elt F)),
    nullary main_cst_28 (constant S_ .f32 0x41600000#32),
    unary main_cst_28 main_v153 (broadcastInDim S4096x14x14 ![] bcast_S_S4096x14x14 : (⟨S_, .f32⟩ : BufTy).Contents (Elt F) → (⟨S4096x14x14, .f32⟩ : BufTy).Contents (Elt F)),
    binary main_v136 main_v153 main_v154 (Host.divf : (⟨S4096x14x14, .f32⟩ : BufTy).Contents (Elt F) → (⟨S4096x14x14, .f32⟩ : BufTy).Contents (Elt F) → (⟨S4096x14x14, .f32⟩ : BufTy).Contents (Elt F)),
    nullary main_cst_29 (constant S_ .f32 0x3F000000#32),
    unary main_cst_29 main_v155 (broadcastInDim S4096x14x14 ![] bcast_S_S4096x14x14 : (⟨S_, .f32⟩ : BufTy).Contents (Elt F) → (⟨S4096x14x14, .f32⟩ : BufTy).Contents (Elt F)),
    binary main_v155 main_v140 main_v156 (mulf : (⟨S4096x14x14, .f32⟩ : BufTy).Contents (Elt F) → (⟨S4096x14x14, .f32⟩ : BufTy).Contents (Elt F) → (⟨S4096x14x14, .f32⟩ : BufTy).Contents (Elt F)),
    binary main_v154 main_v156 main_v157 (addf : (⟨S4096x14x14, .f32⟩ : BufTy).Contents (Elt F) → (⟨S4096x14x14, .f32⟩ : BufTy).Contents (Elt F) → (⟨S4096x14x14, .f32⟩ : BufTy).Contents (Elt F)),
    nullary main_cst_30 (constant S_ .f32 0x41600000#32),
    unary main_cst_30 main_v158 (broadcastInDim S4096x14x14 ![] bcast_S_S4096x14x14 : (⟨S_, .f32⟩ : BufTy).Contents (Elt F) → (⟨S4096x14x14, .f32⟩ : BufTy).Contents (Elt F)),
    binary main_v138 main_v158 main_v159 (Host.divf : (⟨S4096x14x14, .f32⟩ : BufTy).Contents (Elt F) → (⟨S4096x14x14, .f32⟩ : BufTy).Contents (Elt F) → (⟨S4096x14x14, .f32⟩ : BufTy).Contents (Elt F)),
    nullary main_cst_31 (constant S_ .f32 0x3F000000#32),
    unary main_cst_31 main_v160 (broadcastInDim S4096x14x14 ![] bcast_S_S4096x14x14 : (⟨S_, .f32⟩ : BufTy).Contents (Elt F) → (⟨S4096x14x14, .f32⟩ : BufTy).Contents (Elt F)),
    binary main_v160 main_v142 main_v161 (mulf : (⟨S4096x14x14, .f32⟩ : BufTy).Contents (Elt F) → (⟨S4096x14x14, .f32⟩ : BufTy).Contents (Elt F) → (⟨S4096x14x14, .f32⟩ : BufTy).Contents (Elt F)),
    binary main_v159 main_v161 main_v162 (addf : (⟨S4096x14x14, .f32⟩ : BufTy).Contents (Elt F) → (⟨S4096x14x14, .f32⟩ : BufTy).Contents (Elt F) → (⟨S4096x14x14, .f32⟩ : BufTy).Contents (Elt F)),
    unary main_v147 main_v163 (broadcastInDim S4096x14x14x1 ![0, 1, 2] bcast_S4096x14x14_S4096x14x14x1_0_1_2 : (⟨S4096x14x14, .f32⟩ : BufTy).Contents (Elt F) → (⟨S4096x14x14x1, .f32⟩ : BufTy).Contents (Elt F)),
    unary main_v152 main_v164 (broadcastInDim S4096x14x14x1 ![0, 1, 2] bcast_S4096x14x14_S4096x14x14x1_0_1_2 : (⟨S4096x14x14, .f32⟩ : BufTy).Contents (Elt F) → (⟨S4096x14x14x1, .f32⟩ : BufTy).Contents (Elt F)),
    unary main_v157 main_v165 (broadcastInDim S4096x14x14x1 ![0, 1, 2] bcast_S4096x14x14_S4096x14x14x1_0_1_2 : (⟨S4096x14x14, .f32⟩ : BufTy).Contents (Elt F) → (⟨S4096x14x14x1, .f32⟩ : BufTy).Contents (Elt F)),
    unary main_v162 main_v166 (broadcastInDim S4096x14x14x1 ![0, 1, 2] bcast_S4096x14x14_S4096x14x14x1_0_1_2 : (⟨S4096x14x14, .f32⟩ : BufTy).Contents (Elt F) → (⟨S4096x14x14x1, .f32⟩ : BufTy).Contents (Elt F)),
    nary ![main_v163, main_v164, main_v165, main_v166] main_v167 (fun u => concatenate S4096x14x14x4 3 [⟨S4096x14x14x1, u 0⟩, ⟨S4096x14x14x1, u 1⟩, ⟨S4096x14x14x1, u 2⟩, ⟨S4096x14x14x1, u 3⟩] concatenates_S4096x14x14x1_S4096x14x14x1_S4096x14x14x1_S4096x14x14x1_S4096x14x14x4_d3),
    unary main_v167 main_v168 ((extractStridedSlice S4096x14x14x2 ![0, 0, 0, 0] · slices_S4096x14x14x4_S4096x14x14x2_0_0_0_0) : (⟨S4096x14x14x4, .f32⟩ : BufTy).Contents (Elt F) → (⟨S4096x14x14x2, .f32⟩ : BufTy).Contents (Elt F)),
    unary main_v60 main_v169 ((extractStridedSlice S4096x14x14x2 ![0, 0, 0, 0] · slices_S4096x14x14x4_S4096x14x14x2_0_0_0_0) : (⟨S4096x14x14x4, .f32⟩ : BufTy).Contents (Elt F) → (⟨S4096x14x14x2, .f32⟩ : BufTy).Contents (Elt F)),
    binary main_v168 main_v169 main_v170 (maximumf : (⟨S4096x14x14x2, .f32⟩ : BufTy).Contents (Elt F) → (⟨S4096x14x14x2, .f32⟩ : BufTy).Contents (Elt F) → (⟨S4096x14x14x2, .f32⟩ : BufTy).Contents (Elt F)),
    unary main_v167 main_v171 ((extractStridedSlice S4096x14x14x2 ![0, 0, 0, 2] · slices_S4096x14x14x4_S4096x14x14x2_0_0_0_2) : (⟨S4096x14x14x4, .f32⟩ : BufTy).Contents (Elt F) → (⟨S4096x14x14x2, .f32⟩ : BufTy).Contents (Elt F)),
    unary main_v60 main_v172 ((extractStridedSlice S4096x14x14x2 ![0, 0, 0, 2] · slices_S4096x14x14x4_S4096x14x14x2_0_0_0_2) : (⟨S4096x14x14x4, .f32⟩ : BufTy).Contents (Elt F) → (⟨S4096x14x14x2, .f32⟩ : BufTy).Contents (Elt F)),
    binary main_v171 main_v172 main_v173 (minimumf : (⟨S4096x14x14x2, .f32⟩ : BufTy).Contents (Elt F) → (⟨S4096x14x14x2, .f32⟩ : BufTy).Contents (Elt F) → (⟨S4096x14x14x2, .f32⟩ : BufTy).Contents (Elt F)),
    binary main_v173 main_v170 main_v174 (subf : (⟨S4096x14x14x2, .f32⟩ : BufTy).Contents (Elt F) → (⟨S4096x14x14x2, .f32⟩ : BufTy).Contents (Elt F) → (⟨S4096x14x14x2, .f32⟩ : BufTy).Contents (Elt F)),
    nullary main_cst_32 (constant S_ .f32 0x00000000#32),
    unary main_cst_32 main_v175 (broadcastInDim S4096x14x14x2 ![] bcast_S_S4096x14x14x2 : (⟨S_, .f32⟩ : BufTy).Contents (Elt F) → (⟨S4096x14x14x2, .f32⟩ : BufTy).Contents (Elt F)),
    binary main_v174 main_v175 main_v176 (maximumf : (⟨S4096x14x14x2, .f32⟩ : BufTy).Contents (Elt F) → (⟨S4096x14x14x2, .f32⟩ : BufTy).Contents (Elt F) → (⟨S4096x14x14x2, .f32⟩ : BufTy).Contents (Elt F)),
    unary main_v176 main_v177 ((extractStridedSlice S4096x14x14x1 ![0, 0, 0, 0] · slices_S4096x14x14x2_S4096x14x14x1_0_0_0_0) : (⟨S4096x14x14x2, .f32⟩ : BufTy).Contents (Elt F) → (⟨S4096x14x14x1, .f32⟩ : BufTy).Contents (Elt F)),
    reshape main_v177 main_v178 rfl shapeCasts_S4096x14x14x1_S4096x14x14,
    unary main_v176 main_v179 ((extractStridedSlice S4096x14x14x1 ![0, 0, 0, 1] · slices_S4096x14x14x2_S4096x14x14x1_0_0_0_1) : (⟨S4096x14x14x2, .f32⟩ : BufTy).Contents (Elt F) → (⟨S4096x14x14x1, .f32⟩ : BufTy).Contents (Elt F)),
    reshape main_v179 main_v180 rfl shapeCasts_S4096x14x14x1_S4096x14x14,
    binary main_v178 main_v180 main_v181 (mulf : (⟨S4096x14x14, .f32⟩ : BufTy).Contents (Elt F) → (⟨S4096x14x14, .f32⟩ : BufTy).Contents (Elt F) → (⟨S4096x14x14, .f32⟩ : BufTy).Contents (Elt F)),
    unary main_v167 main_v182 ((extractStridedSlice S4096x14x14x1 ![0, 0, 0, 2] · slices_S4096x14x14x4_S4096x14x14x1_0_0_0_2) : (⟨S4096x14x14x4, .f32⟩ : BufTy).Contents (Elt F) → (⟨S4096x14x14x1, .f32⟩ : BufTy).Contents (Elt F)),
    reshape main_v182 main_v183 rfl shapeCasts_S4096x14x14x1_S4096x14x14,
    unary main_v167 main_v184 ((extractStridedSlice S4096x14x14x1 ![0, 0, 0, 0] · slices_S4096x14x14x4_S4096x14x14x1_0_0_0_0) : (⟨S4096x14x14x4, .f32⟩ : BufTy).Contents (Elt F) → (⟨S4096x14x14x1, .f32⟩ : BufTy).Contents (Elt F)),
    reshape main_v184 main_v185 rfl shapeCasts_S4096x14x14x1_S4096x14x14,
    binary main_v183 main_v185 main_v186 (subf : (⟨S4096x14x14, .f32⟩ : BufTy).Contents (Elt F) → (⟨S4096x14x14, .f32⟩ : BufTy).Contents (Elt F) → (⟨S4096x14x14, .f32⟩ : BufTy).Contents (Elt F)),
    unary main_v167 main_v187 ((extractStridedSlice S4096x14x14x1 ![0, 0, 0, 3] · slices_S4096x14x14x4_S4096x14x14x1_0_0_0_3) : (⟨S4096x14x14x4, .f32⟩ : BufTy).Contents (Elt F) → (⟨S4096x14x14x1, .f32⟩ : BufTy).Contents (Elt F)),
    reshape main_v187 main_v188 rfl shapeCasts_S4096x14x14x1_S4096x14x14,
    unary main_v167 main_v189 ((extractStridedSlice S4096x14x14x1 ![0, 0, 0, 1] · slices_S4096x14x14x4_S4096x14x14x1_0_0_0_1) : (⟨S4096x14x14x4, .f32⟩ : BufTy).Contents (Elt F) → (⟨S4096x14x14x1, .f32⟩ : BufTy).Contents (Elt F)),
    reshape main_v189 main_v190 rfl shapeCasts_S4096x14x14x1_S4096x14x14,
    binary main_v188 main_v190 main_v191 (subf : (⟨S4096x14x14, .f32⟩ : BufTy).Contents (Elt F) → (⟨S4096x14x14, .f32⟩ : BufTy).Contents (Elt F) → (⟨S4096x14x14, .f32⟩ : BufTy).Contents (Elt F)),
    binary main_v186 main_v191 main_v192 (mulf : (⟨S4096x14x14, .f32⟩ : BufTy).Contents (Elt F) → (⟨S4096x14x14, .f32⟩ : BufTy).Contents (Elt F) → (⟨S4096x14x14, .f32⟩ : BufTy).Contents (Elt F)),
    unary main_v60 main_v193 ((extractStridedSlice S4096x14x14x1 ![0, 0, 0, 2] · slices_S4096x14x14x4_S4096x14x14x1_0_0_0_2) : (⟨S4096x14x14x4, .f32⟩ : BufTy).Contents (Elt F) → (⟨S4096x14x14x1, .f32⟩ : BufTy).Contents (Elt F)),
    reshape main_v193 main_v194 rfl shapeCasts_S4096x14x14x1_S4096x14x14,
    unary main_v60 main_v195 ((extractStridedSlice S4096x14x14x1 ![0, 0, 0, 0] · slices_S4096x14x14x4_S4096x14x14x1_0_0_0_0) : (⟨S4096x14x14x4, .f32⟩ : BufTy).Contents (Elt F) → (⟨S4096x14x14x1, .f32⟩ : BufTy).Contents (Elt F)),
    reshape main_v195 main_v196 rfl shapeCasts_S4096x14x14x1_S4096x14x14,
    binary main_v194 main_v196 main_v197 (subf : (⟨S4096x14x14, .f32⟩ : BufTy).Contents (Elt F) → (⟨S4096x14x14, .f32⟩ : BufTy).Contents (Elt F) → (⟨S4096x14x14, .f32⟩ : BufTy).Contents (Elt F)),
    unary main_v60 main_v198 ((extractStridedSlice S4096x14x14x1 ![0, 0, 0, 3] · slices_S4096x14x14x4_S4096x14x14x1_0_0_0_3) : (⟨S4096x14x14x4, .f32⟩ : BufTy).Contents (Elt F) → (⟨S4096x14x14x1, .f32⟩ : BufTy).Contents (Elt F)),
    reshape main_v198 main_v199 rfl shapeCasts_S4096x14x14x1_S4096x14x14,
    unary main_v60 main_v200 ((extractStridedSlice S4096x14x14x1 ![0, 0, 0, 1] · slices_S4096x14x14x4_S4096x14x14x1_0_0_0_1) : (⟨S4096x14x14x4, .f32⟩ : BufTy).Contents (Elt F) → (⟨S4096x14x14x1, .f32⟩ : BufTy).Contents (Elt F)),
    reshape main_v200 main_v201 rfl shapeCasts_S4096x14x14x1_S4096x14x14,
    binary main_v199 main_v201 main_v202 (subf : (⟨S4096x14x14, .f32⟩ : BufTy).Contents (Elt F) → (⟨S4096x14x14, .f32⟩ : BufTy).Contents (Elt F) → (⟨S4096x14x14, .f32⟩ : BufTy).Contents (Elt F)),
    binary main_v197 main_v202 main_v203 (mulf : (⟨S4096x14x14, .f32⟩ : BufTy).Contents (Elt F) → (⟨S4096x14x14, .f32⟩ : BufTy).Contents (Elt F) → (⟨S4096x14x14, .f32⟩ : BufTy).Contents (Elt F)),
    binary main_v192 main_v203 main_v204 (addf : (⟨S4096x14x14, .f32⟩ : BufTy).Contents (Elt F) → (⟨S4096x14x14, .f32⟩ : BufTy).Contents (Elt F) → (⟨S4096x14x14, .f32⟩ : BufTy).Contents (Elt F)),
    binary main_v204 main_v181 main_v205 (subf : (⟨S4096x14x14, .f32⟩ : BufTy).Contents (Elt F) → (⟨S4096x14x14, .f32⟩ : BufTy).Contents (Elt F) → (⟨S4096x14x14, .f32⟩ : BufTy).Contents (Elt F)) ]

set_option maxRecDepth 8192 in
set_option maxHeartbeats 4000000 in
theorem part3_eq (c : Dev nD) : main_part3 (F := F) c = seq ops3 := rfl

/-- The operations of @main's window 4, in order. -/
abbrev ops4 : List (HloOp τ sig (Elt F)) :=
  [ binary main_v181 main_v205 main_v206 (Host.divf : (⟨S4096x14x14, .f32⟩ : BufTy).Contents (Elt F) → (⟨S4096x14x14, .f32⟩ : BufTy).Contents (Elt F) → (⟨S4096x14x14, .f32⟩ : BufTy).Contents (Elt F)),
    binary main_v133 main_v206 main_v207 (cmpf .oge : (⟨S4096x14x14, .f32⟩ : BufTy).Contents (Elt F) → (⟨S4096x14x14, .f32⟩ : BufTy).Contents (Elt F) → (⟨S4096x14x14, .i1⟩ : BufTy).Contents (Elt F)),
    unary main_v207 main_v208 (broadcastInDim S4096x14x14x1 ![0, 1, 2] bcast_S4096x14x14_S4096x14x14x1_0_1_2 : (⟨S4096x14x14, .i1⟩ : BufTy).Contents (Elt F) → (⟨S4096x14x14x1, .i1⟩ : BufTy).Contents (Elt F)),
    TRef.unary (TRef.of (T := ⟨S4096x14x14x1, .i1⟩) main_v208) (TRef.of (T := ⟨S4096x14x14x5, .i1⟩) main_call0_v0) (broadcastInDim S4096x14x14x5 ![0, 1, 2, 3] bcast_S4096x14x14x1_S4096x14x14x5_0_1_2_3),
    TRef.ternary (TRef.of (T := ⟨S4096x14x14x5, .i1⟩) main_call0_v0) (TRef.of (T := ⟨S4096x14x14x5, .f32⟩) main_v5) (TRef.of (T := ⟨S4096x14x14x5, .f32⟩) main_v6) (TRef.of (T := ⟨S4096x14x14x5, .f32⟩) main_v209) select,
    TRef.ternary (TRef.of (T := ⟨S4096x14x14, .i1⟩) main_v207) (TRef.of (T := ⟨S4096x14x14, .f32⟩) main_v133) (TRef.of (T := ⟨S4096x14x14, .f32⟩) main_v206) (TRef.of (T := ⟨S4096x14x14, .f32⟩) main_v210) select,
    unary main_v209 main_v211 ((extractStridedSlice S4096x14x14x1 ![0, 0, 0, 0] · slices_S4096x14x14x5_S4096x14x14x1_0_0_0_0) : (⟨S4096x14x14x5, .f32⟩ : BufTy).Contents (Elt F) → (⟨S4096x14x14x1, .f32⟩ : BufTy).Contents (Elt F)),
    reshape main_v211 main_v212 rfl shapeCasts_S4096x14x14x1_S4096x14x14,
    unary main_v209 main_v213 ((extractStridedSlice S4096x14x14x1 ![0, 0, 0, 1] · slices_S4096x14x14x5_S4096x14x14x1_0_0_0_1) : (⟨S4096x14x14x5, .f32⟩ : BufTy).Contents (Elt F) → (⟨S4096x14x14x1, .f32⟩ : BufTy).Contents (Elt F)),
    reshape main_v213 main_v214 rfl shapeCasts_S4096x14x14x1_S4096x14x14,
    unary main_v209 main_v215 ((extractStridedSlice S4096x14x14x1 ![0, 0, 0, 2] · slices_S4096x14x14x5_S4096x14x14x1_0_0_0_2) : (⟨S4096x14x14x5, .f32⟩ : BufTy).Contents (Elt F) → (⟨S4096x14x14x1, .f32⟩ : BufTy).Contents (Elt F)),
    reshape main_v215 main_v216 rfl shapeCasts_S4096x14x14x1_S4096x14x14,
    unary main_v209 main_v217 ((extractStridedSlice S4096x14x14x1 ![0, 0, 0, 3] · slices_S4096x14x14x5_S4096x14x14x1_0_0_0_3) : (⟨S4096x14x14x5, .f32⟩ : BufTy).Contents (Elt F) → (⟨S4096x14x14x1, .f32⟩ : BufTy).Contents (Elt F)),
    reshape main_v217 main_v218 rfl shapeCasts_S4096x14x14x1_S4096x14x14,
    unary main_arg1 main_v219 ((extractStridedSlice S4096x14x14x1 ![0, 0, 0, 0] · slices_S4096x14x14x4_S4096x14x14x1_0_0_0_0) : (⟨S4096x14x14x4, .f32⟩ : BufTy).Contents (Elt F) → (⟨S4096x14x14x1, .f32⟩ : BufTy).Contents (Elt F)),
    reshape main_v219 main_v220 rfl shapeCasts_S4096x14x14x1_S4096x14x14,
    unary main_arg1 main_v221 ((extractStridedSlice S4096x14x14x1 ![0, 0, 0, 1] · slices_S4096x14x14x4_S4096x14x14x1_0_0_0_1) : (⟨S4096x14x14x4, .f32⟩ : BufTy).Contents (Elt F) → (⟨S4096x14x14x1, .f32⟩ : BufTy).Contents (Elt F)),
    reshape main_v221 main_v222 rfl shapeCasts_S4096x14x14x1_S4096x14x14,
    unary main_arg1 main_v223 ((extractStridedSlice S4096x14x14x1 ![0, 0, 0, 2] · slices_S4096x14x14x4_S4096x14x14x1_0_0_0_2) : (⟨S4096x14x14x4, .f32⟩ : BufTy).Contents (Elt F) → (⟨S4096x14x14x1, .f32⟩ : BufTy).Contents (Elt F)),
    reshape main_v223 main_v224 rfl shapeCasts_S4096x14x14x1_S4096x14x14,
    unary main_arg1 main_v225 ((extractStridedSlice S4096x14x14x1 ![0, 0, 0, 3] · slices_S4096x14x14x4_S4096x14x14x1_0_0_0_3) : (⟨S4096x14x14x4, .f32⟩ : BufTy).Contents (Elt F) → (⟨S4096x14x14x1, .f32⟩ : BufTy).Contents (Elt F)),
    reshape main_v225 main_v226 rfl shapeCasts_S4096x14x14x1_S4096x14x14,
    binary main_v212 main_v220 main_v227 (subf : (⟨S4096x14x14, .f32⟩ : BufTy).Contents (Elt F) → (⟨S4096x14x14, .f32⟩ : BufTy).Contents (Elt F) → (⟨S4096x14x14, .f32⟩ : BufTy).Contents (Elt F)),
    binary main_v227 main_v227 main_v228 (mulf : (⟨S4096x14x14, .f32⟩ : BufTy).Contents (Elt F) → (⟨S4096x14x14, .f32⟩ : BufTy).Contents (Elt F) → (⟨S4096x14x14, .f32⟩ : BufTy).Contents (Elt F)),
    binary main_v214 main_v222 main_v229 (subf : (⟨S4096x14x14, .f32⟩ : BufTy).Contents (Elt F) → (⟨S4096x14x14, .f32⟩ : BufTy).Contents (Elt F) → (⟨S4096x14x14, .f32⟩ : BufTy).Contents (Elt F)),
    binary main_v229 main_v229 main_v230 (mulf : (⟨S4096x14x14, .f32⟩ : BufTy).Contents (Elt F) → (⟨S4096x14x14, .f32⟩ : BufTy).Contents (Elt F) → (⟨S4096x14x14, .f32⟩ : BufTy).Contents (Elt F)),
    binary main_v228 main_v230 main_v231 (addf : (⟨S4096x14x14, .f32⟩ : BufTy).Contents (Elt F) → (⟨S4096x14x14, .f32⟩ : BufTy).Contents (Elt F) → (⟨S4096x14x14, .f32⟩ : BufTy).Contents (Elt F)),
    unary main_v216 main_v232 (Host.sqrt : (⟨S4096x14x14, .f32⟩ : BufTy).Contents (Elt F) → (⟨S4096x14x14, .f32⟩ : BufTy).Contents (Elt F)),
    unary main_v224 main_v233 (Host.sqrt : (⟨S4096x14x14, .f32⟩ : BufTy).Contents (Elt F) → (⟨S4096x14x14, .f32⟩ : BufTy).Contents (Elt F)),
    binary main_v232 main_v233 main_v234 (subf : (⟨S4096x14x14, .f32⟩ : BufTy).Contents (Elt F) → (⟨S4096x14x14, .f32⟩ : BufTy).Contents (Elt F) → (⟨S4096x14x14, .f32⟩ : BufTy).Contents (Elt F)),
    binary main_v234 main_v234 main_v235 (mulf : (⟨S4096x14x14, .f32⟩ : BufTy).Contents (Elt F) → (⟨S4096x14x14, .f32⟩ : BufTy).Contents (Elt F) → (⟨S4096x14x14, .f32⟩ : BufTy).Contents (Elt F)),
    binary main_v231 main_v235 main_v236 (addf : (⟨S4096x14x14, .f32⟩ : BufTy).Contents (Elt F) → (⟨S4096x14x14, .f32⟩ : BufTy).Contents (Elt F) → (⟨S4096x14x14, .f32⟩ : BufTy).Contents (Elt F)),
    unary main_v218 main_v237 (Host.sqrt : (⟨S4096x14x14, .f32⟩ : BufTy).Contents (Elt F) → (⟨S4096x14x14, .f32⟩ : BufTy).Contents (Elt F)),
    unary main_v226 main_v238 (Host.sqrt : (⟨S4096x14x14, .f32⟩ : BufTy).Contents (Elt F) → (⟨S4096x14x14, .f32⟩ : BufTy).Contents (Elt F)),
    binary main_v237 main_v238 main_v239 (subf : (⟨S4096x14x14, .f32⟩ : BufTy).Contents (Elt F) → (⟨S4096x14x14, .f32⟩ : BufTy).Contents (Elt F) → (⟨S4096x14x14, .f32⟩ : BufTy).Contents (Elt F)),
    binary main_v239 main_v239 main_v240 (mulf : (⟨S4096x14x14, .f32⟩ : BufTy).Contents (Elt F) → (⟨S4096x14x14, .f32⟩ : BufTy).Contents (Elt F) → (⟨S4096x14x14, .f32⟩ : BufTy).Contents (Elt F)),
    binary main_v236 main_v240 main_v241 (addf : (⟨S4096x14x14, .f32⟩ : BufTy).Contents (Elt F) → (⟨S4096x14x14, .f32⟩ : BufTy).Contents (Elt F) → (⟨S4096x14x14, .f32⟩ : BufTy).Contents (Elt F)),
    binary main_v0 main_v241 main_v242 (mulf : (⟨S4096x14x14, .f32⟩ : BufTy).Contents (Elt F) → (⟨S4096x14x14, .f32⟩ : BufTy).Contents (Elt F) → (⟨S4096x14x14, .f32⟩ : BufTy).Contents (Elt F)),
    nullary main_cst_33 (constant S_ .f32 0x00000000#32),
    binary main_v242 main_cst_33 main_v243 ((fun x v => Host.reduceAdd x v reducesTo_S4096x14x14_S_d0_1_2 h_S_) : (⟨S4096x14x14, .f32⟩ : BufTy).Contents (Elt F) → (⟨S_, .f32⟩ : BufTy).Contents (Elt F) → (⟨S_, .f32⟩ : BufTy).Contents (Elt F)),
    nullary main_cst_34 (constant S_ .f32 0x40A00000#32),
    binary main_v243 main_cst_34 main_v244 (mulf : (⟨S_, .f32⟩ : BufTy).Contents (Elt F) → (⟨S_, .f32⟩ : BufTy).Contents (Elt F) → (⟨S_, .f32⟩ : BufTy).Contents (Elt F)),
    binary main_v244 main_v3 main_v245 (Host.divf : (⟨S_, .f32⟩ : BufTy).Contents (Elt F) → (⟨S_, .f32⟩ : BufTy).Contents (Elt F) → (⟨S_, .f32⟩ : BufTy).Contents (Elt F)),
    unary main_v209 main_v246 ((extractStridedSlice S4096x14x14x1 ![0, 0, 0, 4] · slices_S4096x14x14x5_S4096x14x14x1_0_0_0_4) : (⟨S4096x14x14x5, .f32⟩ : BufTy).Contents (Elt F) → (⟨S4096x14x14x1, .f32⟩ : BufTy).Contents (Elt F)),
    reshape main_v246 main_v247 rfl shapeCasts_S4096x14x14x1_S4096x14x14,
    binary main_v247 main_v210 main_v248 (subf : (⟨S4096x14x14, .f32⟩ : BufTy).Contents (Elt F) → (⟨S4096x14x14, .f32⟩ : BufTy).Contents (Elt F) → (⟨S4096x14x14, .f32⟩ : BufTy).Contents (Elt F)),
    binary main_v248 main_v248 main_v249 (mulf : (⟨S4096x14x14, .f32⟩ : BufTy).Contents (Elt F) → (⟨S4096x14x14, .f32⟩ : BufTy).Contents (Elt F) → (⟨S4096x14x14, .f32⟩ : BufTy).Contents (Elt F)),
    binary main_v0 main_v249 main_v250 (mulf : (⟨S4096x14x14, .f32⟩ : BufTy).Contents (Elt F) → (⟨S4096x14x14, .f32⟩ : BufTy).Contents (Elt F) → (⟨S4096x14x14, .f32⟩ : BufTy).Contents (Elt F)),
    nullary main_cst_35 (constant S_ .f32 0x00000000#32),
    binary main_v250 main_cst_35 main_v251 ((fun x v => Host.reduceAdd x v reducesTo_S4096x14x14_S_d0_1_2 h_S_) : (⟨S4096x14x14, .f32⟩ : BufTy).Contents (Elt F) → (⟨S_, .f32⟩ : BufTy).Contents (Elt F) → (⟨S_, .f32⟩ : BufTy).Contents (Elt F)),
    binary main_v251 main_v3 main_v252 (Host.divf : (⟨S_, .f32⟩ : BufTy).Contents (Elt F) → (⟨S_, .f32⟩ : BufTy).Contents (Elt F) → (⟨S_, .f32⟩ : BufTy).Contents (Elt F)),
    binary main_v245 main_v252 main_v253 (addf : (⟨S_, .f32⟩ : BufTy).Contents (Elt F) → (⟨S_, .f32⟩ : BufTy).Contents (Elt F) → (⟨S_, .f32⟩ : BufTy).Contents (Elt F)),
    binary main_v253 main_v27 main_v254 (addf : (⟨S_, .f32⟩ : BufTy).Contents (Elt F) → (⟨S_, .f32⟩ : BufTy).Contents (Elt F) → (⟨S_, .f32⟩ : BufTy).Contents (Elt F)),
    binary main_v254 main_v14 main_v255 (addf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
theorem part4_eq (c : Dev nD) : main_part4 (F := F) c = seq ops4 := rfl

/-- @main's operations, in order. -/
abbrev ops : List (HloOp τ sig (Elt F)) := ops0 ++ (ops1 ++ (ops2 ++ (ops3 ++ (ops4))))

theorem main_eq (c : Dev nD) : main (F := F) c = seq ops := by
  unfold main
  rw [part0_eq c, part1_eq c, part2_eq c, part3_eq c, part4_eq c]
  simp only [seq_append]

theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops0_sub : (ops0 : List (HloOp τ sig (Elt F))).Forall fun op => op.bufs ⊆ tcRefs τ sig :=
  ⟨unary_bufs_sub .., nullary_bufs_sub .., unary_bufs_sub .., binary_bufs_sub .., nullary_bufs_sub .., binary_bufs_sub .., nullary_bufs_sub .., binary_bufs_sub .., unary_bufs_sub .., unary_bufs_sub .., unary_bufs_sub .., unary_bufs_sub .., binary_bufs_sub .., binary_bufs_sub .., unary_bufs_sub .., binary_bufs_sub .., nullary_bufs_sub .., binary_bufs_sub .., nullary_bufs_sub .., binary_bufs_sub .., unary_bufs_sub .., binary_bufs_sub .., unary_bufs_sub .., binary_bufs_sub .., nullary_bufs_sub .., binary_bufs_sub .., unary_bufs_sub .., binary_bufs_sub .., unary_bufs_sub .., binary_bufs_sub .., nullary_bufs_sub .., binary_bufs_sub .., binary_bufs_sub .., nullary_bufs_sub .., binary_bufs_sub .., binary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub ..⟩
set_option maxRecDepth 8192 in
theorem ops1_sub : (ops1 : List (HloOp τ sig (Elt F))).Forall fun op => op.bufs ⊆ tcRefs τ sig :=
  ⟨binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., unary_bufs_sub .., unary_bufs_sub .., unary_bufs_sub .., unary_bufs_sub .., nary_bufs_sub .., unary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., unary_bufs_sub .., unary_bufs_sub .., unary_bufs_sub .., unary_bufs_sub .., nary_bufs_sub .., unary_bufs_sub ..⟩
set_option maxRecDepth 8192 in
theorem ops2_sub : (ops2 : List (HloOp τ sig (Elt F))).Forall fun op => op.bufs ⊆ tcRefs τ sig :=
  ⟨unary_bufs_sub .., binary_bufs_sub .., unary_bufs_sub .., unary_bufs_sub .., binary_bufs_sub .., binary_bufs_sub .., nullary_bufs_sub .., unary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., binary_bufs_sub .., binary_bufs_sub .., binary_bufs_sub .., unary_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub ..⟩
set_option maxRecDepth 8192 in
theorem ops3_sub : (ops3 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., unary_bufs_sub .., unary_bufs_sub .., unary_bufs_sub .., unary_bufs_sub .., nary_bufs_sub .., unary_bufs_sub .., unary_bufs_sub .., binary_bufs_sub .., unary_bufs_sub .., unary_bufs_sub .., binary_bufs_sub .., binary_bufs_sub .., nullary_bufs_sub .., unary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., binary_bufs_sub .., binary_bufs_sub ..⟩
set_option maxRecDepth 8192 in
theorem ops4_sub : (ops4 : List (HloOp τ sig (Elt F))).Forall fun op => op.bufs ⊆ tcRefs τ sig :=
  ⟨binary_bufs_sub .., binary_bufs_sub .., unary_bufs_sub .., unary_bufs_sub .., ternary_bufs_sub .., ternary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., binary_bufs_sub .., binary_bufs_sub .., binary_bufs_sub .., binary_bufs_sub .., unary_bufs_sub .., unary_bufs_sub .., binary_bufs_sub .., binary_bufs_sub .., binary_bufs_sub .., unary_bufs_sub .., unary_bufs_sub .., binary_bufs_sub .., binary_bufs_sub .., binary_bufs_sub .., binary_bufs_sub .., nullary_bufs_sub .., binary_bufs_sub .., nullary_bufs_sub .., binary_bufs_sub .., binary_bufs_sub .., unary_bufs_sub .., reshape_bufs_sub .., binary_bufs_sub .., binary_bufs_sub .., binary_bufs_sub .., nullary_bufs_sub .., binary_bufs_sub .., binary_bufs_sub .., binary_bufs_sub .., binary_bufs_sub .., binary_bufs_sub ..⟩
theorem ops_sub : (ops : List (HloOp τ sig (Elt F))).Forall fun op => op.bufs ⊆ tcRefs τ sig :=
  List.forall_iff_forall_mem.mpr fun op h => by
    simp only [List.mem_append] at h
    rcases h with h | h | h | h | h
    · exact List.forall_iff_forall_mem.mp ops0_sub op h
    · exact List.forall_iff_forall_mem.mp ops1_sub op h
    · exact List.forall_iff_forall_mem.mp ops2_sub op h
    · exact List.forall_iff_forall_mem.mp ops3_sub op h
    · exact List.forall_iff_forall_mem.mp ops4_sub op h

end Cert.ReferenceIdeal.Stages

end
-- ==== Proof.RefStages.lean ====
/-
  One named stage per operation of the reference's @main: the operation applied to its operands' stages, as a function of
  @main's four arguments; and each buffer after the whole line of operations is its stage of the launch contents (one
  operation at a time: every operation writes a buffer of its own, its operands are written earlier).  So every weakly
  fair execution of @main ends with each result buffer at its stage and the arguments unchanged.
-/
import proofs.«169991_j1297080123428_2_alg».proof.Proof.RefProgram

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- The value main_v0 holds: unary of main_arg3. -/
def val_main_v0 (x3 : (⟨S4096x14x14, .i1⟩ : BufTy).Contents (Elt F)) : (⟨S4096x14x14, .f32⟩ : BufTy).Contents (Elt F) :=
  (uitofp .f32 : (⟨S4096x14x14, .i1⟩ : BufTy).Contents (Elt F) → (⟨S4096x14x14, .f32⟩ : BufTy).Contents (Elt F)) x3
/-- The value main_cst holds: nullary of nothing. -/
def val_main_cst : (⟨S_, .f32⟩ : BufTy).Contents (Elt F) :=
  (constant S_ .f32 0x3F800000#32)
/-- The value main_v1 holds: unary of main_cst. -/
def val_main_v1 : (⟨S4096x14x14, .f32⟩ : BufTy).Contents (Elt F) :=
  (broadcastInDim S4096x14x14 ![] bcast_S_S4096x14x14 : (⟨S_, .f32⟩ : BufTy).Contents (Elt F) → (⟨S4096x14x14, .f32⟩ : BufTy).Contents (Elt F)) (val_main_cst (F := F))
/-- The value main_v2 holds: binary of main_v1, main_v0. -/
def val_main_v2 (x3 : (⟨S4096x14x14, .i1⟩ : BufTy).Contents (Elt F)) : (⟨S4096x14x14, .f32⟩ : BufTy).Contents (Elt F) :=
  (subf : (⟨S4096x14x14, .f32⟩ : BufTy).Contents (Elt F) → (⟨S4096x14x14, .f32⟩ : BufTy).Contents (Elt F) → (⟨S4096x14x14, .f32⟩ : BufTy).Contents (Elt F)) (val_main_v1 (F := F)) (val_main_v0 (F := F) x3)
/-- The value main_cst_0 holds: nullary of nothing. -/
def val_main_cst_0 : (⟨S_, .f32⟩ : BufTy).Contents (Elt F) :=
  (constant S_ .f32 0x00000000#32)
/-- The value main_v3 holds: binary of main_v0, main_cst_0. -/
def val_main_v3 (x3 : (⟨S4096x14x14, .i1⟩ : BufTy).Contents (Elt F)) : (⟨S_, .f32⟩ : BufTy).Contents (Elt F) :=
  ((fun x v => Host.reduceAdd x v reducesTo_S4096x14x14_S_d0_1_2 h_S_) : (⟨S4096x14x14, .f32⟩ : BufTy).Contents (Elt F) → (⟨S_, .f32⟩ : BufTy).Contents (Elt F) → (⟨S_, .f32⟩ : BufTy).Contents (Elt F)) (val_main_v0 (F := F) x3) (val_main_cst_0 (F := F))
/-- The value main_cst_1 holds: nullary of nothing. -/
def val_main_cst_1 : (⟨S_, .f32⟩ : BufTy).Contents (Elt F) :=
  (constant S_ .f32 0x00000000#32)
/-- The value main_v4 holds: binary of main_v2, main_cst_1. -/
def val_main_v4 (x3 : (⟨S4096x14x14, .i1⟩ : BufTy).Contents (Elt F)) : (⟨S_, .f32⟩ : BufTy).Contents (Elt F) :=
  ((fun x v => Host.reduceAdd x v reducesTo_S4096x14x14_S_d0_1_2 h_S_) : (⟨S4096x14x14, .f32⟩ : BufTy).Contents (Elt F) → (⟨S_, .f32⟩ : BufTy).Contents (Elt F) → (⟨S_, .f32⟩ : BufTy).Contents (Elt F)) (val_main_v2 (F := F) x3) (val_main_cst_1 (F := F))
/-- The value main_v5 holds: unary of main_arg0. -/
def val_main_v5 (x0 : (⟨S4096x14x14x30, .f32⟩ : BufTy).Contents (Elt F)) : (⟨S4096x14x14x5, .f32⟩ : BufTy).Contents (Elt F) :=
  ((extractStridedSlice S4096x14x14x5 ![0, 0, 0, 0] · slices_S4096x14x14x30_S4096x14x14x5_0_0_0_0) : (⟨S4096x14x14x30, .f32⟩ : BufTy).Contents (Elt F) → (⟨S4096x14x14x5, .f32⟩ : BufTy).Contents (Elt F)) x0
/-- The value main_v6 holds: unary of main_arg0. -/
def val_main_v6 (x0 : (⟨S4096x14x14x30, .f32⟩ : BufTy).Contents (Elt F)) : (⟨S4096x14x14x5, .f32⟩ : BufTy).Contents (Elt F) :=
  ((extractStridedSlice S4096x14x14x5 ![0, 0, 0, 5] · slices_S4096x14x14x30_S4096x14x14x5_0_0_0_5) : (⟨S4096x14x14x30, .f32⟩ : BufTy).Contents (Elt F) → (⟨S4096x14x14x5, .f32⟩ : BufTy).Contents (Elt F)) x0
/-- The value main_v7 holds: unary of main_arg0. -/
def val_main_v7 (x0 : (⟨S4096x14x14x30, .f32⟩ : BufTy).Contents (Elt F)) : (⟨S4096x14x14x20, .f32⟩ : BufTy).Contents (Elt F) :=
  ((extractStridedSlice S4096x14x14x20 ![0, 0, 0, 10] · slices_S4096x14x14x30_S4096x14x14x20_0_0_0_10) : (⟨S4096x14x14x30, .f32⟩ : BufTy).Contents (Elt F) → (⟨S4096x14x14x20, .f32⟩ : BufTy).Contents (Elt F)) x0
/-- The value main_v8 holds: unary of main_v0. -/
def val_main_v8 (x3 : (⟨S4096x14x14, .i1⟩ : BufTy).Contents (Elt F)) : (⟨S4096x14x14x1, .f32⟩ : BufTy).Contents (Elt F) :=
  (broadcastInDim S4096x14x14x1 ![0, 1, 2] bcast_S4096x14x14_S4096x14x14x1_0_1_2 : (⟨S4096x14x14, .f32⟩ : BufTy).Contents (Elt F) → (⟨S4096x14x14x1, .f32⟩ : BufTy).Contents (Elt F)) (val_main_v0 (F := F) x3)
/-- The value main_v9 holds: binary of main_v7, main_arg2. -/
def val_main_v9 (x0 : (⟨S4096x14x14x30, .f32⟩ : BufTy).Contents (Elt F)) (x2 : (⟨S4096x14x14x20, .f32⟩ : BufTy).Contents (Elt F)) : (⟨S4096x14x14x20, .f32⟩ : BufTy).Contents (Elt F) :=
  (subf : (⟨S4096x14x14x20, .f32⟩ : BufTy).Contents (Elt F) → (⟨S4096x14x14x20, .f32⟩ : BufTy).Contents (Elt F) → (⟨S4096x14x14x20, .f32⟩ : BufTy).Contents (Elt F)) (val_main_v7 (F := F) x0) x2
/-- The value main_v10 holds: binary of main_v9, main_v9. -/
def val_main_v10 (x0 : (⟨S4096x14x14x30, .f32⟩ : BufTy).Contents (Elt F)) (x2 : (⟨S4096x14x14x20, .f32⟩ : BufTy).Contents (Elt F)) : (⟨S4096x14x14x20, .f32⟩ : BufTy).Contents (Elt F) :=
  (mulf : (⟨S4096x14x14x20, .f32⟩ : BufTy).Contents (Elt F) → (⟨S4096x14x14x20, .f32⟩ : BufTy).Contents (Elt F) → (⟨S4096x14x14x20, .f32⟩ : BufTy).Contents (Elt F)) (val_main_v9 (F := F) x0 x2) (val_main_v9 (F := F) x0 x2)
/-- The value main_v11 holds: unary of main_v8. -/
def val_main_v11 (x3 : (⟨S4096x14x14, .i1⟩ : BufTy).Contents (Elt F)) : (⟨S4096x14x14x20, .f32⟩ : BufTy).Contents (Elt F) :=
  (broadcastInDim S4096x14x14x20 ![0, 1, 2, 3] bcast_S4096x14x14x1_S4096x14x14x20_0_1_2_3 : (⟨S4096x14x14x1, .f32⟩ : BufTy).Contents (Elt F) → (⟨S4096x14x14x20, .f32⟩ : BufTy).Contents (Elt F)) (val_main_v8 (F := F) x3)
/-- The value main_v12 holds: binary of main_v11, main_v10. -/
def val_main_v12 (x0 : (⟨S4096x14x14x30, .f32⟩ : BufTy).Contents (Elt F)) (x2 : (⟨S4096x14x14x20, .f32⟩ : BufTy).Contents (Elt F)) (x3 : (⟨S4096x14x14, .i1⟩ : BufTy).Contents (Elt F)) : (⟨S4096x14x14x20, .f32⟩ : BufTy).Contents (Elt F) :=
  (mulf : (⟨S4096x14x14x20, .f32⟩ : BufTy).Contents (Elt F) → (⟨S4096x14x14x20, .f32⟩ : BufTy).Contents (Elt F) → (⟨S4096x14x14x20, .f32⟩ : BufTy).Contents (Elt F)) (val_main_v11 (F := F) x3) (val_main_v10 (F := F) x0 x2)
/-- The value main_cst_2 holds: nullary of nothing. -/
def val_main_cst_2 : (⟨S_, .f32⟩ : BufTy).Contents (Elt F) :=
  (constant S_ .f32 0x00000000#32)
/-- The value main_v13 holds: binary of main_v12, main_cst_2. -/
def val_main_v13 (x0 : (⟨S4096x14x14x30, .f32⟩ : BufTy).Contents (Elt F)) (x2 : (⟨S4096x14x14x20, .f32⟩ : BufTy).Contents (Elt F)) (x3 : (⟨S4096x14x14, .i1⟩ : BufTy).Contents (Elt F)) : (⟨S_, .f32⟩ : BufTy).Contents (Elt F) :=
  ((fun x v => Host.reduceAdd x v reducesTo_S4096x14x14x20_S_d0_1_2_3 h_S_) : (⟨S4096x14x14x20, .f32⟩ : BufTy).Contents (Elt F) → (⟨S_, .f32⟩ : BufTy).Contents (Elt F) → (⟨S_, .f32⟩ : BufTy).Contents (Elt F)) (val_main_v12 (F := F) x0 x2 x3) (val_main_cst_2 (F := F))
/-- The value main_cst_3 holds: nullary of nothing. -/
def val_main_cst_3 : (⟨S_, .f32⟩ : BufTy).Contents (Elt F) :=
  (constant S_ .f32 0x45800000#32)
/-- The value main_v14 holds: binary of main_v13, main_cst_3. -/
def val_main_v14 (x0 : (⟨S4096x14x14x30, .f32⟩ : BufTy).Contents (Elt F)) (x2 : (⟨S4096x14x14x20, .f32⟩ : BufTy).Contents (Elt F)) (x3 : (⟨S4096x14x14, .i1⟩ : BufTy).Contents (Elt F)) : (⟨S_, .f32⟩ : BufTy).Contents (Elt F) :=
  (Host.divf : (⟨S_, .f32⟩ : BufTy).Contents (Elt F) → (⟨S_, .f32⟩ : BufTy).Contents (Elt F) → (⟨S_, .f32⟩ : BufTy).Contents (Elt F)) (val_main_v13 (F := F) x0 x2 x3) (val_main_cst_3 (F := F))
/-- The value main_v15 holds: unary of main_v2. -/
def val_main_v15 (x3 : (⟨S4096x14x14, .i1⟩ : BufTy).Contents (Elt F)) : (⟨S4096x14x14x1, .f32⟩ : BufTy).Contents (Elt F) :=
  (broadcastInDim S4096x14x14x1 ![0, 1, 2] bcast_S4096x14x14_S4096x14x14x1_0_1_2 : (⟨S4096x14x14, .f32⟩ : BufTy).Contents (Elt F) → (⟨S4096x14x14x1, .f32⟩ : BufTy).Contents (Elt F)) (val_main_v2 (F := F) x3)
/-- The value main_v16 holds: binary of main_v5, main_v5. -/
def val_main_v16 (x0 : (⟨S4096x14x14x30, .f32⟩ : BufTy).Contents (Elt F)) : (⟨S4096x14x14x5, .f32⟩ : BufTy).Contents (Elt F) :=
  (mulf : (⟨S4096x14x14x5, .f32⟩ : BufTy).Contents (Elt F) → (⟨S4096x14x14x5, .f32⟩ : BufTy).Contents (Elt F) → (⟨S4096x14x14x5, .f32⟩ : BufTy).Contents (Elt F)) (val_main_v5 (F := F) x0) (val_main_v5 (F := F) x0)
/-- The value main_v17 holds: unary of main_v15. -/
def val_main_v17 (x3 : (⟨S4096x14x14, .i1⟩ : BufTy).Contents (Elt F)) : (⟨S4096x14x14x5, .f32⟩ : BufTy).Contents (Elt F) :=
  (broadcastInDim S4096x14x14x5 ![0, 1, 2, 3] bcast_S4096x14x14x1_S4096x14x14x5_0_1_2_3 : (⟨S4096x14x14x1, .f32⟩ : BufTy).Contents (Elt F) → (⟨S4096x14x14x5, .f32⟩ : BufTy).Contents (Elt F)) (val_main_v15 (F := F) x3)
/-- The value main_v18 holds: binary of main_v17, main_v16. -/
def val_main_v18 (x0 : (⟨S4096x14x14x30, .f32⟩ : BufTy).Contents (Elt F)) (x3 : (⟨S4096x14x14, .i1⟩ : BufTy).Contents (Elt F)) : (⟨S4096x14x14x5, .f32⟩ : BufTy).Contents (Elt F) :=
  (mulf : (⟨S4096x14x14x5, .f32⟩ : BufTy).Contents (Elt F) → (⟨S4096x14x14x5, .f32⟩ : BufTy).Contents (Elt F) → (⟨S4096x14x14x5, .f32⟩ : BufTy).Contents (Elt F)) (val_main_v17 (F := F) x3) (val_main_v16 (F := F) x0)
/-- The value main_cst_4 holds: nullary of nothing. -/
def val_main_cst_4 : (⟨S_, .f32⟩ : BufTy).Contents (Elt F) :=
  (constant S_ .f32 0x00000000#32)
/-- The value main_v19 holds: binary of main_v18, main_cst_4. -/
def val_main_v19 (x0 : (⟨S4096x14x14x30, .f32⟩ : BufTy).Contents (Elt F)) (x3 : (⟨S4096x14x14, .i1⟩ : BufTy).Contents (Elt F)) : (⟨S_, .f32⟩ : BufTy).Contents (Elt F) :=
  ((fun x v => Host.reduceAdd x v reducesTo_S4096x14x14x5_S_d0_1_2_3 h_S_) : (⟨S4096x14x14x5, .f32⟩ : BufTy).Contents (Elt F) → (⟨S_, .f32⟩ : BufTy).Contents (Elt F) → (⟨S_, .f32⟩ : BufTy).Contents (Elt F)) (val_main_v18 (F := F) x0 x3) (val_main_cst_4 (F := F))
/-- The value main_v20 holds: unary of main_v2. -/
def val_main_v20 (x3 : (⟨S4096x14x14, .i1⟩ : BufTy).Contents (Elt F)) : (⟨S4096x14x14x1, .f32⟩ : BufTy).Contents (Elt F) :=
  (broadcastInDim S4096x14x14x1 ![0, 1, 2] bcast_S4096x14x14_S4096x14x14x1_0_1_2 : (⟨S4096x14x14, .f32⟩ : BufTy).Contents (Elt F) → (⟨S4096x14x14x1, .f32⟩ : BufTy).Contents (Elt F)) (val_main_v2 (F := F) x3)
/-- The value main_v21 holds: binary of main_v6, main_v6. -/
def val_main_v21 (x0 : (⟨S4096x14x14x30, .f32⟩ : BufTy).Contents (Elt F)) : (⟨S4096x14x14x5, .f32⟩ : BufTy).Contents (Elt F) :=
  (mulf : (⟨S4096x14x14x5, .f32⟩ : BufTy).Contents (Elt F) → (⟨S4096x14x14x5, .f32⟩ : BufTy).Contents (Elt F) → (⟨S4096x14x14x5, .f32⟩ : BufTy).Contents (Elt F)) (val_main_v6 (F := F) x0) (val_main_v6 (F := F) x0)
/-- The value main_v22 holds: unary of main_v20. -/
def val_main_v22 (x3 : (⟨S4096x14x14, .i1⟩ : BufTy).Contents (Elt F)) : (⟨S4096x14x14x5, .f32⟩ : BufTy).Contents (Elt F) :=
  (broadcastInDim S4096x14x14x5 ![0, 1, 2, 3] bcast_S4096x14x14x1_S4096x14x14x5_0_1_2_3 : (⟨S4096x14x14x1, .f32⟩ : BufTy).Contents (Elt F) → (⟨S4096x14x14x5, .f32⟩ : BufTy).Contents (Elt F)) (val_main_v20 (F := F) x3)
/-- The value main_v23 holds: binary of main_v22, main_v21. -/
def val_main_v23 (x0 : (⟨S4096x14x14x30, .f32⟩ : BufTy).Contents (Elt F)) (x3 : (⟨S4096x14x14, .i1⟩ : BufTy).Contents (Elt F)) : (⟨S4096x14x14x5, .f32⟩ : BufTy).Contents (Elt F) :=
  (mulf : (⟨S4096x14x14x5, .f32⟩ : BufTy).Contents (Elt F) → (⟨S4096x14x14x5, .f32⟩ : BufTy).Contents (Elt F) → (⟨S4096x14x14x5, .f32⟩ : BufTy).Contents (Elt F)) (val_main_v22 (F := F) x3) (val_main_v21 (F := F) x0)
/-- The value main_cst_5 holds: nullary of nothing. -/
def val_main_cst_5 : (⟨S_, .f32⟩ : BufTy).Contents (Elt F) :=
  (constant S_ .f32 0x00000000#32)
/-- The value main_v24 holds: binary of main_v23, main_cst_5. -/
def val_main_v24 (x0 : (⟨S4096x14x14x30, .f32⟩ : BufTy).Contents (Elt F)) (x3 : (⟨S4096x14x14, .i1⟩ : BufTy).Contents (Elt F)) : (⟨S_, .f32⟩ : BufTy).Contents (Elt F) :=
  ((fun x v => Host.reduceAdd x v reducesTo_S4096x14x14x5_S_d0_1_2_3 h_S_) : (⟨S4096x14x14x5, .f32⟩ : BufTy).Contents (Elt F) → (⟨S_, .f32⟩ : BufTy).Contents (Elt F) → (⟨S_, .f32⟩ : BufTy).Contents (Elt F)) (val_main_v23 (F := F) x0 x3) (val_main_cst_5 (F := F))
/-- The value main_v25 holds: binary of main_v19, main_v24. -/
def val_main_v25 (x0 : (⟨S4096x14x14x30, .f32⟩ : BufTy).Contents (Elt F)) (x3 : (⟨S4096x14x14, .i1⟩ : BufTy).Contents (Elt F)) : (⟨S_, .f32⟩ : BufTy).Contents (Elt F) :=
  (addf : (⟨S_, .f32⟩ : BufTy).Contents (Elt F) → (⟨S_, .f32⟩ : BufTy).Contents (Elt F) → (⟨S_, .f32⟩ : BufTy).Contents (Elt F)) (val_main_v19 (F := F) x0 x3) (val_main_v24 (F := F) x0 x3)
/-- The value main_cst_6 holds: nullary of nothing. -/
def val_main_cst_6 : (⟨S_, .f32⟩ : BufTy).Contents (Elt F) :=
  (constant S_ .f32 0x3F000000#32)
/-- The value main_v26 holds: binary of main_cst_6, main_v25. -/
def val_main_v26 (x0 : (⟨S4096x14x14x30, .f32⟩ : BufTy).Contents (Elt F)) (x3 : (⟨S4096x14x14, .i1⟩ : BufTy).Contents (Elt F)) : (⟨S_, .f32⟩ : BufTy).Contents (Elt F) :=
  (mulf : (⟨S_, .f32⟩ : BufTy).Contents (Elt F) → (⟨S_, .f32⟩ : BufTy).Contents (Elt F) → (⟨S_, .f32⟩ : BufTy).Contents (Elt F)) (val_main_cst_6 (F := F)) (val_main_v25 (F := F) x0 x3)
/-- The value main_v27 holds: binary of main_v26, main_v4. -/
def val_main_v27 (x0 : (⟨S4096x14x14x30, .f32⟩ : BufTy).Contents (Elt F)) (x3 : (⟨S4096x14x14, .i1⟩ : BufTy).Contents (Elt F)) : (⟨S_, .f32⟩ : BufTy).Contents (Elt F) :=
  (Host.divf : (⟨S_, .f32⟩ : BufTy).Contents (Elt F) → (⟨S_, .f32⟩ : BufTy).Contents (Elt F) → (⟨S_, .f32⟩ : BufTy).Contents (Elt F)) (val_main_v26 (F := F) x0 x3) (val_main_v4 (F := F) x3)
/-- The value main_v28 holds: unary of main_arg1. -/
def val_main_v28 (x1 : (⟨S4096x14x14x4, .f32⟩ : BufTy).Contents (Elt F)) : (⟨S4096x14x14x1, .f32⟩ : BufTy).Contents (Elt F) :=
  ((extractStridedSlice S4096x14x14x1 ![0, 0, 0, 0] · slices_S4096x14x14x4_S4096x14x14x1_0_0_0_0) : (⟨S4096x14x14x4, .f32⟩ : BufTy).Contents (Elt F) → (⟨S4096x14x14x1, .f32⟩ : BufTy).Contents (Elt F)) x1
/-- The value main_v29 holds: reshape of main_v28. -/
def val_main_v29 (x1 : (⟨S4096x14x14x4, .f32⟩ : BufTy).Contents (Elt F)) : (⟨S4096x14x14, .f32⟩ : BufTy).Contents (Elt F) :=
  shapeCast _ (val_main_v28 (F := F) x1) shapeCasts_S4096x14x14x1_S4096x14x14
/-- The value main_v30 holds: unary of main_arg1. -/
def val_main_v30 (x1 : (⟨S4096x14x14x4, .f32⟩ : BufTy).Contents (Elt F)) : (⟨S4096x14x14x1, .f32⟩ : BufTy).Contents (Elt F) :=
  ((extractStridedSlice S4096x14x14x1 ![0, 0, 0, 1] · slices_S4096x14x14x4_S4096x14x14x1_0_0_0_1) : (⟨S4096x14x14x4, .f32⟩ : BufTy).Contents (Elt F) → (⟨S4096x14x14x1, .f32⟩ : BufTy).Contents (Elt F)) x1
/-- The value main_v31 holds: reshape of main_v30. -/
def val_main_v31 (x1 : (⟨S4096x14x14x4, .f32⟩ : BufTy).Contents (Elt F)) : (⟨S4096x14x14, .f32⟩ : BufTy).Contents (Elt F) :=
  shapeCast _ (val_main_v30 (F := F) x1) shapeCasts_S4096x14x14x1_S4096x14x14
/-- The value main_v32 holds: unary of main_arg1. -/
def val_main_v32 (x1 : (⟨S4096x14x14x4, .f32⟩ : BufTy).Contents (Elt F)) : (⟨S4096x14x14x1, .f32⟩ : BufTy).Contents (Elt F) :=
  ((extractStridedSlice S4096x14x14x1 ![0, 0, 0, 2] · slices_S4096x14x14x4_S4096x14x14x1_0_0_0_2) : (⟨S4096x14x14x4, .f32⟩ : BufTy).Contents (Elt F) → (⟨S4096x14x14x1, .f32⟩ : BufTy).Contents (Elt F)) x1
/-- The value main_v33 holds: reshape of main_v32. -/
def val_main_v33 (x1 : (⟨S4096x14x14x4, .f32⟩ : BufTy).Contents (Elt F)) : (⟨S4096x14x14, .f32⟩ : BufTy).Contents (Elt F) :=
  shapeCast _ (val_main_v32 (F := F) x1) shapeCasts_S4096x14x14x1_S4096x14x14
/-- The value main_v34 holds: unary of main_arg1. -/
def val_main_v34 (x1 : (⟨S4096x14x14x4, .f32⟩ : BufTy).Contents (Elt F)) : (⟨S4096x14x14x1, .f32⟩ : BufTy).Contents (Elt F) :=
  ((extractStridedSlice S4096x14x14x1 ![0, 0, 0, 3] · slices_S4096x14x14x4_S4096x14x14x1_0_0_0_3) : (⟨S4096x14x14x4, .f32⟩ : BufTy).Contents (Elt F) → (⟨S4096x14x14x1, .f32⟩ : BufTy).Contents (Elt F)) x1
/-- The value main_v35 holds: reshape of main_v34. -/
def val_main_v35 (x1 : (⟨S4096x14x14x4, .f32⟩ : BufTy).Contents (Elt F)) : (⟨S4096x14x14, .f32⟩ : BufTy).Contents (Elt F) :=
  shapeCast _ (val_main_v34 (F := F) x1) shapeCasts_S4096x14x14x1_S4096x14x14
/-- The value main_cst_7 holds: nullary of nothing. -/
def val_main_cst_7 : (⟨S_, .f32⟩ : BufTy).Contents (Elt F) :=
  (constant S_ .f32 0x41600000#32)
/-- The value main_v36 holds: unary of main_cst_7. -/
def val_main_v36 : (⟨S4096x14x14, .f32⟩ : BufTy).Contents (Elt F) :=
  (broadcastInDim S4096x14x14 ![] bcast_S_S4096x14x14 : (⟨S_, .f32⟩ : BufTy).Contents (Elt F) → (⟨S4096x14x14, .f32⟩ : BufTy).Contents (Elt F)) (val_main_cst_7 (F := F))
/-- The value main_v37 holds: binary of main_v29, main_v36. -/
def val_main_v37 (x1 : (⟨S4096x14x14x4, .f32⟩ : BufTy).Contents (Elt F)) : (⟨S4096x14x14, .f32⟩ : BufTy).Contents (Elt F) :=
  (Host.divf : (⟨S4096x14x14, .f32⟩ : BufTy).Contents (Elt F) → (⟨S4096x14x14, .f32⟩ : BufTy).Contents (Elt F) → (⟨S4096x14x14, .f32⟩ : BufTy).Contents (Elt F)) (val_main_v29 (F := F) x1) (val_main_v36 (F := F))
/-- The value main_cst_8 holds: nullary of nothing. -/
def val_main_cst_8 : (⟨S_, .f32⟩ : BufTy).Contents (Elt F) :=
  (constant S_ .f32 0x3F000000#32)
/-- The value main_v38 holds: unary of main_cst_8. -/
def val_main_v38 : (⟨S4096x14x14, .f32⟩ : BufTy).Contents (Elt F) :=
  (broadcastInDim S4096x14x14 ![] bcast_S_S4096x14x14 : (⟨S_, .f32⟩ : BufTy).Contents (Elt F) → (⟨S4096x14x14, .f32⟩ : BufTy).Contents (Elt F)) (val_main_cst_8 (F := F))
/-- The value main_v39 holds: binary of main_v38, main_v33. -/
def val_main_v39 (x1 : (⟨S4096x14x14x4, .f32⟩ : BufTy).Contents (Elt F)) : (⟨S4096x14x14, .f32⟩ : BufTy).Contents (Elt F) :=
  (mulf : (⟨S4096x14x14, .f32⟩ : BufTy).Contents (Elt F) → (⟨S4096x14x14, .f32⟩ : BufTy).Contents (Elt F) → (⟨S4096x14x14, .f32⟩ : BufTy).Contents (Elt F)) (val_main_v38 (F := F)) (val_main_v33 (F := F) x1)
/-- The value main_v40 holds: binary of main_v37, main_v39. -/
def val_main_v40 (x1 : (⟨S4096x14x14x4, .f32⟩ : BufTy).Contents (Elt F)) : (⟨S4096x14x14, .f32⟩ : BufTy).Contents (Elt F) :=
  (subf : (⟨S4096x14x14, .f32⟩ : BufTy).Contents (Elt F) → (⟨S4096x14x14, .f32⟩ : BufTy).Contents (Elt F) → (⟨S4096x14x14, .f32⟩ : BufTy).Contents (Elt F)) (val_main_v37 (F := F) x1) (val_main_v39 (F := F) x1)
/-- The value main_cst_9 holds: nullary of nothing. -/
def val_main_cst_9 : (⟨S_, .f32⟩ : BufTy).Contents (Elt F) :=
  (constant S_ .f32 0x41600000#32)
/-- The value main_v41 holds: unary of main_cst_9. -/
def val_main_v41 : (⟨S4096x14x14, .f32⟩ : BufTy).Contents (Elt F) :=
  (broadcastInDim S4096x14x14 ![] bcast_S_S4096x14x14 : (⟨S_, .f32⟩ : BufTy).Contents (Elt F) → (⟨S4096x14x14, .f32⟩ : BufTy).Contents (Elt F)) (val_main_cst_9 (F := F))
/-- The value main_v42 holds: binary of main_v31, main_v41. -/
def val_main_v42 (x1 : (⟨S4096x14x14x4, .f32⟩ : BufTy).Contents (Elt F)) : (⟨S4096x14x14, .f32⟩ : BufTy).Contents (Elt F) :=
  (Host.divf : (⟨S4096x14x14, .f32⟩ : BufTy).Contents (Elt F) → (⟨S4096x14x14, .f32⟩ : BufTy).Contents (Elt F) → (⟨S4096x14x14, .f32⟩ : BufTy).Contents (Elt F)) (val_main_v31 (F := F) x1) (val_main_v41 (F := F))
/-- The value main_cst_10 holds: nullary of nothing. -/
def val_main_cst_10 : (⟨S_, .f32⟩ : BufTy).Contents (Elt F) :=
  (constant S_ .f32 0x3F000000#32)
/-- The value main_v43 holds: unary of main_cst_10. -/
def val_main_v43 : (⟨S4096x14x14, .f32⟩ : BufTy).Contents (Elt F) :=
  (broadcastInDim S4096x14x14 ![] bcast_S_S4096x14x14 : (⟨S_, .f32⟩ : BufTy).Contents (Elt F) → (⟨S4096x14x14, .f32⟩ : BufTy).Contents (Elt F)) (val_main_cst_10 (F := F))
/-- The value main_v44 holds: binary of main_v43, main_v35. -/
def val_main_v44 (x1 : (⟨S4096x14x14x4, .f32⟩ : BufTy).Contents (Elt F)) : (⟨S4096x14x14, .f32⟩ : BufTy).Contents (Elt F) :=
  (mulf : (⟨S4096x14x14, .f32⟩ : BufTy).Contents (Elt F) → (⟨S4096x14x14, .f32⟩ : BufTy).Contents (Elt F) → (⟨S4096x14x14, .f32⟩ : BufTy).Contents (Elt F)) (val_main_v43 (F := F)) (val_main_v35 (F := F) x1)
/-- The value main_v45 holds: binary of main_v42, main_v44. -/
def val_main_v45 (x1 : (⟨S4096x14x14x4, .f32⟩ : BufTy).Contents (Elt F)) : (⟨S4096x14x14, .f32⟩ : BufTy).Contents (Elt F) :=
  (subf : (⟨S4096x14x14, .f32⟩ : BufTy).Contents (Elt F) → (⟨S4096x14x14, .f32⟩ : BufTy).Contents (Elt F) → (⟨S4096x14x14, .f32⟩ : BufTy).Contents (Elt F)) (val_main_v42 (F := F) x1) (val_main_v44 (F := F) x1)
/-- The value main_cst_11 holds: nullary of nothing. -/
def val_main_cst_11 : (⟨S_, .f32⟩ : BufTy).Contents (Elt F) :=
  (constant S_ .f32 0x41600000#32)
/-- The value main_v46 holds: unary of main_cst_11. -/
def val_main_v46 : (⟨S4096x14x14, .f32⟩ : BufTy).Contents (Elt F) :=
  (broadcastInDim S4096x14x14 ![] bcast_S_S4096x14x14 : (⟨S_, .f32⟩ : BufTy).Contents (Elt F) → (⟨S4096x14x14, .f32⟩ : BufTy).Contents (Elt F)) (val_main_cst_11 (F := F))
/-- The value main_v47 holds: binary of main_v29, main_v46. -/
def val_main_v47 (x1 : (⟨S4096x14x14x4, .f32⟩ : BufTy).Contents (Elt F)) : (⟨S4096x14x14, .f32⟩ : BufTy).Contents (Elt F) :=
  (Host.divf : (⟨S4096x14x14, .f32⟩ : BufTy).Contents (Elt F) → (⟨S4096x14x14, .f32⟩ : BufTy).Contents (Elt F) → (⟨S4096x14x14, .f32⟩ : BufTy).Contents (Elt F)) (val_main_v29 (F := F) x1) (val_main_v46 (F := F))
/-- The value main_cst_12 holds: nullary of nothing. -/
def val_main_cst_12 : (⟨S_, .f32⟩ : BufTy).Contents (Elt F) :=
  (constant S_ .f32 0x3F000000#32)
/-- The value main_v48 holds: unary of main_cst_12. -/
def val_main_v48 : (⟨S4096x14x14, .f32⟩ : BufTy).Contents (Elt F) :=
  (broadcastInDim S4096x14x14 ![] bcast_S_S4096x14x14 : (⟨S_, .f32⟩ : BufTy).Contents (Elt F) → (⟨S4096x14x14, .f32⟩ : BufTy).Contents (Elt F)) (val_main_cst_12 (F := F))
/-- The value main_v49 holds: binary of main_v48, main_v33. -/
def val_main_v49 (x1 : (⟨S4096x14x14x4, .f32⟩ : BufTy).Contents (Elt F)) : (⟨S4096x14x14, .f32⟩ : BufTy).Contents (Elt F) :=
  (mulf : (⟨S4096x14x14, .f32⟩ : BufTy).Contents (Elt F) → (⟨S4096x14x14, .f32⟩ : BufTy).Contents (Elt F) → (⟨S4096x14x14, .f32⟩ : BufTy).Contents (Elt F)) (val_main_v48 (F := F)) (val_main_v33 (F := F) x1)
/-- The value main_v50 holds: binary of main_v47, main_v49. -/
def val_main_v50 (x1 : (⟨S4096x14x14x4, .f32⟩ : BufTy).Contents (Elt F)) : (⟨S4096x14x14, .f32⟩ : BufTy).Contents (Elt F) :=
  (addf : (⟨S4096x14x14, .f32⟩ : BufTy).Contents (Elt F) → (⟨S4096x14x14, .f32⟩ : BufTy).Contents (Elt F) → (⟨S4096x14x14, .f32⟩ : BufTy).Contents (Elt F)) (val_main_v47 (F := F) x1) (val_main_v49 (F := F) x1)
/-- The value main_cst_13 holds: nullary of nothing. -/
def val_main_cst_13 : (⟨S_, .f32⟩ : BufTy).Contents (Elt F) :=
  (constant S_ .f32 0x41600000#32)
/-- The value main_v51 holds: unary of main_cst_13. -/
def val_main_v51 : (⟨S4096x14x14, .f32⟩ : BufTy).Contents (Elt F) :=
  (broadcastInDim S4096x14x14 ![] bcast_S_S4096x14x14 : (⟨S_, .f32⟩ : BufTy).Contents (Elt F) → (⟨S4096x14x14, .f32⟩ : BufTy).Contents (Elt F)) (val_main_cst_13 (F := F))
/-- The value main_v52 holds: binary of main_v31, main_v51. -/
def val_main_v52 (x1 : (⟨S4096x14x14x4, .f32⟩ : BufTy).Contents (Elt F)) : (⟨S4096x14x14, .f32⟩ : BufTy).Contents (Elt F) :=
  (Host.divf : (⟨S4096x14x14, .f32⟩ : BufTy).Contents (Elt F) → (⟨S4096x14x14, .f32⟩ : BufTy).Contents (Elt F) → (⟨S4096x14x14, .f32⟩ : BufTy).Contents (Elt F)) (val_main_v31 (F := F) x1) (val_main_v51 (F := F))
/-- The value main_cst_14 holds: nullary of nothing. -/
def val_main_cst_14 : (⟨S_, .f32⟩ : BufTy).Contents (Elt F) :=
  (constant S_ .f32 0x3F000000#32)
/-- The value main_v53 holds: unary of main_cst_14. -/
def val_main_v53 : (⟨S4096x14x14, .f32⟩ : BufTy).Contents (Elt F) :=
  (broadcastInDim S4096x14x14 ![] bcast_S_S4096x14x14 : (⟨S_, .f32⟩ : BufTy).Contents (Elt F) → (⟨S4096x14x14, .f32⟩ : BufTy).Contents (Elt F)) (val_main_cst_14 (F := F))
/-- The value main_v54 holds: binary of main_v53, main_v35. -/
def val_main_v54 (x1 : (⟨S4096x14x14x4, .f32⟩ : BufTy).Contents (Elt F)) : (⟨S4096x14x14, .f32⟩ : BufTy).Contents (Elt F) :=
  (mulf : (⟨S4096x14x14, .f32⟩ : BufTy).Contents (Elt F) → (⟨S4096x14x14, .f32⟩ : BufTy).Contents (Elt F) → (⟨S4096x14x14, .f32⟩ : BufTy).Contents (Elt F)) (val_main_v53 (F := F)) (val_main_v35 (F := F) x1)
/-- The value main_v55 holds: binary of main_v52, main_v54. -/
def val_main_v55 (x1 : (⟨S4096x14x14x4, .f32⟩ : BufTy).Contents (Elt F)) : (⟨S4096x14x14, .f32⟩ : BufTy).Contents (Elt F) :=
  (addf : (⟨S4096x14x14, .f32⟩ : BufTy).Contents (Elt F) → (⟨S4096x14x14, .f32⟩ : BufTy).Contents (Elt F) → (⟨S4096x14x14, .f32⟩ : BufTy).Contents (Elt F)) (val_main_v52 (F := F) x1) (val_main_v54 (F := F) x1)
/-- The value main_v56 holds: unary of main_v40. -/
def val_main_v56 (x1 : (⟨S4096x14x14x4, .f32⟩ : BufTy).Contents (Elt F)) : (⟨S4096x14x14x1, .f32⟩ : BufTy).Contents (Elt F) :=
  (broadcastInDim S4096x14x14x1 ![0, 1, 2] bcast_S4096x14x14_S4096x14x14x1_0_1_2 : (⟨S4096x14x14, .f32⟩ : BufTy).Contents (Elt F) → (⟨S4096x14x14x1, .f32⟩ : BufTy).Contents (Elt F)) (val_main_v40 (F := F) x1)
/-- The value main_v57 holds: unary of main_v45. -/
def val_main_v57 (x1 : (⟨S4096x14x14x4, .f32⟩ : BufTy).Contents (Elt F)) : (⟨S4096x14x14x1, .f32⟩ : BufTy).Contents (Elt F) :=
  (broadcastInDim S4096x14x14x1 ![0, 1, 2] bcast_S4096x14x14_S4096x14x14x1_0_1_2 : (⟨S4096x14x14, .f32⟩ : BufTy).Contents (Elt F) → (⟨S4096x14x14x1, .f32⟩ : BufTy).Contents (Elt F)) (val_main_v45 (F := F) x1)
/-- The value main_v58 holds: unary of main_v50. -/
def val_main_v58 (x1 : (⟨S4096x14x14x4, .f32⟩ : BufTy).Contents (Elt F)) : (⟨S4096x14x14x1, .f32⟩ : BufTy).Contents (Elt F) :=
  (broadcastInDim S4096x14x14x1 ![0, 1, 2] bcast_S4096x14x14_S4096x14x14x1_0_1_2 : (⟨S4096x14x14, .f32⟩ : BufTy).Contents (Elt F) → (⟨S4096x14x14x1, .f32⟩ : BufTy).Contents (Elt F)) (val_main_v50 (F := F) x1)
/-- The value main_v59 holds: unary of main_v55. -/
def val_main_v59 (x1 : (⟨S4096x14x14x4, .f32⟩ : BufTy).Contents (Elt F)) : (⟨S4096x14x14x1, .f32⟩ : BufTy).Contents (Elt F) :=
  (broadcastInDim S4096x14x14x1 ![0, 1, 2] bcast_S4096x14x14_S4096x14x14x1_0_1_2 : (⟨S4096x14x14, .f32⟩ : BufTy).Contents (Elt F) → (⟨S4096x14x14x1, .f32⟩ : BufTy).Contents (Elt F)) (val_main_v55 (F := F) x1)
/-- The value main_v60 holds: nary of main_v56, main_v57, main_v58, main_v59. -/
def val_main_v60 (x1 : (⟨S4096x14x14x4, .f32⟩ : BufTy).Contents (Elt F)) : (⟨S4096x14x14x4, .f32⟩ : BufTy).Contents (Elt F) :=
  concatenate S4096x14x14x4 3 [⟨S4096x14x14x1, (val_main_v56 (F := F) x1)⟩, ⟨S4096x14x14x1, (val_main_v57 (F := F) x1)⟩, ⟨S4096x14x14x1, (val_main_v58 (F := F) x1)⟩, ⟨S4096x14x14x1, (val_main_v59 (F := F) x1)⟩] concatenates_S4096x14x14x1_S4096x14x14x1_S4096x14x14x1_S4096x14x14x1_S4096x14x14x4_d3
/-- The value main_v61 holds: unary of main_v5. -/
def val_main_v61 (x0 : (⟨S4096x14x14x30, .f32⟩ : BufTy).Contents (Elt F)) : (⟨S4096x14x14x4, .f32⟩ : BufTy).Contents (Elt F) :=
  ((extractStridedSlice S4096x14x14x4 ![0, 0, 0, 0] · slices_S4096x14x14x5_S4096x14x14x4_0_0_0_0) : (⟨S4096x14x14x5, .f32⟩ : BufTy).Contents (Elt F) → (⟨S4096x14x14x4, .f32⟩ : BufTy).Contents (Elt F)) (val_main_v5 (F := F) x0)
/-- The value main_v62 holds: unary of main_v61. -/
def val_main_v62 (x0 : (⟨S4096x14x14x30, .f32⟩ : BufTy).Contents (Elt F)) : (⟨S4096x14x14x1, .f32⟩ : BufTy).Contents (Elt F) :=
  ((extractStridedSlice S4096x14x14x1 ![0, 0, 0, 0] · slices_S4096x14x14x4_S4096x14x14x1_0_0_0_0) : (⟨S4096x14x14x4, .f32⟩ : BufTy).Contents (Elt F) → (⟨S4096x14x14x1, .f32⟩ : BufTy).Contents (Elt F)) (val_main_v61 (F := F) x0)
/-- The value main_v63 holds: reshape of main_v62. -/
def val_main_v63 (x0 : (⟨S4096x14x14x30, .f32⟩ : BufTy).Contents (Elt F)) : (⟨S4096x14x14, .f32⟩ : BufTy).Contents (Elt F) :=
  shapeCast _ (val_main_v62 (F := F) x0) shapeCasts_S4096x14x14x1_S4096x14x14
/-- The value main_v64 holds: unary of main_v61. -/
def val_main_v64 (x0 : (⟨S4096x14x14x30, .f32⟩ : BufTy).Contents (Elt F)) : (⟨S4096x14x14x1, .f32⟩ : BufTy).Contents (Elt F) :=
  ((extractStridedSlice S4096x14x14x1 ![0, 0, 0, 1] · slices_S4096x14x14x4_S4096x14x14x1_0_0_0_1) : (⟨S4096x14x14x4, .f32⟩ : BufTy).Contents (Elt F) → (⟨S4096x14x14x1, .f32⟩ : BufTy).Contents (Elt F)) (val_main_v61 (F := F) x0)
/-- The value main_v65 holds: reshape of main_v64. -/
def val_main_v65 (x0 : (⟨S4096x14x14x30, .f32⟩ : BufTy).Contents (Elt F)) : (⟨S4096x14x14, .f32⟩ : BufTy).Contents (Elt F) :=
  shapeCast _ (val_main_v64 (F := F) x0) shapeCasts_S4096x14x14x1_S4096x14x14
/-- The value main_v66 holds: unary of main_v61. -/
def val_main_v66 (x0 : (⟨S4096x14x14x30, .f32⟩ : BufTy).Contents (Elt F)) : (⟨S4096x14x14x1, .f32⟩ : BufTy).Contents (Elt F) :=
  ((extractStridedSlice S4096x14x14x1 ![0, 0, 0, 2] · slices_S4096x14x14x4_S4096x14x14x1_0_0_0_2) : (⟨S4096x14x14x4, .f32⟩ : BufTy).Contents (Elt F) → (⟨S4096x14x14x1, .f32⟩ : BufTy).Contents (Elt F)) (val_main_v61 (F := F) x0)
/-- The value main_v67 holds: reshape of main_v66. -/
def val_main_v67 (x0 : (⟨S4096x14x14x30, .f32⟩ : BufTy).Contents (Elt F)) : (⟨S4096x14x14, .f32⟩ : BufTy).Contents (Elt F) :=
  shapeCast _ (val_main_v66 (F := F) x0) shapeCasts_S4096x14x14x1_S4096x14x14
/-- The value main_v68 holds: unary of main_v61. -/
def val_main_v68 (x0 : (⟨S4096x14x14x30, .f32⟩ : BufTy).Contents (Elt F)) : (⟨S4096x14x14x1, .f32⟩ : BufTy).Contents (Elt F) :=
  ((extractStridedSlice S4096x14x14x1 ![0, 0, 0, 3] · slices_S4096x14x14x4_S4096x14x14x1_0_0_0_3) : (⟨S4096x14x14x4, .f32⟩ : BufTy).Contents (Elt F) → (⟨S4096x14x14x1, .f32⟩ : BufTy).Contents (Elt F)) (val_main_v61 (F := F) x0)
/-- The value main_v69 holds: reshape of main_v68. -/
def val_main_v69 (x0 : (⟨S4096x14x14x30, .f32⟩ : BufTy).Contents (Elt F)) : (⟨S4096x14x14, .f32⟩ : BufTy).Contents (Elt F) :=
  shapeCast _ (val_main_v68 (F := F) x0) shapeCasts_S4096x14x14x1_S4096x14x14
/-- The value main_cst_15 holds: nullary of nothing. -/
def val_main_cst_15 : (⟨S_, .f32⟩ : BufTy).Contents (Elt F) :=
  (constant S_ .f32 0x41600000#32)
/-- The value main_v70 holds: unary of main_cst_15. -/
def val_main_v70 : (⟨S4096x14x14, .f32⟩ : BufTy).Contents (Elt F) :=
  (broadcastInDim S4096x14x14 ![] bcast_S_S4096x14x14 : (⟨S_, .f32⟩ : BufTy).Contents (Elt F) → (⟨S4096x14x14, .f32⟩ : BufTy).Contents (Elt F)) (val_main_cst_15 (F := F))
/-- The value main_v71 holds: binary of main_v63, main_v70. -/
def val_main_v71 (x0 : (⟨S4096x14x14x30, .f32⟩ : BufTy).Contents (Elt F)) : (⟨S4096x14x14, .f32⟩ : BufTy).Contents (Elt F) :=
  (Host.divf : (⟨S4096x14x14, .f32⟩ : BufTy).Contents (Elt F) → (⟨S4096x14x14, .f32⟩ : BufTy).Contents (Elt F) → (⟨S4096x14x14, .f32⟩ : BufTy).Contents (Elt F)) (val_main_v63 (F := F) x0) (val_main_v70 (F := F))
/-- The value main_cst_16 holds: nullary of nothing. -/
def val_main_cst_16 : (⟨S_, .f32⟩ : BufTy).Contents (Elt F) :=
  (constant S_ .f32 0x3F000000#32)
/-- The value main_v72 holds: unary of main_cst_16. -/
def val_main_v72 : (⟨S4096x14x14, .f32⟩ : BufTy).Contents (Elt F) :=
  (broadcastInDim S4096x14x14 ![] bcast_S_S4096x14x14 : (⟨S_, .f32⟩ : BufTy).Contents (Elt F) → (⟨S4096x14x14, .f32⟩ : BufTy).Contents (Elt F)) (val_main_cst_16 (F := F))
/-- The value main_v73 holds: binary of main_v72, main_v67. -/
def val_main_v73 (x0 : (⟨S4096x14x14x30, .f32⟩ : BufTy).Contents (Elt F)) : (⟨S4096x14x14, .f32⟩ : BufTy).Contents (Elt F) :=
  (mulf : (⟨S4096x14x14, .f32⟩ : BufTy).Contents (Elt F) → (⟨S4096x14x14, .f32⟩ : BufTy).Contents (Elt F) → (⟨S4096x14x14, .f32⟩ : BufTy).Contents (Elt F)) (val_main_v72 (F := F)) (val_main_v67 (F := F) x0)
/-- The value main_v74 holds: binary of main_v71, main_v73. -/
def val_main_v74 (x0 : (⟨S4096x14x14x30, .f32⟩ : BufTy).Contents (Elt F)) : (⟨S4096x14x14, .f32⟩ : BufTy).Contents (Elt F) :=
  (subf : (⟨S4096x14x14, .f32⟩ : BufTy).Contents (Elt F) → (⟨S4096x14x14, .f32⟩ : BufTy).Contents (Elt F) → (⟨S4096x14x14, .f32⟩ : BufTy).Contents (Elt F)) (val_main_v71 (F := F) x0) (val_main_v73 (F := F) x0)
/-- The value main_cst_17 holds: nullary of nothing. -/
def val_main_cst_17 : (⟨S_, .f32⟩ : BufTy).Contents (Elt F) :=
  (constant S_ .f32 0x41600000#32)
/-- The value main_v75 holds: unary of main_cst_17. -/
def val_main_v75 : (⟨S4096x14x14, .f32⟩ : BufTy).Contents (Elt F) :=
  (broadcastInDim S4096x14x14 ![] bcast_S_S4096x14x14 : (⟨S_, .f32⟩ : BufTy).Contents (Elt F) → (⟨S4096x14x14, .f32⟩ : BufTy).Contents (Elt F)) (val_main_cst_17 (F := F))
/-- The value main_v76 holds: binary of main_v65, main_v75. -/
def val_main_v76 (x0 : (⟨S4096x14x14x30, .f32⟩ : BufTy).Contents (Elt F)) : (⟨S4096x14x14, .f32⟩ : BufTy).Contents (Elt F) :=
  (Host.divf : (⟨S4096x14x14, .f32⟩ : BufTy).Contents (Elt F) → (⟨S4096x14x14, .f32⟩ : BufTy).Contents (Elt F) → (⟨S4096x14x14, .f32⟩ : BufTy).Contents (Elt F)) (val_main_v65 (F := F) x0) (val_main_v75 (F := F))
/-- The value main_cst_18 holds: nullary of nothing. -/
def val_main_cst_18 : (⟨S_, .f32⟩ : BufTy).Contents (Elt F) :=
  (constant S_ .f32 0x3F000000#32)
/-- The value main_v77 holds: unary of main_cst_18. -/
def val_main_v77 : (⟨S4096x14x14, .f32⟩ : BufTy).Contents (Elt F) :=
  (broadcastInDim S4096x14x14 ![] bcast_S_S4096x14x14 : (⟨S_, .f32⟩ : BufTy).Contents (Elt F) → (⟨S4096x14x14, .f32⟩ : BufTy).Contents (Elt F)) (val_main_cst_18 (F := F))
/-- The value main_v78 holds: binary of main_v77, main_v69. -/
def val_main_v78 (x0 : (⟨S4096x14x14x30, .f32⟩ : BufTy).Contents (Elt F)) : (⟨S4096x14x14, .f32⟩ : BufTy).Contents (Elt F) :=
  (mulf : (⟨S4096x14x14, .f32⟩ : BufTy).Contents (Elt F) → (⟨S4096x14x14, .f32⟩ : BufTy).Contents (Elt F) → (⟨S4096x14x14, .f32⟩ : BufTy).Contents (Elt F)) (val_main_v77 (F := F)) (val_main_v69 (F := F) x0)
/-- The value main_v79 holds: binary of main_v76, main_v78. -/
def val_main_v79 (x0 : (⟨S4096x14x14x30, .f32⟩ : BufTy).Contents (Elt F)) : (⟨S4096x14x14, .f32⟩ : BufTy).Contents (Elt F) :=
  (subf : (⟨S4096x14x14, .f32⟩ : BufTy).Contents (Elt F) → (⟨S4096x14x14, .f32⟩ : BufTy).Contents (Elt F) → (⟨S4096x14x14, .f32⟩ : BufTy).Contents (Elt F)) (val_main_v76 (F := F) x0) (val_main_v78 (F := F) x0)
/-- The value main_cst_19 holds: nullary of nothing. -/
def val_main_cst_19 : (⟨S_, .f32⟩ : BufTy).Contents (Elt F) :=
  (constant S_ .f32 0x41600000#32)
/-- The value main_v80 holds: unary of main_cst_19. -/
def val_main_v80 : (⟨S4096x14x14, .f32⟩ : BufTy).Contents (Elt F) :=
  (broadcastInDim S4096x14x14 ![] bcast_S_S4096x14x14 : (⟨S_, .f32⟩ : BufTy).Contents (Elt F) → (⟨S4096x14x14, .f32⟩ : BufTy).Contents (Elt F)) (val_main_cst_19 (F := F))
/-- The value main_v81 holds: binary of main_v63, main_v80. -/
def val_main_v81 (x0 : (⟨S4096x14x14x30, .f32⟩ : BufTy).Contents (Elt F)) : (⟨S4096x14x14, .f32⟩ : BufTy).Contents (Elt F) :=
  (Host.divf : (⟨S4096x14x14, .f32⟩ : BufTy).Contents (Elt F) → (⟨S4096x14x14, .f32⟩ : BufTy).Contents (Elt F) → (⟨S4096x14x14, .f32⟩ : BufTy).Contents (Elt F)) (val_main_v63 (F := F) x0) (val_main_v80 (F := F))
/-- The value main_cst_20 holds: nullary of nothing. -/
def val_main_cst_20 : (⟨S_, .f32⟩ : BufTy).Contents (Elt F) :=
  (constant S_ .f32 0x3F000000#32)
/-- The value main_v82 holds: unary of main_cst_20. -/
def val_main_v82 : (⟨S4096x14x14, .f32⟩ : BufTy).Contents (Elt F) :=
  (broadcastInDim S4096x14x14 ![] bcast_S_S4096x14x14 : (⟨S_, .f32⟩ : BufTy).Contents (Elt F) → (⟨S4096x14x14, .f32⟩ : BufTy).Contents (Elt F)) (val_main_cst_20 (F := F))
/-- The value main_v83 holds: binary of main_v82, main_v67. -/
def val_main_v83 (x0 : (⟨S4096x14x14x30, .f32⟩ : BufTy).Contents (Elt F)) : (⟨S4096x14x14, .f32⟩ : BufTy).Contents (Elt F) :=
  (mulf : (⟨S4096x14x14, .f32⟩ : BufTy).Contents (Elt F) → (⟨S4096x14x14, .f32⟩ : BufTy).Contents (Elt F) → (⟨S4096x14x14, .f32⟩ : BufTy).Contents (Elt F)) (val_main_v82 (F := F)) (val_main_v67 (F := F) x0)
/-- The value main_v84 holds: binary of main_v81, main_v83. -/
def val_main_v84 (x0 : (⟨S4096x14x14x30, .f32⟩ : BufTy).Contents (Elt F)) : (⟨S4096x14x14, .f32⟩ : BufTy).Contents (Elt F) :=
  (addf : (⟨S4096x14x14, .f32⟩ : BufTy).Contents (Elt F) → (⟨S4096x14x14, .f32⟩ : BufTy).Contents (Elt F) → (⟨S4096x14x14, .f32⟩ : BufTy).Contents (Elt F)) (val_main_v81 (F := F) x0) (val_main_v83 (F := F) x0)
/-- The value main_cst_21 holds: nullary of nothing. -/
def val_main_cst_21 : (⟨S_, .f32⟩ : BufTy).Contents (Elt F) :=
  (constant S_ .f32 0x41600000#32)
/-- The value main_v85 holds: unary of main_cst_21. -/
def val_main_v85 : (⟨S4096x14x14, .f32⟩ : BufTy).Contents (Elt F) :=
  (broadcastInDim S4096x14x14 ![] bcast_S_S4096x14x14 : (⟨S_, .f32⟩ : BufTy).Contents (Elt F) → (⟨S4096x14x14, .f32⟩ : BufTy).Contents (Elt F)) (val_main_cst_21 (F := F))
/-- The value main_v86 holds: binary of main_v65, main_v85. -/
def val_main_v86 (x0 : (⟨S4096x14x14x30, .f32⟩ : BufTy).Contents (Elt F)) : (⟨S4096x14x14, .f32⟩ : BufTy).Contents (Elt F) :=
  (Host.divf : (⟨S4096x14x14, .f32⟩ : BufTy).Contents (Elt F) → (⟨S4096x14x14, .f32⟩ : BufTy).Contents (Elt F) → (⟨S4096x14x14, .f32⟩ : BufTy).Contents (Elt F)) (val_main_v65 (F := F) x0) (val_main_v85 (F := F))
/-- The value main_cst_22 holds: nullary of nothing. -/
def val_main_cst_22 : (⟨S_, .f32⟩ : BufTy).Contents (Elt F) :=
  (constant S_ .f32 0x3F000000#32)
/-- The value main_v87 holds: unary of main_cst_22. -/
def val_main_v87 : (⟨S4096x14x14, .f32⟩ : BufTy).Contents (Elt F) :=
  (broadcastInDim S4096x14x14 ![] bcast_S_S4096x14x14 : (⟨S_, .f32⟩ : BufTy).Contents (Elt F) → (⟨S4096x14x14, .f32⟩ : BufTy).Contents (Elt F)) (val_main_cst_22 (F := F))
/-- The value main_v88 holds: binary of main_v87, main_v69. -/
def val_main_v88 (x0 : (⟨S4096x14x14x30, .f32⟩ : BufTy).Contents (Elt F)) : (⟨S4096x14x14, .f32⟩ : BufTy).Contents (Elt F) :=
  (mulf : (⟨S4096x14x14, .f32⟩ : BufTy).Contents (Elt F) → (⟨S4096x14x14, .f32⟩ : BufTy).Contents (Elt F) → (⟨S4096x14x14, .f32⟩ : BufTy).Contents (Elt F)) (val_main_v87 (F := F)) (val_main_v69 (F := F) x0)
/-- The value main_v89 holds: binary of main_v86, main_v88. -/
def val_main_v89 (x0 : (⟨S4096x14x14x30, .f32⟩ : BufTy).Contents (Elt F)) : (⟨S4096x14x14, .f32⟩ : BufTy).Contents (Elt F) :=
  (addf : (⟨S4096x14x14, .f32⟩ : BufTy).Contents (Elt F) → (⟨S4096x14x14, .f32⟩ : BufTy).Contents (Elt F) → (⟨S4096x14x14, .f32⟩ : BufTy).Contents (Elt F)) (val_main_v86 (F := F) x0) (val_main_v88 (F := F) x0)
/-- The value main_v90 holds: unary of main_v74. -/
def val_main_v90 (x0 : (⟨S4096x14x14x30, .f32⟩ : BufTy).Contents (Elt F)) : (⟨S4096x14x14x1, .f32⟩ : BufTy).Contents (Elt F) :=
  (broadcastInDim S4096x14x14x1 ![0, 1, 2] bcast_S4096x14x14_S4096x14x14x1_0_1_2 : (⟨S4096x14x14, .f32⟩ : BufTy).Contents (Elt F) → (⟨S4096x14x14x1, .f32⟩ : BufTy).Contents (Elt F)) (val_main_v74 (F := F) x0)
/-- The value main_v91 holds: unary of main_v79. -/
def val_main_v91 (x0 : (⟨S4096x14x14x30, .f32⟩ : BufTy).Contents (Elt F)) : (⟨S4096x14x14x1, .f32⟩ : BufTy).Contents (Elt F) :=
  (broadcastInDim S4096x14x14x1 ![0, 1, 2] bcast_S4096x14x14_S4096x14x14x1_0_1_2 : (⟨S4096x14x14, .f32⟩ : BufTy).Contents (Elt F) → (⟨S4096x14x14x1, .f32⟩ : BufTy).Contents (Elt F)) (val_main_v79 (F := F) x0)
/-- The value main_v92 holds: unary of main_v84. -/
def val_main_v92 (x0 : (⟨S4096x14x14x30, .f32⟩ : BufTy).Contents (Elt F)) : (⟨S4096x14x14x1, .f32⟩ : BufTy).Contents (Elt F) :=
  (broadcastInDim S4096x14x14x1 ![0, 1, 2] bcast_S4096x14x14_S4096x14x14x1_0_1_2 : (⟨S4096x14x14, .f32⟩ : BufTy).Contents (Elt F) → (⟨S4096x14x14x1, .f32⟩ : BufTy).Contents (Elt F)) (val_main_v84 (F := F) x0)
/-- The value main_v93 holds: unary of main_v89. -/
def val_main_v93 (x0 : (⟨S4096x14x14x30, .f32⟩ : BufTy).Contents (Elt F)) : (⟨S4096x14x14x1, .f32⟩ : BufTy).Contents (Elt F) :=
  (broadcastInDim S4096x14x14x1 ![0, 1, 2] bcast_S4096x14x14_S4096x14x14x1_0_1_2 : (⟨S4096x14x14, .f32⟩ : BufTy).Contents (Elt F) → (⟨S4096x14x14x1, .f32⟩ : BufTy).Contents (Elt F)) (val_main_v89 (F := F) x0)
/-- The value main_v94 holds: nary of main_v90, main_v91, main_v92, main_v93. -/
def val_main_v94 (x0 : (⟨S4096x14x14x30, .f32⟩ : BufTy).Contents (Elt F)) : (⟨S4096x14x14x4, .f32⟩ : BufTy).Contents (Elt F) :=
  concatenate S4096x14x14x4 3 [⟨S4096x14x14x1, (val_main_v90 (F := F) x0)⟩, ⟨S4096x14x14x1, (val_main_v91 (F := F) x0)⟩, ⟨S4096x14x14x1, (val_main_v92 (F := F) x0)⟩, ⟨S4096x14x14x1, (val_main_v93 (F := F) x0)⟩] concatenates_S4096x14x14x1_S4096x14x14x1_S4096x14x14x1_S4096x14x14x1_S4096x14x14x4_d3
/-- The value main_v95 holds: unary of main_v94. -/
def val_main_v95 (x0 : (⟨S4096x14x14x30, .f32⟩ : BufTy).Contents (Elt F)) : (⟨S4096x14x14x2, .f32⟩ : BufTy).Contents (Elt F) :=
  ((extractStridedSlice S4096x14x14x2 ![0, 0, 0, 0] · slices_S4096x14x14x4_S4096x14x14x2_0_0_0_0) : (⟨S4096x14x14x4, .f32⟩ : BufTy).Contents (Elt F) → (⟨S4096x14x14x2, .f32⟩ : BufTy).Contents (Elt F)) (val_main_v94 (F := F) x0)
/-- The value main_v96 holds: unary of main_v60. -/
def val_main_v96 (x1 : (⟨S4096x14x14x4, .f32⟩ : BufTy).Contents (Elt F)) : (⟨S4096x14x14x2, .f32⟩ : BufTy).Contents (Elt F) :=
  ((extractStridedSlice S4096x14x14x2 ![0, 0, 0, 0] · slices_S4096x14x14x4_S4096x14x14x2_0_0_0_0) : (⟨S4096x14x14x4, .f32⟩ : BufTy).Contents (Elt F) → (⟨S4096x14x14x2, .f32⟩ : BufTy).Contents (Elt F)) (val_main_v60 (F := F) x1)
/-- The value main_v97 holds: binary of main_v95, main_v96. -/
def val_main_v97 (x0 : (⟨S4096x14x14x30, .f32⟩ : BufTy).Contents (Elt F)) (x1 : (⟨S4096x14x14x4, .f32⟩ : BufTy).Contents (Elt F)) : (⟨S4096x14x14x2, .f32⟩ : BufTy).Contents (Elt F) :=
  (maximumf : (⟨S4096x14x14x2, .f32⟩ : BufTy).Contents (Elt F) → (⟨S4096x14x14x2, .f32⟩ : BufTy).Contents (Elt F) → (⟨S4096x14x14x2, .f32⟩ : BufTy).Contents (Elt F)) (val_main_v95 (F := F) x0) (val_main_v96 (F := F) x1)
/-- The value main_v98 holds: unary of main_v94. -/
def val_main_v98 (x0 : (⟨S4096x14x14x30, .f32⟩ : BufTy).Contents (Elt F)) : (⟨S4096x14x14x2, .f32⟩ : BufTy).Contents (Elt F) :=
  ((extractStridedSlice S4096x14x14x2 ![0, 0, 0, 2] · slices_S4096x14x14x4_S4096x14x14x2_0_0_0_2) : (⟨S4096x14x14x4, .f32⟩ : BufTy).Contents (Elt F) → (⟨S4096x14x14x2, .f32⟩ : BufTy).Contents (Elt F)) (val_main_v94 (F := F) x0)
/-- The value main_v99 holds: unary of main_v60. -/
def val_main_v99 (x1 : (⟨S4096x14x14x4, .f32⟩ : BufTy).Contents (Elt F)) : (⟨S4096x14x14x2, .f32⟩ : BufTy).Contents (Elt F) :=
  ((extractStridedSlice S4096x14x14x2 ![0, 0, 0, 2] · slices_S4096x14x14x4_S4096x14x14x2_0_0_0_2) : (⟨S4096x14x14x4, .f32⟩ : BufTy).Contents (Elt F) → (⟨S4096x14x14x2, .f32⟩ : BufTy).Contents (Elt F)) (val_main_v60 (F := F) x1)
/-- The value main_v100 holds: binary of main_v98, main_v99. -/
def val_main_v100 (x0 : (⟨S4096x14x14x30, .f32⟩ : BufTy).Contents (Elt F)) (x1 : (⟨S4096x14x14x4, .f32⟩ : BufTy).Contents (Elt F)) : (⟨S4096x14x14x2, .f32⟩ : BufTy).Contents (Elt F) :=
  (minimumf : (⟨S4096x14x14x2, .f32⟩ : BufTy).Contents (Elt F) → (⟨S4096x14x14x2, .f32⟩ : BufTy).Contents (Elt F) → (⟨S4096x14x14x2, .f32⟩ : BufTy).Contents (Elt F)) (val_main_v98 (F := F) x0) (val_main_v99 (F := F) x1)
/-- The value main_v101 holds: binary of main_v100, main_v97. -/
def val_main_v101 (x0 : (⟨S4096x14x14x30, .f32⟩ : BufTy).Contents (Elt F)) (x1 : (⟨S4096x14x14x4, .f32⟩ : BufTy).Contents (Elt F)) : (⟨S4096x14x14x2, .f32⟩ : BufTy).Contents (Elt F) :=
  (subf : (⟨S4096x14x14x2, .f32⟩ : BufTy).Contents (Elt F) → (⟨S4096x14x14x2, .f32⟩ : BufTy).Contents (Elt F) → (⟨S4096x14x14x2, .f32⟩ : BufTy).Contents (Elt F)) (val_main_v100 (F := F) x0 x1) (val_main_v97 (F := F) x0 x1)
/-- The value main_cst_23 holds: nullary of nothing. -/
def val_main_cst_23 : (⟨S_, .f32⟩ : BufTy).Contents (Elt F) :=
  (constant S_ .f32 0x00000000#32)
/-- The value main_v102 holds: unary of main_cst_23. -/
def val_main_v102 : (⟨S4096x14x14x2, .f32⟩ : BufTy).Contents (Elt F) :=
  (broadcastInDim S4096x14x14x2 ![] bcast_S_S4096x14x14x2 : (⟨S_, .f32⟩ : BufTy).Contents (Elt F) → (⟨S4096x14x14x2, .f32⟩ : BufTy).Contents (Elt F)) (val_main_cst_23 (F := F))
/-- The value main_v103 holds: binary of main_v101, main_v102. -/
def val_main_v103 (x0 : (⟨S4096x14x14x30, .f32⟩ : BufTy).Contents (Elt F)) (x1 : (⟨S4096x14x14x4, .f32⟩ : BufTy).Contents (Elt F)) : (⟨S4096x14x14x2, .f32⟩ : BufTy).Contents (Elt F) :=
  (maximumf : (⟨S4096x14x14x2, .f32⟩ : BufTy).Contents (Elt F) → (⟨S4096x14x14x2, .f32⟩ : BufTy).Contents (Elt F) → (⟨S4096x14x14x2, .f32⟩ : BufTy).Contents (Elt F)) (val_main_v101 (F := F) x0 x1) (val_main_v102 (F := F))
/-- The value main_v104 holds: unary of main_v103. -/
def val_main_v104 (x0 : (⟨S4096x14x14x30, .f32⟩ : BufTy).Contents (Elt F)) (x1 : (⟨S4096x14x14x4, .f32⟩ : BufTy).Contents (Elt F)) : (⟨S4096x14x14x1, .f32⟩ : BufTy).Contents (Elt F) :=
  ((extractStridedSlice S4096x14x14x1 ![0, 0, 0, 0] · slices_S4096x14x14x2_S4096x14x14x1_0_0_0_0) : (⟨S4096x14x14x2, .f32⟩ : BufTy).Contents (Elt F) → (⟨S4096x14x14x1, .f32⟩ : BufTy).Contents (Elt F)) (val_main_v103 (F := F) x0 x1)
/-- The value main_v105 holds: reshape of main_v104. -/
def val_main_v105 (x0 : (⟨S4096x14x14x30, .f32⟩ : BufTy).Contents (Elt F)) (x1 : (⟨S4096x14x14x4, .f32⟩ : BufTy).Contents (Elt F)) : (⟨S4096x14x14, .f32⟩ : BufTy).Contents (Elt F) :=
  shapeCast _ (val_main_v104 (F := F) x0 x1) shapeCasts_S4096x14x14x1_S4096x14x14
/-- The value main_v106 holds: unary of main_v103. -/
def val_main_v106 (x0 : (⟨S4096x14x14x30, .f32⟩ : BufTy).Contents (Elt F)) (x1 : (⟨S4096x14x14x4, .f32⟩ : BufTy).Contents (Elt F)) : (⟨S4096x14x14x1, .f32⟩ : BufTy).Contents (Elt F) :=
  ((extractStridedSlice S4096x14x14x1 ![0, 0, 0, 1] · slices_S4096x14x14x2_S4096x14x14x1_0_0_0_1) : (⟨S4096x14x14x2, .f32⟩ : BufTy).Contents (Elt F) → (⟨S4096x14x14x1, .f32⟩ : BufTy).Contents (Elt F)) (val_main_v103 (F := F) x0 x1)
/-- The value main_v107 holds: reshape of main_v106. -/
def val_main_v107 (x0 : (⟨S4096x14x14x30, .f32⟩ : BufTy).Contents (Elt F)) (x1 : (⟨S4096x14x14x4, .f32⟩ : BufTy).Contents (Elt F)) : (⟨S4096x14x14, .f32⟩ : BufTy).Contents (Elt F) :=
  shapeCast _ (val_main_v106 (F := F) x0 x1) shapeCasts_S4096x14x14x1_S4096x14x14
/-- The value main_v108 holds: binary of main_v105, main_v107. -/
def val_main_v108 (x0 : (⟨S4096x14x14x30, .f32⟩ : BufTy).Contents (Elt F)) (x1 : (⟨S4096x14x14x4, .f32⟩ : BufTy).Contents (Elt F)) : (⟨S4096x14x14, .f32⟩ : BufTy).Contents (Elt F) :=
  (mulf : (⟨S4096x14x14, .f32⟩ : BufTy).Contents (Elt F) → (⟨S4096x14x14, .f32⟩ : BufTy).Contents (Elt F) → (⟨S4096x14x14, .f32⟩ : BufTy).Contents (Elt F)) (val_main_v105 (F := F) x0 x1) (val_main_v107 (F := F) x0 x1)
/-- The value main_v109 holds: unary of main_v94. -/
def val_main_v109 (x0 : (⟨S4096x14x14x30, .f32⟩ : BufTy).Contents (Elt F)) : (⟨S4096x14x14x1, .f32⟩ : BufTy).Contents (Elt F) :=
  ((extractStridedSlice S4096x14x14x1 ![0, 0, 0, 2] · slices_S4096x14x14x4_S4096x14x14x1_0_0_0_2) : (⟨S4096x14x14x4, .f32⟩ : BufTy).Contents (Elt F) → (⟨S4096x14x14x1, .f32⟩ : BufTy).Contents (Elt F)) (val_main_v94 (F := F) x0)
/-- The value main_v110 holds: reshape of main_v109. -/
def val_main_v110 (x0 : (⟨S4096x14x14x30, .f32⟩ : BufTy).Contents (Elt F)) : (⟨S4096x14x14, .f32⟩ : BufTy).Contents (Elt F) :=
  shapeCast _ (val_main_v109 (F := F) x0) shapeCasts_S4096x14x14x1_S4096x14x14
/-- The value main_v111 holds: unary of main_v94. -/
def val_main_v111 (x0 : (⟨S4096x14x14x30, .f32⟩ : BufTy).Contents (Elt F)) : (⟨S4096x14x14x1, .f32⟩ : BufTy).Contents (Elt F) :=
  ((extractStridedSlice S4096x14x14x1 ![0, 0, 0, 0] · slices_S4096x14x14x4_S4096x14x14x1_0_0_0_0) : (⟨S4096x14x14x4, .f32⟩ : BufTy).Contents (Elt F) → (⟨S4096x14x14x1, .f32⟩ : BufTy).Contents (Elt F)) (val_main_v94 (F := F) x0)
/-- The value main_v112 holds: reshape of main_v111. -/
def val_main_v112 (x0 : (⟨S4096x14x14x30, .f32⟩ : BufTy).Contents (Elt F)) : (⟨S4096x14x14, .f32⟩ : BufTy).Contents (Elt F) :=
  shapeCast _ (val_main_v111 (F := F) x0) shapeCasts_S4096x14x14x1_S4096x14x14
/-- The value main_v113 holds: binary of main_v110, main_v112. -/
def val_main_v113 (x0 : (⟨S4096x14x14x30, .f32⟩ : BufTy).Contents (Elt F)) : (⟨S4096x14x14, .f32⟩ : BufTy).Contents (Elt F) :=
  (subf : (⟨S4096x14x14, .f32⟩ : BufTy).Contents (Elt F) → (⟨S4096x14x14, .f32⟩ : BufTy).Contents (Elt F) → (⟨S4096x14x14, .f32⟩ : BufTy).Contents (Elt F)) (val_main_v110 (F := F) x0) (val_main_v112 (F := F) x0)
/-- The value main_v114 holds: unary of main_v94. -/
def val_main_v114 (x0 : (⟨S4096x14x14x30, .f32⟩ : BufTy).Contents (Elt F)) : (⟨S4096x14x14x1, .f32⟩ : BufTy).Contents (Elt F) :=
  ((extractStridedSlice S4096x14x14x1 ![0, 0, 0, 3] · slices_S4096x14x14x4_S4096x14x14x1_0_0_0_3) : (⟨S4096x14x14x4, .f32⟩ : BufTy).Contents (Elt F) → (⟨S4096x14x14x1, .f32⟩ : BufTy).Contents (Elt F)) (val_main_v94 (F := F) x0)
/-- The value main_v115 holds: reshape of main_v114. -/
def val_main_v115 (x0 : (⟨S4096x14x14x30, .f32⟩ : BufTy).Contents (Elt F)) : (⟨S4096x14x14, .f32⟩ : BufTy).Contents (Elt F) :=
  shapeCast _ (val_main_v114 (F := F) x0) shapeCasts_S4096x14x14x1_S4096x14x14
/-- The value main_v116 holds: unary of main_v94. -/
def val_main_v116 (x0 : (⟨S4096x14x14x30, .f32⟩ : BufTy).Contents (Elt F)) : (⟨S4096x14x14x1, .f32⟩ : BufTy).Contents (Elt F) :=
  ((extractStridedSlice S4096x14x14x1 ![0, 0, 0, 1] · slices_S4096x14x14x4_S4096x14x14x1_0_0_0_1) : (⟨S4096x14x14x4, .f32⟩ : BufTy).Contents (Elt F) → (⟨S4096x14x14x1, .f32⟩ : BufTy).Contents (Elt F)) (val_main_v94 (F := F) x0)
/-- The value main_v117 holds: reshape of main_v116. -/
def val_main_v117 (x0 : (⟨S4096x14x14x30, .f32⟩ : BufTy).Contents (Elt F)) : (⟨S4096x14x14, .f32⟩ : BufTy).Contents (Elt F) :=
  shapeCast _ (val_main_v116 (F := F) x0) shapeCasts_S4096x14x14x1_S4096x14x14
/-- The value main_v118 holds: binary of main_v115, main_v117. -/
def val_main_v118 (x0 : (⟨S4096x14x14x30, .f32⟩ : BufTy).Contents (Elt F)) : (⟨S4096x14x14, .f32⟩ : BufTy).Contents (Elt F) :=
  (subf : (⟨S4096x14x14, .f32⟩ : BufTy).Contents (Elt F) → (⟨S4096x14x14, .f32⟩ : BufTy).Contents (Elt F) → (⟨S4096x14x14, .f32⟩ : BufTy).Contents (Elt F)) (val_main_v115 (F := F) x0) (val_main_v117 (F := F) x0)
/-- The value main_v119 holds: binary of main_v113, main_v118. -/
def val_main_v119 (x0 : (⟨S4096x14x14x30, .f32⟩ : BufTy).Contents (Elt F)) : (⟨S4096x14x14, .f32⟩ : BufTy).Contents (Elt F) :=
  (mulf : (⟨S4096x14x14, .f32⟩ : BufTy).Contents (Elt F) → (⟨S4096x14x14, .f32⟩ : BufTy).Contents (Elt F) → (⟨S4096x14x14, .f32⟩ : BufTy).Contents (Elt F)) (val_main_v113 (F := F) x0) (val_main_v118 (F := F) x0)
/-- The value main_v120 holds: unary of main_v60. -/
def val_main_v120 (x1 : (⟨S4096x14x14x4, .f32⟩ : BufTy).Contents (Elt F)) : (⟨S4096x14x14x1, .f32⟩ : BufTy).Contents (Elt F) :=
  ((extractStridedSlice S4096x14x14x1 ![0, 0, 0, 2] · slices_S4096x14x14x4_S4096x14x14x1_0_0_0_2) : (⟨S4096x14x14x4, .f32⟩ : BufTy).Contents (Elt F) → (⟨S4096x14x14x1, .f32⟩ : BufTy).Contents (Elt F)) (val_main_v60 (F := F) x1)
/-- The value main_v121 holds: reshape of main_v120. -/
def val_main_v121 (x1 : (⟨S4096x14x14x4, .f32⟩ : BufTy).Contents (Elt F)) : (⟨S4096x14x14, .f32⟩ : BufTy).Contents (Elt F) :=
  shapeCast _ (val_main_v120 (F := F) x1) shapeCasts_S4096x14x14x1_S4096x14x14
/-- The value main_v122 holds: unary of main_v60. -/
def val_main_v122 (x1 : (⟨S4096x14x14x4, .f32⟩ : BufTy).Contents (Elt F)) : (⟨S4096x14x14x1, .f32⟩ : BufTy).Contents (Elt F) :=
  ((extractStridedSlice S4096x14x14x1 ![0, 0, 0, 0] · slices_S4096x14x14x4_S4096x14x14x1_0_0_0_0) : (⟨S4096x14x14x4, .f32⟩ : BufTy).Contents (Elt F) → (⟨S4096x14x14x1, .f32⟩ : BufTy).Contents (Elt F)) (val_main_v60 (F := F) x1)
/-- The value main_v123 holds: reshape of main_v122. -/
def val_main_v123 (x1 : (⟨S4096x14x14x4, .f32⟩ : BufTy).Contents (Elt F)) : (⟨S4096x14x14, .f32⟩ : BufTy).Contents (Elt F) :=
  shapeCast _ (val_main_v122 (F := F) x1) shapeCasts_S4096x14x14x1_S4096x14x14
/-- The value main_v124 holds: binary of main_v121, main_v123. -/
def val_main_v124 (x1 : (⟨S4096x14x14x4, .f32⟩ : BufTy).Contents (Elt F)) : (⟨S4096x14x14, .f32⟩ : BufTy).Contents (Elt F) :=
  (subf : (⟨S4096x14x14, .f32⟩ : BufTy).Contents (Elt F) → (⟨S4096x14x14, .f32⟩ : BufTy).Contents (Elt F) → (⟨S4096x14x14, .f32⟩ : BufTy).Contents (Elt F)) (val_main_v121 (F := F) x1) (val_main_v123 (F := F) x1)
/-- The value main_v125 holds: unary of main_v60. -/
def val_main_v125 (x1 : (⟨S4096x14x14x4, .f32⟩ : BufTy).Contents (Elt F)) : (⟨S4096x14x14x1, .f32⟩ : BufTy).Contents (Elt F) :=
  ((extractStridedSlice S4096x14x14x1 ![0, 0, 0, 3] · slices_S4096x14x14x4_S4096x14x14x1_0_0_0_3) : (⟨S4096x14x14x4, .f32⟩ : BufTy).Contents (Elt F) → (⟨S4096x14x14x1, .f32⟩ : BufTy).Contents (Elt F)) (val_main_v60 (F := F) x1)
/-- The value main_v126 holds: reshape of main_v125. -/
def val_main_v126 (x1 : (⟨S4096x14x14x4, .f32⟩ : BufTy).Contents (Elt F)) : (⟨S4096x14x14, .f32⟩ : BufTy).Contents (Elt F) :=
  shapeCast _ (val_main_v125 (F := F) x1) shapeCasts_S4096x14x14x1_S4096x14x14
/-- The value main_v127 holds: unary of main_v60. -/
def val_main_v127 (x1 : (⟨S4096x14x14x4, .f32⟩ : BufTy).Contents (Elt F)) : (⟨S4096x14x14x1, .f32⟩ : BufTy).Contents (Elt F) :=
  ((extractStridedSlice S4096x14x14x1 ![0, 0, 0, 1] · slices_S4096x14x14x4_S4096x14x14x1_0_0_0_1) : (⟨S4096x14x14x4, .f32⟩ : BufTy).Contents (Elt F) → (⟨S4096x14x14x1, .f32⟩ : BufTy).Contents (Elt F)) (val_main_v60 (F := F) x1)
/-- The value main_v128 holds: reshape of main_v127. -/
def val_main_v128 (x1 : (⟨S4096x14x14x4, .f32⟩ : BufTy).Contents (Elt F)) : (⟨S4096x14x14, .f32⟩ : BufTy).Contents (Elt F) :=
  shapeCast _ (val_main_v127 (F := F) x1) shapeCasts_S4096x14x14x1_S4096x14x14
/-- The value main_v129 holds: binary of main_v126, main_v128. -/
def val_main_v129 (x1 : (⟨S4096x14x14x4, .f32⟩ : BufTy).Contents (Elt F)) : (⟨S4096x14x14, .f32⟩ : BufTy).Contents (Elt F) :=
  (subf : (⟨S4096x14x14, .f32⟩ : BufTy).Contents (Elt F) → (⟨S4096x14x14, .f32⟩ : BufTy).Contents (Elt F) → (⟨S4096x14x14, .f32⟩ : BufTy).Contents (Elt F)) (val_main_v126 (F := F) x1) (val_main_v128 (F := F) x1)
/-- The value main_v130 holds: binary of main_v124, main_v129. -/
def val_main_v130 (x1 : (⟨S4096x14x14x4, .f32⟩ : BufTy).Contents (Elt F)) : (⟨S4096x14x14, .f32⟩ : BufTy).Contents (Elt F) :=
  (mulf : (⟨S4096x14x14, .f32⟩ : BufTy).Contents (Elt F) → (⟨S4096x14x14, .f32⟩ : BufTy).Contents (Elt F) → (⟨S4096x14x14, .f32⟩ : BufTy).Contents (Elt F)) (val_main_v124 (F := F) x1) (val_main_v129 (F := F) x1)
/-- The value main_v131 holds: binary of main_v119, main_v130. -/
def val_main_v131 (x0 : (⟨S4096x14x14x30, .f32⟩ : BufTy).Contents (Elt F)) (x1 : (⟨S4096x14x14x4, .f32⟩ : BufTy).Contents (Elt F)) : (⟨S4096x14x14, .f32⟩ : BufTy).Contents (Elt F) :=
  (addf : (⟨S4096x14x14, .f32⟩ : BufTy).Contents (Elt F) → (⟨S4096x14x14, .f32⟩ : BufTy).Contents (Elt F) → (⟨S4096x14x14, .f32⟩ : BufTy).Contents (Elt F)) (val_main_v119 (F := F) x0) (val_main_v130 (F := F) x1)
/-- The value main_v132 holds: binary of main_v131, main_v108. -/
def val_main_v132 (x0 : (⟨S4096x14x14x30, .f32⟩ : BufTy).Contents (Elt F)) (x1 : (⟨S4096x14x14x4, .f32⟩ : BufTy).Contents (Elt F)) : (⟨S4096x14x14, .f32⟩ : BufTy).Contents (Elt F) :=
  (subf : (⟨S4096x14x14, .f32⟩ : BufTy).Contents (Elt F) → (⟨S4096x14x14, .f32⟩ : BufTy).Contents (Elt F) → (⟨S4096x14x14, .f32⟩ : BufTy).Contents (Elt F)) (val_main_v131 (F := F) x0 x1) (val_main_v108 (F := F) x0 x1)
/-- The value main_v133 holds: binary of main_v108, main_v132. -/
def val_main_v133 (x0 : (⟨S4096x14x14x30, .f32⟩ : BufTy).Contents (Elt F)) (x1 : (⟨S4096x14x14x4, .f32⟩ : BufTy).Contents (Elt F)) : (⟨S4096x14x14, .f32⟩ : BufTy).Contents (Elt F) :=
  (Host.divf : (⟨S4096x14x14, .f32⟩ : BufTy).Contents (Elt F) → (⟨S4096x14x14, .f32⟩ : BufTy).Contents (Elt F) → (⟨S4096x14x14, .f32⟩ : BufTy).Contents (Elt F)) (val_main_v108 (F := F) x0 x1) (val_main_v132 (F := F) x0 x1)
/-- The value main_v134 holds: unary of main_v6. -/
def val_main_v134 (x0 : (⟨S4096x14x14x30, .f32⟩ : BufTy).Contents (Elt F)) : (⟨S4096x14x14x4, .f32⟩ : BufTy).Contents (Elt F) :=
  ((extractStridedSlice S4096x14x14x4 ![0, 0, 0, 0] · slices_S4096x14x14x5_S4096x14x14x4_0_0_0_0) : (⟨S4096x14x14x5, .f32⟩ : BufTy).Contents (Elt F) → (⟨S4096x14x14x4, .f32⟩ : BufTy).Contents (Elt F)) (val_main_v6 (F := F) x0)
/-- The value main_v135 holds: unary of main_v134. -/
def val_main_v135 (x0 : (⟨S4096x14x14x30, .f32⟩ : BufTy).Contents (Elt F)) : (⟨S4096x14x14x1, .f32⟩ : BufTy).Contents (Elt F) :=
  ((extractStridedSlice S4096x14x14x1 ![0, 0, 0, 0] · slices_S4096x14x14x4_S4096x14x14x1_0_0_0_0) : (⟨S4096x14x14x4, .f32⟩ : BufTy).Contents (Elt F) → (⟨S4096x14x14x1, .f32⟩ : BufTy).Contents (Elt F)) (val_main_v134 (F := F) x0)
/-- The value main_v136 holds: reshape of main_v135. -/
def val_main_v136 (x0 : (⟨S4096x14x14x30, .f32⟩ : BufTy).Contents (Elt F)) : (⟨S4096x14x14, .f32⟩ : BufTy).Contents (Elt F) :=
  shapeCast _ (val_main_v135 (F := F) x0) shapeCasts_S4096x14x14x1_S4096x14x14
/-- The value main_v137 holds: unary of main_v134. -/
def val_main_v137 (x0 : (⟨S4096x14x14x30, .f32⟩ : BufTy).Contents (Elt F)) : (⟨S4096x14x14x1, .f32⟩ : BufTy).Contents (Elt F) :=
  ((extractStridedSlice S4096x14x14x1 ![0, 0, 0, 1] · slices_S4096x14x14x4_S4096x14x14x1_0_0_0_1) : (⟨S4096x14x14x4, .f32⟩ : BufTy).Contents (Elt F) → (⟨S4096x14x14x1, .f32⟩ : BufTy).Contents (Elt F)) (val_main_v134 (F := F) x0)
/-- The value main_v138 holds: reshape of main_v137. -/
def val_main_v138 (x0 : (⟨S4096x14x14x30, .f32⟩ : BufTy).Contents (Elt F)) : (⟨S4096x14x14, .f32⟩ : BufTy).Contents (Elt F) :=
  shapeCast _ (val_main_v137 (F := F) x0) shapeCasts_S4096x14x14x1_S4096x14x14
/-- The value main_v139 holds: unary of main_v134. -/
def val_main_v139 (x0 : (⟨S4096x14x14x30, .f32⟩ : BufTy).Contents (Elt F)) : (⟨S4096x14x14x1, .f32⟩ : BufTy).Contents (Elt F) :=
  ((extractStridedSlice S4096x14x14x1 ![0, 0, 0, 2] · slices_S4096x14x14x4_S4096x14x14x1_0_0_0_2) : (⟨S4096x14x14x4, .f32⟩ : BufTy).Contents (Elt F) → (⟨S4096x14x14x1, .f32⟩ : BufTy).Contents (Elt F)) (val_main_v134 (F := F) x0)
/-- The value main_v140 holds: reshape of main_v139. -/
def val_main_v140 (x0 : (⟨S4096x14x14x30, .f32⟩ : BufTy).Contents (Elt F)) : (⟨S4096x14x14, .f32⟩ : BufTy).Contents (Elt F) :=
  shapeCast _ (val_main_v139 (F := F) x0) shapeCasts_S4096x14x14x1_S4096x14x14
/-- The value main_v141 holds: unary of main_v134. -/
def val_main_v141 (x0 : (⟨S4096x14x14x30, .f32⟩ : BufTy).Contents (Elt F)) : (⟨S4096x14x14x1, .f32⟩ : BufTy).Contents (Elt F) :=
  ((extractStridedSlice S4096x14x14x1 ![0, 0, 0, 3] · slices_S4096x14x14x4_S4096x14x14x1_0_0_0_3) : (⟨S4096x14x14x4, .f32⟩ : BufTy).Contents (Elt F) → (⟨S4096x14x14x1, .f32⟩ : BufTy).Contents (Elt F)) (val_main_v134 (F := F) x0)
/-- The value main_v142 holds: reshape of main_v141. -/
def val_main_v142 (x0 : (⟨S4096x14x14x30, .f32⟩ : BufTy).Contents (Elt F)) : (⟨S4096x14x14, .f32⟩ : BufTy).Contents (Elt F) :=
  shapeCast _ (val_main_v141 (F := F) x0) shapeCasts_S4096x14x14x1_S4096x14x14
/-- The value main_cst_24 holds: nullary of nothing. -/
def val_main_cst_24 : (⟨S_, .f32⟩ : BufTy).Contents (Elt F) :=
  (constant S_ .f32 0x41600000#32)
/-- The value main_v143 holds: unary of main_cst_24. -/
def val_main_v143 : (⟨S4096x14x14, .f32⟩ : BufTy).Contents (Elt F) :=
  (broadcastInDim S4096x14x14 ![] bcast_S_S4096x14x14 : (⟨S_, .f32⟩ : BufTy).Contents (Elt F) → (⟨S4096x14x14, .f32⟩ : BufTy).Contents (Elt F)) (val_main_cst_24 (F := F))
/-- The value main_v144 holds: binary of main_v136, main_v143. -/
def val_main_v144 (x0 : (⟨S4096x14x14x30, .f32⟩ : BufTy).Contents (Elt F)) : (⟨S4096x14x14, .f32⟩ : BufTy).Contents (Elt F) :=
  (Host.divf : (⟨S4096x14x14, .f32⟩ : BufTy).Contents (Elt F) → (⟨S4096x14x14, .f32⟩ : BufTy).Contents (Elt F) → (⟨S4096x14x14, .f32⟩ : BufTy).Contents (Elt F)) (val_main_v136 (F := F) x0) (val_main_v143 (F := F))
/-- The value main_cst_25 holds: nullary of nothing. -/
def val_main_cst_25 : (⟨S_, .f32⟩ : BufTy).Contents (Elt F) :=
  (constant S_ .f32 0x3F000000#32)
/-- The value main_v145 holds: unary of main_cst_25. -/
def val_main_v145 : (⟨S4096x14x14, .f32⟩ : BufTy).Contents (Elt F) :=
  (broadcastInDim S4096x14x14 ![] bcast_S_S4096x14x14 : (⟨S_, .f32⟩ : BufTy).Contents (Elt F) → (⟨S4096x14x14, .f32⟩ : BufTy).Contents (Elt F)) (val_main_cst_25 (F := F))
/-- The value main_v146 holds: binary of main_v145, main_v140. -/
def val_main_v146 (x0 : (⟨S4096x14x14x30, .f32⟩ : BufTy).Contents (Elt F)) : (⟨S4096x14x14, .f32⟩ : BufTy).Contents (Elt F) :=
  (mulf : (⟨S4096x14x14, .f32⟩ : BufTy).Contents (Elt F) → (⟨S4096x14x14, .f32⟩ : BufTy).Contents (Elt F) → (⟨S4096x14x14, .f32⟩ : BufTy).Contents (Elt F)) (val_main_v145 (F := F)) (val_main_v140 (F := F) x0)
/-- The value main_v147 holds: binary of main_v144, main_v146. -/
def val_main_v147 (x0 : (⟨S4096x14x14x30, .f32⟩ : BufTy).Contents (Elt F)) : (⟨S4096x14x14, .f32⟩ : BufTy).Contents (Elt F) :=
  (subf : (⟨S4096x14x14, .f32⟩ : BufTy).Contents (Elt F) → (⟨S4096x14x14, .f32⟩ : BufTy).Contents (Elt F) → (⟨S4096x14x14, .f32⟩ : BufTy).Contents (Elt F)) (val_main_v144 (F := F) x0) (val_main_v146 (F := F) x0)
/-- The value main_cst_26 holds: nullary of nothing. -/
def val_main_cst_26 : (⟨S_, .f32⟩ : BufTy).Contents (Elt F) :=
  (constant S_ .f32 0x41600000#32)
/-- The value main_v148 holds: unary of main_cst_26. -/
def val_main_v148 : (⟨S4096x14x14, .f32⟩ : BufTy).Contents (Elt F) :=
  (broadcastInDim S4096x14x14 ![] bcast_S_S4096x14x14 : (⟨S_, .f32⟩ : BufTy).Contents (Elt F) → (⟨S4096x14x14, .f32⟩ : BufTy).Contents (Elt F)) (val_main_cst_26 (F := F))
/-- The value main_v149 holds: binary of main_v138, main_v148. -/
def val_main_v149 (x0 : (⟨S4096x14x14x30, .f32⟩ : BufTy).Contents (Elt F)) : (⟨S4096x14x14, .f32⟩ : BufTy).Contents (Elt F) :=
  (Host.divf : (⟨S4096x14x14, .f32⟩ : BufTy).Contents (Elt F) → (⟨S4096x14x14, .f32⟩ : BufTy).Contents (Elt F) → (⟨S4096x14x14, .f32⟩ : BufTy).Contents (Elt F)) (val_main_v138 (F := F) x0) (val_main_v148 (F := F))
/-- The value main_cst_27 holds: nullary of nothing. -/
def val_main_cst_27 : (⟨S_, .f32⟩ : BufTy).Contents (Elt F) :=
  (constant S_ .f32 0x3F000000#32)
/-- The value main_v150 holds: unary of main_cst_27. -/
def val_main_v150 : (⟨S4096x14x14, .f32⟩ : BufTy).Contents (Elt F) :=
  (broadcastInDim S4096x14x14 ![] bcast_S_S4096x14x14 : (⟨S_, .f32⟩ : BufTy).Contents (Elt F) → (⟨S4096x14x14, .f32⟩ : BufTy).Contents (Elt F)) (val_main_cst_27 (F := F))
/-- The value main_v151 holds: binary of main_v150, main_v142. -/
def val_main_v151 (x0 : (⟨S4096x14x14x30, .f32⟩ : BufTy).Contents (Elt F)) : (⟨S4096x14x14, .f32⟩ : BufTy).Contents (Elt F) :=
  (mulf : (⟨S4096x14x14, .f32⟩ : BufTy).Contents (Elt F) → (⟨S4096x14x14, .f32⟩ : BufTy).Contents (Elt F) → (⟨S4096x14x14, .f32⟩ : BufTy).Contents (Elt F)) (val_main_v150 (F := F)) (val_main_v142 (F := F) x0)
/-- The value main_v152 holds: binary of main_v149, main_v151. -/
def val_main_v152 (x0 : (⟨S4096x14x14x30, .f32⟩ : BufTy).Contents (Elt F)) : (⟨S4096x14x14, .f32⟩ : BufTy).Contents (Elt F) :=
  (subf : (⟨S4096x14x14, .f32⟩ : BufTy).Contents (Elt F) → (⟨S4096x14x14, .f32⟩ : BufTy).Contents (Elt F) → (⟨S4096x14x14, .f32⟩ : BufTy).Contents (Elt F)) (val_main_v149 (F := F) x0) (val_main_v151 (F := F) x0)
/-- The value main_cst_28 holds: nullary of nothing. -/
def val_main_cst_28 : (⟨S_, .f32⟩ : BufTy).Contents (Elt F) :=
  (constant S_ .f32 0x41600000#32)
/-- The value main_v153 holds: unary of main_cst_28. -/
def val_main_v153 : (⟨S4096x14x14, .f32⟩ : BufTy).Contents (Elt F) :=
  (broadcastInDim S4096x14x14 ![] bcast_S_S4096x14x14 : (⟨S_, .f32⟩ : BufTy).Contents (Elt F) → (⟨S4096x14x14, .f32⟩ : BufTy).Contents (Elt F)) (val_main_cst_28 (F := F))
/-- The value main_v154 holds: binary of main_v136, main_v153. -/
def val_main_v154 (x0 : (⟨S4096x14x14x30, .f32⟩ : BufTy).Contents (Elt F)) : (⟨S4096x14x14, .f32⟩ : BufTy).Contents (Elt F) :=
  (Host.divf : (⟨S4096x14x14, .f32⟩ : BufTy).Contents (Elt F) → (⟨S4096x14x14, .f32⟩ : BufTy).Contents (Elt F) → (⟨S4096x14x14, .f32⟩ : BufTy).Contents (Elt F)) (val_main_v136 (F := F) x0) (val_main_v153 (F := F))
/-- The value main_cst_29 holds: nullary of nothing. -/
def val_main_cst_29 : (⟨S_, .f32⟩ : BufTy).Contents (Elt F) :=
  (constant S_ .f32 0x3F000000#32)
/-- The value main_v155 holds: unary of main_cst_29. -/
def val_main_v155 : (⟨S4096x14x14, .f32⟩ : BufTy).Contents (Elt F) :=
  (broadcastInDim S4096x14x14 ![] bcast_S_S4096x14x14 : (⟨S_, .f32⟩ : BufTy).Contents (Elt F) → (⟨S4096x14x14, .f32⟩ : BufTy).Contents (Elt F)) (val_main_cst_29 (F := F))
/-- The value main_v156 holds: binary of main_v155, main_v140. -/
def val_main_v156 (x0 : (⟨S4096x14x14x30, .f32⟩ : BufTy).Contents (Elt F)) : (⟨S4096x14x14, .f32⟩ : BufTy).Contents (Elt F) :=
  (mulf : (⟨S4096x14x14, .f32⟩ : BufTy).Contents (Elt F) → (⟨S4096x14x14, .f32⟩ : BufTy).Contents (Elt F) → (⟨S4096x14x14, .f32⟩ : BufTy).Contents (Elt F)) (val_main_v155 (F := F)) (val_main_v140 (F := F) x0)
/-- The value main_v157 holds: binary of main_v154, main_v156. -/
def val_main_v157 (x0 : (⟨S4096x14x14x30, .f32⟩ : BufTy).Contents (Elt F)) : (⟨S4096x14x14, .f32⟩ : BufTy).Contents (Elt F) :=
  (addf : (⟨S4096x14x14, .f32⟩ : BufTy).Contents (Elt F) → (⟨S4096x14x14, .f32⟩ : BufTy).Contents (Elt F) → (⟨S4096x14x14, .f32⟩ : BufTy).Contents (Elt F)) (val_main_v154 (F := F) x0) (val_main_v156 (F := F) x0)
/-- The value main_cst_30 holds: nullary of nothing. -/
def val_main_cst_30 : (⟨S_, .f32⟩ : BufTy).Contents (Elt F) :=
  (constant S_ .f32 0x41600000#32)
/-- The value main_v158 holds: unary of main_cst_30. -/
def val_main_v158 : (⟨S4096x14x14, .f32⟩ : BufTy).Contents (Elt F) :=
  (broadcastInDim S4096x14x14 ![] bcast_S_S4096x14x14 : (⟨S_, .f32⟩ : BufTy).Contents (Elt F) → (⟨S4096x14x14, .f32⟩ : BufTy).Contents (Elt F)) (val_main_cst_30 (F := F))
/-- The value main_v159 holds: binary of main_v138, main_v158. -/
def val_main_v159 (x0 : (⟨S4096x14x14x30, .f32⟩ : BufTy).Contents (Elt F)) : (⟨S4096x14x14, .f32⟩ : BufTy).Contents (Elt F) :=
  (Host.divf : (⟨S4096x14x14, .f32⟩ : BufTy).Contents (Elt F) → (⟨S4096x14x14, .f32⟩ : BufTy).Contents (Elt F) → (⟨S4096x14x14, .f32⟩ : BufTy).Contents (Elt F)) (val_main_v138 (F := F) x0) (val_main_v158 (F := F))
/-- The value main_cst_31 holds: nullary of nothing. -/
def val_main_cst_31 : (⟨S_, .f32⟩ : BufTy).Contents (Elt F) :=
  (constant S_ .f32 0x3F000000#32)
/-- The value main_v160 holds: unary of main_cst_31. -/
def val_main_v160 : (⟨S4096x14x14, .f32⟩ : BufTy).Contents (Elt F) :=
  (broadcastInDim S4096x14x14 ![] bcast_S_S4096x14x14 : (⟨S_, .f32⟩ : BufTy).Contents (Elt F) → (⟨S4096x14x14, .f32⟩ : BufTy).Contents (Elt F)) (val_main_cst_31 (F := F))
/-- The value main_v161 holds: binary of main_v160, main_v142. -/
def val_main_v161 (x0 : (⟨S4096x14x14x30, .f32⟩ : BufTy).Contents (Elt F)) : (⟨S4096x14x14, .f32⟩ : BufTy).Contents (Elt F) :=
  (mulf : (⟨S4096x14x14, .f32⟩ : BufTy).Contents (Elt F) → (⟨S4096x14x14, .f32⟩ : BufTy).Contents (Elt F) → (⟨S4096x14x14, .f32⟩ : BufTy).Contents (Elt F)) (val_main_v160 (F := F)) (val_main_v142 (F := F) x0)
/-- The value main_v162 holds: binary of main_v159, main_v161. -/
def val_main_v162 (x0 : (⟨S4096x14x14x30, .f32⟩ : BufTy).Contents (Elt F)) : (⟨S4096x14x14, .f32⟩ : BufTy).Contents (Elt F) :=
  (addf : (⟨S4096x14x14, .f32⟩ : BufTy).Contents (Elt F) → (⟨S4096x14x14, .f32⟩ : BufTy).Contents (Elt F) → (⟨S4096x14x14, .f32⟩ : BufTy).Contents (Elt F)) (val_main_v159 (F := F) x0) (val_main_v161 (F := F) x0)
/-- The value main_v163 holds: unary of main_v147. -/
def val_main_v163 (x0 : (⟨S4096x14x14x30, .f32⟩ : BufTy).Contents (Elt F)) : (⟨S4096x14x14x1, .f32⟩ : BufTy).Contents (Elt F) :=
  (broadcastInDim S4096x14x14x1 ![0, 1, 2] bcast_S4096x14x14_S4096x14x14x1_0_1_2 : (⟨S4096x14x14, .f32⟩ : BufTy).Contents (Elt F) → (⟨S4096x14x14x1, .f32⟩ : BufTy).Contents (Elt F)) (val_main_v147 (F := F) x0)
/-- The value main_v164 holds: unary of main_v152. -/
def val_main_v164 (x0 : (⟨S4096x14x14x30, .f32⟩ : BufTy).Contents (Elt F)) : (⟨S4096x14x14x1, .f32⟩ : BufTy).Contents (Elt F) :=
  (broadcastInDim S4096x14x14x1 ![0, 1, 2] bcast_S4096x14x14_S4096x14x14x1_0_1_2 : (⟨S4096x14x14, .f32⟩ : BufTy).Contents (Elt F) → (⟨S4096x14x14x1, .f32⟩ : BufTy).Contents (Elt F)) (val_main_v152 (F := F) x0)
/-- The value main_v165 holds: unary of main_v157. -/
def val_main_v165 (x0 : (⟨S4096x14x14x30, .f32⟩ : BufTy).Contents (Elt F)) : (⟨S4096x14x14x1, .f32⟩ : BufTy).Contents (Elt F) :=
  (broadcastInDim S4096x14x14x1 ![0, 1, 2] bcast_S4096x14x14_S4096x14x14x1_0_1_2 : (⟨S4096x14x14, .f32⟩ : BufTy).Contents (Elt F) → (⟨S4096x14x14x1, .f32⟩ : BufTy).Contents (Elt F)) (val_main_v157 (F := F) x0)
/-- The value main_v166 holds: unary of main_v162. -/
def val_main_v166 (x0 : (⟨S4096x14x14x30, .f32⟩ : BufTy).Contents (Elt F)) : (⟨S4096x14x14x1, .f32⟩ : BufTy).Contents (Elt F) :=
  (broadcastInDim S4096x14x14x1 ![0, 1, 2] bcast_S4096x14x14_S4096x14x14x1_0_1_2 : (⟨S4096x14x14, .f32⟩ : BufTy).Contents (Elt F) → (⟨S4096x14x14x1, .f32⟩ : BufTy).Contents (Elt F)) (val_main_v162 (F := F) x0)
/-- The value main_v167 holds: nary of main_v163, main_v164, main_v165, main_v166. -/
def val_main_v167 (x0 : (⟨S4096x14x14x30, .f32⟩ : BufTy).Contents (Elt F)) : (⟨S4096x14x14x4, .f32⟩ : BufTy).Contents (Elt F) :=
  concatenate S4096x14x14x4 3 [⟨S4096x14x14x1, (val_main_v163 (F := F) x0)⟩, ⟨S4096x14x14x1, (val_main_v164 (F := F) x0)⟩, ⟨S4096x14x14x1, (val_main_v165 (F := F) x0)⟩, ⟨S4096x14x14x1, (val_main_v166 (F := F) x0)⟩] concatenates_S4096x14x14x1_S4096x14x14x1_S4096x14x14x1_S4096x14x14x1_S4096x14x14x4_d3
/-- The value main_v168 holds: unary of main_v167. -/
def val_main_v168 (x0 : (⟨S4096x14x14x30, .f32⟩ : BufTy).Contents (Elt F)) : (⟨S4096x14x14x2, .f32⟩ : BufTy).Contents (Elt F) :=
  ((extractStridedSlice S4096x14x14x2 ![0, 0, 0, 0] · slices_S4096x14x14x4_S4096x14x14x2_0_0_0_0) : (⟨S4096x14x14x4, .f32⟩ : BufTy).Contents (Elt F) → (⟨S4096x14x14x2, .f32⟩ : BufTy).Contents (Elt F)) (val_main_v167 (F := F) x0)
/-- The value main_v169 holds: unary of main_v60. -/
def val_main_v169 (x1 : (⟨S4096x14x14x4, .f32⟩ : BufTy).Contents (Elt F)) : (⟨S4096x14x14x2, .f32⟩ : BufTy).Contents (Elt F) :=
  ((extractStridedSlice S4096x14x14x2 ![0, 0, 0, 0] · slices_S4096x14x14x4_S4096x14x14x2_0_0_0_0) : (⟨S4096x14x14x4, .f32⟩ : BufTy).Contents (Elt F) → (⟨S4096x14x14x2, .f32⟩ : BufTy).Contents (Elt F)) (val_main_v60 (F := F) x1)
/-- The value main_v170 holds: binary of main_v168, main_v169. -/
def val_main_v170 (x0 : (⟨S4096x14x14x30, .f32⟩ : BufTy).Contents (Elt F)) (x1 : (⟨S4096x14x14x4, .f32⟩ : BufTy).Contents (Elt F)) : (⟨S4096x14x14x2, .f32⟩ : BufTy).Contents (Elt F) :=
  (maximumf : (⟨S4096x14x14x2, .f32⟩ : BufTy).Contents (Elt F) → (⟨S4096x14x14x2, .f32⟩ : BufTy).Contents (Elt F) → (⟨S4096x14x14x2, .f32⟩ : BufTy).Contents (Elt F)) (val_main_v168 (F := F) x0) (val_main_v169 (F := F) x1)
/-- The value main_v171 holds: unary of main_v167. -/
def val_main_v171 (x0 : (⟨S4096x14x14x30, .f32⟩ : BufTy).Contents (Elt F)) : (⟨S4096x14x14x2, .f32⟩ : BufTy).Contents (Elt F) :=
  ((extractStridedSlice S4096x14x14x2 ![0, 0, 0, 2] · slices_S4096x14x14x4_S4096x14x14x2_0_0_0_2) : (⟨S4096x14x14x4, .f32⟩ : BufTy).Contents (Elt F) → (⟨S4096x14x14x2, .f32⟩ : BufTy).Contents (Elt F)) (val_main_v167 (F := F) x0)
/-- The value main_v172 holds: unary of main_v60. -/
def val_main_v172 (x1 : (⟨S4096x14x14x4, .f32⟩ : BufTy).Contents (Elt F)) : (⟨S4096x14x14x2, .f32⟩ : BufTy).Contents (Elt F) :=
  ((extractStridedSlice S4096x14x14x2 ![0, 0, 0, 2] · slices_S4096x14x14x4_S4096x14x14x2_0_0_0_2) : (⟨S4096x14x14x4, .f32⟩ : BufTy).Contents (Elt F) → (⟨S4096x14x14x2, .f32⟩ : BufTy).Contents (Elt F)) (val_main_v60 (F := F) x1)
/-- The value main_v173 holds: binary of main_v171, main_v172. -/
def val_main_v173 (x0 : (⟨S4096x14x14x30, .f32⟩ : BufTy).Contents (Elt F)) (x1 : (⟨S4096x14x14x4, .f32⟩ : BufTy).Contents (Elt F)) : (⟨S4096x14x14x2, .f32⟩ : BufTy).Contents (Elt F) :=
  (minimumf : (⟨S4096x14x14x2, .f32⟩ : BufTy).Contents (Elt F) → (⟨S4096x14x14x2, .f32⟩ : BufTy).Contents (Elt F) → (⟨S4096x14x14x2, .f32⟩ : BufTy).Contents (Elt F)) (val_main_v171 (F := F) x0) (val_main_v172 (F := F) x1)
/-- The value main_v174 holds: binary of main_v173, main_v170. -/
def val_main_v174 (x0 : (⟨S4096x14x14x30, .f32⟩ : BufTy).Contents (Elt F)) (x1 : (⟨S4096x14x14x4, .f32⟩ : BufTy).Contents (Elt F)) : (⟨S4096x14x14x2, .f32⟩ : BufTy).Contents (Elt F) :=
  (subf : (⟨S4096x14x14x2, .f32⟩ : BufTy).Contents (Elt F) → (⟨S4096x14x14x2, .f32⟩ : BufTy).Contents (Elt F) → (⟨S4096x14x14x2, .f32⟩ : BufTy).Contents (Elt F)) (val_main_v173 (F := F) x0 x1) (val_main_v170 (F := F) x0 x1)
/-- The value main_cst_32 holds: nullary of nothing. -/
def val_main_cst_32 : (⟨S_, .f32⟩ : BufTy).Contents (Elt F) :=
  (constant S_ .f32 0x00000000#32)
/-- The value main_v175 holds: unary of main_cst_32. -/
def val_main_v175 : (⟨S4096x14x14x2, .f32⟩ : BufTy).Contents (Elt F) :=
  (broadcastInDim S4096x14x14x2 ![] bcast_S_S4096x14x14x2 : (⟨S_, .f32⟩ : BufTy).Contents (Elt F) → (⟨S4096x14x14x2, .f32⟩ : BufTy).Contents (Elt F)) (val_main_cst_32 (F := F))
/-- The value main_v176 holds: binary of main_v174, main_v175. -/
def val_main_v176 (x0 : (⟨S4096x14x14x30, .f32⟩ : BufTy).Contents (Elt F)) (x1 : (⟨S4096x14x14x4, .f32⟩ : BufTy).Contents (Elt F)) : (⟨S4096x14x14x2, .f32⟩ : BufTy).Contents (Elt F) :=
  (maximumf : (⟨S4096x14x14x2, .f32⟩ : BufTy).Contents (Elt F) → (⟨S4096x14x14x2, .f32⟩ : BufTy).Contents (Elt F) → (⟨S4096x14x14x2, .f32⟩ : BufTy).Contents (Elt F)) (val_main_v174 (F := F) x0 x1) (val_main_v175 (F := F))
/-- The value main_v177 holds: unary of main_v176. -/
def val_main_v177 (x0 : (⟨S4096x14x14x30, .f32⟩ : BufTy).Contents (Elt F)) (x1 : (⟨S4096x14x14x4, .f32⟩ : BufTy).Contents (Elt F)) : (⟨S4096x14x14x1, .f32⟩ : BufTy).Contents (Elt F) :=
  ((extractStridedSlice S4096x14x14x1 ![0, 0, 0, 0] · slices_S4096x14x14x2_S4096x14x14x1_0_0_0_0) : (⟨S4096x14x14x2, .f32⟩ : BufTy).Contents (Elt F) → (⟨S4096x14x14x1, .f32⟩ : BufTy).Contents (Elt F)) (val_main_v176 (F := F) x0 x1)
/-- The value main_v178 holds: reshape of main_v177. -/
def val_main_v178 (x0 : (⟨S4096x14x14x30, .f32⟩ : BufTy).Contents (Elt F)) (x1 : (⟨S4096x14x14x4, .f32⟩ : BufTy).Contents (Elt F)) : (⟨S4096x14x14, .f32⟩ : BufTy).Contents (Elt F) :=
  shapeCast _ (val_main_v177 (F := F) x0 x1) shapeCasts_S4096x14x14x1_S4096x14x14
/-- The value main_v179 holds: unary of main_v176. -/
def val_main_v179 (x0 : (⟨S4096x14x14x30, .f32⟩ : BufTy).Contents (Elt F)) (x1 : (⟨S4096x14x14x4, .f32⟩ : BufTy).Contents (Elt F)) : (⟨S4096x14x14x1, .f32⟩ : BufTy).Contents (Elt F) :=
  ((extractStridedSlice S4096x14x14x1 ![0, 0, 0, 1] · slices_S4096x14x14x2_S4096x14x14x1_0_0_0_1) : (⟨S4096x14x14x2, .f32⟩ : BufTy).Contents (Elt F) → (⟨S4096x14x14x1, .f32⟩ : BufTy).Contents (Elt F)) (val_main_v176 (F := F) x0 x1)
/-- The value main_v180 holds: reshape of main_v179. -/
def val_main_v180 (x0 : (⟨S4096x14x14x30, .f32⟩ : BufTy).Contents (Elt F)) (x1 : (⟨S4096x14x14x4, .f32⟩ : BufTy).Contents (Elt F)) : (⟨S4096x14x14, .f32⟩ : BufTy).Contents (Elt F) :=
  shapeCast _ (val_main_v179 (F := F) x0 x1) shapeCasts_S4096x14x14x1_S4096x14x14
/-- The value main_v181 holds: binary of main_v178, main_v180. -/
def val_main_v181 (x0 : (⟨S4096x14x14x30, .f32⟩ : BufTy).Contents (Elt F)) (x1 : (⟨S4096x14x14x4, .f32⟩ : BufTy).Contents (Elt F)) : (⟨S4096x14x14, .f32⟩ : BufTy).Contents (Elt F) :=
  (mulf : (⟨S4096x14x14, .f32⟩ : BufTy).Contents (Elt F) → (⟨S4096x14x14, .f32⟩ : BufTy).Contents (Elt F) → (⟨S4096x14x14, .f32⟩ : BufTy).Contents (Elt F)) (val_main_v178 (F := F) x0 x1) (val_main_v180 (F := F) x0 x1)
/-- The value main_v182 holds: unary of main_v167. -/
def val_main_v182 (x0 : (⟨S4096x14x14x30, .f32⟩ : BufTy).Contents (Elt F)) : (⟨S4096x14x14x1, .f32⟩ : BufTy).Contents (Elt F) :=
  ((extractStridedSlice S4096x14x14x1 ![0, 0, 0, 2] · slices_S4096x14x14x4_S4096x14x14x1_0_0_0_2) : (⟨S4096x14x14x4, .f32⟩ : BufTy).Contents (Elt F) → (⟨S4096x14x14x1, .f32⟩ : BufTy).Contents (Elt F)) (val_main_v167 (F := F) x0)
/-- The value main_v183 holds: reshape of main_v182. -/
def val_main_v183 (x0 : (⟨S4096x14x14x30, .f32⟩ : BufTy).Contents (Elt F)) : (⟨S4096x14x14, .f32⟩ : BufTy).Contents (Elt F) :=
  shapeCast _ (val_main_v182 (F := F) x0) shapeCasts_S4096x14x14x1_S4096x14x14
/-- The value main_v184 holds: unary of main_v167. -/
def val_main_v184 (x0 : (⟨S4096x14x14x30, .f32⟩ : BufTy).Contents (Elt F)) : (⟨S4096x14x14x1, .f32⟩ : BufTy).Contents (Elt F) :=
  ((extractStridedSlice S4096x14x14x1 ![0, 0, 0, 0] · slices_S4096x14x14x4_S4096x14x14x1_0_0_0_0) : (⟨S4096x14x14x4, .f32⟩ : BufTy).Contents (Elt F) → (⟨S4096x14x14x1, .f32⟩ : BufTy).Contents (Elt F)) (val_main_v167 (F := F) x0)
/-- The value main_v185 holds: reshape of main_v184. -/
def val_main_v185 (x0 : (⟨S4096x14x14x30, .f32⟩ : BufTy).Contents (Elt F)) : (⟨S4096x14x14, .f32⟩ : BufTy).Contents (Elt F) :=
  shapeCast _ (val_main_v184 (F := F) x0) shapeCasts_S4096x14x14x1_S4096x14x14
/-- The value main_v186 holds: binary of main_v183, main_v185. -/
def val_main_v186 (x0 : (⟨S4096x14x14x30, .f32⟩ : BufTy).Contents (Elt F)) : (⟨S4096x14x14, .f32⟩ : BufTy).Contents (Elt F) :=
  (subf : (⟨S4096x14x14, .f32⟩ : BufTy).Contents (Elt F) → (⟨S4096x14x14, .f32⟩ : BufTy).Contents (Elt F) → (⟨S4096x14x14, .f32⟩ : BufTy).Contents (Elt F)) (val_main_v183 (F := F) x0) (val_main_v185 (F := F) x0)
/-- The value main_v187 holds: unary of main_v167. -/
def val_main_v187 (x0 : (⟨S4096x14x14x30, .f32⟩ : BufTy).Contents (Elt F)) : (⟨S4096x14x14x1, .f32⟩ : BufTy).Contents (Elt F) :=
  ((extractStridedSlice S4096x14x14x1 ![0, 0, 0, 3] · slices_S4096x14x14x4_S4096x14x14x1_0_0_0_3) : (⟨S4096x14x14x4, .f32⟩ : BufTy).Contents (Elt F) → (⟨S4096x14x14x1, .f32⟩ : BufTy).Contents (Elt F)) (val_main_v167 (F := F) x0)
/-- The value main_v188 holds: reshape of main_v187. -/
def val_main_v188 (x0 : (⟨S4096x14x14x30, .f32⟩ : BufTy).Contents (Elt F)) : (⟨S4096x14x14, .f32⟩ : BufTy).Contents (Elt F) :=
  shapeCast _ (val_main_v187 (F := F) x0) shapeCasts_S4096x14x14x1_S4096x14x14
/-- The value main_v189 holds: unary of main_v167. -/
def val_main_v189 (x0 : (⟨S4096x14x14x30, .f32⟩ : BufTy).Contents (Elt F)) : (⟨S4096x14x14x1, .f32⟩ : BufTy).Contents (Elt F) :=
  ((extractStridedSlice S4096x14x14x1 ![0, 0, 0, 1] · slices_S4096x14x14x4_S4096x14x14x1_0_0_0_1) : (⟨S4096x14x14x4, .f32⟩ : BufTy).Contents (Elt F) → (⟨S4096x14x14x1, .f32⟩ : BufTy).Contents (Elt F)) (val_main_v167 (F := F) x0)
/-- The value main_v190 holds: reshape of main_v189. -/
def val_main_v190 (x0 : (⟨S4096x14x14x30, .f32⟩ : BufTy).Contents (Elt F)) : (⟨S4096x14x14, .f32⟩ : BufTy).Contents (Elt F) :=
  shapeCast _ (val_main_v189 (F := F) x0) shapeCasts_S4096x14x14x1_S4096x14x14
/-- The value main_v191 holds: binary of main_v188, main_v190. -/
def val_main_v191 (x0 : (⟨S4096x14x14x30, .f32⟩ : BufTy).Contents (Elt F)) : (⟨S4096x14x14, .f32⟩ : BufTy).Contents (Elt F) :=
  (subf : (⟨S4096x14x14, .f32⟩ : BufTy).Contents (Elt F) → (⟨S4096x14x14, .f32⟩ : BufTy).Contents (Elt F) → (⟨S4096x14x14, .f32⟩ : BufTy).Contents (Elt F)) (val_main_v188 (F := F) x0) (val_main_v190 (F := F) x0)
/-- The value main_v192 holds: binary of main_v186, main_v191. -/
def val_main_v192 (x0 : (⟨S4096x14x14x30, .f32⟩ : BufTy).Contents (Elt F)) : (⟨S4096x14x14, .f32⟩ : BufTy).Contents (Elt F) :=
  (mulf : (⟨S4096x14x14, .f32⟩ : BufTy).Contents (Elt F) → (⟨S4096x14x14, .f32⟩ : BufTy).Contents (Elt F) → (⟨S4096x14x14, .f32⟩ : BufTy).Contents (Elt F)) (val_main_v186 (F := F) x0) (val_main_v191 (F := F) x0)
/-- The value main_v193 holds: unary of main_v60. -/
def val_main_v193 (x1 : (⟨S4096x14x14x4, .f32⟩ : BufTy).Contents (Elt F)) : (⟨S4096x14x14x1, .f32⟩ : BufTy).Contents (Elt F) :=
  ((extractStridedSlice S4096x14x14x1 ![0, 0, 0, 2] · slices_S4096x14x14x4_S4096x14x14x1_0_0_0_2) : (⟨S4096x14x14x4, .f32⟩ : BufTy).Contents (Elt F) → (⟨S4096x14x14x1, .f32⟩ : BufTy).Contents (Elt F)) (val_main_v60 (F := F) x1)
/-- The value main_v194 holds: reshape of main_v193. -/
def val_main_v194 (x1 : (⟨S4096x14x14x4, .f32⟩ : BufTy).Contents (Elt F)) : (⟨S4096x14x14, .f32⟩ : BufTy).Contents (Elt F) :=
  shapeCast _ (val_main_v193 (F := F) x1) shapeCasts_S4096x14x14x1_S4096x14x14
/-- The value main_v195 holds: unary of main_v60. -/
def val_main_v195 (x1 : (⟨S4096x14x14x4, .f32⟩ : BufTy).Contents (Elt F)) : (⟨S4096x14x14x1, .f32⟩ : BufTy).Contents (Elt F) :=
  ((extractStridedSlice S4096x14x14x1 ![0, 0, 0, 0] · slices_S4096x14x14x4_S4096x14x14x1_0_0_0_0) : (⟨S4096x14x14x4, .f32⟩ : BufTy).Contents (Elt F) → (⟨S4096x14x14x1, .f32⟩ : BufTy).Contents (Elt F)) (val_main_v60 (F := F) x1)
/-- The value main_v196 holds: reshape of main_v195. -/
def val_main_v196 (x1 : (⟨S4096x14x14x4, .f32⟩ : BufTy).Contents (Elt F)) : (⟨S4096x14x14, .f32⟩ : BufTy).Contents (Elt F) :=
  shapeCast _ (val_main_v195 (F := F) x1) shapeCasts_S4096x14x14x1_S4096x14x14
/-- The value main_v197 holds: binary of main_v194, main_v196. -/
def val_main_v197 (x1 : (⟨S4096x14x14x4, .f32⟩ : BufTy).Contents (Elt F)) : (⟨S4096x14x14, .f32⟩ : BufTy).Contents (Elt F) :=
  (subf : (⟨S4096x14x14, .f32⟩ : BufTy).Contents (Elt F) → (⟨S4096x14x14, .f32⟩ : BufTy).Contents (Elt F) → (⟨S4096x14x14, .f32⟩ : BufTy).Contents (Elt F)) (val_main_v194 (F := F) x1) (val_main_v196 (F := F) x1)
/-- The value main_v198 holds: unary of main_v60. -/
def val_main_v198 (x1 : (⟨S4096x14x14x4, .f32⟩ : BufTy).Contents (Elt F)) : (⟨S4096x14x14x1, .f32⟩ : BufTy).Contents (Elt F) :=
  ((extractStridedSlice S4096x14x14x1 ![0, 0, 0, 3] · slices_S4096x14x14x4_S4096x14x14x1_0_0_0_3) : (⟨S4096x14x14x4, .f32⟩ : BufTy).Contents (Elt F) → (⟨S4096x14x14x1, .f32⟩ : BufTy).Contents (Elt F)) (val_main_v60 (F := F) x1)
/-- The value main_v199 holds: reshape of main_v198. -/
def val_main_v199 (x1 : (⟨S4096x14x14x4, .f32⟩ : BufTy).Contents (Elt F)) : (⟨S4096x14x14, .f32⟩ : BufTy).Contents (Elt F) :=
  shapeCast _ (val_main_v198 (F := F) x1) shapeCasts_S4096x14x14x1_S4096x14x14
/-- The value main_v200 holds: unary of main_v60. -/
def val_main_v200 (x1 : (⟨S4096x14x14x4, .f32⟩ : BufTy).Contents (Elt F)) : (⟨S4096x14x14x1, .f32⟩ : BufTy).Contents (Elt F) :=
  ((extractStridedSlice S4096x14x14x1 ![0, 0, 0, 1] · slices_S4096x14x14x4_S4096x14x14x1_0_0_0_1) : (⟨S4096x14x14x4, .f32⟩ : BufTy).Contents (Elt F) → (⟨S4096x14x14x1, .f32⟩ : BufTy).Contents (Elt F)) (val_main_v60 (F := F) x1)
/-- The value main_v201 holds: reshape of main_v200. -/
def val_main_v201 (x1 : (⟨S4096x14x14x4, .f32⟩ : BufTy).Contents (Elt F)) : (⟨S4096x14x14, .f32⟩ : BufTy).Contents (Elt F) :=
  shapeCast _ (val_main_v200 (F := F) x1) shapeCasts_S4096x14x14x1_S4096x14x14
/-- The value main_v202 holds: binary of main_v199, main_v201. -/
def val_main_v202 (x1 : (⟨S4096x14x14x4, .f32⟩ : BufTy).Contents (Elt F)) : (⟨S4096x14x14, .f32⟩ : BufTy).Contents (Elt F) :=
  (subf : (⟨S4096x14x14, .f32⟩ : BufTy).Contents (Elt F) → (⟨S4096x14x14, .f32⟩ : BufTy).Contents (Elt F) → (⟨S4096x14x14, .f32⟩ : BufTy).Contents (Elt F)) (val_main_v199 (F := F) x1) (val_main_v201 (F := F) x1)
/-- The value main_v203 holds: binary of main_v197, main_v202. -/
def val_main_v203 (x1 : (⟨S4096x14x14x4, .f32⟩ : BufTy).Contents (Elt F)) : (⟨S4096x14x14, .f32⟩ : BufTy).Contents (Elt F) :=
  (mulf : (⟨S4096x14x14, .f32⟩ : BufTy).Contents (Elt F) → (⟨S4096x14x14, .f32⟩ : BufTy).Contents (Elt F) → (⟨S4096x14x14, .f32⟩ : BufTy).Contents (Elt F)) (val_main_v197 (F := F) x1) (val_main_v202 (F := F) x1)
/-- The value main_v204 holds: binary of main_v192, main_v203. -/
def val_main_v204 (x0 : (⟨S4096x14x14x30, .f32⟩ : BufTy).Contents (Elt F)) (x1 : (⟨S4096x14x14x4, .f32⟩ : BufTy).Contents (Elt F)) : (⟨S4096x14x14, .f32⟩ : BufTy).Contents (Elt F) :=
  (addf : (⟨S4096x14x14, .f32⟩ : BufTy).Contents (Elt F) → (⟨S4096x14x14, .f32⟩ : BufTy).Contents (Elt F) → (⟨S4096x14x14, .f32⟩ : BufTy).Contents (Elt F)) (val_main_v192 (F := F) x0) (val_main_v203 (F := F) x1)
/-- The value main_v205 holds: binary of main_v204, main_v181. -/
def val_main_v205 (x0 : (⟨S4096x14x14x30, .f32⟩ : BufTy).Contents (Elt F)) (x1 : (⟨S4096x14x14x4, .f32⟩ : BufTy).Contents (Elt F)) : (⟨S4096x14x14, .f32⟩ : BufTy).Contents (Elt F) :=
  (subf : (⟨S4096x14x14, .f32⟩ : BufTy).Contents (Elt F) → (⟨S4096x14x14, .f32⟩ : BufTy).Contents (Elt F) → (⟨S4096x14x14, .f32⟩ : BufTy).Contents (Elt F)) (val_main_v204 (F := F) x0 x1) (val_main_v181 (F := F) x0 x1)
/-- The value main_v206 holds: binary of main_v181, main_v205. -/
def val_main_v206 (x0 : (⟨S4096x14x14x30, .f32⟩ : BufTy).Contents (Elt F)) (x1 : (⟨S4096x14x14x4, .f32⟩ : BufTy).Contents (Elt F)) : (⟨S4096x14x14, .f32⟩ : BufTy).Contents (Elt F) :=
  (Host.divf : (⟨S4096x14x14, .f32⟩ : BufTy).Contents (Elt F) → (⟨S4096x14x14, .f32⟩ : BufTy).Contents (Elt F) → (⟨S4096x14x14, .f32⟩ : BufTy).Contents (Elt F)) (val_main_v181 (F := F) x0 x1) (val_main_v205 (F := F) x0 x1)
/-- The value main_v207 holds: binary of main_v133, main_v206. -/
def val_main_v207 (x0 : (⟨S4096x14x14x30, .f32⟩ : BufTy).Contents (Elt F)) (x1 : (⟨S4096x14x14x4, .f32⟩ : BufTy).Contents (Elt F)) : (⟨S4096x14x14, .i1⟩ : BufTy).Contents (Elt F) :=
  (cmpf .oge : (⟨S4096x14x14, .f32⟩ : BufTy).Contents (Elt F) → (⟨S4096x14x14, .f32⟩ : BufTy).Contents (Elt F) → (⟨S4096x14x14, .i1⟩ : BufTy).Contents (Elt F)) (val_main_v133 (F := F) x0 x1) (val_main_v206 (F := F) x0 x1)
/-- The value main_v208 holds: unary of main_v207. -/
def val_main_v208 (x0 : (⟨S4096x14x14x30, .f32⟩ : BufTy).Contents (Elt F)) (x1 : (⟨S4096x14x14x4, .f32⟩ : BufTy).Contents (Elt F)) : (⟨S4096x14x14x1, .i1⟩ : BufTy).Contents (Elt F) :=
  (broadcastInDim S4096x14x14x1 ![0, 1, 2] bcast_S4096x14x14_S4096x14x14x1_0_1_2 : (⟨S4096x14x14, .i1⟩ : BufTy).Contents (Elt F) → (⟨S4096x14x14x1, .i1⟩ : BufTy).Contents (Elt F)) (val_main_v207 (F := F) x0 x1)
/-- The value main_call0_v0 holds: TRef.unary of main_v208. -/
def val_main_call0_v0 (x0 : (⟨S4096x14x14x30, .f32⟩ : BufTy).Contents (Elt F)) (x1 : (⟨S4096x14x14x4, .f32⟩ : BufTy).Contents (Elt F)) : (⟨S4096x14x14x5, .i1⟩ : BufTy).Contents (Elt F) :=
  (broadcastInDim S4096x14x14x5 ![0, 1, 2, 3] bcast_S4096x14x14x1_S4096x14x14x5_0_1_2_3) (val_main_v208 (F := F) x0 x1)
/-- The value main_v209 holds: TRef.ternary of main_call0_v0, main_v5, main_v6. -/
def val_main_v209 (x0 : (⟨S4096x14x14x30, .f32⟩ : BufTy).Contents (Elt F)) (x1 : (⟨S4096x14x14x4, .f32⟩ : BufTy).Contents (Elt F)) : (⟨S4096x14x14x5, .f32⟩ : BufTy).Contents (Elt F) :=
  select (val_main_call0_v0 (F := F) x0 x1) (val_main_v5 (F := F) x0) (val_main_v6 (F := F) x0)
/-- The value main_v210 holds: TRef.ternary of main_v207, main_v133, main_v206. -/
def val_main_v210 (x0 : (⟨S4096x14x14x30, .f32⟩ : BufTy).Contents (Elt F)) (x1 : (⟨S4096x14x14x4, .f32⟩ : BufTy).Contents (Elt F)) : (⟨S4096x14x14, .f32⟩ : BufTy).Contents (Elt F) :=
  select (val_main_v207 (F := F) x0 x1) (val_main_v133 (F := F) x0 x1) (val_main_v206 (F := F) x0 x1)
/-- The value main_v211 holds: unary of main_v209. -/
def val_main_v211 (x0 : (⟨S4096x14x14x30, .f32⟩ : BufTy).Contents (Elt F)) (x1 : (⟨S4096x14x14x4, .f32⟩ : BufTy).Contents (Elt F)) : (⟨S4096x14x14x1, .f32⟩ : BufTy).Contents (Elt F) :=
  ((extractStridedSlice S4096x14x14x1 ![0, 0, 0, 0] · slices_S4096x14x14x5_S4096x14x14x1_0_0_0_0) : (⟨S4096x14x14x5, .f32⟩ : BufTy).Contents (Elt F) → (⟨S4096x14x14x1, .f32⟩ : BufTy).Contents (Elt F)) (val_main_v209 (F := F) x0 x1)
/-- The value main_v212 holds: reshape of main_v211. -/
def val_main_v212 (x0 : (⟨S4096x14x14x30, .f32⟩ : BufTy).Contents (Elt F)) (x1 : (⟨S4096x14x14x4, .f32⟩ : BufTy).Contents (Elt F)) : (⟨S4096x14x14, .f32⟩ : BufTy).Contents (Elt F) :=
  shapeCast _ (val_main_v211 (F := F) x0 x1) shapeCasts_S4096x14x14x1_S4096x14x14
/-- The value main_v213 holds: unary of main_v209. -/
def val_main_v213 (x0 : (⟨S4096x14x14x30, .f32⟩ : BufTy).Contents (Elt F)) (x1 : (⟨S4096x14x14x4, .f32⟩ : BufTy).Contents (Elt F)) : (⟨S4096x14x14x1, .f32⟩ : BufTy).Contents (Elt F) :=
  ((extractStridedSlice S4096x14x14x1 ![0, 0, 0, 1] · slices_S4096x14x14x5_S4096x14x14x1_0_0_0_1) : (⟨S4096x14x14x5, .f32⟩ : BufTy).Contents (Elt F) → (⟨S4096x14x14x1, .f32⟩ : BufTy).Contents (Elt F)) (val_main_v209 (F := F) x0 x1)
/-- The value main_v214 holds: reshape of main_v213. -/
def val_main_v214 (x0 : (⟨S4096x14x14x30, .f32⟩ : BufTy).Contents (Elt F)) (x1 : (⟨S4096x14x14x4, .f32⟩ : BufTy).Contents (Elt F)) : (⟨S4096x14x14, .f32⟩ : BufTy).Contents (Elt F) :=
  shapeCast _ (val_main_v213 (F := F) x0 x1) shapeCasts_S4096x14x14x1_S4096x14x14
/-- The value main_v215 holds: unary of main_v209. -/
def val_main_v215 (x0 : (⟨S4096x14x14x30, .f32⟩ : BufTy).Contents (Elt F)) (x1 : (⟨S4096x14x14x4, .f32⟩ : BufTy).Contents (Elt F)) : (⟨S4096x14x14x1, .f32⟩ : BufTy).Contents (Elt F) :=
  ((extractStridedSlice S4096x14x14x1 ![0, 0, 0, 2] · slices_S4096x14x14x5_S4096x14x14x1_0_0_0_2) : (⟨S4096x14x14x5, .f32⟩ : BufTy).Contents (Elt F) → (⟨S4096x14x14x1, .f32⟩ : BufTy).Contents (Elt F)) (val_main_v209 (F := F) x0 x1)
/-- The value main_v216 holds: reshape of main_v215. -/
def val_main_v216 (x0 : (⟨S4096x14x14x30, .f32⟩ : BufTy).Contents (Elt F)) (x1 : (⟨S4096x14x14x4, .f32⟩ : BufTy).Contents (Elt F)) : (⟨S4096x14x14, .f32⟩ : BufTy).Contents (Elt F) :=
  shapeCast _ (val_main_v215 (F := F) x0 x1) shapeCasts_S4096x14x14x1_S4096x14x14
/-- The value main_v217 holds: unary of main_v209. -/
def val_main_v217 (x0 : (⟨S4096x14x14x30, .f32⟩ : BufTy).Contents (Elt F)) (x1 : (⟨S4096x14x14x4, .f32⟩ : BufTy).Contents (Elt F)) : (⟨S4096x14x14x1, .f32⟩ : BufTy).Contents (Elt F) :=
  ((extractStridedSlice S4096x14x14x1 ![0, 0, 0, 3] · slices_S4096x14x14x5_S4096x14x14x1_0_0_0_3) : (⟨S4096x14x14x5, .f32⟩ : BufTy).Contents (Elt F) → (⟨S4096x14x14x1, .f32⟩ : BufTy).Contents (Elt F)) (val_main_v209 (F := F) x0 x1)
/-- The value main_v218 holds: reshape of main_v217. -/
def val_main_v218 (x0 : (⟨S4096x14x14x30, .f32⟩ : BufTy).Contents (Elt F)) (x1 : (⟨S4096x14x14x4, .f32⟩ : BufTy).Contents (Elt F)) : (⟨S4096x14x14, .f32⟩ : BufTy).Contents (Elt F) :=
  shapeCast _ (val_main_v217 (F := F) x0 x1) shapeCasts_S4096x14x14x1_S4096x14x14
/-- The value main_v219 holds: unary of main_arg1. -/
def val_main_v219 (x1 : (⟨S4096x14x14x4, .f32⟩ : BufTy).Contents (Elt F)) : (⟨S4096x14x14x1, .f32⟩ : BufTy).Contents (Elt F) :=
  ((extractStridedSlice S4096x14x14x1 ![0, 0, 0, 0] · slices_S4096x14x14x4_S4096x14x14x1_0_0_0_0) : (⟨S4096x14x14x4, .f32⟩ : BufTy).Contents (Elt F) → (⟨S4096x14x14x1, .f32⟩ : BufTy).Contents (Elt F)) x1
/-- The value main_v220 holds: reshape of main_v219. -/
def val_main_v220 (x1 : (⟨S4096x14x14x4, .f32⟩ : BufTy).Contents (Elt F)) : (⟨S4096x14x14, .f32⟩ : BufTy).Contents (Elt F) :=
  shapeCast _ (val_main_v219 (F := F) x1) shapeCasts_S4096x14x14x1_S4096x14x14
/-- The value main_v221 holds: unary of main_arg1. -/
def val_main_v221 (x1 : (⟨S4096x14x14x4, .f32⟩ : BufTy).Contents (Elt F)) : (⟨S4096x14x14x1, .f32⟩ : BufTy).Contents (Elt F) :=
  ((extractStridedSlice S4096x14x14x1 ![0, 0, 0, 1] · slices_S4096x14x14x4_S4096x14x14x1_0_0_0_1) : (⟨S4096x14x14x4, .f32⟩ : BufTy).Contents (Elt F) → (⟨S4096x14x14x1, .f32⟩ : BufTy).Contents (Elt F)) x1
/-- The value main_v222 holds: reshape of main_v221. -/
def val_main_v222 (x1 : (⟨S4096x14x14x4, .f32⟩ : BufTy).Contents (Elt F)) : (⟨S4096x14x14, .f32⟩ : BufTy).Contents (Elt F) :=
  shapeCast _ (val_main_v221 (F := F) x1) shapeCasts_S4096x14x14x1_S4096x14x14
/-- The value main_v223 holds: unary of main_arg1. -/
def val_main_v223 (x1 : (⟨S4096x14x14x4, .f32⟩ : BufTy).Contents (Elt F)) : (⟨S4096x14x14x1, .f32⟩ : BufTy).Contents (Elt F) :=
  ((extractStridedSlice S4096x14x14x1 ![0, 0, 0, 2] · slices_S4096x14x14x4_S4096x14x14x1_0_0_0_2) : (⟨S4096x14x14x4, .f32⟩ : BufTy).Contents (Elt F) → (⟨S4096x14x14x1, .f32⟩ : BufTy).Contents (Elt F)) x1
/-- The value main_v224 holds: reshape of main_v223. -/
def val_main_v224 (x1 : (⟨S4096x14x14x4, .f32⟩ : BufTy).Contents (Elt F)) : (⟨S4096x14x14, .f32⟩ : BufTy).Contents (Elt F) :=
  shapeCast _ (val_main_v223 (F := F) x1) shapeCasts_S4096x14x14x1_S4096x14x14
/-- The value main_v225 holds: unary of main_arg1. -/
def val_main_v225 (x1 : (⟨S4096x14x14x4, .f32⟩ : BufTy).Contents (Elt F)) : (⟨S4096x14x14x1, .f32⟩ : BufTy).Contents (Elt F) :=
  ((extractStridedSlice S4096x14x14x1 ![0, 0, 0, 3] · slices_S4096x14x14x4_S4096x14x14x1_0_0_0_3) : (⟨S4096x14x14x4, .f32⟩ : BufTy).Contents (Elt F) → (⟨S4096x14x14x1, .f32⟩ : BufTy).Contents (Elt F)) x1
/-- The value main_v226 holds: reshape of main_v225. -/
def val_main_v226 (x1 : (⟨S4096x14x14x4, .f32⟩ : BufTy).Contents (Elt F)) : (⟨S4096x14x14, .f32⟩ : BufTy).Contents (Elt F) :=
  shapeCast _ (val_main_v225 (F := F) x1) shapeCasts_S4096x14x14x1_S4096x14x14
/-- The value main_v227 holds: binary of main_v212, main_v220. -/
def val_main_v227 (x0 : (⟨S4096x14x14x30, .f32⟩ : BufTy).Contents (Elt F)) (x1 : (⟨S4096x14x14x4, .f32⟩ : BufTy).Contents (Elt F)) : (⟨S4096x14x14, .f32⟩ : BufTy).Contents (Elt F) :=
  (subf : (⟨S4096x14x14, .f32⟩ : BufTy).Contents (Elt F) → (⟨S4096x14x14, .f32⟩ : BufTy).Contents (Elt F) → (⟨S4096x14x14, .f32⟩ : BufTy).Contents (Elt F)) (val_main_v212 (F := F) x0 x1) (val_main_v220 (F := F) x1)
/-- The value main_v228 holds: binary of main_v227, main_v227. -/
def val_main_v228 (x0 : (⟨S4096x14x14x30, .f32⟩ : BufTy).Contents (Elt F)) (x1 : (⟨S4096x14x14x4, .f32⟩ : BufTy).Contents (Elt F)) : (⟨S4096x14x14, .f32⟩ : BufTy).Contents (Elt F) :=
  (mulf : (⟨S4096x14x14, .f32⟩ : BufTy).Contents (Elt F) → (⟨S4096x14x14, .f32⟩ : BufTy).Contents (Elt F) → (⟨S4096x14x14, .f32⟩ : BufTy).Contents (Elt F)) (val_main_v227 (F := F) x0 x1) (val_main_v227 (F := F) x0 x1)
/-- The value main_v229 holds: binary of main_v214, main_v222. -/
def val_main_v229 (x0 : (⟨S4096x14x14x30, .f32⟩ : BufTy).Contents (Elt F)) (x1 : (⟨S4096x14x14x4, .f32⟩ : BufTy).Contents (Elt F)) : (⟨S4096x14x14, .f32⟩ : BufTy).Contents (Elt F) :=
  (subf : (⟨S4096x14x14, .f32⟩ : BufTy).Contents (Elt F) → (⟨S4096x14x14, .f32⟩ : BufTy).Contents (Elt F) → (⟨S4096x14x14, .f32⟩ : BufTy).Contents (Elt F)) (val_main_v214 (F := F) x0 x1) (val_main_v222 (F := F) x1)
/-- The value main_v230 holds: binary of main_v229, main_v229. -/
def val_main_v230 (x0 : (⟨S4096x14x14x30, .f32⟩ : BufTy).Contents (Elt F)) (x1 : (⟨S4096x14x14x4, .f32⟩ : BufTy).Contents (Elt F)) : (⟨S4096x14x14, .f32⟩ : BufTy).Contents (Elt F) :=
  (mulf : (⟨S4096x14x14, .f32⟩ : BufTy).Contents (Elt F) → (⟨S4096x14x14, .f32⟩ : BufTy).Contents (Elt F) → (⟨S4096x14x14, .f32⟩ : BufTy).Contents (Elt F)) (val_main_v229 (F := F) x0 x1) (val_main_v229 (F := F) x0 x1)
/-- The value main_v231 holds: binary of main_v228, main_v230. -/
def val_main_v231 (x0 : (⟨S4096x14x14x30, .f32⟩ : BufTy).Contents (Elt F)) (x1 : (⟨S4096x14x14x4, .f32⟩ : BufTy).Contents (Elt F)) : (⟨S4096x14x14, .f32⟩ : BufTy).Contents (Elt F) :=
  (addf : (⟨S4096x14x14, .f32⟩ : BufTy).Contents (Elt F) → (⟨S4096x14x14, .f32⟩ : BufTy).Contents (Elt F) → (⟨S4096x14x14, .f32⟩ : BufTy).Contents (Elt F)) (val_main_v228 (F := F) x0 x1) (val_main_v230 (F := F) x0 x1)
/-- The value main_v232 holds: unary of main_v216. -/
def val_main_v232 (x0 : (⟨S4096x14x14x30, .f32⟩ : BufTy).Contents (Elt F)) (x1 : (⟨S4096x14x14x4, .f32⟩ : BufTy).Contents (Elt F)) : (⟨S4096x14x14, .f32⟩ : BufTy).Contents (Elt F) :=
  (Host.sqrt : (⟨S4096x14x14, .f32⟩ : BufTy).Contents (Elt F) → (⟨S4096x14x14, .f32⟩ : BufTy).Contents (Elt F)) (val_main_v216 (F := F) x0 x1)
/-- The value main_v233 holds: unary of main_v224. -/
def val_main_v233 (x1 : (⟨S4096x14x14x4, .f32⟩ : BufTy).Contents (Elt F)) : (⟨S4096x14x14, .f32⟩ : BufTy).Contents (Elt F) :=
  (Host.sqrt : (⟨S4096x14x14, .f32⟩ : BufTy).Contents (Elt F) → (⟨S4096x14x14, .f32⟩ : BufTy).Contents (Elt F)) (val_main_v224 (F := F) x1)
/-- The value main_v234 holds: binary of main_v232, main_v233. -/
def val_main_v234 (x0 : (⟨S4096x14x14x30, .f32⟩ : BufTy).Contents (Elt F)) (x1 : (⟨S4096x14x14x4, .f32⟩ : BufTy).Contents (Elt F)) : (⟨S4096x14x14, .f32⟩ : BufTy).Contents (Elt F) :=
  (subf : (⟨S4096x14x14, .f32⟩ : BufTy).Contents (Elt F) → (⟨S4096x14x14, .f32⟩ : BufTy).Contents (Elt F) → (⟨S4096x14x14, .f32⟩ : BufTy).Contents (Elt F)) (val_main_v232 (F := F) x0 x1) (val_main_v233 (F := F) x1)
/-- The value main_v235 holds: binary of main_v234, main_v234. -/
def val_main_v235 (x0 : (⟨S4096x14x14x30, .f32⟩ : BufTy).Contents (Elt F)) (x1 : (⟨S4096x14x14x4, .f32⟩ : BufTy).Contents (Elt F)) : (⟨S4096x14x14, .f32⟩ : BufTy).Contents (Elt F) :=
  (mulf : (⟨S4096x14x14, .f32⟩ : BufTy).Contents (Elt F) → (⟨S4096x14x14, .f32⟩ : BufTy).Contents (Elt F) → (⟨S4096x14x14, .f32⟩ : BufTy).Contents (Elt F)) (val_main_v234 (F := F) x0 x1) (val_main_v234 (F := F) x0 x1)
/-- The value main_v236 holds: binary of main_v231, main_v235. -/
def val_main_v236 (x0 : (⟨S4096x14x14x30, .f32⟩ : BufTy).Contents (Elt F)) (x1 : (⟨S4096x14x14x4, .f32⟩ : BufTy).Contents (Elt F)) : (⟨S4096x14x14, .f32⟩ : BufTy).Contents (Elt F) :=
  (addf : (⟨S4096x14x14, .f32⟩ : BufTy).Contents (Elt F) → (⟨S4096x14x14, .f32⟩ : BufTy).Contents (Elt F) → (⟨S4096x14x14, .f32⟩ : BufTy).Contents (Elt F)) (val_main_v231 (F := F) x0 x1) (val_main_v235 (F := F) x0 x1)
/-- The value main_v237 holds: unary of main_v218. -/
def val_main_v237 (x0 : (⟨S4096x14x14x30, .f32⟩ : BufTy).Contents (Elt F)) (x1 : (⟨S4096x14x14x4, .f32⟩ : BufTy).Contents (Elt F)) : (⟨S4096x14x14, .f32⟩ : BufTy).Contents (Elt F) :=
  (Host.sqrt : (⟨S4096x14x14, .f32⟩ : BufTy).Contents (Elt F) → (⟨S4096x14x14, .f32⟩ : BufTy).Contents (Elt F)) (val_main_v218 (F := F) x0 x1)
/-- The value main_v238 holds: unary of main_v226. -/
def val_main_v238 (x1 : (⟨S4096x14x14x4, .f32⟩ : BufTy).Contents (Elt F)) : (⟨S4096x14x14, .f32⟩ : BufTy).Contents (Elt F) :=
  (Host.sqrt : (⟨S4096x14x14, .f32⟩ : BufTy).Contents (Elt F) → (⟨S4096x14x14, .f32⟩ : BufTy).Contents (Elt F)) (val_main_v226 (F := F) x1)
/-- The value main_v239 holds: binary of main_v237, main_v238. -/
def val_main_v239 (x0 : (⟨S4096x14x14x30, .f32⟩ : BufTy).Contents (Elt F)) (x1 : (⟨S4096x14x14x4, .f32⟩ : BufTy).Contents (Elt F)) : (⟨S4096x14x14, .f32⟩ : BufTy).Contents (Elt F) :=
  (subf : (⟨S4096x14x14, .f32⟩ : BufTy).Contents (Elt F) → (⟨S4096x14x14, .f32⟩ : BufTy).Contents (Elt F) → (⟨S4096x14x14, .f32⟩ : BufTy).Contents (Elt F)) (val_main_v237 (F := F) x0 x1) (val_main_v238 (F := F) x1)
/-- The value main_v240 holds: binary of main_v239, main_v239. -/
def val_main_v240 (x0 : (⟨S4096x14x14x30, .f32⟩ : BufTy).Contents (Elt F)) (x1 : (⟨S4096x14x14x4, .f32⟩ : BufTy).Contents (Elt F)) : (⟨S4096x14x14, .f32⟩ : BufTy).Contents (Elt F) :=
  (mulf : (⟨S4096x14x14, .f32⟩ : BufTy).Contents (Elt F) → (⟨S4096x14x14, .f32⟩ : BufTy).Contents (Elt F) → (⟨S4096x14x14, .f32⟩ : BufTy).Contents (Elt F)) (val_main_v239 (F := F) x0 x1) (val_main_v239 (F := F) x0 x1)
/-- The value main_v241 holds: binary of main_v236, main_v240. -/
def val_main_v241 (x0 : (⟨S4096x14x14x30, .f32⟩ : BufTy).Contents (Elt F)) (x1 : (⟨S4096x14x14x4, .f32⟩ : BufTy).Contents (Elt F)) : (⟨S4096x14x14, .f32⟩ : BufTy).Contents (Elt F) :=
  (addf : (⟨S4096x14x14, .f32⟩ : BufTy).Contents (Elt F) → (⟨S4096x14x14, .f32⟩ : BufTy).Contents (Elt F) → (⟨S4096x14x14, .f32⟩ : BufTy).Contents (Elt F)) (val_main_v236 (F := F) x0 x1) (val_main_v240 (F := F) x0 x1)
/-- The value main_v242 holds: binary of main_v0, main_v241. -/
def val_main_v242 (x0 : (⟨S4096x14x14x30, .f32⟩ : BufTy).Contents (Elt F)) (x1 : (⟨S4096x14x14x4, .f32⟩ : BufTy).Contents (Elt F)) (x3 : (⟨S4096x14x14, .i1⟩ : BufTy).Contents (Elt F)) : (⟨S4096x14x14, .f32⟩ : BufTy).Contents (Elt F) :=
  (mulf : (⟨S4096x14x14, .f32⟩ : BufTy).Contents (Elt F) → (⟨S4096x14x14, .f32⟩ : BufTy).Contents (Elt F) → (⟨S4096x14x14, .f32⟩ : BufTy).Contents (Elt F)) (val_main_v0 (F := F) x3) (val_main_v241 (F := F) x0 x1)
/-- The value main_cst_33 holds: nullary of nothing. -/
def val_main_cst_33 : (⟨S_, .f32⟩ : BufTy).Contents (Elt F) :=
  (constant S_ .f32 0x00000000#32)
/-- The value main_v243 holds: binary of main_v242, main_cst_33. -/
def val_main_v243 (x0 : (⟨S4096x14x14x30, .f32⟩ : BufTy).Contents (Elt F)) (x1 : (⟨S4096x14x14x4, .f32⟩ : BufTy).Contents (Elt F)) (x3 : (⟨S4096x14x14, .i1⟩ : BufTy).Contents (Elt F)) : (⟨S_, .f32⟩ : BufTy).Contents (Elt F) :=
  ((fun x v => Host.reduceAdd x v reducesTo_S4096x14x14_S_d0_1_2 h_S_) : (⟨S4096x14x14, .f32⟩ : BufTy).Contents (Elt F) → (⟨S_, .f32⟩ : BufTy).Contents (Elt F) → (⟨S_, .f32⟩ : BufTy).Contents (Elt F)) (val_main_v242 (F := F) x0 x1 x3) (val_main_cst_33 (F := F))
/-- The value main_cst_34 holds: nullary of nothing. -/
def val_main_cst_34 : (⟨S_, .f32⟩ : BufTy).Contents (Elt F) :=
  (constant S_ .f32 0x40A00000#32)
/-- The value main_v244 holds: binary of main_v243, main_cst_34. -/
def val_main_v244 (x0 : (⟨S4096x14x14x30, .f32⟩ : BufTy).Contents (Elt F)) (x1 : (⟨S4096x14x14x4, .f32⟩ : BufTy).Contents (Elt F)) (x3 : (⟨S4096x14x14, .i1⟩ : BufTy).Contents (Elt F)) : (⟨S_, .f32⟩ : BufTy).Contents (Elt F) :=
  (mulf : (⟨S_, .f32⟩ : BufTy).Contents (Elt F) → (⟨S_, .f32⟩ : BufTy).Contents (Elt F) → (⟨S_, .f32⟩ : BufTy).Contents (Elt F)) (val_main_v243 (F := F) x0 x1 x3) (val_main_cst_34 (F := F))
/-- The value main_v245 holds: binary of main_v244, main_v3. -/
def val_main_v245 (x0 : (⟨S4096x14x14x30, .f32⟩ : BufTy).Contents (Elt F)) (x1 : (⟨S4096x14x14x4, .f32⟩ : BufTy).Contents (Elt F)) (x3 : (⟨S4096x14x14, .i1⟩ : BufTy).Contents (Elt F)) : (⟨S_, .f32⟩ : BufTy).Contents (Elt F) :=
  (Host.divf : (⟨S_, .f32⟩ : BufTy).Contents (Elt F) → (⟨S_, .f32⟩ : BufTy).Contents (Elt F) → (⟨S_, .f32⟩ : BufTy).Contents (Elt F)) (val_main_v244 (F := F) x0 x1 x3) (val_main_v3 (F := F) x3)
/-- The value main_v246 holds: unary of main_v209. -/
def val_main_v246 (x0 : (⟨S4096x14x14x30, .f32⟩ : BufTy).Contents (Elt F)) (x1 : (⟨S4096x14x14x4, .f32⟩ : BufTy).Contents (Elt F)) : (⟨S4096x14x14x1, .f32⟩ : BufTy).Contents (Elt F) :=
  ((extractStridedSlice S4096x14x14x1 ![0, 0, 0, 4] · slices_S4096x14x14x5_S4096x14x14x1_0_0_0_4) : (⟨S4096x14x14x5, .f32⟩ : BufTy).Contents (Elt F) → (⟨S4096x14x14x1, .f32⟩ : BufTy).Contents (Elt F)) (val_main_v209 (F := F) x0 x1)
/-- The value main_v247 holds: reshape of main_v246. -/
def val_main_v247 (x0 : (⟨S4096x14x14x30, .f32⟩ : BufTy).Contents (Elt F)) (x1 : (⟨S4096x14x14x4, .f32⟩ : BufTy).Contents (Elt F)) : (⟨S4096x14x14, .f32⟩ : BufTy).Contents (Elt F) :=
  shapeCast _ (val_main_v246 (F := F) x0 x1) shapeCasts_S4096x14x14x1_S4096x14x14
/-- The value main_v248 holds: binary of main_v247, main_v210. -/
def val_main_v248 (x0 : (⟨S4096x14x14x30, .f32⟩ : BufTy).Contents (Elt F)) (x1 : (⟨S4096x14x14x4, .f32⟩ : BufTy).Contents (Elt F)) : (⟨S4096x14x14, .f32⟩ : BufTy).Contents (Elt F) :=
  (subf : (⟨S4096x14x14, .f32⟩ : BufTy).Contents (Elt F) → (⟨S4096x14x14, .f32⟩ : BufTy).Contents (Elt F) → (⟨S4096x14x14, .f32⟩ : BufTy).Contents (Elt F)) (val_main_v247 (F := F) x0 x1) (val_main_v210 (F := F) x0 x1)
/-- The value main_v249 holds: binary of main_v248, main_v248. -/
def val_main_v249 (x0 : (⟨S4096x14x14x30, .f32⟩ : BufTy).Contents (Elt F)) (x1 : (⟨S4096x14x14x4, .f32⟩ : BufTy).Contents (Elt F)) : (⟨S4096x14x14, .f32⟩ : BufTy).Contents (Elt F) :=
  (mulf : (⟨S4096x14x14, .f32⟩ : BufTy).Contents (Elt F) → (⟨S4096x14x14, .f32⟩ : BufTy).Contents (Elt F) → (⟨S4096x14x14, .f32⟩ : BufTy).Contents (Elt F)) (val_main_v248 (F := F) x0 x1) (val_main_v248 (F := F) x0 x1)
/-- The value main_v250 holds: binary of main_v0, main_v249. -/
def val_main_v250 (x0 : (⟨S4096x14x14x30, .f32⟩ : BufTy).Contents (Elt F)) (x1 : (⟨S4096x14x14x4, .f32⟩ : BufTy).Contents (Elt F)) (x3 : (⟨S4096x14x14, .i1⟩ : BufTy).Contents (Elt F)) : (⟨S4096x14x14, .f32⟩ : BufTy).Contents (Elt F) :=
  (mulf : (⟨S4096x14x14, .f32⟩ : BufTy).Contents (Elt F) → (⟨S4096x14x14, .f32⟩ : BufTy).Contents (Elt F) → (⟨S4096x14x14, .f32⟩ : BufTy).Contents (Elt F)) (val_main_v0 (F := F) x3) (val_main_v249 (F := F) x0 x1)
/-- The value main_cst_35 holds: nullary of nothing. -/
def val_main_cst_35 : (⟨S_, .f32⟩ : BufTy).Contents (Elt F) :=
  (constant S_ .f32 0x00000000#32)
/-- The value main_v251 holds: binary of main_v250, main_cst_35. -/
def val_main_v251 (x0 : (⟨S4096x14x14x30, .f32⟩ : BufTy).Contents (Elt F)) (x1 : (⟨S4096x14x14x4, .f32⟩ : BufTy).Contents (Elt F)) (x3 : (⟨S4096x14x14, .i1⟩ : BufTy).Contents (Elt F)) : (⟨S_, .f32⟩ : BufTy).Contents (Elt F) :=
  ((fun x v => Host.reduceAdd x v reducesTo_S4096x14x14_S_d0_1_2 h_S_) : (⟨S4096x14x14, .f32⟩ : BufTy).Contents (Elt F) → (⟨S_, .f32⟩ : BufTy).Contents (Elt F) → (⟨S_, .f32⟩ : BufTy).Contents (Elt F)) (val_main_v250 (F := F) x0 x1 x3) (val_main_cst_35 (F := F))
/-- The value main_v252 holds: binary of main_v251, main_v3. -/
def val_main_v252 (x0 : (⟨S4096x14x14x30, .f32⟩ : BufTy).Contents (Elt F)) (x1 : (⟨S4096x14x14x4, .f32⟩ : BufTy).Contents (Elt F)) (x3 : (⟨S4096x14x14, .i1⟩ : BufTy).Contents (Elt F)) : (⟨S_, .f32⟩ : BufTy).Contents (Elt F) :=
  (Host.divf : (⟨S_, .f32⟩ : BufTy).Contents (Elt F) → (⟨S_, .f32⟩ : BufTy).Contents (Elt F) → (⟨S_, .f32⟩ : BufTy).Contents (Elt F)) (val_main_v251 (F := F) x0 x1 x3) (val_main_v3 (F := F) x3)
/-- The value main_v253 holds: binary of main_v245, main_v252. -/
def val_main_v253 (x0 : (⟨S4096x14x14x30, .f32⟩ : BufTy).Contents (Elt F)) (x1 : (⟨S4096x14x14x4, .f32⟩ : BufTy).Contents (Elt F)) (x3 : (⟨S4096x14x14, .i1⟩ : BufTy).Contents (Elt F)) : (⟨S_, .f32⟩ : BufTy).Contents (Elt F) :=
  (addf : (⟨S_, .f32⟩ : BufTy).Contents (Elt F) → (⟨S_, .f32⟩ : BufTy).Contents (Elt F) → (⟨S_, .f32⟩ : BufTy).Contents (Elt F)) (val_main_v245 (F := F) x0 x1 x3) (val_main_v252 (F := F) x0 x1 x3)
/-- The value main_v254 holds: binary of main_v253, main_v27. -/
def val_main_v254 (x0 : (⟨S4096x14x14x30, .f32⟩ : BufTy).Contents (Elt F)) (x1 : (⟨S4096x14x14x4, .f32⟩ : BufTy).Contents (Elt F)) (x3 : (⟨S4096x14x14, .i1⟩ : BufTy).Contents (Elt F)) : (⟨S_, .f32⟩ : BufTy).Contents (Elt F) :=
  (addf : (⟨S_, .f32⟩ : BufTy).Contents (Elt F) → (⟨S_, .f32⟩ : BufTy).Contents (Elt F) → (⟨S_, .f32⟩ : BufTy).Contents (Elt F)) (val_main_v253 (F := F) x0 x1 x3) (val_main_v27 (F := F) x0 x3)
/-- The value main_v255 holds: binary of main_v254, main_v14. -/
def val_main_v255 (x0 : (⟨S4096x14x14x30, .f32⟩ : BufTy).Contents (Elt F)) (x1 : (⟨S4096x14x14x4, .f32⟩ : BufTy).Contents (Elt F)) (x2 : (⟨S4096x14x14x20, .f32⟩ : BufTy).Contents (Elt F)) (x3 : (⟨S4096x14x14, .i1⟩ : BufTy).Contents (Elt F)) : (⟨S_, .f32⟩ : BufTy).Contents (Elt F) :=
  (addf : (⟨S_, .f32⟩ : BufTy).Contents (Elt F) → (⟨S_, .f32⟩ : BufTy).Contents (Elt F) → (⟨S_, .f32⟩ : BufTy).Contents (Elt F)) (val_main_v254 (F := F) x0 x1 x3) (val_main_v14 (F := F) x0 x2 x3)

/-! ## Each buffer after the line is its stage -/

set_option maxRecDepth 8192

/-- The references window 0's operations write, in order. -/
abbrev wr0 : List (Ref sig .tc) :=
  [main_v0, main_cst, main_v1, main_v2, main_cst_0, main_v3, main_cst_1, main_v4, main_v5, main_v6, main_v7, main_v8, main_v9, main_v10, main_v11, main_v12, main_cst_2, main_v13, main_cst_3, main_v14, main_v15, main_v16, main_v17, main_v18, main_cst_4, main_v19, main_v20, main_v21, main_v22, main_v23, main_cst_5, main_v24, main_v25, main_cst_6, main_v26, main_v27, main_v28, main_v29, main_v30, main_v31, main_v32, main_v33, main_v34, main_v35, main_cst_7, main_v36, main_v37, main_cst_8, main_v38, main_v39, main_v40, main_cst_9, main_v41, main_v42, main_cst_10, main_v43, main_v44, main_v45, main_cst_11, main_v46]
/-- The references window 1's operations write, in order. -/
abbrev wr1 : List (Ref sig .tc) :=
  [main_v47, main_cst_12, main_v48, main_v49, main_v50, main_cst_13, main_v51, main_v52, main_cst_14, main_v53, main_v54, main_v55, main_v56, main_v57, main_v58, main_v59, main_v60, main_v61, main_v62, main_v63, main_v64, main_v65, main_v66, main_v67, main_v68, main_v69, main_cst_15, main_v70, main_v71, main_cst_16, main_v72, main_v73, main_v74, main_cst_17, main_v75, main_v76, main_cst_18, main_v77, main_v78, main_v79, main_cst_19, main_v80, main_v81, main_cst_20, main_v82, main_v83, main_v84, main_cst_21, main_v85, main_v86, main_cst_22, main_v87, main_v88, main_v89, main_v90, main_v91, main_v92, main_v93, main_v94, main_v95]
/-- The references window 2's operations write, in order. -/
abbrev wr2 : List (Ref sig .tc) :=
  [main_v96, main_v97, main_v98, main_v99, main_v100, main_v101, main_cst_23, main_v102, main_v103, main_v104, main_v105, main_v106, main_v107, main_v108, main_v109, main_v110, main_v111, main_v112, main_v113, main_v114, main_v115, main_v116, main_v117, main_v118, main_v119, main_v120, main_v121, main_v122, main_v123, main_v124, main_v125, main_v126, main_v127, main_v128, main_v129, main_v130, main_v131, main_v132, main_v133, main_v134, main_v135, main_v136, main_v137, main_v138, main_v139, main_v140, main_v141, main_v142, main_cst_24, main_v143, main_v144, main_cst_25, main_v145, main_v146, main_v147, main_cst_26, main_v148, main_v149, main_cst_27, main_v150]
/-- The references window 3's operations write, in order. -/
abbrev wr3 : List (Ref sig .tc) :=
  [main_v151, main_v152, main_cst_28, main_v153, main_v154, main_cst_29, main_v155, main_v156, main_v157, main_cst_30, main_v158, main_v159, main_cst_31, main_v160, main_v161, main_v162, main_v163, main_v164, main_v165, main_v166, main_v167, main_v168, main_v169, main_v170, main_v171, main_v172, main_v173, main_v174, main_cst_32, main_v175, main_v176, main_v177, main_v178, main_v179, main_v180, main_v181, main_v182, main_v183, main_v184, main_v185, main_v186, main_v187, main_v188, main_v189, main_v190, main_v191, main_v192, main_v193, main_v194, main_v195, main_v196, main_v197, main_v198, main_v199, main_v200, main_v201, main_v202, main_v203, main_v204, main_v205]
/-- The references window 4's operations write, in order. -/
abbrev wr4 : List (Ref sig .tc) :=
  [main_v206, main_v207, main_v208, main_call0_v0, main_v209, main_v210, main_v211, main_v212, main_v213, main_v214, main_v215, main_v216, main_v217, main_v218, main_v219, main_v220, main_v221, main_v222, main_v223, main_v224, main_v225, main_v226, main_v227, main_v228, main_v229, main_v230, main_v231, main_v232, main_v233, main_v234, main_v235, main_v236, main_v237, main_v238, main_v239, main_v240, main_v241, main_v242, main_cst_33, main_v243, main_cst_34, main_v244, main_v245, main_v246, main_v247, main_v248, main_v249, main_v250, main_cst_35, main_v251, main_v252, main_v253, main_v254, main_v255]
/-- The references the operations write, in order. -/
abbrev wr : List (Ref sig .tc) := wr0 ++ (wr1 ++ (wr2 ++ (wr3 ++ (wr4))))

theorem writesEach0 : WritesEach (ops0 (F := F)) wr0 := by
  repeat (first | exact List.Forall₂.nil | refine List.Forall₂.cons rfl ?_)
theorem writesEach1 : WritesEach (ops1 (F := F)) wr1 := by
  repeat (first | exact List.Forall₂.nil | refine List.Forall₂.cons rfl ?_)
theorem writesEach2 : WritesEach (ops2 (F := F)) wr2 := by
  repeat (first | exact List.Forall₂.nil | refine List.Forall₂.cons rfl ?_)
theorem writesEach3 : WritesEach (ops3 (F := F)) wr3 := by
  repeat (first | exact List.Forall₂.nil | refine List.Forall₂.cons rfl ?_)
theorem writesEach4 : WritesEach (ops4 (F := F)) wr4 := by
  repeat (first | exact List.Forall₂.nil | refine List.Forall₂.cons rfl ?_)
/-- Each operation writes exactly its own result buffer. -/
theorem writesEach : WritesEach (ops (F := F)) wr :=
  List.rel_append writesEach0 (List.rel_append writesEach1 (List.rel_append writesEach2 (List.rel_append writesEach3 (writesEach4))))

theorem at_main_arg0 (V : Valuation τ sig (Elt F)) : after ops V (Proc.devRef .tc main_arg0) = (V (Proc.devRef .tc main_arg0)) :=
  after_of_not_written writesEach V main_arg0 (by decide)

theorem at_main_arg1 (V : Valuation τ sig (Elt F)) : after ops V (Proc.devRef .tc main_arg1) = (V (Proc.devRef .tc main_arg1)) :=
  after_of_not_written writesEach V main_arg1 (by decide)

theorem at_main_arg2 (V : Valuation τ sig (Elt F)) : after ops V (Proc.devRef .tc main_arg2) = (V (Proc.devRef .tc main_arg2)) :=
  after_of_not_written writesEach V main_arg2 (by decide)

theorem at_main_arg3 (V : Valuation τ sig (Elt F)) : after ops V (Proc.devRef .tc main_arg3) = (V (Proc.devRef .tc main_arg3)) :=
  after_of_not_written writesEach V main_arg3 (by decide)

theorem at_main_v0 (V : Valuation τ sig (Elt F)) :
    after ops V (Proc.devRef .tc main_v0) = val_main_v0 (F := F) (V (Proc.devRef .tc main_arg3)) :=
  (after_unary writesEach V 0 main_arg3 main_v0 _ _ _ rfl (by decide) (by decide)).trans (by rw [at_main_arg3]; rfl)

theorem at_main_cst (V : Valuation τ sig (Elt F)) :
    after ops V (Proc.devRef .tc main_cst) = val_main_cst (F := F) :=
  (after_nullary writesEach V 1 main_cst _ _ rfl (by decide)).trans rfl

theorem at_main_v1 (V : Valuation τ sig (Elt F)) :
    after ops V (Proc.devRef .tc main_v1) = val_main_v1 (F := F) :=
  (after_unary writesEach V 2 main_cst main_v1 _ _ _ rfl (by decide) (by decide)).trans (by rw [at_main_cst]; rfl)

theorem at_main_v2 (V : Valuation τ sig (Elt F)) :
    after ops V (Proc.devRef .tc main_v2) = val_main_v2 (F := F) (V (Proc.devRef .tc main_arg3)) :=
  (after_binary writesEach V 3 main_v1 main_v0 main_v2 _ _ _ _ rfl (by decide) (by decide) (by decide)).trans (by rw [at_main_v1, at_main_v0]; rfl)

theorem at_main_cst_0 (V : Valuation τ sig (Elt F)) :
    after ops V (Proc.devRef .tc main_cst_0) = val_main_cst_0 (F := F) :=
  (after_nullary writesEach V 4 main_cst_0 _ _ rfl (by decide)).trans rfl

theorem at_main_v3 (V : Valuation τ sig (Elt F)) :
    after ops V (Proc.devRef .tc main_v3) = val_main_v3 (F := F) (V (Proc.devRef .tc main_arg3)) :=
  (after_binary writesEach V 5 main_v0 main_cst_0 main_v3 _ _ _ _ rfl (by decide) (by decide) (by decide)).trans (by rw [at_main_v0, at_main_cst_0]; rfl)

theorem at_main_cst_1 (V : Valuation τ sig (Elt F)) :
    after ops V (Proc.devRef .tc main_cst_1) = val_main_cst_1 (F := F) :=
  (after_nullary writesEach V 6 main_cst_1 _ _ rfl (by decide)).trans rfl

theorem at_main_v4 (V : Valuation τ sig (Elt F)) :
    after ops V (Proc.devRef .tc main_v4) = val_main_v4 (F := F) (V (Proc.devRef .tc main_arg3)) :=
  (after_binary writesEach V 7 main_v2 main_cst_1 main_v4 _ _ _ _ rfl (by decide) (by decide) (by decide)).trans (by rw [at_main_v2, at_main_cst_1]; rfl)

theorem at_main_v5 (V : Valuation τ sig (Elt F)) :
    after ops V (Proc.devRef .tc main_v5) = val_main_v5 (F := F) (V (Proc.devRef .tc main_arg0)) :=
  (after_unary writesEach V 8 main_arg0 main_v5 _ _ _ rfl (by decide) (by decide)).trans (by rw [at_main_arg0]; rfl)

theorem at_main_v6 (V : Valuation τ sig (Elt F)) :
    after ops V (Proc.devRef .tc main_v6) = val_main_v6 (F := F) (V (Proc.devRef .tc main_arg0)) :=
  (after_unary writesEach V 9 main_arg0 main_v6 _ _ _ rfl (by decide) (by decide)).trans (by rw [at_main_arg0]; rfl)

theorem at_main_v7 (V : Valuation τ sig (Elt F)) :
    after ops V (Proc.devRef .tc main_v7) = val_main_v7 (F := F) (V (Proc.devRef .tc main_arg0)) :=
  (after_unary writesEach V 10 main_arg0 main_v7 _ _ _ rfl (by decide) (by decide)).trans (by rw [at_main_arg0]; rfl)

theorem at_main_v8 (V : Valuation τ sig (Elt F)) :
    after ops V (Proc.devRef .tc main_v8) = val_main_v8 (F := F) (V (Proc.devRef .tc main_arg3)) :=
  (after_unary writesEach V 11 main_v0 main_v8 _ _ _ rfl (by decide) (by decide)).trans (by rw [at_main_v0]; rfl)

theorem at_main_v9 (V : Valuation τ sig (Elt F)) :
    after ops V (Proc.devRef .tc main_v9) = val_main_v9 (F := F) (V (Proc.devRef .tc main_arg0)) (V (Proc.devRef .tc main_arg2)) :=
  (after_binary writesEach V 12 main_v7 main_arg2 main_v9 _ _ _ _ rfl (by decide) (by decide) (by decide)).trans (by rw [at_main_v7, at_main_arg2]; rfl)

theorem at_main_v10 (V : Valuation τ sig (Elt F)) :
    after ops V (Proc.devRef .tc main_v10) = val_main_v10 (F := F) (V (Proc.devRef .tc main_arg0)) (V (Proc.devRef .tc main_arg2)) :=
  (after_binary writesEach V 13 main_v9 main_v9 main_v10 _ _ _ _ rfl (by decide) (by decide) (by decide)).trans (by rw [at_main_v9]; rfl)

theorem at_main_v11 (V : Valuation τ sig (Elt F)) :
    after ops V (Proc.devRef .tc main_v11) = val_main_v11 (F := F) (V (Proc.devRef .tc main_arg3)) :=
  (after_unary writesEach V 14 main_v8 main_v11 _ _ _ rfl (by decide) (by decide)).trans (by rw [at_main_v8]; rfl)

theorem at_main_v12 (V : Valuation τ sig (Elt F)) :
    after ops V (Proc.devRef .tc main_v12) = val_main_v12 (F := F) (V (Proc.devRef .tc main_arg0)) (V (Proc.devRef .tc main_arg2)) (V (Proc.devRef .tc main_arg3)) :=
  (after_binary writesEach V 15 main_v11 main_v10 main_v12 _ _ _ _ rfl (by decide) (by decide) (by decide)).trans (by rw [at_main_v11, at_main_v10]; rfl)

theorem at_main_cst_2 (V : Valuation τ sig (Elt F)) :
    after ops V (Proc.devRef .tc main_cst_2) = val_main_cst_2 (F := F) :=
  (after_nullary writesEach V 16 main_cst_2 _ _ rfl (by decide)).trans rfl

theorem at_main_v13 (V : Valuation τ sig (Elt F)) :
    after ops V (Proc.devRef .tc main_v13) = val_main_v13 (F := F) (V (Proc.devRef .tc main_arg0)) (V (Proc.devRef .tc main_arg2)) (V (Proc.devRef .tc main_arg3)) :=
  (after_binary writesEach V 17 main_v12 main_cst_2 main_v13 _ _ _ _ rfl (by decide) (by decide) (by decide)).trans (by rw [at_main_v12, at_main_cst_2]; rfl)

theorem at_main_cst_3 (V : Valuation τ sig (Elt F)) :
    after ops V (Proc.devRef .tc main_cst_3) = val_main_cst_3 (F := F) :=
  (after_nullary writesEach V 18 main_cst_3 _ _ rfl (by decide)).trans rfl

theorem at_main_v14 (V : Valuation τ sig (Elt F)) :
    after ops V (Proc.devRef .tc main_v14) = val_main_v14 (F := F) (V (Proc.devRef .tc main_arg0)) (V (Proc.devRef .tc main_arg2)) (V (Proc.devRef .tc main_arg3)) :=
  (after_binary writesEach V 19 main_v13 main_cst_3 main_v14 _ _ _ _ rfl (by decide) (by decide) (by decide)).trans (by rw [at_main_v13, at_main_cst_3]; rfl)

theorem at_main_v15 (V : Valuation τ sig (Elt F)) :
    after ops V (Proc.devRef .tc main_v15) = val_main_v15 (F := F) (V (Proc.devRef .tc main_arg3)) :=
  (after_unary writesEach V 20 main_v2 main_v15 _ _ _ rfl (by decide) (by decide)).trans (by rw [at_main_v2]; rfl)

theorem at_main_v16 (V : Valuation τ sig (Elt F)) :
    after ops V (Proc.devRef .tc main_v16) = val_main_v16 (F := F) (V (Proc.devRef .tc main_arg0)) :=
  (after_binary writesEach V 21 main_v5 main_v5 main_v16 _ _ _ _ rfl (by decide) (by decide) (by decide)).trans (by rw [at_main_v5]; rfl)

theorem at_main_v17 (V : Valuation τ sig (Elt F)) :
    after ops V (Proc.devRef .tc main_v17) = val_main_v17 (F := F) (V (Proc.devRef .tc main_arg3)) :=
  (after_unary writesEach V 22 main_v15 main_v17 _ _ _ rfl (by decide) (by decide)).trans (by rw [at_main_v15]; rfl)

theorem at_main_v18 (V : Valuation τ sig (Elt F)) :
    after ops V (Proc.devRef .tc main_v18) = val_main_v18 (F := F) (V (Proc.devRef .tc main_arg0)) (V (Proc.devRef .tc main_arg3)) :=
  (after_binary writesEach V 23 main_v17 main_v16 main_v18 _ _ _ _ rfl (by decide) (by decide) (by decide)).trans (by rw [at_main_v17, at_main_v16]; rfl)

theorem at_main_cst_4 (V : Valuation τ sig (Elt F)) :
    after ops V (Proc.devRef .tc main_cst_4) = val_main_cst_4 (F := F) :=
  (after_nullary writesEach V 24 main_cst_4 _ _ rfl (by decide)).trans rfl

theorem at_main_v19 (V : Valuation τ sig (Elt F)) :
    after ops V (Proc.devRef .tc main_v19) = val_main_v19 (F := F) (V (Proc.devRef .tc main_arg0)) (V (Proc.devRef .tc main_arg3)) :=
  (after_binary writesEach V 25 main_v18 main_cst_4 main_v19 _ _ _ _ rfl (by decide) (by decide) (by decide)).trans (by rw [at_main_v18, at_main_cst_4]; rfl)

theorem at_main_v20 (V : Valuation τ sig (Elt F)) :
    after ops V (Proc.devRef .tc main_v20) = val_main_v20 (F := F) (V (Proc.devRef .tc main_arg3)) :=
  (after_unary writesEach V 26 main_v2 main_v20 _ _ _ rfl (by decide) (by decide)).trans (by rw [at_main_v2]; rfl)

theorem at_main_v21 (V : Valuation τ sig (Elt F)) :
    after ops V (Proc.devRef .tc main_v21) = val_main_v21 (F := F) (V (Proc.devRef .tc main_arg0)) :=
  (after_binary writesEach V 27 main_v6 main_v6 main_v21 _ _ _ _ rfl (by decide) (by decide) (by decide)).trans (by rw [at_main_v6]; rfl)

theorem at_main_v22 (V : Valuation τ sig (Elt F)) :
    after ops V (Proc.devRef .tc main_v22) = val_main_v22 (F := F) (V (Proc.devRef .tc main_arg3)) :=
  (after_unary writesEach V 28 main_v20 main_v22 _ _ _ rfl (by decide) (by decide)).trans (by rw [at_main_v20]; rfl)

theorem at_main_v23 (V : Valuation τ sig (Elt F)) :
    after ops V (Proc.devRef .tc main_v23) = val_main_v23 (F := F) (V (Proc.devRef .tc main_arg0)) (V (Proc.devRef .tc main_arg3)) :=
  (after_binary writesEach V 29 main_v22 main_v21 main_v23 _ _ _ _ rfl (by decide) (by decide) (by decide)).trans (by rw [at_main_v22, at_main_v21]; rfl)

theorem at_main_cst_5 (V : Valuation τ sig (Elt F)) :
    after ops V (Proc.devRef .tc main_cst_5) = val_main_cst_5 (F := F) :=
  (after_nullary writesEach V 30 main_cst_5 _ _ rfl (by decide)).trans rfl

theorem at_main_v24 (V : Valuation τ sig (Elt F)) :
    after ops V (Proc.devRef .tc main_v24) = val_main_v24 (F := F) (V (Proc.devRef .tc main_arg0)) (V (Proc.devRef .tc main_arg3)) :=
  (after_binary writesEach V 31 main_v23 main_cst_5 main_v24 _ _ _ _ rfl (by decide) (by decide) (by decide)).trans (by rw [at_main_v23, at_main_cst_5]; rfl)

theorem at_main_v25 (V : Valuation τ sig (Elt F)) :
    after ops V (Proc.devRef .tc main_v25) = val_main_v25 (F := F) (V (Proc.devRef .tc main_arg0)) (V (Proc.devRef .tc main_arg3)) :=
  (after_binary writesEach V 32 main_v19 main_v24 main_v25 _ _ _ _ rfl (by decide) (by decide) (by decide)).trans (by rw [at_main_v19, at_main_v24]; rfl)

theorem at_main_cst_6 (V : Valuation τ sig (Elt F)) :
    after ops V (Proc.devRef .tc main_cst_6) = val_main_cst_6 (F := F) :=
  (after_nullary writesEach V 33 main_cst_6 _ _ rfl (by decide)).trans rfl

theorem at_main_v26 (V : Valuation τ sig (Elt F)) :
    after ops V (Proc.devRef .tc main_v26) = val_main_v26 (F := F) (V (Proc.devRef .tc main_arg0)) (V (Proc.devRef .tc main_arg3)) :=
  (after_binary writesEach V 34 main_cst_6 main_v25 main_v26 _ _ _ _ rfl (by decide) (by decide) (by decide)).trans (by rw [at_main_cst_6, at_main_v25]; rfl)

theorem at_main_v27 (V : Valuation τ sig (Elt F)) :
    after ops V (Proc.devRef .tc main_v27) = val_main_v27 (F := F) (V (Proc.devRef .tc main_arg0)) (V (Proc.devRef .tc main_arg3)) :=
  (after_binary writesEach V 35 main_v26 main_v4 main_v27 _ _ _ _ rfl (by decide) (by decide) (by decide)).trans (by rw [at_main_v26, at_main_v4]; rfl)

theorem at_main_v28 (V : Valuation τ sig (Elt F)) :
    after ops V (Proc.devRef .tc main_v28) = val_main_v28 (F := F) (V (Proc.devRef .tc main_arg1)) :=
  (after_unary writesEach V 36 main_arg1 main_v28 _ _ _ rfl (by decide) (by decide)).trans (by rw [at_main_arg1]; rfl)

theorem at_main_v29 (V : Valuation τ sig (Elt F)) :
    after ops V (Proc.devRef .tc main_v29) = val_main_v29 (F := F) (V (Proc.devRef .tc main_arg1)) :=
  (after_reshape writesEach V 37 main_v28 main_v29 rfl _ _ _ rfl (by decide) (by decide)).trans (by rw [at_main_v28]; rfl)

theorem at_main_v30 (V : Valuation τ sig (Elt F)) :
    after ops V (Proc.devRef .tc main_v30) = val_main_v30 (F := F) (V (Proc.devRef .tc main_arg1)) :=
  (after_unary writesEach V 38 main_arg1 main_v30 _ _ _ rfl (by decide) (by decide)).trans (by rw [at_main_arg1]; rfl)

theorem at_main_v31 (V : Valuation τ sig (Elt F)) :
    after ops V (Proc.devRef .tc main_v31) = val_main_v31 (F := F) (V (Proc.devRef .tc main_arg1)) :=
  (after_reshape writesEach V 39 main_v30 main_v31 rfl _ _ _ rfl (by decide) (by decide)).trans (by rw [at_main_v30]; rfl)

theorem at_main_v32 (V : Valuation τ sig (Elt F)) :
    after ops V (Proc.devRef .tc main_v32) = val_main_v32 (F := F) (V (Proc.devRef .tc main_arg1)) :=
  (after_unary writesEach V 40 main_arg1 main_v32 _ _ _ rfl (by decide) (by decide)).trans (by rw [at_main_arg1]; rfl)

theorem at_main_v33 (V : Valuation τ sig (Elt F)) :
    after ops V (Proc.devRef .tc main_v33) = val_main_v33 (F := F) (V (Proc.devRef .tc main_arg1)) :=
  (after_reshape writesEach V 41 main_v32 main_v33 rfl _ _ _ rfl (by decide) (by decide)).trans (by rw [at_main_v32]; rfl)

theorem at_main_v34 (V : Valuation τ sig (Elt F)) :
    after ops V (Proc.devRef .tc main_v34) = val_main_v34 (F := F) (V (Proc.devRef .tc main_arg1)) :=
  (after_unary writesEach V 42 main_arg1 main_v34 _ _ _ rfl (by decide) (by decide)).trans (by rw [at_main_arg1]; rfl)

theorem at_main_v35 (V : Valuation τ sig (Elt F)) :
    after ops V (Proc.devRef .tc main_v35) = val_main_v35 (F := F) (V (Proc.devRef .tc main_arg1)) :=
  (after_reshape writesEach V 43 main_v34 main_v35 rfl _ _ _ rfl (by decide) (by decide)).trans (by rw [at_main_v34]; rfl)

theorem at_main_cst_7 (V : Valuation τ sig (Elt F)) :
    after ops V (Proc.devRef .tc main_cst_7) = val_main_cst_7 (F := F) :=
  (after_nullary writesEach V 44 main_cst_7 _ _ rfl (by decide)).trans rfl

theorem at_main_v36 (V : Valuation τ sig (Elt F)) :
    after ops V (Proc.devRef .tc main_v36) = val_main_v36 (F := F) :=
  (after_unary writesEach V 45 main_cst_7 main_v36 _ _ _ rfl (by decide) (by decide)).trans (by rw [at_main_cst_7]; rfl)

theorem at_main_v37 (V : Valuation τ sig (Elt F)) :
    after ops V (Proc.devRef .tc main_v37) = val_main_v37 (F := F) (V (Proc.devRef .tc main_arg1)) :=
  (after_binary writesEach V 46 main_v29 main_v36 main_v37 _ _ _ _ rfl (by decide) (by decide) (by decide)).trans (by rw [at_main_v29, at_main_v36]; rfl)

theorem at_main_cst_8 (V : Valuation τ sig (Elt F)) :
    after ops V (Proc.devRef .tc main_cst_8) = val_main_cst_8 (F := F) :=
  (after_nullary writesEach V 47 main_cst_8 _ _ rfl (by decide)).trans rfl

theorem at_main_v38 (V : Valuation τ sig (Elt F)) :
    after ops V (Proc.devRef .tc main_v38) = val_main_v38 (F := F) :=
  (after_unary writesEach V 48 main_cst_8 main_v38 _ _ _ rfl (by decide) (by decide)).trans (by rw [at_main_cst_8]; rfl)

theorem at_main_v39 (V : Valuation τ sig (Elt F)) :
    after ops V (Proc.devRef .tc main_v39) = val_main_v39 (F := F) (V (Proc.devRef .tc main_arg1)) :=
  (after_binary writesEach V 49 main_v38 main_v33 main_v39 _ _ _ _ rfl (by decide) (by decide) (by decide)).trans (by rw [at_main_v38, at_main_v33]; rfl)

theorem at_main_v40 (V : Valuation τ sig (Elt F)) :
    after ops V (Proc.devRef .tc main_v40) = val_main_v40 (F := F) (V (Proc.devRef .tc main_arg1)) :=
  (after_binary writesEach V 50 main_v37 main_v39 main_v40 _ _ _ _ rfl (by decide) (by decide) (by decide)).trans (by rw [at_main_v37, at_main_v39]; rfl)

theorem at_main_cst_9 (V : Valuation τ sig (Elt F)) :
    after ops V (Proc.devRef .tc main_cst_9) = val_main_cst_9 (F := F) :=
  (after_nullary writesEach V 51 main_cst_9 _ _ rfl (by decide)).trans rfl

theorem at_main_v41 (V : Valuation τ sig (Elt F)) :
    after ops V (Proc.devRef .tc main_v41) = val_main_v41 (F := F) :=
  (after_unary writesEach V 52 main_cst_9 main_v41 _ _ _ rfl (by decide) (by decide)).trans (by rw [at_main_cst_9]; rfl)

theorem at_main_v42 (V : Valuation τ sig (Elt F)) :
    after ops V (Proc.devRef .tc main_v42) = val_main_v42 (F := F) (V (Proc.devRef .tc main_arg1)) :=
  (after_binary writesEach V 53 main_v31 main_v41 main_v42 _ _ _ _ rfl (by decide) (by decide) (by decide)).trans (by rw [at_main_v31, at_main_v41]; rfl)

theorem at_main_cst_10 (V : Valuation τ sig (Elt F)) :
    after ops V (Proc.devRef .tc main_cst_10) = val_main_cst_10 (F := F) :=
  (after_nullary writesEach V 54 main_cst_10 _ _ rfl (by decide)).trans rfl

theorem at_main_v43 (V : Valuation τ sig (Elt F)) :
    after ops V (Proc.devRef .tc main_v43) = val_main_v43 (F := F) :=
  (after_unary writesEach V 55 main_cst_10 main_v43 _ _ _ rfl (by decide) (by decide)).trans (by rw [at_main_cst_10]; rfl)

theorem at_main_v44 (V : Valuation τ sig (Elt F)) :
    after ops V (Proc.devRef .tc main_v44) = val_main_v44 (F := F) (V (Proc.devRef .tc main_arg1)) :=
  (after_binary writesEach V 56 main_v43 main_v35 main_v44 _ _ _ _ rfl (by decide) (by decide) (by decide)).trans (by rw [at_main_v43, at_main_v35]; rfl)

theorem at_main_v45 (V : Valuation τ sig (Elt F)) :
    after ops V (Proc.devRef .tc main_v45) = val_main_v45 (F := F) (V (Proc.devRef .tc main_arg1)) :=
  (after_binary writesEach V 57 main_v42 main_v44 main_v45 _ _ _ _ rfl (by decide) (by decide) (by decide)).trans (by rw [at_main_v42, at_main_v44]; rfl)

theorem at_main_cst_11 (V : Valuation τ sig (Elt F)) :
    after ops V (Proc.devRef .tc main_cst_11) = val_main_cst_11 (F := F) :=
  (after_nullary writesEach V 58 main_cst_11 _ _ rfl (by decide)).trans rfl

theorem at_main_v46 (V : Valuation τ sig (Elt F)) :
    after ops V (Proc.devRef .tc main_v46) = val_main_v46 (F := F) :=
  (after_unary writesEach V 59 main_cst_11 main_v46 _ _ _ rfl (by decide) (by decide)).trans (by rw [at_main_cst_11]; rfl)

theorem at_main_v47 (V : Valuation τ sig (Elt F)) :
    after ops V (Proc.devRef .tc main_v47) = val_main_v47 (F := F) (V (Proc.devRef .tc main_arg1)) :=
  (after_binary writesEach V 60 main_v29 main_v46 main_v47 _ _ _ _ rfl (by decide) (by decide) (by decide)).trans (by rw [at_main_v29, at_main_v46]; rfl)

theorem at_main_cst_12 (V : Valuation τ sig (Elt F)) :
    after ops V (Proc.devRef .tc main_cst_12) = val_main_cst_12 (F := F) :=
  (after_nullary writesEach V 61 main_cst_12 _ _ rfl (by decide)).trans rfl

theorem at_main_v48 (V : Valuation τ sig (Elt F)) :
    after ops V (Proc.devRef .tc main_v48) = val_main_v48 (F := F) :=
  (after_unary writesEach V 62 main_cst_12 main_v48 _ _ _ rfl (by decide) (by decide)).trans (by rw [at_main_cst_12]; rfl)

theorem at_main_v49 (V : Valuation τ sig (Elt F)) :
    after ops V (Proc.devRef .tc main_v49) = val_main_v49 (F := F) (V (Proc.devRef .tc main_arg1)) :=
  (after_binary writesEach V 63 main_v48 main_v33 main_v49 _ _ _ _ rfl (by decide) (by decide) (by decide)).trans (by rw [at_main_v48, at_main_v33]; rfl)

theorem at_main_v50 (V : Valuation τ sig (Elt F)) :
    after ops V (Proc.devRef .tc main_v50) = val_main_v50 (F := F) (V (Proc.devRef .tc main_arg1)) :=
  (after_binary writesEach V 64 main_v47 main_v49 main_v50 _ _ _ _ rfl (by decide) (by decide) (by decide)).trans (by rw [at_main_v47, at_main_v49]; rfl)

theorem at_main_cst_13 (V : Valuation τ sig (Elt F)) :
    after ops V (Proc.devRef .tc main_cst_13) = val_main_cst_13 (F := F) :=
  (after_nullary writesEach V 65 main_cst_13 _ _ rfl (by decide)).trans rfl

theorem at_main_v51 (V : Valuation τ sig (Elt F)) :
    after ops V (Proc.devRef .tc main_v51) = val_main_v51 (F := F) :=
  (after_unary writesEach V 66 main_cst_13 main_v51 _ _ _ rfl (by decide) (by decide)).trans (by rw [at_main_cst_13]; rfl)

theorem at_main_v52 (V : Valuation τ sig (Elt F)) :
    after ops V (Proc.devRef .tc main_v52) = val_main_v52 (F := F) (V (Proc.devRef .tc main_arg1)) :=
  (after_binary writesEach V 67 main_v31 main_v51 main_v52 _ _ _ _ rfl (by decide) (by decide) (by decide)).trans (by rw [at_main_v31, at_main_v51]; rfl)

theorem at_main_cst_14 (V : Valuation τ sig (Elt F)) :
    after ops V (Proc.devRef .tc main_cst_14) = val_main_cst_14 (F := F) :=
  (after_nullary writesEach V 68 main_cst_14 _ _ rfl (by decide)).trans rfl

theorem at_main_v53 (V : Valuation τ sig (Elt F)) :
    after ops V (Proc.devRef .tc main_v53) = val_main_v53 (F := F) :=
  (after_unary writesEach V 69 main_cst_14 main_v53 _ _ _ rfl (by decide) (by decide)).trans (by rw [at_main_cst_14]; rfl)

theorem at_main_v54 (V : Valuation τ sig (Elt F)) :
    after ops V (Proc.devRef .tc main_v54) = val_main_v54 (F := F) (V (Proc.devRef .tc main_arg1)) :=
  (after_binary writesEach V 70 main_v53 main_v35 main_v54 _ _ _ _ rfl (by decide) (by decide) (by decide)).trans (by rw [at_main_v53, at_main_v35]; rfl)

theorem at_main_v55 (V : Valuation τ sig (Elt F)) :
    after ops V (Proc.devRef .tc main_v55) = val_main_v55 (F := F) (V (Proc.devRef .tc main_arg1)) :=
  (after_binary writesEach V 71 main_v52 main_v54 main_v55 _ _ _ _ rfl (by decide) (by decide) (by decide)).trans (by rw [at_main_v52, at_main_v54]; rfl)

theorem at_main_v56 (V : Valuation τ sig (Elt F)) :
    after ops V (Proc.devRef .tc main_v56) = val_main_v56 (F := F) (V (Proc.devRef .tc main_arg1)) :=
  (after_unary writesEach V 72 main_v40 main_v56 _ _ _ rfl (by decide) (by decide)).trans (by rw [at_main_v40]; rfl)

theorem at_main_v57 (V : Valuation τ sig (Elt F)) :
    after ops V (Proc.devRef .tc main_v57) = val_main_v57 (F := F) (V (Proc.devRef .tc main_arg1)) :=
  (after_unary writesEach V 73 main_v45 main_v57 _ _ _ rfl (by decide) (by decide)).trans (by rw [at_main_v45]; rfl)

theorem at_main_v58 (V : Valuation τ sig (Elt F)) :
    after ops V (Proc.devRef .tc main_v58) = val_main_v58 (F := F) (V (Proc.devRef .tc main_arg1)) :=
  (after_unary writesEach V 74 main_v50 main_v58 _ _ _ rfl (by decide) (by decide)).trans (by rw [at_main_v50]; rfl)

theorem at_main_v59 (V : Valuation τ sig (Elt F)) :
    after ops V (Proc.devRef .tc main_v59) = val_main_v59 (F := F) (V (Proc.devRef .tc main_arg1)) :=
  (after_unary writesEach V 75 main_v55 main_v59 _ _ _ rfl (by decide) (by decide)).trans (by rw [at_main_v55]; rfl)

theorem at_main_v60 (V : Valuation τ sig (Elt F)) :
    after ops V (Proc.devRef .tc main_v60) = val_main_v60 (F := F) (V (Proc.devRef .tc main_arg1)) :=
  (after_nary4 writesEach V 76 main_v56 main_v57 main_v58 main_v59 main_v60 _ _ _ rfl (by decide) (by decide) (by decide) (by decide) (by decide)).trans (by rw [at_main_v56, at_main_v57, at_main_v58, at_main_v59]; rfl)

theorem at_main_v61 (V : Valuation τ sig (Elt F)) :
    after ops V (Proc.devRef .tc main_v61) = val_main_v61 (F := F) (V (Proc.devRef .tc main_arg0)) :=
  (after_unary writesEach V 77 main_v5 main_v61 _ _ _ rfl (by decide) (by decide)).trans (by rw [at_main_v5]; rfl)

theorem at_main_v62 (V : Valuation τ sig (Elt F)) :
    after ops V (Proc.devRef .tc main_v62) = val_main_v62 (F := F) (V (Proc.devRef .tc main_arg0)) :=
  (after_unary writesEach V 78 main_v61 main_v62 _ _ _ rfl (by decide) (by decide)).trans (by rw [at_main_v61]; rfl)

theorem at_main_v63 (V : Valuation τ sig (Elt F)) :
    after ops V (Proc.devRef .tc main_v63) = val_main_v63 (F := F) (V (Proc.devRef .tc main_arg0)) :=
  (after_reshape writesEach V 79 main_v62 main_v63 rfl _ _ _ rfl (by decide) (by decide)).trans (by rw [at_main_v62]; rfl)

theorem at_main_v64 (V : Valuation τ sig (Elt F)) :
    after ops V (Proc.devRef .tc main_v64) = val_main_v64 (F := F) (V (Proc.devRef .tc main_arg0)) :=
  (after_unary writesEach V 80 main_v61 main_v64 _ _ _ rfl (by decide) (by decide)).trans (by rw [at_main_v61]; rfl)

theorem at_main_v65 (V : Valuation τ sig (Elt F)) :
    after ops V (Proc.devRef .tc main_v65) = val_main_v65 (F := F) (V (Proc.devRef .tc main_arg0)) :=
  (after_reshape writesEach V 81 main_v64 main_v65 rfl _ _ _ rfl (by decide) (by decide)).trans (by rw [at_main_v64]; rfl)

theorem at_main_v66 (V : Valuation τ sig (Elt F)) :
    after ops V (Proc.devRef .tc main_v66) = val_main_v66 (F := F) (V (Proc.devRef .tc main_arg0)) :=
  (after_unary writesEach V 82 main_v61 main_v66 _ _ _ rfl (by decide) (by decide)).trans (by rw [at_main_v61]; rfl)

theorem at_main_v67 (V : Valuation τ sig (Elt F)) :
    after ops V (Proc.devRef .tc main_v67) = val_main_v67 (F := F) (V (Proc.devRef .tc main_arg0)) :=
  (after_reshape writesEach V 83 main_v66 main_v67 rfl _ _ _ rfl (by decide) (by decide)).trans (by rw [at_main_v66]; rfl)

theorem at_main_v68 (V : Valuation τ sig (Elt F)) :
    after ops V (Proc.devRef .tc main_v68) = val_main_v68 (F := F) (V (Proc.devRef .tc main_arg0)) :=
  (after_unary writesEach V 84 main_v61 main_v68 _ _ _ rfl (by decide) (by decide)).trans (by rw [at_main_v61]; rfl)

theorem at_main_v69 (V : Valuation τ sig (Elt F)) :
    after ops V (Proc.devRef .tc main_v69) = val_main_v69 (F := F) (V (Proc.devRef .tc main_arg0)) :=
  (after_reshape writesEach V 85 main_v68 main_v69 rfl _ _ _ rfl (by decide) (by decide)).trans (by rw [at_main_v68]; rfl)

theorem at_main_cst_15 (V : Valuation τ sig (Elt F)) :
    after ops V (Proc.devRef .tc main_cst_15) = val_main_cst_15 (F := F) :=
  (after_nullary writesEach V 86 main_cst_15 _ _ rfl (by decide)).trans rfl

theorem at_main_v70 (V : Valuation τ sig (Elt F)) :
    after ops V (Proc.devRef .tc main_v70) = val_main_v70 (F := F) :=
  (after_unary writesEach V 87 main_cst_15 main_v70 _ _ _ rfl (by decide) (by decide)).trans (by rw [at_main_cst_15]; rfl)

theorem at_main_v71 (V : Valuation τ sig (Elt F)) :
    after ops V (Proc.devRef .tc main_v71) = val_main_v71 (F := F) (V (Proc.devRef .tc main_arg0)) :=
  (after_binary writesEach V 88 main_v63 main_v70 main_v71 _ _ _ _ rfl (by decide) (by decide) (by decide)).trans (by rw [at_main_v63, at_main_v70]; rfl)

theorem at_main_cst_16 (V : Valuation τ sig (Elt F)) :
    after ops V (Proc.devRef .tc main_cst_16) = val_main_cst_16 (F := F) :=
  (after_nullary writesEach V 89 main_cst_16 _ _ rfl (by decide)).trans rfl

theorem at_main_v72 (V : Valuation τ sig (Elt F)) :
    after ops V (Proc.devRef .tc main_v72) = val_main_v72 (F := F) :=
  (after_unary writesEach V 90 main_cst_16 main_v72 _ _ _ rfl (by decide) (by decide)).trans (by rw [at_main_cst_16]; rfl)

theorem at_main_v73 (V : Valuation τ sig (Elt F)) :
    after ops V (Proc.devRef .tc main_v73) = val_main_v73 (F := F) (V (Proc.devRef .tc main_arg0)) :=
  (after_binary writesEach V 91 main_v72 main_v67 main_v73 _ _ _ _ rfl (by decide) (by decide) (by decide)).trans (by rw [at_main_v72, at_main_v67]; rfl)

theorem at_main_v74 (V : Valuation τ sig (Elt F)) :
    after ops V (Proc.devRef .tc main_v74) = val_main_v74 (F := F) (V (Proc.devRef .tc main_arg0)) :=
  (after_binary writesEach V 92 main_v71 main_v73 main_v74 _ _ _ _ rfl (by decide) (by decide) (by decide)).trans (by rw [at_main_v71, at_main_v73]; rfl)

theorem at_main_cst_17 (V : Valuation τ sig (Elt F)) :
    after ops V (Proc.devRef .tc main_cst_17) = val_main_cst_17 (F := F) :=
  (after_nullary writesEach V 93 main_cst_17 _ _ rfl (by decide)).trans rfl

theorem at_main_v75 (V : Valuation τ sig (Elt F)) :
    after ops V (Proc.devRef .tc main_v75) = val_main_v75 (F := F) :=
  (after_unary writesEach V 94 main_cst_17 main_v75 _ _ _ rfl (by decide) (by decide)).trans (by rw [at_main_cst_17]; rfl)

theorem at_main_v76 (V : Valuation τ sig (Elt F)) :
    after ops V (Proc.devRef .tc main_v76) = val_main_v76 (F := F) (V (Proc.devRef .tc main_arg0)) :=
  (after_binary writesEach V 95 main_v65 main_v75 main_v76 _ _ _ _ rfl (by decide) (by decide) (by decide)).trans (by rw [at_main_v65, at_main_v75]; rfl)

theorem at_main_cst_18 (V : Valuation τ sig (Elt F)) :
    after ops V (Proc.devRef .tc main_cst_18) = val_main_cst_18 (F := F) :=
  (after_nullary writesEach V 96 main_cst_18 _ _ rfl (by decide)).trans rfl

theorem at_main_v77 (V : Valuation τ sig (Elt F)) :
    after ops V (Proc.devRef .tc main_v77) = val_main_v77 (F := F) :=
  (after_unary writesEach V 97 main_cst_18 main_v77 _ _ _ rfl (by decide) (by decide)).trans (by rw [at_main_cst_18]; rfl)

theorem at_main_v78 (V : Valuation τ sig (Elt F)) :
    after ops V (Proc.devRef .tc main_v78) = val_main_v78 (F := F) (V (Proc.devRef .tc main_arg0)) :=
  (after_binary writesEach V 98 main_v77 main_v69 main_v78 _ _ _ _ rfl (by decide) (by decide) (by decide)).trans (by rw [at_main_v77, at_main_v69]; rfl)

theorem at_main_v79 (V : Valuation τ sig (Elt F)) :
    after ops V (Proc.devRef .tc main_v79) = val_main_v79 (F := F) (V (Proc.devRef .tc main_arg0)) :=
  (after_binary writesEach V 99 main_v76 main_v78 main_v79 _ _ _ _ rfl (by decide) (by decide) (by decide)).trans (by rw [at_main_v76, at_main_v78]; rfl)

theorem at_main_cst_19 (V : Valuation τ sig (Elt F)) :
    after ops V (Proc.devRef .tc main_cst_19) = val_main_cst_19 (F := F) :=
  (after_nullary writesEach V 100 main_cst_19 _ _ rfl (by decide)).trans rfl

theorem at_main_v80 (V : Valuation τ sig (Elt F)) :
    after ops V (Proc.devRef .tc main_v80) = val_main_v80 (F := F) :=
  (after_unary writesEach V 101 main_cst_19 main_v80 _ _ _ rfl (by decide) (by decide)).trans (by rw [at_main_cst_19]; rfl)

theorem at_main_v81 (V : Valuation τ sig (Elt F)) :
    after ops V (Proc.devRef .tc main_v81) = val_main_v81 (F := F) (V (Proc.devRef .tc main_arg0)) :=
  (after_binary writesEach V 102 main_v63 main_v80 main_v81 _ _ _ _ rfl (by decide) (by decide) (by decide)).trans (by rw [at_main_v63, at_main_v80]; rfl)

theorem at_main_cst_20 (V : Valuation τ sig (Elt F)) :
    after ops V (Proc.devRef .tc main_cst_20) = val_main_cst_20 (F := F) :=
  (after_nullary writesEach V 103 main_cst_20 _ _ rfl (by decide)).trans rfl

theorem at_main_v82 (V : Valuation τ sig (Elt F)) :
    after ops V (Proc.devRef .tc main_v82) = val_main_v82 (F := F) :=
  (after_unary writesEach V 104 main_cst_20 main_v82 _ _ _ rfl (by decide) (by decide)).trans (by rw [at_main_cst_20]; rfl)

theorem at_main_v83 (V : Valuation τ sig (Elt F)) :
    after ops V (Proc.devRef .tc main_v83) = val_main_v83 (F := F) (V (Proc.devRef .tc main_arg0)) :=
  (after_binary writesEach V 105 main_v82 main_v67 main_v83 _ _ _ _ rfl (by decide) (by decide) (by decide)).trans (by rw [at_main_v82, at_main_v67]; rfl)

theorem at_main_v84 (V : Valuation τ sig (Elt F)) :
    after ops V (Proc.devRef .tc main_v84) = val_main_v84 (F := F) (V (Proc.devRef .tc main_arg0)) :=
  (after_binary writesEach V 106 main_v81 main_v83 main_v84 _ _ _ _ rfl (by decide) (by decide) (by decide)).trans (by rw [at_main_v81, at_main_v83]; rfl)

theorem at_main_cst_21 (V : Valuation τ sig (Elt F)) :
    after ops V (Proc.devRef .tc main_cst_21) = val_main_cst_21 (F := F) :=
  (after_nullary writesEach V 107 main_cst_21 _ _ rfl (by decide)).trans rfl

theorem at_main_v85 (V : Valuation τ sig (Elt F)) :
    after ops V (Proc.devRef .tc main_v85) = val_main_v85 (F := F) :=
  (after_unary writesEach V 108 main_cst_21 main_v85 _ _ _ rfl (by decide) (by decide)).trans (by rw [at_main_cst_21]; rfl)

theorem at_main_v86 (V : Valuation τ sig (Elt F)) :
    after ops V (Proc.devRef .tc main_v86) = val_main_v86 (F := F) (V (Proc.devRef .tc main_arg0)) :=
  (after_binary writesEach V 109 main_v65 main_v85 main_v86 _ _ _ _ rfl (by decide) (by decide) (by decide)).trans (by rw [at_main_v65, at_main_v85]; rfl)

theorem at_main_cst_22 (V : Valuation τ sig (Elt F)) :
    after ops V (Proc.devRef .tc main_cst_22) = val_main_cst_22 (F := F) :=
  (after_nullary writesEach V 110 main_cst_22 _ _ rfl (by decide)).trans rfl

theorem at_main_v87 (V : Valuation τ sig (Elt F)) :
    after ops V (Proc.devRef .tc main_v87) = val_main_v87 (F := F) :=
  (after_unary writesEach V 111 main_cst_22 main_v87 _ _ _ rfl (by decide) (by decide)).trans (by rw [at_main_cst_22]; rfl)

theorem at_main_v88 (V : Valuation τ sig (Elt F)) :
    after ops V (Proc.devRef .tc main_v88) = val_main_v88 (F := F) (V (Proc.devRef .tc main_arg0)) :=
  (after_binary writesEach V 112 main_v87 main_v69 main_v88 _ _ _ _ rfl (by decide) (by decide) (by decide)).trans (by rw [at_main_v87, at_main_v69]; rfl)

theorem at_main_v89 (V : Valuation τ sig (Elt F)) :
    after ops V (Proc.devRef .tc main_v89) = val_main_v89 (F := F) (V (Proc.devRef .tc main_arg0)) :=
  (after_binary writesEach V 113 main_v86 main_v88 main_v89 _ _ _ _ rfl (by decide) (by decide) (by decide)).trans (by rw [at_main_v86, at_main_v88]; rfl)

theorem at_main_v90 (V : Valuation τ sig (Elt F)) :
    after ops V (Proc.devRef .tc main_v90) = val_main_v90 (F := F) (V (Proc.devRef .tc main_arg0)) :=
  (after_unary writesEach V 114 main_v74 main_v90 _ _ _ rfl (by decide) (by decide)).trans (by rw [at_main_v74]; rfl)

theorem at_main_v91 (V : Valuation τ sig (Elt F)) :
    after ops V (Proc.devRef .tc main_v91) = val_main_v91 (F := F) (V (Proc.devRef .tc main_arg0)) :=
  (after_unary writesEach V 115 main_v79 main_v91 _ _ _ rfl (by decide) (by decide)).trans (by rw [at_main_v79]; rfl)

theorem at_main_v92 (V : Valuation τ sig (Elt F)) :
    after ops V (Proc.devRef .tc main_v92) = val_main_v92 (F := F) (V (Proc.devRef .tc main_arg0)) :=
  (after_unary writesEach V 116 main_v84 main_v92 _ _ _ rfl (by decide) (by decide)).trans (by rw [at_main_v84]; rfl)

theorem at_main_v93 (V : Valuation τ sig (Elt F)) :
    after ops V (Proc.devRef .tc main_v93) = val_main_v93 (F := F) (V (Proc.devRef .tc main_arg0)) :=
  (after_unary writesEach V 117 main_v89 main_v93 _ _ _ rfl (by decide) (by decide)).trans (by rw [at_main_v89]; rfl)

theorem at_main_v94 (V : Valuation τ sig (Elt F)) :
    after ops V (Proc.devRef .tc main_v94) = val_main_v94 (F := F) (V (Proc.devRef .tc main_arg0)) :=
  (after_nary4 writesEach V 118 main_v90 main_v91 main_v92 main_v93 main_v94 _ _ _ rfl (by decide) (by decide) (by decide) (by decide) (by decide)).trans (by rw [at_main_v90, at_main_v91, at_main_v92, at_main_v93]; rfl)

theorem at_main_v95 (V : Valuation τ sig (Elt F)) :
    after ops V (Proc.devRef .tc main_v95) = val_main_v95 (F := F) (V (Proc.devRef .tc main_arg0)) :=
  (after_unary writesEach V 119 main_v94 main_v95 _ _ _ rfl (by decide) (by decide)).trans (by rw [at_main_v94]; rfl)

theorem at_main_v96 (V : Valuation τ sig (Elt F)) :
    after ops V (Proc.devRef .tc main_v96) = val_main_v96 (F := F) (V (Proc.devRef .tc main_arg1)) :=
  (after_unary writesEach V 120 main_v60 main_v96 _ _ _ rfl (by decide) (by decide)).trans (by rw [at_main_v60]; rfl)

theorem at_main_v97 (V : Valuation τ sig (Elt F)) :
    after ops V (Proc.devRef .tc main_v97) = val_main_v97 (F := F) (V (Proc.devRef .tc main_arg0)) (V (Proc.devRef .tc main_arg1)) :=
  (after_binary writesEach V 121 main_v95 main_v96 main_v97 _ _ _ _ rfl (by decide) (by decide) (by decide)).trans (by rw [at_main_v95, at_main_v96]; rfl)

theorem at_main_v98 (V : Valuation τ sig (Elt F)) :
    after ops V (Proc.devRef .tc main_v98) = val_main_v98 (F := F) (V (Proc.devRef .tc main_arg0)) :=
  (after_unary writesEach V 122 main_v94 main_v98 _ _ _ rfl (by decide) (by decide)).trans (by rw [at_main_v94]; rfl)

theorem at_main_v99 (V : Valuation τ sig (Elt F)) :
    after ops V (Proc.devRef .tc main_v99) = val_main_v99 (F := F) (V (Proc.devRef .tc main_arg1)) :=
  (after_unary writesEach V 123 main_v60 main_v99 _ _ _ rfl (by decide) (by decide)).trans (by rw [at_main_v60]; rfl)

theorem at_main_v100 (V : Valuation τ sig (Elt F)) :
    after ops V (Proc.devRef .tc main_v100) = val_main_v100 (F := F) (V (Proc.devRef .tc main_arg0)) (V (Proc.devRef .tc main_arg1)) :=
  (after_binary writesEach V 124 main_v98 main_v99 main_v100 _ _ _ _ rfl (by decide) (by decide) (by decide)).trans (by rw [at_main_v98, at_main_v99]; rfl)

theorem at_main_v101 (V : Valuation τ sig (Elt F)) :
    after ops V (Proc.devRef .tc main_v101) = val_main_v101 (F := F) (V (Proc.devRef .tc main_arg0)) (V (Proc.devRef .tc main_arg1)) :=
  (after_binary writesEach V 125 main_v100 main_v97 main_v101 _ _ _ _ rfl (by decide) (by decide) (by decide)).trans (by rw [at_main_v100, at_main_v97]; rfl)

theorem at_main_cst_23 (V : Valuation τ sig (Elt F)) :
    after ops V (Proc.devRef .tc main_cst_23) = val_main_cst_23 (F := F) :=
  (after_nullary writesEach V 126 main_cst_23 _ _ rfl (by decide)).trans rfl

theorem at_main_v102 (V : Valuation τ sig (Elt F)) :
    after ops V (Proc.devRef .tc main_v102) = val_main_v102 (F := F) :=
  (after_unary writesEach V 127 main_cst_23 main_v102 _ _ _ rfl (by decide) (by decide)).trans (by rw [at_main_cst_23]; rfl)

theorem at_main_v103 (V : Valuation τ sig (Elt F)) :
    after ops V (Proc.devRef .tc main_v103) = val_main_v103 (F := F) (V (Proc.devRef .tc main_arg0)) (V (Proc.devRef .tc main_arg1)) :=
  (after_binary writesEach V 128 main_v101 main_v102 main_v103 _ _ _ _ rfl (by decide) (by decide) (by decide)).trans (by rw [at_main_v101, at_main_v102]; rfl)

theorem at_main_v104 (V : Valuation τ sig (Elt F)) :
    after ops V (Proc.devRef .tc main_v104) = val_main_v104 (F := F) (V (Proc.devRef .tc main_arg0)) (V (Proc.devRef .tc main_arg1)) :=
  (after_unary writesEach V 129 main_v103 main_v104 _ _ _ rfl (by decide) (by decide)).trans (by rw [at_main_v103]; rfl)

theorem at_main_v105 (V : Valuation τ sig (Elt F)) :
    after ops V (Proc.devRef .tc main_v105) = val_main_v105 (F := F) (V (Proc.devRef .tc main_arg0)) (V (Proc.devRef .tc main_arg1)) :=
  (after_reshape writesEach V 130 main_v104 main_v105 rfl _ _ _ rfl (by decide) (by decide)).trans (by rw [at_main_v104]; rfl)

theorem at_main_v106 (V : Valuation τ sig (Elt F)) :
    after ops V (Proc.devRef .tc main_v106) = val_main_v106 (F := F) (V (Proc.devRef .tc main_arg0)) (V (Proc.devRef .tc main_arg1)) :=
  (after_unary writesEach V 131 main_v103 main_v106 _ _ _ rfl (by decide) (by decide)).trans (by rw [at_main_v103]; rfl)

theorem at_main_v107 (V : Valuation τ sig (Elt F)) :
    after ops V (Proc.devRef .tc main_v107) = val_main_v107 (F := F) (V (Proc.devRef .tc main_arg0)) (V (Proc.devRef .tc main_arg1)) :=
  (after_reshape writesEach V 132 main_v106 main_v107 rfl _ _ _ rfl (by decide) (by decide)).trans (by rw [at_main_v106]; rfl)

theorem at_main_v108 (V : Valuation τ sig (Elt F)) :
    after ops V (Proc.devRef .tc main_v108) = val_main_v108 (F := F) (V (Proc.devRef .tc main_arg0)) (V (Proc.devRef .tc main_arg1)) :=
  (after_binary writesEach V 133 main_v105 main_v107 main_v108 _ _ _ _ rfl (by decide) (by decide) (by decide)).trans (by rw [at_main_v105, at_main_v107]; rfl)

theorem at_main_v109 (V : Valuation τ sig (Elt F)) :
    after ops V (Proc.devRef .tc main_v109) = val_main_v109 (F := F) (V (Proc.devRef .tc main_arg0)) :=
  (after_unary writesEach V 134 main_v94 main_v109 _ _ _ rfl (by decide) (by decide)).trans (by rw [at_main_v94]; rfl)

theorem at_main_v110 (V : Valuation τ sig (Elt F)) :
    after ops V (Proc.devRef .tc main_v110) = val_main_v110 (F := F) (V (Proc.devRef .tc main_arg0)) :=
  (after_reshape writesEach V 135 main_v109 main_v110 rfl _ _ _ rfl (by decide) (by decide)).trans (by rw [at_main_v109]; rfl)

theorem at_main_v111 (V : Valuation τ sig (Elt F)) :
    after ops V (Proc.devRef .tc main_v111) = val_main_v111 (F := F) (V (Proc.devRef .tc main_arg0)) :=
  (after_unary writesEach V 136 main_v94 main_v111 _ _ _ rfl (by decide) (by decide)).trans (by rw [at_main_v94]; rfl)

theorem at_main_v112 (V : Valuation τ sig (Elt F)) :
    after ops V (Proc.devRef .tc main_v112) = val_main_v112 (F := F) (V (Proc.devRef .tc main_arg0)) :=
  (after_reshape writesEach V 137 main_v111 main_v112 rfl _ _ _ rfl (by decide) (by decide)).trans (by rw [at_main_v111]; rfl)

theorem at_main_v113 (V : Valuation τ sig (Elt F)) :
    after ops V (Proc.devRef .tc main_v113) = val_main_v113 (F := F) (V (Proc.devRef .tc main_arg0)) :=
  (after_binary writesEach V 138 main_v110 main_v112 main_v113 _ _ _ _ rfl (by decide) (by decide) (by decide)).trans (by rw [at_main_v110, at_main_v112]; rfl)

theorem at_main_v114 (V : Valuation τ sig (Elt F)) :
    after ops V (Proc.devRef .tc main_v114) = val_main_v114 (F := F) (V (Proc.devRef .tc main_arg0)) :=
  (after_unary writesEach V 139 main_v94 main_v114 _ _ _ rfl (by decide) (by decide)).trans (by rw [at_main_v94]; rfl)

theorem at_main_v115 (V : Valuation τ sig (Elt F)) :
    after ops V (Proc.devRef .tc main_v115) = val_main_v115 (F := F) (V (Proc.devRef .tc main_arg0)) :=
  (after_reshape writesEach V 140 main_v114 main_v115 rfl _ _ _ rfl (by decide) (by decide)).trans (by rw [at_main_v114]; rfl)

theorem at_main_v116 (V : Valuation τ sig (Elt F)) :
    after ops V (Proc.devRef .tc main_v116) = val_main_v116 (F := F) (V (Proc.devRef .tc main_arg0)) :=
  (after_unary writesEach V 141 main_v94 main_v116 _ _ _ rfl (by decide) (by decide)).trans (by rw [at_main_v94]; rfl)

theorem at_main_v117 (V : Valuation τ sig (Elt F)) :
    after ops V (Proc.devRef .tc main_v117) = val_main_v117 (F := F) (V (Proc.devRef .tc main_arg0)) :=
  (after_reshape writesEach V 142 main_v116 main_v117 rfl _ _ _ rfl (by decide) (by decide)).trans (by rw [at_main_v116]; rfl)

theorem at_main_v118 (V : Valuation τ sig (Elt F)) :
    after ops V (Proc.devRef .tc main_v118) = val_main_v118 (F := F) (V (Proc.devRef .tc main_arg0)) :=
  (after_binary writesEach V 143 main_v115 main_v117 main_v118 _ _ _ _ rfl (by decide) (by decide) (by decide)).trans (by rw [at_main_v115, at_main_v117]; rfl)

theorem at_main_v119 (V : Valuation τ sig (Elt F)) :
    after ops V (Proc.devRef .tc main_v119) = val_main_v119 (F := F) (V (Proc.devRef .tc main_arg0)) :=
  (after_binary writesEach V 144 main_v113 main_v118 main_v119 _ _ _ _ rfl (by decide) (by decide) (by decide)).trans (by rw [at_main_v113, at_main_v118]; rfl)

theorem at_main_v120 (V : Valuation τ sig (Elt F)) :
    after ops V (Proc.devRef .tc main_v120) = val_main_v120 (F := F) (V (Proc.devRef .tc main_arg1)) :=
  (after_unary writesEach V 145 main_v60 main_v120 _ _ _ rfl (by decide) (by decide)).trans (by rw [at_main_v60]; rfl)

theorem at_main_v121 (V : Valuation τ sig (Elt F)) :
    after ops V (Proc.devRef .tc main_v121) = val_main_v121 (F := F) (V (Proc.devRef .tc main_arg1)) :=
  (after_reshape writesEach V 146 main_v120 main_v121 rfl _ _ _ rfl (by decide) (by decide)).trans (by rw [at_main_v120]; rfl)

theorem at_main_v122 (V : Valuation τ sig (Elt F)) :
    after ops V (Proc.devRef .tc main_v122) = val_main_v122 (F := F) (V (Proc.devRef .tc main_arg1)) :=
  (after_unary writesEach V 147 main_v60 main_v122 _ _ _ rfl (by decide) (by decide)).trans (by rw [at_main_v60]; rfl)

theorem at_main_v123 (V : Valuation τ sig (Elt F)) :
    after ops V (Proc.devRef .tc main_v123) = val_main_v123 (F := F) (V (Proc.devRef .tc main_arg1)) :=
  (after_reshape writesEach V 148 main_v122 main_v123 rfl _ _ _ rfl (by decide) (by decide)).trans (by rw [at_main_v122]; rfl)

theorem at_main_v124 (V : Valuation τ sig (Elt F)) :
    after ops V (Proc.devRef .tc main_v124) = val_main_v124 (F := F) (V (Proc.devRef .tc main_arg1)) :=
  (after_binary writesEach V 149 main_v121 main_v123 main_v124 _ _ _ _ rfl (by decide) (by decide) (by decide)).trans (by rw [at_main_v121, at_main_v123]; rfl)

theorem at_main_v125 (V : Valuation τ sig (Elt F)) :
    after ops V (Proc.devRef .tc main_v125) = val_main_v125 (F := F) (V (Proc.devRef .tc main_arg1)) :=
  (after_unary writesEach V 150 main_v60 main_v125 _ _ _ rfl (by decide) (by decide)).trans (by rw [at_main_v60]; rfl)

theorem at_main_v126 (V : Valuation τ sig (Elt F)) :
    after ops V (Proc.devRef .tc main_v126) = val_main_v126 (F := F) (V (Proc.devRef .tc main_arg1)) :=
  (after_reshape writesEach V 151 main_v125 main_v126 rfl _ _ _ rfl (by decide) (by decide)).trans (by rw [at_main_v125]; rfl)

theorem at_main_v127 (V : Valuation τ sig (Elt F)) :
    after ops V (Proc.devRef .tc main_v127) = val_main_v127 (F := F) (V (Proc.devRef .tc main_arg1)) :=
  (after_unary writesEach V 152 main_v60 main_v127 _ _ _ rfl (by decide) (by decide)).trans (by rw [at_main_v60]; rfl)

theorem at_main_v128 (V : Valuation τ sig (Elt F)) :
    after ops V (Proc.devRef .tc main_v128) = val_main_v128 (F := F) (V (Proc.devRef .tc main_arg1)) :=
  (after_reshape writesEach V 153 main_v127 main_v128 rfl _ _ _ rfl (by decide) (by decide)).trans (by rw [at_main_v127]; rfl)

theorem at_main_v129 (V : Valuation τ sig (Elt F)) :
    after ops V (Proc.devRef .tc main_v129) = val_main_v129 (F := F) (V (Proc.devRef .tc main_arg1)) :=
  (after_binary writesEach V 154 main_v126 main_v128 main_v129 _ _ _ _ rfl (by decide) (by decide) (by decide)).trans (by rw [at_main_v126, at_main_v128]; rfl)

theorem at_main_v130 (V : Valuation τ sig (Elt F)) :
    after ops V (Proc.devRef .tc main_v130) = val_main_v130 (F := F) (V (Proc.devRef .tc main_arg1)) :=
  (after_binary writesEach V 155 main_v124 main_v129 main_v130 _ _ _ _ rfl (by decide) (by decide) (by decide)).trans (by rw [at_main_v124, at_main_v129]; rfl)

theorem at_main_v131 (V : Valuation τ sig (Elt F)) :
    after ops V (Proc.devRef .tc main_v131) = val_main_v131 (F := F) (V (Proc.devRef .tc main_arg0)) (V (Proc.devRef .tc main_arg1)) :=
  (after_binary writesEach V 156 main_v119 main_v130 main_v131 _ _ _ _ rfl (by decide) (by decide) (by decide)).trans (by rw [at_main_v119, at_main_v130]; rfl)

theorem at_main_v132 (V : Valuation τ sig (Elt F)) :
    after ops V (Proc.devRef .tc main_v132) = val_main_v132 (F := F) (V (Proc.devRef .tc main_arg0)) (V (Proc.devRef .tc main_arg1)) :=
  (after_binary writesEach V 157 main_v131 main_v108 main_v132 _ _ _ _ rfl (by decide) (by decide) (by decide)).trans (by rw [at_main_v131, at_main_v108]; rfl)

theorem at_main_v133 (V : Valuation τ sig (Elt F)) :
    after ops V (Proc.devRef .tc main_v133) = val_main_v133 (F := F) (V (Proc.devRef .tc main_arg0)) (V (Proc.devRef .tc main_arg1)) :=
  (after_binary writesEach V 158 main_v108 main_v132 main_v133 _ _ _ _ rfl (by decide) (by decide) (by decide)).trans (by rw [at_main_v108, at_main_v132]; rfl)

theorem at_main_v134 (V : Valuation τ sig (Elt F)) :
    after ops V (Proc.devRef .tc main_v134) = val_main_v134 (F := F) (V (Proc.devRef .tc main_arg0)) :=
  (after_unary writesEach V 159 main_v6 main_v134 _ _ _ rfl (by decide) (by decide)).trans (by rw [at_main_v6]; rfl)

theorem at_main_v135 (V : Valuation τ sig (Elt F)) :
    after ops V (Proc.devRef .tc main_v135) = val_main_v135 (F := F) (V (Proc.devRef .tc main_arg0)) :=
  (after_unary writesEach V 160 main_v134 main_v135 _ _ _ rfl (by decide) (by decide)).trans (by rw [at_main_v134]; rfl)

theorem at_main_v136 (V : Valuation τ sig (Elt F)) :
    after ops V (Proc.devRef .tc main_v136) = val_main_v136 (F := F) (V (Proc.devRef .tc main_arg0)) :=
  (after_reshape writesEach V 161 main_v135 main_v136 rfl _ _ _ rfl (by decide) (by decide)).trans (by rw [at_main_v135]; rfl)

theorem at_main_v137 (V : Valuation τ sig (Elt F)) :
    after ops V (Proc.devRef .tc main_v137) = val_main_v137 (F := F) (V (Proc.devRef .tc main_arg0)) :=
  (after_unary writesEach V 162 main_v134 main_v137 _ _ _ rfl (by decide) (by decide)).trans (by rw [at_main_v134]; rfl)

theorem at_main_v138 (V : Valuation τ sig (Elt F)) :
    after ops V (Proc.devRef .tc main_v138) = val_main_v138 (F := F) (V (Proc.devRef .tc main_arg0)) :=
  (after_reshape writesEach V 163 main_v137 main_v138 rfl _ _ _ rfl (by decide) (by decide)).trans (by rw [at_main_v137]; rfl)

theorem at_main_v139 (V : Valuation τ sig (Elt F)) :
    after ops V (Proc.devRef .tc main_v139) = val_main_v139 (F := F) (V (Proc.devRef .tc main_arg0)) :=
  (after_unary writesEach V 164 main_v134 main_v139 _ _ _ rfl (by decide) (by decide)).trans (by rw [at_main_v134]; rfl)

theorem at_main_v140 (V : Valuation τ sig (Elt F)) :
    after ops V (Proc.devRef .tc main_v140) = val_main_v140 (F := F) (V (Proc.devRef .tc main_arg0)) :=
  (after_reshape writesEach V 165 main_v139 main_v140 rfl _ _ _ rfl (by decide) (by decide)).trans (by rw [at_main_v139]; rfl)

theorem at_main_v141 (V : Valuation τ sig (Elt F)) :
    after ops V (Proc.devRef .tc main_v141) = val_main_v141 (F := F) (V (Proc.devRef .tc main_arg0)) :=
  (after_unary writesEach V 166 main_v134 main_v141 _ _ _ rfl (by decide) (by decide)).trans (by rw [at_main_v134]; rfl)

theorem at_main_v142 (V : Valuation τ sig (Elt F)) :
    after ops V (Proc.devRef .tc main_v142) = val_main_v142 (F := F) (V (Proc.devRef .tc main_arg0)) :=
  (after_reshape writesEach V 167 main_v141 main_v142 rfl _ _ _ rfl (by decide) (by decide)).trans (by rw [at_main_v141]; rfl)

theorem at_main_cst_24 (V : Valuation τ sig (Elt F)) :
    after ops V (Proc.devRef .tc main_cst_24) = val_main_cst_24 (F := F) :=
  (after_nullary writesEach V 168 main_cst_24 _ _ rfl (by decide)).trans rfl

theorem at_main_v143 (V : Valuation τ sig (Elt F)) :
    after ops V (Proc.devRef .tc main_v143) = val_main_v143 (F := F) :=
  (after_unary writesEach V 169 main_cst_24 main_v143 _ _ _ rfl (by decide) (by decide)).trans (by rw [at_main_cst_24]; rfl)

theorem at_main_v144 (V : Valuation τ sig (Elt F)) :
    after ops V (Proc.devRef .tc main_v144) = val_main_v144 (F := F) (V (Proc.devRef .tc main_arg0)) :=
  (after_binary writesEach V 170 main_v136 main_v143 main_v144 _ _ _ _ rfl (by decide) (by decide) (by decide)).trans (by rw [at_main_v136, at_main_v143]; rfl)

theorem at_main_cst_25 (V : Valuation τ sig (Elt F)) :
    after ops V (Proc.devRef .tc main_cst_25) = val_main_cst_25 (F := F) :=
  (after_nullary writesEach V 171 main_cst_25 _ _ rfl (by decide)).trans rfl

theorem at_main_v145 (V : Valuation τ sig (Elt F)) :
    after ops V (Proc.devRef .tc main_v145) = val_main_v145 (F := F) :=
  (after_unary writesEach V 172 main_cst_25 main_v145 _ _ _ rfl (by decide) (by decide)).trans (by rw [at_main_cst_25]; rfl)

theorem at_main_v146 (V : Valuation τ sig (Elt F)) :
    after ops V (Proc.devRef .tc main_v146) = val_main_v146 (F := F) (V (Proc.devRef .tc main_arg0)) :=
  (after_binary writesEach V 173 main_v145 main_v140 main_v146 _ _ _ _ rfl (by decide) (by decide) (by decide)).trans (by rw [at_main_v145, at_main_v140]; rfl)

theorem at_main_v147 (V : Valuation τ sig (Elt F)) :
    after ops V (Proc.devRef .tc main_v147) = val_main_v147 (F := F) (V (Proc.devRef .tc main_arg0)) :=
  (after_binary writesEach V 174 main_v144 main_v146 main_v147 _ _ _ _ rfl (by decide) (by decide) (by decide)).trans (by rw [at_main_v144, at_main_v146]; rfl)

theorem at_main_cst_26 (V : Valuation τ sig (Elt F)) :
    after ops V (Proc.devRef .tc main_cst_26) = val_main_cst_26 (F := F) :=
  (after_nullary writesEach V 175 main_cst_26 _ _ rfl (by decide)).trans rfl

theorem at_main_v148 (V : Valuation τ sig (Elt F)) :
    after ops V (Proc.devRef .tc main_v148) = val_main_v148 (F := F) :=
  (after_unary writesEach V 176 main_cst_26 main_v148 _ _ _ rfl (by decide) (by decide)).trans (by rw [at_main_cst_26]; rfl)

theorem at_main_v149 (V : Valuation τ sig (Elt F)) :
    after ops V (Proc.devRef .tc main_v149) = val_main_v149 (F := F) (V (Proc.devRef .tc main_arg0)) :=
  (after_binary writesEach V 177 main_v138 main_v148 main_v149 _ _ _ _ rfl (by decide) (by decide) (by decide)).trans (by rw [at_main_v138, at_main_v148]; rfl)

theorem at_main_cst_27 (V : Valuation τ sig (Elt F)) :
    after ops V (Proc.devRef .tc main_cst_27) = val_main_cst_27 (F := F) :=
  (after_nullary writesEach V 178 main_cst_27 _ _ rfl (by decide)).trans rfl

theorem at_main_v150 (V : Valuation τ sig (Elt F)) :
    after ops V (Proc.devRef .tc main_v150) = val_main_v150 (F := F) :=
  (after_unary writesEach V 179 main_cst_27 main_v150 _ _ _ rfl (by decide) (by decide)).trans (by rw [at_main_cst_27]; rfl)

theorem at_main_v151 (V : Valuation τ sig (Elt F)) :
    after ops V (Proc.devRef .tc main_v151) = val_main_v151 (F := F) (V (Proc.devRef .tc main_arg0)) :=
  (after_binary writesEach V 180 main_v150 main_v142 main_v151 _ _ _ _ rfl (by decide) (by decide) (by decide)).trans (by rw [at_main_v150, at_main_v142]; rfl)

theorem at_main_v152 (V : Valuation τ sig (Elt F)) :
    after ops V (Proc.devRef .tc main_v152) = val_main_v152 (F := F) (V (Proc.devRef .tc main_arg0)) :=
  (after_binary writesEach V 181 main_v149 main_v151 main_v152 _ _ _ _ rfl (by decide) (by decide) (by decide)).trans (by rw [at_main_v149, at_main_v151]; rfl)

theorem at_main_cst_28 (V : Valuation τ sig (Elt F)) :
    after ops V (Proc.devRef .tc main_cst_28) = val_main_cst_28 (F := F) :=
  (after_nullary writesEach V 182 main_cst_28 _ _ rfl (by decide)).trans rfl

theorem at_main_v153 (V : Valuation τ sig (Elt F)) :
    after ops V (Proc.devRef .tc main_v153) = val_main_v153 (F := F) :=
  (after_unary writesEach V 183 main_cst_28 main_v153 _ _ _ rfl (by decide) (by decide)).trans (by rw [at_main_cst_28]; rfl)

theorem at_main_v154 (V : Valuation τ sig (Elt F)) :
    after ops V (Proc.devRef .tc main_v154) = val_main_v154 (F := F) (V (Proc.devRef .tc main_arg0)) :=
  (after_binary writesEach V 184 main_v136 main_v153 main_v154 _ _ _ _ rfl (by decide) (by decide) (by decide)).trans (by rw [at_main_v136, at_main_v153]; rfl)

theorem at_main_cst_29 (V : Valuation τ sig (Elt F)) :
    after ops V (Proc.devRef .tc main_cst_29) = val_main_cst_29 (F := F) :=
  (after_nullary writesEach V 185 main_cst_29 _ _ rfl (by decide)).trans rfl

theorem at_main_v155 (V : Valuation τ sig (Elt F)) :
    after ops V (Proc.devRef .tc main_v155) = val_main_v155 (F := F) :=
  (after_unary writesEach V 186 main_cst_29 main_v155 _ _ _ rfl (by decide) (by decide)).trans (by rw [at_main_cst_29]; rfl)

theorem at_main_v156 (V : Valuation τ sig (Elt F)) :
    after ops V (Proc.devRef .tc main_v156) = val_main_v156 (F := F) (V (Proc.devRef .tc main_arg0)) :=
  (after_binary writesEach V 187 main_v155 main_v140 main_v156 _ _ _ _ rfl (by decide) (by decide) (by decide)).trans (by rw [at_main_v155, at_main_v140]; rfl)

theorem at_main_v157 (V : Valuation τ sig (Elt F)) :
    after ops V (Proc.devRef .tc main_v157) = val_main_v157 (F := F) (V (Proc.devRef .tc main_arg0)) :=
  (after_binary writesEach V 188 main_v154 main_v156 main_v157 _ _ _ _ rfl (by decide) (by decide) (by decide)).trans (by rw [at_main_v154, at_main_v156]; rfl)

theorem at_main_cst_30 (V : Valuation τ sig (Elt F)) :
    after ops V (Proc.devRef .tc main_cst_30) = val_main_cst_30 (F := F) :=
  (after_nullary writesEach V 189 main_cst_30 _ _ rfl (by decide)).trans rfl

theorem at_main_v158 (V : Valuation τ sig (Elt F)) :
    after ops V (Proc.devRef .tc main_v158) = val_main_v158 (F := F) :=
  (after_unary writesEach V 190 main_cst_30 main_v158 _ _ _ rfl (by decide) (by decide)).trans (by rw [at_main_cst_30]; rfl)

theorem at_main_v159 (V : Valuation τ sig (Elt F)) :
    after ops V (Proc.devRef .tc main_v159) = val_main_v159 (F := F) (V (Proc.devRef .tc main_arg0)) :=
  (after_binary writesEach V 191 main_v138 main_v158 main_v159 _ _ _ _ rfl (by decide) (by decide) (by decide)).trans (by rw [at_main_v138, at_main_v158]; rfl)

theorem at_main_cst_31 (V : Valuation τ sig (Elt F)) :
    after ops V (Proc.devRef .tc main_cst_31) = val_main_cst_31 (F := F) :=
  (after_nullary writesEach V 192 main_cst_31 _ _ rfl (by decide)).trans rfl

theorem at_main_v160 (V : Valuation τ sig (Elt F)) :
    after ops V (Proc.devRef .tc main_v160) = val_main_v160 (F := F) :=
  (after_unary writesEach V 193 main_cst_31 main_v160 _ _ _ rfl (by decide) (by decide)).trans (by rw [at_main_cst_31]; rfl)

theorem at_main_v161 (V : Valuation τ sig (Elt F)) :
    after ops V (Proc.devRef .tc main_v161) = val_main_v161 (F := F) (V (Proc.devRef .tc main_arg0)) :=
  (after_binary writesEach V 194 main_v160 main_v142 main_v161 _ _ _ _ rfl (by decide) (by decide) (by decide)).trans (by rw [at_main_v160, at_main_v142]; rfl)

theorem at_main_v162 (V : Valuation τ sig (Elt F)) :
    after ops V (Proc.devRef .tc main_v162) = val_main_v162 (F := F) (V (Proc.devRef .tc main_arg0)) :=
  (after_binary writesEach V 195 main_v159 main_v161 main_v162 _ _ _ _ rfl (by decide) (by decide) (by decide)).trans (by rw [at_main_v159, at_main_v161]; rfl)

theorem at_main_v163 (V : Valuation τ sig (Elt F)) :
    after ops V (Proc.devRef .tc main_v163) = val_main_v163 (F := F) (V (Proc.devRef .tc main_arg0)) :=
  (after_unary writesEach V 196 main_v147 main_v163 _ _ _ rfl (by decide) (by decide)).trans (by rw [at_main_v147]; rfl)

theorem at_main_v164 (V : Valuation τ sig (Elt F)) :
    after ops V (Proc.devRef .tc main_v164) = val_main_v164 (F := F) (V (Proc.devRef .tc main_arg0)) :=
  (after_unary writesEach V 197 main_v152 main_v164 _ _ _ rfl (by decide) (by decide)).trans (by rw [at_main_v152]; rfl)

theorem at_main_v165 (V : Valuation τ sig (Elt F)) :
    after ops V (Proc.devRef .tc main_v165) = val_main_v165 (F := F) (V (Proc.devRef .tc main_arg0)) :=
  (after_unary writesEach V 198 main_v157 main_v165 _ _ _ rfl (by decide) (by decide)).trans (by rw [at_main_v157]; rfl)

theorem at_main_v166 (V : Valuation τ sig (Elt F)) :
    after ops V (Proc.devRef .tc main_v166) = val_main_v166 (F := F) (V (Proc.devRef .tc main_arg0)) :=
  (after_unary writesEach V 199 main_v162 main_v166 _ _ _ rfl (by decide) (by decide)).trans (by rw [at_main_v162]; rfl)

theorem at_main_v167 (V : Valuation τ sig (Elt F)) :
    after ops V (Proc.devRef .tc main_v167) = val_main_v167 (F := F) (V (Proc.devRef .tc main_arg0)) :=
  (after_nary4 writesEach V 200 main_v163 main_v164 main_v165 main_v166 main_v167 _ _ _ rfl (by decide) (by decide) (by decide) (by decide) (by decide)).trans (by rw [at_main_v163, at_main_v164, at_main_v165, at_main_v166]; rfl)

theorem at_main_v168 (V : Valuation τ sig (Elt F)) :
    after ops V (Proc.devRef .tc main_v168) = val_main_v168 (F := F) (V (Proc.devRef .tc main_arg0)) :=
  (after_unary writesEach V 201 main_v167 main_v168 _ _ _ rfl (by decide) (by decide)).trans (by rw [at_main_v167]; rfl)

theorem at_main_v169 (V : Valuation τ sig (Elt F)) :
    after ops V (Proc.devRef .tc main_v169) = val_main_v169 (F := F) (V (Proc.devRef .tc main_arg1)) :=
  (after_unary writesEach V 202 main_v60 main_v169 _ _ _ rfl (by decide) (by decide)).trans (by rw [at_main_v60]; rfl)

theorem at_main_v170 (V : Valuation τ sig (Elt F)) :
    after ops V (Proc.devRef .tc main_v170) = val_main_v170 (F := F) (V (Proc.devRef .tc main_arg0)) (V (Proc.devRef .tc main_arg1)) :=
  (after_binary writesEach V 203 main_v168 main_v169 main_v170 _ _ _ _ rfl (by decide) (by decide) (by decide)).trans (by rw [at_main_v168, at_main_v169]; rfl)

theorem at_main_v171 (V : Valuation τ sig (Elt F)) :
    after ops V (Proc.devRef .tc main_v171) = val_main_v171 (F := F) (V (Proc.devRef .tc main_arg0)) :=
  (after_unary writesEach V 204 main_v167 main_v171 _ _ _ rfl (by decide) (by decide)).trans (by rw [at_main_v167]; rfl)

theorem at_main_v172 (V : Valuation τ sig (Elt F)) :
    after ops V (Proc.devRef .tc main_v172) = val_main_v172 (F := F) (V (Proc.devRef .tc main_arg1)) :=
  (after_unary writesEach V 205 main_v60 main_v172 _ _ _ rfl (by decide) (by decide)).trans (by rw [at_main_v60]; rfl)

theorem at_main_v173 (V : Valuation τ sig (Elt F)) :
    after ops V (Proc.devRef .tc main_v173) = val_main_v173 (F := F) (V (Proc.devRef .tc main_arg0)) (V (Proc.devRef .tc main_arg1)) :=
  (after_binary writesEach V 206 main_v171 main_v172 main_v173 _ _ _ _ rfl (by decide) (by decide) (by decide)).trans (by rw [at_main_v171, at_main_v172]; rfl)

theorem at_main_v174 (V : Valuation τ sig (Elt F)) :
    after ops V (Proc.devRef .tc main_v174) = val_main_v174 (F := F) (V (Proc.devRef .tc main_arg0)) (V (Proc.devRef .tc main_arg1)) :=
  (after_binary writesEach V 207 main_v173 main_v170 main_v174 _ _ _ _ rfl (by decide) (by decide) (by decide)).trans (by rw [at_main_v173, at_main_v170]; rfl)

theorem at_main_cst_32 (V : Valuation τ sig (Elt F)) :
    after ops V (Proc.devRef .tc main_cst_32) = val_main_cst_32 (F := F) :=
  (after_nullary writesEach V 208 main_cst_32 _ _ rfl (by decide)).trans rfl

theorem at_main_v175 (V : Valuation τ sig (Elt F)) :
    after ops V (Proc.devRef .tc main_v175) = val_main_v175 (F := F) :=
  (after_unary writesEach V 209 main_cst_32 main_v175 _ _ _ rfl (by decide) (by decide)).trans (by rw [at_main_cst_32]; rfl)

theorem at_main_v176 (V : Valuation τ sig (Elt F)) :
    after ops V (Proc.devRef .tc main_v176) = val_main_v176 (F := F) (V (Proc.devRef .tc main_arg0)) (V (Proc.devRef .tc main_arg1)) :=
  (after_binary writesEach V 210 main_v174 main_v175 main_v176 _ _ _ _ rfl (by decide) (by decide) (by decide)).trans (by rw [at_main_v174, at_main_v175]; rfl)

theorem at_main_v177 (V : Valuation τ sig (Elt F)) :
    after ops V (Proc.devRef .tc main_v177) = val_main_v177 (F := F) (V (Proc.devRef .tc main_arg0)) (V (Proc.devRef .tc main_arg1)) :=
  (after_unary writesEach V 211 main_v176 main_v177 _ _ _ rfl (by decide) (by decide)).trans (by rw [at_main_v176]; rfl)

theorem at_main_v178 (V : Valuation τ sig (Elt F)) :
    after ops V (Proc.devRef .tc main_v178) = val_main_v178 (F := F) (V (Proc.devRef .tc main_arg0)) (V (Proc.devRef .tc main_arg1)) :=
  (after_reshape writesEach V 212 main_v177 main_v178 rfl _ _ _ rfl (by decide) (by decide)).trans (by rw [at_main_v177]; rfl)

theorem at_main_v179 (V : Valuation τ sig (Elt F)) :
    after ops V (Proc.devRef .tc main_v179) = val_main_v179 (F := F) (V (Proc.devRef .tc main_arg0)) (V (Proc.devRef .tc main_arg1)) :=
  (after_unary writesEach V 213 main_v176 main_v179 _ _ _ rfl (by decide) (by decide)).trans (by rw [at_main_v176]; rfl)

theorem at_main_v180 (V : Valuation τ sig (Elt F)) :
    after ops V (Proc.devRef .tc main_v180) = val_main_v180 (F := F) (V (Proc.devRef .tc main_arg0)) (V (Proc.devRef .tc main_arg1)) :=
  (after_reshape writesEach V 214 main_v179 main_v180 rfl _ _ _ rfl (by decide) (by decide)).trans (by rw [at_main_v179]; rfl)

theorem at_main_v181 (V : Valuation τ sig (Elt F)) :
    after ops V (Proc.devRef .tc main_v181) = val_main_v181 (F := F) (V (Proc.devRef .tc main_arg0)) (V (Proc.devRef .tc main_arg1)) :=
  (after_binary writesEach V 215 main_v178 main_v180 main_v181 _ _ _ _ rfl (by decide) (by decide) (by decide)).trans (by rw [at_main_v178, at_main_v180]; rfl)

theorem at_main_v182 (V : Valuation τ sig (Elt F)) :
    after ops V (Proc.devRef .tc main_v182) = val_main_v182 (F := F) (V (Proc.devRef .tc main_arg0)) :=
  (after_unary writesEach V 216 main_v167 main_v182 _ _ _ rfl (by decide) (by decide)).trans (by rw [at_main_v167]; rfl)

theorem at_main_v183 (V : Valuation τ sig (Elt F)) :
    after ops V (Proc.devRef .tc main_v183) = val_main_v183 (F := F) (V (Proc.devRef .tc main_arg0)) :=
  (after_reshape writesEach V 217 main_v182 main_v183 rfl _ _ _ rfl (by decide) (by decide)).trans (by rw [at_main_v182]; rfl)

theorem at_main_v184 (V : Valuation τ sig (Elt F)) :
    after ops V (Proc.devRef .tc main_v184) = val_main_v184 (F := F) (V (Proc.devRef .tc main_arg0)) :=
  (after_unary writesEach V 218 main_v167 main_v184 _ _ _ rfl (by decide) (by decide)).trans (by rw [at_main_v167]; rfl)

theorem at_main_v185 (V : Valuation τ sig (Elt F)) :
    after ops V (Proc.devRef .tc main_v185) = val_main_v185 (F := F) (V (Proc.devRef .tc main_arg0)) :=
  (after_reshape writesEach V 219 main_v184 main_v185 rfl _ _ _ rfl (by decide) (by decide)).trans (by rw [at_main_v184]; rfl)

theorem at_main_v186 (V : Valuation τ sig (Elt F)) :
    after ops V (Proc.devRef .tc main_v186) = val_main_v186 (F := F) (V (Proc.devRef .tc main_arg0)) :=
  (after_binary writesEach V 220 main_v183 main_v185 main_v186 _ _ _ _ rfl (by decide) (by decide) (by decide)).trans (by rw [at_main_v183, at_main_v185]; rfl)

theorem at_main_v187 (V : Valuation τ sig (Elt F)) :
    after ops V (Proc.devRef .tc main_v187) = val_main_v187 (F := F) (V (Proc.devRef .tc main_arg0)) :=
  (after_unary writesEach V 221 main_v167 main_v187 _ _ _ rfl (by decide) (by decide)).trans (by rw [at_main_v167]; rfl)

theorem at_main_v188 (V : Valuation τ sig (Elt F)) :
    after ops V (Proc.devRef .tc main_v188) = val_main_v188 (F := F) (V (Proc.devRef .tc main_arg0)) :=
  (after_reshape writesEach V 222 main_v187 main_v188 rfl _ _ _ rfl (by decide) (by decide)).trans (by rw [at_main_v187]; rfl)

theorem at_main_v189 (V : Valuation τ sig (Elt F)) :
    after ops V (Proc.devRef .tc main_v189) = val_main_v189 (F := F) (V (Proc.devRef .tc main_arg0)) :=
  (after_unary writesEach V 223 main_v167 main_v189 _ _ _ rfl (by decide) (by decide)).trans (by rw [at_main_v167]; rfl)

theorem at_main_v190 (V : Valuation τ sig (Elt F)) :
    after ops V (Proc.devRef .tc main_v190) = val_main_v190 (F := F) (V (Proc.devRef .tc main_arg0)) :=
  (after_reshape writesEach V 224 main_v189 main_v190 rfl _ _ _ rfl (by decide) (by decide)).trans (by rw [at_main_v189]; rfl)

theorem at_main_v191 (V : Valuation τ sig (Elt F)) :
    after ops V (Proc.devRef .tc main_v191) = val_main_v191 (F := F) (V (Proc.devRef .tc main_arg0)) :=
  (after_binary writesEach V 225 main_v188 main_v190 main_v191 _ _ _ _ rfl (by decide) (by decide) (by decide)).trans (by rw [at_main_v188, at_main_v190]; rfl)

theorem at_main_v192 (V : Valuation τ sig (Elt F)) :
    after ops V (Proc.devRef .tc main_v192) = val_main_v192 (F := F) (V (Proc.devRef .tc main_arg0)) :=
  (after_binary writesEach V 226 main_v186 main_v191 main_v192 _ _ _ _ rfl (by decide) (by decide) (by decide)).trans (by rw [at_main_v186, at_main_v191]; rfl)

theorem at_main_v193 (V : Valuation τ sig (Elt F)) :
    after ops V (Proc.devRef .tc main_v193) = val_main_v193 (F := F) (V (Proc.devRef .tc main_arg1)) :=
  (after_unary writesEach V 227 main_v60 main_v193 _ _ _ rfl (by decide) (by decide)).trans (by rw [at_main_v60]; rfl)

theorem at_main_v194 (V : Valuation τ sig (Elt F)) :
    after ops V (Proc.devRef .tc main_v194) = val_main_v194 (F := F) (V (Proc.devRef .tc main_arg1)) :=
  (after_reshape writesEach V 228 main_v193 main_v194 rfl _ _ _ rfl (by decide) (by decide)).trans (by rw [at_main_v193]; rfl)

theorem at_main_v195 (V : Valuation τ sig (Elt F)) :
    after ops V (Proc.devRef .tc main_v195) = val_main_v195 (F := F) (V (Proc.devRef .tc main_arg1)) :=
  (after_unary writesEach V 229 main_v60 main_v195 _ _ _ rfl (by decide) (by decide)).trans (by rw [at_main_v60]; rfl)

theorem at_main_v196 (V : Valuation τ sig (Elt F)) :
    after ops V (Proc.devRef .tc main_v196) = val_main_v196 (F := F) (V (Proc.devRef .tc main_arg1)) :=
  (after_reshape writesEach V 230 main_v195 main_v196 rfl _ _ _ rfl (by decide) (by decide)).trans (by rw [at_main_v195]; rfl)

theorem at_main_v197 (V : Valuation τ sig (Elt F)) :
    after ops V (Proc.devRef .tc main_v197) = val_main_v197 (F := F) (V (Proc.devRef .tc main_arg1)) :=
  (after_binary writesEach V 231 main_v194 main_v196 main_v197 _ _ _ _ rfl (by decide) (by decide) (by decide)).trans (by rw [at_main_v194, at_main_v196]; rfl)

theorem at_main_v198 (V : Valuation τ sig (Elt F)) :
    after ops V (Proc.devRef .tc main_v198) = val_main_v198 (F := F) (V (Proc.devRef .tc main_arg1)) :=
  (after_unary writesEach V 232 main_v60 main_v198 _ _ _ rfl (by decide) (by decide)).trans (by rw [at_main_v60]; rfl)

theorem at_main_v199 (V : Valuation τ sig (Elt F)) :
    after ops V (Proc.devRef .tc main_v199) = val_main_v199 (F := F) (V (Proc.devRef .tc main_arg1)) :=
  (after_reshape writesEach V 233 main_v198 main_v199 rfl _ _ _ rfl (by decide) (by decide)).trans (by rw [at_main_v198]; rfl)

theorem at_main_v200 (V : Valuation τ sig (Elt F)) :
    after ops V (Proc.devRef .tc main_v200) = val_main_v200 (F := F) (V (Proc.devRef .tc main_arg1)) :=
  (after_unary writesEach V 234 main_v60 main_v200 _ _ _ rfl (by decide) (by decide)).trans (by rw [at_main_v60]; rfl)

theorem at_main_v201 (V : Valuation τ sig (Elt F)) :
    after ops V (Proc.devRef .tc main_v201) = val_main_v201 (F := F) (V (Proc.devRef .tc main_arg1)) :=
  (after_reshape writesEach V 235 main_v200 main_v201 rfl _ _ _ rfl (by decide) (by decide)).trans (by rw [at_main_v200]; rfl)

theorem at_main_v202 (V : Valuation τ sig (Elt F)) :
    after ops V (Proc.devRef .tc main_v202) = val_main_v202 (F := F) (V (Proc.devRef .tc main_arg1)) :=
  (after_binary writesEach V 236 main_v199 main_v201 main_v202 _ _ _ _ rfl (by decide) (by decide) (by decide)).trans (by rw [at_main_v199, at_main_v201]; rfl)

theorem at_main_v203 (V : Valuation τ sig (Elt F)) :
    after ops V (Proc.devRef .tc main_v203) = val_main_v203 (F := F) (V (Proc.devRef .tc main_arg1)) :=
  (after_binary writesEach V 237 main_v197 main_v202 main_v203 _ _ _ _ rfl (by decide) (by decide) (by decide)).trans (by rw [at_main_v197, at_main_v202]; rfl)

theorem at_main_v204 (V : Valuation τ sig (Elt F)) :
    after ops V (Proc.devRef .tc main_v204) = val_main_v204 (F := F) (V (Proc.devRef .tc main_arg0)) (V (Proc.devRef .tc main_arg1)) :=
  (after_binary writesEach V 238 main_v192 main_v203 main_v204 _ _ _ _ rfl (by decide) (by decide) (by decide)).trans (by rw [at_main_v192, at_main_v203]; rfl)

theorem at_main_v205 (V : Valuation τ sig (Elt F)) :
    after ops V (Proc.devRef .tc main_v205) = val_main_v205 (F := F) (V (Proc.devRef .tc main_arg0)) (V (Proc.devRef .tc main_arg1)) :=
  (after_binary writesEach V 239 main_v204 main_v181 main_v205 _ _ _ _ rfl (by decide) (by decide) (by decide)).trans (by rw [at_main_v204, at_main_v181]; rfl)

theorem at_main_v206 (V : Valuation τ sig (Elt F)) :
    after ops V (Proc.devRef .tc main_v206) = val_main_v206 (F := F) (V (Proc.devRef .tc main_arg0)) (V (Proc.devRef .tc main_arg1)) :=
  (after_binary writesEach V 240 main_v181 main_v205 main_v206 _ _ _ _ rfl (by decide) (by decide) (by decide)).trans (by rw [at_main_v181, at_main_v205]; rfl)

theorem at_main_v207 (V : Valuation τ sig (Elt F)) :
    after ops V (Proc.devRef .tc main_v207) = val_main_v207 (F := F) (V (Proc.devRef .tc main_arg0)) (V (Proc.devRef .tc main_arg1)) :=
  (after_binary writesEach V 241 main_v133 main_v206 main_v207 _ _ _ _ rfl (by decide) (by decide) (by decide)).trans (by rw [at_main_v133, at_main_v206]; rfl)

theorem at_main_v208 (V : Valuation τ sig (Elt F)) :
    after ops V (Proc.devRef .tc main_v208) = val_main_v208 (F := F) (V (Proc.devRef .tc main_arg0)) (V (Proc.devRef .tc main_arg1)) :=
  (after_unary writesEach V 242 main_v207 main_v208 _ _ _ rfl (by decide) (by decide)).trans (by rw [at_main_v207]; rfl)

theorem at_main_call0_v0 (V : Valuation τ sig (Elt F)) :
    after ops V (Proc.devRef .tc main_call0_v0) = val_main_call0_v0 (F := F) (V (Proc.devRef .tc main_arg0)) (V (Proc.devRef .tc main_arg1)) :=
  (after_unary writesEach V 243 main_v208 main_call0_v0 _ _ _ rfl (by decide) (by decide)).trans (by rw [at_main_v208]; rfl)

theorem at_main_v209 (V : Valuation τ sig (Elt F)) :
    after ops V (Proc.devRef .tc main_v209) = val_main_v209 (F := F) (V (Proc.devRef .tc main_arg0)) (V (Proc.devRef .tc main_arg1)) :=
  (after_ternary writesEach V 244 main_call0_v0 main_v5 main_v6 main_v209 _ _ _ _ _ rfl (by decide) (by decide) (by decide) (by decide)).trans (by rw [at_main_call0_v0, at_main_v5, at_main_v6]; rfl)

theorem at_main_v210 (V : Valuation τ sig (Elt F)) :
    after ops V (Proc.devRef .tc main_v210) = val_main_v210 (F := F) (V (Proc.devRef .tc main_arg0)) (V (Proc.devRef .tc main_arg1)) :=
  (after_ternary writesEach V 245 main_v207 main_v133 main_v206 main_v210 _ _ _ _ _ rfl (by decide) (by decide) (by decide) (by decide)).trans (by rw [at_main_v207, at_main_v133, at_main_v206]; rfl)

theorem at_main_v211 (V : Valuation τ sig (Elt F)) :
    after ops V (Proc.devRef .tc main_v211) = val_main_v211 (F := F) (V (Proc.devRef .tc main_arg0)) (V (Proc.devRef .tc main_arg1)) :=
  (after_unary writesEach V 246 main_v209 main_v211 _ _ _ rfl (by decide) (by decide)).trans (by rw [at_main_v209]; rfl)

theorem at_main_v212 (V : Valuation τ sig (Elt F)) :
    after ops V (Proc.devRef .tc main_v212) = val_main_v212 (F := F) (V (Proc.devRef .tc main_arg0)) (V (Proc.devRef .tc main_arg1)) :=
  (after_reshape writesEach V 247 main_v211 main_v212 rfl _ _ _ rfl (by decide) (by decide)).trans (by rw [at_main_v211]; rfl)

theorem at_main_v213 (V : Valuation τ sig (Elt F)) :
    after ops V (Proc.devRef .tc main_v213) = val_main_v213 (F := F) (V (Proc.devRef .tc main_arg0)) (V (Proc.devRef .tc main_arg1)) :=
  (after_unary writesEach V 248 main_v209 main_v213 _ _ _ rfl (by decide) (by decide)).trans (by rw [at_main_v209]; rfl)

theorem at_main_v214 (V : Valuation τ sig (Elt F)) :
    after ops V (Proc.devRef .tc main_v214) = val_main_v214 (F := F) (V (Proc.devRef .tc main_arg0)) (V (Proc.devRef .tc main_arg1)) :=
  (after_reshape writesEach V 249 main_v213 main_v214 rfl _ _ _ rfl (by decide) (by decide)).trans (by rw [at_main_v213]; rfl)

theorem at_main_v215 (V : Valuation τ sig (Elt F)) :
    after ops V (Proc.devRef .tc main_v215) = val_main_v215 (F := F) (V (Proc.devRef .tc main_arg0)) (V (Proc.devRef .tc main_arg1)) :=
  (after_unary writesEach V 250 main_v209 main_v215 _ _ _ rfl (by decide) (by decide)).trans (by rw [at_main_v209]; rfl)

theorem at_main_v216 (V : Valuation τ sig (Elt F)) :
    after ops V (Proc.devRef .tc main_v216) = val_main_v216 (F := F) (V (Proc.devRef .tc main_arg0)) (V (Proc.devRef .tc main_arg1)) :=
  (after_reshape writesEach V 251 main_v215 main_v216 rfl _ _ _ rfl (by decide) (by decide)).trans (by rw [at_main_v215]; rfl)

theorem at_main_v217 (V : Valuation τ sig (Elt F)) :
    after ops V (Proc.devRef .tc main_v217) = val_main_v217 (F := F) (V (Proc.devRef .tc main_arg0)) (V (Proc.devRef .tc main_arg1)) :=
  (after_unary writesEach V 252 main_v209 main_v217 _ _ _ rfl (by decide) (by decide)).trans (by rw [at_main_v209]; rfl)

theorem at_main_v218 (V : Valuation τ sig (Elt F)) :
    after ops V (Proc.devRef .tc main_v218) = val_main_v218 (F := F) (V (Proc.devRef .tc main_arg0)) (V (Proc.devRef .tc main_arg1)) :=
  (after_reshape writesEach V 253 main_v217 main_v218 rfl _ _ _ rfl (by decide) (by decide)).trans (by rw [at_main_v217]; rfl)

theorem at_main_v219 (V : Valuation τ sig (Elt F)) :
    after ops V (Proc.devRef .tc main_v219) = val_main_v219 (F := F) (V (Proc.devRef .tc main_arg1)) :=
  (after_unary writesEach V 254 main_arg1 main_v219 _ _ _ rfl (by decide) (by decide)).trans (by rw [at_main_arg1]; rfl)

theorem at_main_v220 (V : Valuation τ sig (Elt F)) :
    after ops V (Proc.devRef .tc main_v220) = val_main_v220 (F := F) (V (Proc.devRef .tc main_arg1)) :=
  (after_reshape writesEach V 255 main_v219 main_v220 rfl _ _ _ rfl (by decide) (by decide)).trans (by rw [at_main_v219]; rfl)

theorem at_main_v221 (V : Valuation τ sig (Elt F)) :
    after ops V (Proc.devRef .tc main_v221) = val_main_v221 (F := F) (V (Proc.devRef .tc main_arg1)) :=
  (after_unary writesEach V 256 main_arg1 main_v221 _ _ _ rfl (by decide) (by decide)).trans (by rw [at_main_arg1]; rfl)

theorem at_main_v222 (V : Valuation τ sig (Elt F)) :
    after ops V (Proc.devRef .tc main_v222) = val_main_v222 (F := F) (V (Proc.devRef .tc main_arg1)) :=
  (after_reshape writesEach V 257 main_v221 main_v222 rfl _ _ _ rfl (by decide) (by decide)).trans (by rw [at_main_v221]; rfl)

theorem at_main_v223 (V : Valuation τ sig (Elt F)) :
    after ops V (Proc.devRef .tc main_v223) = val_main_v223 (F := F) (V (Proc.devRef .tc main_arg1)) :=
  (after_unary writesEach V 258 main_arg1 main_v223 _ _ _ rfl (by decide) (by decide)).trans (by rw [at_main_arg1]; rfl)

theorem at_main_v224 (V : Valuation τ sig (Elt F)) :
    after ops V (Proc.devRef .tc main_v224) = val_main_v224 (F := F) (V (Proc.devRef .tc main_arg1)) :=
  (after_reshape writesEach V 259 main_v223 main_v224 rfl _ _ _ rfl (by decide) (by decide)).trans (by rw [at_main_v223]; rfl)

theorem at_main_v225 (V : Valuation τ sig (Elt F)) :
    after ops V (Proc.devRef .tc main_v225) = val_main_v225 (F := F) (V (Proc.devRef .tc main_arg1)) :=
  (after_unary writesEach V 260 main_arg1 main_v225 _ _ _ rfl (by decide) (by decide)).trans (by rw [at_main_arg1]; rfl)

theorem at_main_v226 (V : Valuation τ sig (Elt F)) :
    after ops V (Proc.devRef .tc main_v226) = val_main_v226 (F := F) (V (Proc.devRef .tc main_arg1)) :=
  (after_reshape writesEach V 261 main_v225 main_v226 rfl _ _ _ rfl (by decide) (by decide)).trans (by rw [at_main_v225]; rfl)

theorem at_main_v227 (V : Valuation τ sig (Elt F)) :
    after ops V (Proc.devRef .tc main_v227) = val_main_v227 (F := F) (V (Proc.devRef .tc main_arg0)) (V (Proc.devRef .tc main_arg1)) :=
  (after_binary writesEach V 262 main_v212 main_v220 main_v227 _ _ _ _ rfl (by decide) (by decide) (by decide)).trans (by rw [at_main_v212, at_main_v220]; rfl)

theorem at_main_v228 (V : Valuation τ sig (Elt F)) :
    after ops V (Proc.devRef .tc main_v228) = val_main_v228 (F := F) (V (Proc.devRef .tc main_arg0)) (V (Proc.devRef .tc main_arg1)) :=
  (after_binary writesEach V 263 main_v227 main_v227 main_v228 _ _ _ _ rfl (by decide) (by decide) (by decide)).trans (by rw [at_main_v227]; rfl)

theorem at_main_v229 (V : Valuation τ sig (Elt F)) :
    after ops V (Proc.devRef .tc main_v229) = val_main_v229 (F := F) (V (Proc.devRef .tc main_arg0)) (V (Proc.devRef .tc main_arg1)) :=
  (after_binary writesEach V 264 main_v214 main_v222 main_v229 _ _ _ _ rfl (by decide) (by decide) (by decide)).trans (by rw [at_main_v214, at_main_v222]; rfl)

theorem at_main_v230 (V : Valuation τ sig (Elt F)) :
    after ops V (Proc.devRef .tc main_v230) = val_main_v230 (F := F) (V (Proc.devRef .tc main_arg0)) (V (Proc.devRef .tc main_arg1)) :=
  (after_binary writesEach V 265 main_v229 main_v229 main_v230 _ _ _ _ rfl (by decide) (by decide) (by decide)).trans (by rw [at_main_v229]; rfl)

theorem at_main_v231 (V : Valuation τ sig (Elt F)) :
    after ops V (Proc.devRef .tc main_v231) = val_main_v231 (F := F) (V (Proc.devRef .tc main_arg0)) (V (Proc.devRef .tc main_arg1)) :=
  (after_binary writesEach V 266 main_v228 main_v230 main_v231 _ _ _ _ rfl (by decide) (by decide) (by decide)).trans (by rw [at_main_v228, at_main_v230]; rfl)

theorem at_main_v232 (V : Valuation τ sig (Elt F)) :
    after ops V (Proc.devRef .tc main_v232) = val_main_v232 (F := F) (V (Proc.devRef .tc main_arg0)) (V (Proc.devRef .tc main_arg1)) :=
  (after_unary writesEach V 267 main_v216 main_v232 _ _ _ rfl (by decide) (by decide)).trans (by rw [at_main_v216]; rfl)

theorem at_main_v233 (V : Valuation τ sig (Elt F)) :
    after ops V (Proc.devRef .tc main_v233) = val_main_v233 (F := F) (V (Proc.devRef .tc main_arg1)) :=
  (after_unary writesEach V 268 main_v224 main_v233 _ _ _ rfl (by decide) (by decide)).trans (by rw [at_main_v224]; rfl)

theorem at_main_v234 (V : Valuation τ sig (Elt F)) :
    after ops V (Proc.devRef .tc main_v234) = val_main_v234 (F := F) (V (Proc.devRef .tc main_arg0)) (V (Proc.devRef .tc main_arg1)) :=
  (after_binary writesEach V 269 main_v232 main_v233 main_v234 _ _ _ _ rfl (by decide) (by decide) (by decide)).trans (by rw [at_main_v232, at_main_v233]; rfl)

theorem at_main_v235 (V : Valuation τ sig (Elt F)) :
    after ops V (Proc.devRef .tc main_v235) = val_main_v235 (F := F) (V (Proc.devRef .tc main_arg0)) (V (Proc.devRef .tc main_arg1)) :=
  (after_binary writesEach V 270 main_v234 main_v234 main_v235 _ _ _ _ rfl (by decide) (by decide) (by decide)).trans (by rw [at_main_v234]; rfl)

theorem at_main_v236 (V : Valuation τ sig (Elt F)) :
    after ops V (Proc.devRef .tc main_v236) = val_main_v236 (F := F) (V (Proc.devRef .tc main_arg0)) (V (Proc.devRef .tc main_arg1)) :=
  (after_binary writesEach V 271 main_v231 main_v235 main_v236 _ _ _ _ rfl (by decide) (by decide) (by decide)).trans (by rw [at_main_v231, at_main_v235]; rfl)

theorem at_main_v237 (V : Valuation τ sig (Elt F)) :
    after ops V (Proc.devRef .tc main_v237) = val_main_v237 (F := F) (V (Proc.devRef .tc main_arg0)) (V (Proc.devRef .tc main_arg1)) :=
  (after_unary writesEach V 272 main_v218 main_v237 _ _ _ rfl (by decide) (by decide)).trans (by rw [at_main_v218]; rfl)

theorem at_main_v238 (V : Valuation τ sig (Elt F)) :
    after ops V (Proc.devRef .tc main_v238) = val_main_v238 (F := F) (V (Proc.devRef .tc main_arg1)) :=
  (after_unary writesEach V 273 main_v226 main_v238 _ _ _ rfl (by decide) (by decide)).trans (by rw [at_main_v226]; rfl)

theorem at_main_v239 (V : Valuation τ sig (Elt F)) :
    after ops V (Proc.devRef .tc main_v239) = val_main_v239 (F := F) (V (Proc.devRef .tc main_arg0)) (V (Proc.devRef .tc main_arg1)) :=
  (after_binary writesEach V 274 main_v237 main_v238 main_v239 _ _ _ _ rfl (by decide) (by decide) (by decide)).trans (by rw [at_main_v237, at_main_v238]; rfl)

theorem at_main_v240 (V : Valuation τ sig (Elt F)) :
    after ops V (Proc.devRef .tc main_v240) = val_main_v240 (F := F) (V (Proc.devRef .tc main_arg0)) (V (Proc.devRef .tc main_arg1)) :=
  (after_binary writesEach V 275 main_v239 main_v239 main_v240 _ _ _ _ rfl (by decide) (by decide) (by decide)).trans (by rw [at_main_v239]; rfl)

theorem at_main_v241 (V : Valuation τ sig (Elt F)) :
    after ops V (Proc.devRef .tc main_v241) = val_main_v241 (F := F) (V (Proc.devRef .tc main_arg0)) (V (Proc.devRef .tc main_arg1)) :=
  (after_binary writesEach V 276 main_v236 main_v240 main_v241 _ _ _ _ rfl (by decide) (by decide) (by decide)).trans (by rw [at_main_v236, at_main_v240]; rfl)

theorem at_main_v242 (V : Valuation τ sig (Elt F)) :
    after ops V (Proc.devRef .tc main_v242) = val_main_v242 (F := F) (V (Proc.devRef .tc main_arg0)) (V (Proc.devRef .tc main_arg1)) (V (Proc.devRef .tc main_arg3)) :=
  (after_binary writesEach V 277 main_v0 main_v241 main_v242 _ _ _ _ rfl (by decide) (by decide) (by decide)).trans (by rw [at_main_v0, at_main_v241]; rfl)

theorem at_main_cst_33 (V : Valuation τ sig (Elt F)) :
    after ops V (Proc.devRef .tc main_cst_33) = val_main_cst_33 (F := F) :=
  (after_nullary writesEach V 278 main_cst_33 _ _ rfl (by decide)).trans rfl

theorem at_main_v243 (V : Valuation τ sig (Elt F)) :
    after ops V (Proc.devRef .tc main_v243) = val_main_v243 (F := F) (V (Proc.devRef .tc main_arg0)) (V (Proc.devRef .tc main_arg1)) (V (Proc.devRef .tc main_arg3)) :=
  (after_binary writesEach V 279 main_v242 main_cst_33 main_v243 _ _ _ _ rfl (by decide) (by decide) (by decide)).trans (by rw [at_main_v242, at_main_cst_33]; rfl)

theorem at_main_cst_34 (V : Valuation τ sig (Elt F)) :
    after ops V (Proc.devRef .tc main_cst_34) = val_main_cst_34 (F := F) :=
  (after_nullary writesEach V 280 main_cst_34 _ _ rfl (by decide)).trans rfl

theorem at_main_v244 (V : Valuation τ sig (Elt F)) :
    after ops V (Proc.devRef .tc main_v244) = val_main_v244 (F := F) (V (Proc.devRef .tc main_arg0)) (V (Proc.devRef .tc main_arg1)) (V (Proc.devRef .tc main_arg3)) :=
  (after_binary writesEach V 281 main_v243 main_cst_34 main_v244 _ _ _ _ rfl (by decide) (by decide) (by decide)).trans (by rw [at_main_v243, at_main_cst_34]; rfl)

theorem at_main_v245 (V : Valuation τ sig (Elt F)) :
    after ops V (Proc.devRef .tc main_v245) = val_main_v245 (F := F) (V (Proc.devRef .tc main_arg0)) (V (Proc.devRef .tc main_arg1)) (V (Proc.devRef .tc main_arg3)) :=
  (after_binary writesEach V 282 main_v244 main_v3 main_v245 _ _ _ _ rfl (by decide) (by decide) (by decide)).trans (by rw [at_main_v244, at_main_v3]; rfl)

theorem at_main_v246 (V : Valuation τ sig (Elt F)) :
    after ops V (Proc.devRef .tc main_v246) = val_main_v246 (F := F) (V (Proc.devRef .tc main_arg0)) (V (Proc.devRef .tc main_arg1)) :=
  (after_unary writesEach V 283 main_v209 main_v246 _ _ _ rfl (by decide) (by decide)).trans (by rw [at_main_v209]; rfl)

theorem at_main_v247 (V : Valuation τ sig (Elt F)) :
    after ops V (Proc.devRef .tc main_v247) = val_main_v247 (F := F) (V (Proc.devRef .tc main_arg0)) (V (Proc.devRef .tc main_arg1)) :=
  (after_reshape writesEach V 284 main_v246 main_v247 rfl _ _ _ rfl (by decide) (by decide)).trans (by rw [at_main_v246]; rfl)

theorem at_main_v248 (V : Valuation τ sig (Elt F)) :
    after ops V (Proc.devRef .tc main_v248) = val_main_v248 (F := F) (V (Proc.devRef .tc main_arg0)) (V (Proc.devRef .tc main_arg1)) :=
  (after_binary writesEach V 285 main_v247 main_v210 main_v248 _ _ _ _ rfl (by decide) (by decide) (by decide)).trans (by rw [at_main_v247, at_main_v210]; rfl)

theorem at_main_v249 (V : Valuation τ sig (Elt F)) :
    after ops V (Proc.devRef .tc main_v249) = val_main_v249 (F := F) (V (Proc.devRef .tc main_arg0)) (V (Proc.devRef .tc main_arg1)) :=
  (after_binary writesEach V 286 main_v248 main_v248 main_v249 _ _ _ _ rfl (by decide) (by decide) (by decide)).trans (by rw [at_main_v248]; rfl)

theorem at_main_v250 (V : Valuation τ sig (Elt F)) :
    after ops V (Proc.devRef .tc main_v250) = val_main_v250 (F := F) (V (Proc.devRef .tc main_arg0)) (V (Proc.devRef .tc main_arg1)) (V (Proc.devRef .tc main_arg3)) :=
  (after_binary writesEach V 287 main_v0 main_v249 main_v250 _ _ _ _ rfl (by decide) (by decide) (by decide)).trans (by rw [at_main_v0, at_main_v249]; rfl)

theorem at_main_cst_35 (V : Valuation τ sig (Elt F)) :
    after ops V (Proc.devRef .tc main_cst_35) = val_main_cst_35 (F := F) :=
  (after_nullary writesEach V 288 main_cst_35 _ _ rfl (by decide)).trans rfl

theorem at_main_v251 (V : Valuation τ sig (Elt F)) :
    after ops V (Proc.devRef .tc main_v251) = val_main_v251 (F := F) (V (Proc.devRef .tc main_arg0)) (V (Proc.devRef .tc main_arg1)) (V (Proc.devRef .tc main_arg3)) :=
  (after_binary writesEach V 289 main_v250 main_cst_35 main_v251 _ _ _ _ rfl (by decide) (by decide) (by decide)).trans (by rw [at_main_v250, at_main_cst_35]; rfl)

theorem at_main_v252 (V : Valuation τ sig (Elt F)) :
    after ops V (Proc.devRef .tc main_v252) = val_main_v252 (F := F) (V (Proc.devRef .tc main_arg0)) (V (Proc.devRef .tc main_arg1)) (V (Proc.devRef .tc main_arg3)) :=
  (after_binary writesEach V 290 main_v251 main_v3 main_v252 _ _ _ _ rfl (by decide) (by decide) (by decide)).trans (by rw [at_main_v251, at_main_v3]; rfl)

theorem at_main_v253 (V : Valuation τ sig (Elt F)) :
    after ops V (Proc.devRef .tc main_v253) = val_main_v253 (F := F) (V (Proc.devRef .tc main_arg0)) (V (Proc.devRef .tc main_arg1)) (V (Proc.devRef .tc main_arg3)) :=
  (after_binary writesEach V 291 main_v245 main_v252 main_v253 _ _ _ _ rfl (by decide) (by decide) (by decide)).trans (by rw [at_main_v245, at_main_v252]; rfl)

theorem at_main_v254 (V : Valuation τ sig (Elt F)) :
    after ops V (Proc.devRef .tc main_v254) = val_main_v254 (F := F) (V (Proc.devRef .tc main_arg0)) (V (Proc.devRef .tc main_arg1)) (V (Proc.devRef .tc main_arg3)) :=
  (after_binary writesEach V 292 main_v253 main_v27 main_v254 _ _ _ _ rfl (by decide) (by decide) (by decide)).trans (by rw [at_main_v253, at_main_v27]; rfl)

theorem at_main_v255 (V : Valuation τ sig (Elt F)) :
    after ops V (Proc.devRef .tc main_v255) = val_main_v255 (F := F) (V (Proc.devRef .tc main_arg0)) (V (Proc.devRef .tc main_arg1)) (V (Proc.devRef .tc main_arg2)) (V (Proc.devRef .tc main_arg3)) :=
  (after_binary writesEach V 293 main_v254 main_v14 main_v255 _ _ _ _ rfl (by decide) (by decide) (by decide)).trans (by rw [at_main_v254, at_main_v14]; rfl)

/-- Every weakly fair execution of @main terminates with each result at its stage of the launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v255) = val_main_v255 (F := F) (m ((c.tc : Thread nD τ).loc main_arg0)) (m ((c.tc : Thread nD τ).loc main_arg1)) (m ((c.tc : Thread nD τ).loc main_arg2)) (m ((c.tc : Thread nD τ).loc main_arg3))
      ∧       r.2.mem ((c.tc : Thread nD τ).loc main_v245) = val_main_v245 (F := F) (m ((c.tc : Thread nD τ).loc main_arg0)) (m ((c.tc : Thread nD τ).loc main_arg1)) (m ((c.tc : Thread nD τ).loc main_arg3))
      ∧       r.2.mem ((c.tc : Thread nD τ).loc main_v252) = val_main_v252 (F := F) (m ((c.tc : Thread nD τ).loc main_arg0)) (m ((c.tc : Thread nD τ).loc main_arg1)) (m ((c.tc : Thread nD τ).loc main_arg3))
      ∧       r.2.mem ((c.tc : Thread nD τ).loc main_v27) = val_main_v27 (F := F) (m ((c.tc : Thread nD τ).loc main_arg0)) (m ((c.tc : Thread nD τ).loc main_arg3))
      ∧       r.2.mem ((c.tc : Thread nD τ).loc main_v14) = val_main_v14 (F := F) (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v255).trans (at_main_v255 _),
      (h c main_v245).trans (at_main_v245 _),
      (h c main_v252).trans (at_main_v252 _),
      (h c main_v27).trans (at_main_v27 _),
      (h c main_v14).trans (at_main_v14 _),
      (h c main_arg0).trans (at_main_arg0 _),
      (h c main_arg1).trans (at_main_arg1 _),
      (h c main_arg2).trans (at_main_arg2 _),
      (h c main_arg3).trans (at_main_arg3 _)⟩)
    (run_seq scopedRefs_eq scopedSems_eq defs main (fun _ => ops) main_eq (fun _ => ops_sub) m ρ)

end Cert.ReferenceIdeal.Stages

end
-- ==== Proof.RefCells.lean ====
/-
  The reference, cell by cell: each of its stages that lives on the grid of cells, read at a cell (n, i, j), is the
  per-cell function of that cell's numbers.  The reference stacks the four corners of a box into a 4-channel array and
  slices them out again; read at a channel this is just the corner.  Its `where` on a 5-channel array is the
  responsible box's entries.
-/
import proofs.«169991_j1297080123428_2_alg».proof.Proof.RefStages
import proofs.«169991_j1297080123428_2_alg».proof.Proof.LibLastAxis
import proofs.«169991_j1297080123428_2_alg».proof.Proof.Spec

noncomputable section

namespace Cert.ReferenceIdeal.Cells

open Cert.ReferenceIdeal Cert.ReferenceIdeal.Stages Idealize.ShloMosaic Idealize.ShloMosaic.ValueIdx

/-- The thirty predicted numbers of cell (n, i, j). -/
abbrev cellP (x0 : (⟨S4096x14x14x30, .f32⟩ : BufTy).Contents (Elt Ideal)) (n : Fin 4096) (i j : Fin 14) : Fin 30 → Yolo.R := fun c => x0 (ix4 n i j c)
/-- Its target box. -/
abbrev cellB (x1 : (⟨S4096x14x14x4, .f32⟩ : BufTy).Contents (Elt Ideal)) (n : Fin 4096) (i j : Fin 14) : Fin 4 → Yolo.R := fun c => x1 (ix4 n i j c)
/-- Its target class scores. -/
abbrev cellC (x2 : (⟨S4096x14x14x20, .f32⟩ : BufTy).Contents (Elt Ideal)) (n : Fin 4096) (i j : Fin 14) : Fin 20 → Yolo.R := fun c => x2 (ix4 n i j c)
/-- Its object indicator, as a number. -/
abbrev cellO (x3 : (⟨S4096x14x14, .i1⟩ : BufTy).Contents (Elt Ideal)) (n : Fin 4096) (i j : Fin 14) : Yolo.R := FloatOps.uitofp (F := Ideal) .f32 (x3 (ix3 n i j))

/-- The stacked corners of the target box: channel k is the k-th of (x1, y1, x2, y2). -/
theorem tgt_corners (x1 : (⟨S4096x14x14x4, .f32⟩ : BufTy).Contents (Elt Ideal)) (n : Fin 4096) (i j : Fin 14) (k : Fin 4) :
    val_main_v60 (F := Ideal) x1 (ix4 n i j k)
      = ![Yolo.lo (cellB x1 n i j 0) (cellB x1 n i j 2), Yolo.lo (cellB x1 n i j 1) (cellB x1 n i j 3),
          Yolo.hi (cellB x1 n i j 0) (cellB x1 n i j 2), Yolo.hi (cellB x1 n i j 1) (cellB x1 n i j 3)] k := by
  simp only [val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_cst_7, val_main_cst_8, val_main_cst_9, val_main_cst_10, val_main_cst_11, val_main_cst_12, val_main_cst_13, val_main_cst_14, mulf_apply, addf_apply, subf_apply, maximumf_apply, minimumf_apply, divf_apply, hostDivf_apply, hostSqrt_apply, sqrt_apply, cmpf_apply, select_apply, uitofp_apply, constant_apply, broadcast_apply, Ideal.hostDivf_def, Ideal.hostUnary_sqrt_def, Ideal.sqrt_def, slice4_axis3_apply, shapeCast_abc1_abc_apply, shapeCast_abc_abc1_apply, broadcastTo_abc1_abcd_apply, broadcastInDim_abc_abc1_apply, broadcastInDim_abc1_abcd_apply, broadcastInDim_scalar_apply, concatenate4_last_apply, Yolo.iou1, Yolo.iou2, Yolo.iou, Yolo.overlap, Yolo.lo, Yolo.hi, Yolo.take, Yolo.best, Yolo.bestIou, Yolo.regCell, Yolo.confCell, Yolo.clsTerm, Yolo.noTerm1, Yolo.noTerm2]
  all_goals rfl

/-- The stacked corners of the first predicted box. -/
theorem pred1_corners (x0 : (⟨S4096x14x14x30, .f32⟩ : BufTy).Contents (Elt Ideal)) (n : Fin 4096) (i j : Fin 14) (k : Fin 4) :
    val_main_v94 (F := Ideal) x0 (ix4 n i j k)
      = ![Yolo.lo (cellP x0 n i j 0) (cellP x0 n i j 2), Yolo.lo (cellP x0 n i j 1) (cellP x0 n i j 3),
          Yolo.hi (cellP x0 n i j 0) (cellP x0 n i j 2), Yolo.hi (cellP x0 n i j 1) (cellP x0 n i j 3)] k := by
  simp only [val_main_v5, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_cst_15, val_main_cst_16, val_main_cst_17, val_main_cst_18, val_main_cst_19, val_main_cst_20, val_main_cst_21, val_main_cst_22, mulf_apply, addf_apply, subf_apply, maximumf_apply, minimumf_apply, divf_apply, hostDivf_apply, hostSqrt_apply, sqrt_apply, cmpf_apply, select_apply, uitofp_apply, constant_apply, broadcast_apply, Ideal.hostDivf_def, Ideal.hostUnary_sqrt_def, Ideal.sqrt_def, slice4_axis3_apply, shapeCast_abc1_abc_apply, shapeCast_abc_abc1_apply, broadcastTo_abc1_abcd_apply, broadcastInDim_abc_abc1_apply, broadcastInDim_abc1_abcd_apply, broadcastInDim_scalar_apply, concatenate4_last_apply, Yolo.iou1, Yolo.iou2, Yolo.iou, Yolo.overlap, Yolo.lo, Yolo.hi, Yolo.take, Yolo.best, Yolo.bestIou, Yolo.regCell, Yolo.confCell, Yolo.clsTerm, Yolo.noTerm1, Yolo.noTerm2]
  all_goals rfl

/-- The stacked corners of the second predicted box. -/
theorem pred2_corners (x0 : (⟨S4096x14x14x30, .f32⟩ : BufTy).Contents (Elt Ideal)) (n : Fin 4096) (i j : Fin 14) (k : Fin 4) :
    val_main_v167 (F := Ideal) x0 (ix4 n i j k)
      = ![Yolo.lo (cellP x0 n i j 5) (cellP x0 n i j 7), Yolo.lo (cellP x0 n i j 6) (cellP x0 n i j 8),
          Yolo.hi (cellP x0 n i j 5) (cellP x0 n i j 7), Yolo.hi (cellP x0 n i j 6) (cellP x0 n i j 8)] k := by
  simp only [val_main_v6, val_main_v134, val_main_v135, val_main_v136, val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_cst_24, val_main_cst_25, val_main_cst_26, val_main_cst_27, val_main_cst_28, val_main_cst_29, val_main_cst_30, val_main_cst_31, mulf_apply, addf_apply, subf_apply, maximumf_apply, minimumf_apply, divf_apply, hostDivf_apply, hostSqrt_apply, sqrt_apply, cmpf_apply, select_apply, uitofp_apply, constant_apply, broadcast_apply, Ideal.hostDivf_def, Ideal.hostUnary_sqrt_def, Ideal.sqrt_def, slice4_axis3_apply, shapeCast_abc1_abc_apply, shapeCast_abc_abc1_apply, broadcastTo_abc1_abcd_apply, broadcastInDim_abc_abc1_apply, broadcastInDim_abc1_abcd_apply, broadcastInDim_scalar_apply, concatenate4_last_apply, Yolo.iou1, Yolo.iou2, Yolo.iou, Yolo.overlap, Yolo.lo, Yolo.hi, Yolo.take, Yolo.best, Yolo.bestIou, Yolo.regCell, Yolo.confCell, Yolo.clsTerm, Yolo.noTerm1, Yolo.noTerm2]
  all_goals rfl

/-- The overlap ratio of the first predicted box with the target. -/
theorem iou1_apply (x0 : (⟨S4096x14x14x30, .f32⟩ : BufTy).Contents (Elt Ideal)) (x1 : (⟨S4096x14x14x4, .f32⟩ : BufTy).Contents (Elt Ideal)) (n : Fin 4096) (i j : Fin 14) :
    val_main_v133 (F := Ideal) x0 x1 (ix3 n i j) = Yolo.iou1 (cellP x0 n i j) (cellB x1 n i j) := by
  simp only [val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_cst_23, mulf_apply, addf_apply, subf_apply, maximumf_apply, minimumf_apply, divf_apply, hostDivf_apply, hostSqrt_apply, sqrt_apply, cmpf_apply, select_apply, uitofp_apply, constant_apply, broadcast_apply, Ideal.hostDivf_def, Ideal.hostUnary_sqrt_def, Ideal.sqrt_def, slice4_axis3_apply, shapeCast_abc1_abc_apply, shapeCast_abc_abc1_apply, broadcastTo_abc1_abcd_apply, broadcastInDim_abc_abc1_apply, broadcastInDim_abc1_abcd_apply, broadcastInDim_scalar_apply, concatenate4_last_apply, tgt_corners, pred1_corners, Yolo.iou1, Yolo.iou2, Yolo.iou, Yolo.overlap, Yolo.lo, Yolo.hi, Yolo.take, Yolo.best, Yolo.bestIou, Yolo.regCell, Yolo.confCell, Yolo.clsTerm, Yolo.noTerm1, Yolo.noTerm2]
  all_goals rfl

/-- The overlap ratio of the second predicted box with the target. -/
theorem iou2_apply (x0 : (⟨S4096x14x14x30, .f32⟩ : BufTy).Contents (Elt Ideal)) (x1 : (⟨S4096x14x14x4, .f32⟩ : BufTy).Contents (Elt Ideal)) (n : Fin 4096) (i j : Fin 14) :
    val_main_v206 (F := Ideal) x0 x1 (ix3 n i j) = Yolo.iou2 (cellP x0 n i j) (cellB x1 n i j) := by
  simp only [val_main_v168, val_main_v169, val_main_v170, val_main_v171, val_main_v172, val_main_v173, val_main_v174, val_main_v175, val_main_v176, val_main_v177, val_main_v178, val_main_v179, val_main_v180, val_main_v181, val_main_v182, val_main_v183, val_main_v184, val_main_v185, val_main_v186, val_main_v187, val_main_v188, val_main_v189, val_main_v190, val_main_v191, val_main_v192, val_main_v193, val_main_v194, val_main_v195, val_main_v196, val_main_v197, val_main_v198, val_main_v199, val_main_v200, val_main_v201, val_main_v202, val_main_v203, val_main_v204, val_main_v205, val_main_v206, val_main_cst_32, mulf_apply, addf_apply, subf_apply, maximumf_apply, minimumf_apply, divf_apply, hostDivf_apply, hostSqrt_apply, sqrt_apply, cmpf_apply, select_apply, uitofp_apply, constant_apply, broadcast_apply, Ideal.hostDivf_def, Ideal.hostUnary_sqrt_def, Ideal.sqrt_def, slice4_axis3_apply, shapeCast_abc1_abc_apply, shapeCast_abc_abc1_apply, broadcastTo_abc1_abcd_apply, broadcastInDim_abc_abc1_apply, broadcastInDim_abc1_abcd_apply, broadcastInDim_scalar_apply, concatenate4_last_apply, tgt_corners, pred2_corners, Yolo.iou1, Yolo.iou2, Yolo.iou, Yolo.overlap, Yolo.lo, Yolo.hi, Yolo.take, Yolo.best, Yolo.bestIou, Yolo.regCell, Yolo.confCell, Yolo.clsTerm, Yolo.noTerm1, Yolo.noTerm2]
  all_goals rfl

/-- Which box is responsible. -/
theorem take_apply (x0 : (⟨S4096x14x14x30, .f32⟩ : BufTy).Contents (Elt Ideal)) (x1 : (⟨S4096x14x14x4, .f32⟩ : BufTy).Contents (Elt Ideal)) (n : Fin 4096) (i j : Fin 14) :
    val_main_v207 (F := Ideal) x0 x1 (ix3 n i j) = Yolo.take (cellP x0 n i j) (cellB x1 n i j) := by
  simp only [val_main_v207, cmpf_apply, iou1_apply, iou2_apply, Yolo.take]

/-- The responsible box's ratio. -/
theorem bestIou_apply (x0 : (⟨S4096x14x14x30, .f32⟩ : BufTy).Contents (Elt Ideal)) (x1 : (⟨S4096x14x14x4, .f32⟩ : BufTy).Contents (Elt Ideal)) (n : Fin 4096) (i j : Fin 14) :
    val_main_v210 (F := Ideal) x0 x1 (ix3 n i j) = Yolo.bestIou (cellP x0 n i j) (cellB x1 n i j) := by
  simp only [val_main_v210, select_apply, take_apply, iou1_apply, iou2_apply, Yolo.bestIou]

/-- The responsible box's entries. -/
theorem best_apply (x0 : (⟨S4096x14x14x30, .f32⟩ : BufTy).Contents (Elt Ideal)) (x1 : (⟨S4096x14x14x4, .f32⟩ : BufTy).Contents (Elt Ideal)) (n : Fin 4096) (i j : Fin 14) (k : Fin 5) :
    val_main_v209 (F := Ideal) x0 x1 (ix4 n i j k) = Yolo.best (cellP x0 n i j) (cellB x1 n i j) k := by
  simp only [val_main_v209, val_main_call0_v0, val_main_v208, val_main_v5, val_main_v6, mulf_apply, addf_apply, subf_apply, maximumf_apply, minimumf_apply, divf_apply, hostDivf_apply, hostSqrt_apply, sqrt_apply, cmpf_apply, select_apply, uitofp_apply, constant_apply, broadcast_apply, Ideal.hostDivf_def, Ideal.hostUnary_sqrt_def, Ideal.sqrt_def, slice4_axis3_apply, shapeCast_abc1_abc_apply, shapeCast_abc_abc1_apply, broadcastTo_abc1_abcd_apply, broadcastInDim_abc_abc1_apply, broadcastInDim_abc1_abcd_apply, broadcastInDim_scalar_apply, concatenate4_last_apply, take_apply, Yolo.best]
  all_goals rfl

/-- The object indicator as a number. -/
theorem obj_apply (x3 : (⟨S4096x14x14, .i1⟩ : BufTy).Contents (Elt Ideal)) (n : Fin 4096) (i j : Fin 14) : val_main_v0 (F := Ideal) x3 (ix3 n i j) = cellO x3 n i j := rfl

/-- One minus it. -/
theorem noobj_apply (x3 : (⟨S4096x14x14, .i1⟩ : BufTy).Contents (Elt Ideal)) (n : Fin 4096) (i j : Fin 14) : val_main_v2 (F := Ideal) x3 (ix3 n i j) = Yolo.one - cellO x3 n i j := by
  simp only [val_main_v2, val_main_v1, val_main_cst, val_main_v0, mulf_apply, addf_apply, subf_apply, maximumf_apply, minimumf_apply, divf_apply, hostDivf_apply, hostSqrt_apply, sqrt_apply, cmpf_apply, select_apply, uitofp_apply, constant_apply, broadcast_apply, Ideal.hostDivf_def, Ideal.hostUnary_sqrt_def, Ideal.sqrt_def, slice4_axis3_apply, shapeCast_abc1_abc_apply, shapeCast_abc_abc1_apply, broadcastTo_abc1_abcd_apply, broadcastInDim_abc_abc1_apply, broadcastInDim_abc1_abcd_apply, broadcastInDim_scalar_apply, concatenate4_last_apply]
  all_goals rfl

/-- The regression summand. -/
theorem reg_apply (x0 : (⟨S4096x14x14x30, .f32⟩ : BufTy).Contents (Elt Ideal)) (x1 : (⟨S4096x14x14x4, .f32⟩ : BufTy).Contents (Elt Ideal)) (x3 : (⟨S4096x14x14, .i1⟩ : BufTy).Contents (Elt Ideal)) (n : Fin 4096) (i j : Fin 14) :
    val_main_v242 (F := Ideal) x0 x1 x3 (ix3 n i j)
      = Yolo.regCell (cellP x0 n i j) (cellB x1 n i j) (cellO x3 n i j) := by
  simp only [val_main_v211, val_main_v212, val_main_v213, val_main_v214, val_main_v215, val_main_v216, val_main_v217, val_main_v218, val_main_v219, val_main_v220, val_main_v221, val_main_v222, val_main_v223, val_main_v224, val_main_v225, val_main_v226, val_main_v227, val_main_v228, val_main_v229, val_main_v230, val_main_v231, val_main_v232, val_main_v233, val_main_v234, val_main_v235, val_main_v236, val_main_v237, val_main_v238, val_main_v239, val_main_v240, val_main_v241, val_main_v242, mulf_apply, addf_apply, subf_apply, maximumf_apply, minimumf_apply, divf_apply, hostDivf_apply, hostSqrt_apply, sqrt_apply, cmpf_apply, select_apply, uitofp_apply, constant_apply, broadcast_apply, Ideal.hostDivf_def, Ideal.hostUnary_sqrt_def, Ideal.sqrt_def, slice4_axis3_apply, shapeCast_abc1_abc_apply, shapeCast_abc_abc1_apply, broadcastTo_abc1_abcd_apply, broadcastInDim_abc_abc1_apply, broadcastInDim_abc1_abcd_apply, broadcastInDim_scalar_apply, concatenate4_last_apply, best_apply, obj_apply, Yolo.regCell]
  all_goals rfl

/-- The confidence summand. -/
theorem conf_apply (x0 : (⟨S4096x14x14x30, .f32⟩ : BufTy).Contents (Elt Ideal)) (x1 : (⟨S4096x14x14x4, .f32⟩ : BufTy).Contents (Elt Ideal)) (x3 : (⟨S4096x14x14, .i1⟩ : BufTy).Contents (Elt Ideal)) (n : Fin 4096) (i j : Fin 14) :
    val_main_v250 (F := Ideal) x0 x1 x3 (ix3 n i j)
      = Yolo.confCell (cellP x0 n i j) (cellB x1 n i j) (cellO x3 n i j) := by
  simp only [val_main_v246, val_main_v247, val_main_v248, val_main_v249, val_main_v250, mulf_apply, addf_apply, subf_apply, maximumf_apply, minimumf_apply, divf_apply, hostDivf_apply, hostSqrt_apply, sqrt_apply, cmpf_apply, select_apply, uitofp_apply, constant_apply, broadcast_apply, Ideal.hostDivf_def, Ideal.hostUnary_sqrt_def, Ideal.sqrt_def, slice4_axis3_apply, shapeCast_abc1_abc_apply, shapeCast_abc_abc1_apply, broadcastTo_abc1_abcd_apply, broadcastInDim_abc_abc1_apply, broadcastInDim_abc1_abcd_apply, broadcastInDim_scalar_apply, concatenate4_last_apply, best_apply, bestIou_apply, obj_apply, Yolo.confCell]
  all_goals rfl

/-- The class summand. -/
theorem cls_apply (x0 : (⟨S4096x14x14x30, .f32⟩ : BufTy).Contents (Elt Ideal)) (x2 : (⟨S4096x14x14x20, .f32⟩ : BufTy).Contents (Elt Ideal)) (x3 : (⟨S4096x14x14, .i1⟩ : BufTy).Contents (Elt Ideal)) (n : Fin 4096) (i j : Fin 14) (c : Fin 20) :
    val_main_v12 (F := Ideal) x0 x2 x3 (ix4 n i j c)
      = Yolo.clsTerm (cellP x0 n i j) (cellC x2 n i j) (cellO x3 n i j) c := by
  simp only [val_main_v7, val_main_v8, val_main_v9, val_main_v10, val_main_v11, val_main_v12, mulf_apply, addf_apply, subf_apply, maximumf_apply, minimumf_apply, divf_apply, hostDivf_apply, hostSqrt_apply, sqrt_apply, cmpf_apply, select_apply, uitofp_apply, constant_apply, broadcast_apply, Ideal.hostDivf_def, Ideal.hostUnary_sqrt_def, Ideal.sqrt_def, slice4_axis3_apply, shapeCast_abc1_abc_apply, shapeCast_abc_abc1_apply, broadcastTo_abc1_abcd_apply, broadcastInDim_abc_abc1_apply, broadcastInDim_abc1_abcd_apply, broadcastInDim_scalar_apply, concatenate4_last_apply, obj_apply, Yolo.clsTerm]
  all_goals rfl

/-- The no-object summand of the first box. -/
theorem no1_apply (x0 : (⟨S4096x14x14x30, .f32⟩ : BufTy).Contents (Elt Ideal)) (x3 : (⟨S4096x14x14, .i1⟩ : BufTy).Contents (Elt Ideal)) (n : Fin 4096) (i j : Fin 14) (c : Fin 5) :
    val_main_v18 (F := Ideal) x0 x3 (ix4 n i j c) = Yolo.noTerm1 (cellP x0 n i j) (cellO x3 n i j) c := by
  simp only [val_main_v5, val_main_v15, val_main_v16, val_main_v17, val_main_v18, mulf_apply, addf_apply, subf_apply, maximumf_apply, minimumf_apply, divf_apply, hostDivf_apply, hostSqrt_apply, sqrt_apply, cmpf_apply, select_apply, uitofp_apply, constant_apply, broadcast_apply, Ideal.hostDivf_def, Ideal.hostUnary_sqrt_def, Ideal.sqrt_def, slice4_axis3_apply, shapeCast_abc1_abc_apply, shapeCast_abc_abc1_apply, broadcastTo_abc1_abcd_apply, broadcastInDim_abc_abc1_apply, broadcastInDim_abc1_abcd_apply, broadcastInDim_scalar_apply, concatenate4_last_apply, noobj_apply, Yolo.noTerm1]
  all_goals rfl

/-- The no-object summand of the second box. -/
theorem no2_apply (x0 : (⟨S4096x14x14x30, .f32⟩ : BufTy).Contents (Elt Ideal)) (x3 : (⟨S4096x14x14, .i1⟩ : BufTy).Contents (Elt Ideal)) (n : Fin 4096) (i j : Fin 14) (c : Fin 5) :
    val_main_v23 (F := Ideal) x0 x3 (ix4 n i j c) = Yolo.noTerm2 (cellP x0 n i j) (cellO x3 n i j) c := by
  simp only [val_main_v6, val_main_v20, val_main_v21, val_main_v22, val_main_v23, mulf_apply, addf_apply, subf_apply, maximumf_apply, minimumf_apply, divf_apply, hostDivf_apply, hostSqrt_apply, sqrt_apply, cmpf_apply, select_apply, uitofp_apply, constant_apply, broadcast_apply, Ideal.hostDivf_def, Ideal.hostUnary_sqrt_def, Ideal.sqrt_def, slice4_axis3_apply, shapeCast_abc1_abc_apply, shapeCast_abc_abc1_apply, broadcastTo_abc1_abcd_apply, broadcastInDim_abc_abc1_apply, broadcastInDim_abc1_abcd_apply, broadcastInDim_scalar_apply, concatenate4_last_apply, noobj_apply, Yolo.noTerm2]
  all_goals rfl

end Cert.ReferenceIdeal.Cells

end
-- ==== Proof.RefTotals.lean ====
/-
  The reference's sums.  Each of its `jnp.sum`s over the whole grid of cells (and channels) is, over the extended reals,
  the initial zero plus the sum over all indices, that is the iterated sum over images, rows, columns (and channels) of
  the per-cell summand; its five results are the five losses of the batch's six sums.
-/
import proofs.«169991_j1297080123428_2_alg».proof.Proof.RefCells
import proofs.«169991_j1297080123428_2_alg».proof.Proof.Sums

noncomputable section

namespace Cert.ReferenceIdeal.Totals

open Cert.ReferenceIdeal Cert.ReferenceIdeal.Stages Cert.ReferenceIdeal.Cells Idealize.ShloMosaic Idealize.ShloMosaic.ValueIdx

/-- The batch's numbers as functions of the cell, read off the reference's argument arrays. -/
def Pr (x0 : (⟨S4096x14x14x30, .f32⟩ : BufTy).Contents (Elt Ideal)) : Fin 4096 → Fin 14 → Fin 14 → Fin 30 → Yolo.R := fun n i j ch => x0 (ix4 n i j ch)
def Br (x1 : (⟨S4096x14x14x4, .f32⟩ : BufTy).Contents (Elt Ideal)) : Fin 4096 → Fin 14 → Fin 14 → Fin 4 → Yolo.R := fun n i j ch => x1 (ix4 n i j ch)
def Cr (x2 : (⟨S4096x14x14x20, .f32⟩ : BufTy).Contents (Elt Ideal)) : Fin 4096 → Fin 14 → Fin 14 → Fin 20 → Yolo.R := fun n i j ch => x2 (ix4 n i j ch)
def Or (x3 : (⟨S4096x14x14, .i1⟩ : BufTy).Contents (Elt Ideal)) : Fin 4096 → Fin 14 → Fin 14 → Yolo.R :=
  fun n i j => FloatOps.uitofp (F := Ideal) .f32 (x3 (ix3 n i j))

/-- A host sum over every axis into a scalar, over the extended reals: the initial value plus the sum over all indices. -/
theorem reduceAll_apply {s : Shape} {axes : List (Fin s.rank)} (x : FVec Ideal s .f32) (v : FVec Ideal S_ .f32)
    (h' : s.ReducesTo axes S_) (hu : 0 < S_.numel) (i : S_.Idx) :
    Host.reduceAdd x v h' hu i = v (Shape.Idx.first hu) + ∑ j : s.Idx, x j := by
  simp only [Host.reduceAdd, Ideal.hostReduceAdd_def]
  exact Ideal.hostReduceAdd_total h' (fun b => b.elim0) x _ i

/-- The zero the sums start from. -/
theorem zero_start (x : Yolo.R) : Ideal.ofBits .f32 0x00000000#32 + x = x := by
  rw [Ideal.ofBits_zero_f32, zero_add]

theorem sum_obj (x3 : (⟨S4096x14x14, .i1⟩ : BufTy).Contents (Elt Ideal)) (i : S_.Idx) : val_main_v3 (F := Ideal) x3 i = Yolo.totObj (Or x3) := by
  unfold val_main_v3
  refine (reduceAll_apply _ _ _ _ i).trans ?_
  refine (zero_start _).trans ((sum_idx3 _).trans ?_)
  exact Finset.sum_congr rfl fun n _ => Finset.sum_congr rfl fun i _ => Finset.sum_congr rfl fun j _ => obj_apply x3 n i j

theorem sum_nnobj (x3 : (⟨S4096x14x14, .i1⟩ : BufTy).Contents (Elt Ideal)) (i : S_.Idx) : val_main_v4 (F := Ideal) x3 i = Yolo.totNnobj (Or x3) := by
  unfold val_main_v4
  refine (reduceAll_apply _ _ _ _ i).trans ?_
  refine (zero_start _).trans ((sum_idx3 _).trans ?_)
  exact Finset.sum_congr rfl fun n _ => Finset.sum_congr rfl fun i _ => Finset.sum_congr rfl fun j _ => noobj_apply x3 n i j

theorem sum_cls (x0 : (⟨S4096x14x14x30, .f32⟩ : BufTy).Contents (Elt Ideal)) (x2 : (⟨S4096x14x14x20, .f32⟩ : BufTy).Contents (Elt Ideal)) (x3 : (⟨S4096x14x14, .i1⟩ : BufTy).Contents (Elt Ideal)) (i : S_.Idx) :
    val_main_v13 (F := Ideal) x0 x2 x3 i = Yolo.totCls (Pr x0) (Cr x2) (Or x3) := by
  unfold val_main_v13
  refine (reduceAll_apply _ _ _ _ i).trans ?_
  refine (zero_start _).trans ((sum_idx4 _).trans ?_)
  exact Finset.sum_congr rfl fun n _ => Finset.sum_congr rfl fun i _ => Finset.sum_congr rfl fun j _ =>
    Finset.sum_congr rfl fun c _ => cls_apply x0 x2 x3 n i j c

theorem sum_no1 (x0 : (⟨S4096x14x14x30, .f32⟩ : BufTy).Contents (Elt Ideal)) (x3 : (⟨S4096x14x14, .i1⟩ : BufTy).Contents (Elt Ideal)) (i : S_.Idx) : val_main_v19 (F := Ideal) x0 x3 i = Yolo.totNo1 (Pr x0) (Or x3) := by
  unfold val_main_v19
  refine (reduceAll_apply _ _ _ _ i).trans ?_
  refine (zero_start _).trans ((sum_idx4 _).trans ?_)
  exact Finset.sum_congr rfl fun n _ => Finset.sum_congr rfl fun i _ => Finset.sum_congr rfl fun j _ =>
    Finset.sum_congr rfl fun c _ => no1_apply x0 x3 n i j c

theorem sum_no2 (x0 : (⟨S4096x14x14x30, .f32⟩ : BufTy).Contents (Elt Ideal)) (x3 : (⟨S4096x14x14, .i1⟩ : BufTy).Contents (Elt Ideal)) (i : S_.Idx) : val_main_v24 (F := Ideal) x0 x3 i = Yolo.totNo2 (Pr x0) (Or x3) := by
  unfold val_main_v24
  refine (reduceAll_apply _ _ _ _ i).trans ?_
  refine (zero_start _).trans ((sum_idx4 _).trans ?_)
  exact Finset.sum_congr rfl fun n _ => Finset.sum_congr rfl fun i _ => Finset.sum_congr rfl fun j _ =>
    Finset.sum_congr rfl fun c _ => no2_apply x0 x3 n i j c

theorem sum_reg (x0 : (⟨S4096x14x14x30, .f32⟩ : BufTy).Contents (Elt Ideal)) (x1 : (⟨S4096x14x14x4, .f32⟩ : BufTy).Contents (Elt Ideal)) (x3 : (⟨S4096x14x14, .i1⟩ : BufTy).Contents (Elt Ideal)) (i : S_.Idx) :
    val_main_v243 (F := Ideal) x0 x1 x3 i = Yolo.totReg (Pr x0) (Br x1) (Or x3) := by
  unfold val_main_v243
  refine (reduceAll_apply _ _ _ _ i).trans ?_
  refine (zero_start _).trans ((sum_idx3 _).trans ?_)
  exact Finset.sum_congr rfl fun n _ => Finset.sum_congr rfl fun i _ => Finset.sum_congr rfl fun j _ => reg_apply x0 x1 x3 n i j

theorem sum_conf (x0 : (⟨S4096x14x14x30, .f32⟩ : BufTy).Contents (Elt Ideal)) (x1 : (⟨S4096x14x14x4, .f32⟩ : BufTy).Contents (Elt Ideal)) (x3 : (⟨S4096x14x14, .i1⟩ : BufTy).Contents (Elt Ideal)) (i : S_.Idx) :
    val_main_v251 (F := Ideal) x0 x1 x3 i = Yolo.totConf (Pr x0) (Br x1) (Or x3) := by
  unfold val_main_v251
  refine (reduceAll_apply _ _ _ _ i).trans ?_
  refine (zero_start _).trans ((sum_idx3 _).trans ?_)
  exact Finset.sum_congr rfl fun n _ => Finset.sum_congr rfl fun i _ => Finset.sum_congr rfl fun j _ => conf_apply x0 x1 x3 n i j

/-! ## The five results

The last host lines, on scalars that are known numbers: quotients, products with a literal, sums. -/

theorem cls_of (v : (⟨S_, .f32⟩ : BufTy).Contents (Elt Ideal)) (a : Yolo.R) (h : v = fun _ => a) :
    Host.divf v (constant (F := Ideal) S_ .f32 0x45800000#32) = fun _ => Yolo.lossCls a := by
  subst h; funext i; rfl

theorem no_of (v19 v24 v4 : (⟨S_, .f32⟩ : BufTy).Contents (Elt Ideal)) (a b c : Yolo.R) (h1 : v19 = fun _ => a) (h2 : v24 = fun _ => b)
    (h3 : v4 = fun _ => c) :
    Host.divf (mulf (constant (F := Ideal) S_ .f32 0x3F000000#32) (addf v19 v24)) v4 = fun _ => Yolo.lossNo (a + b) c := by
  subst h1 h2 h3; funext i; rfl

theorem reg_of (v243 v3 : (⟨S_, .f32⟩ : BufTy).Contents (Elt Ideal)) (a b : Yolo.R) (h1 : v243 = fun _ => a) (h2 : v3 = fun _ => b) :
    Host.divf (mulf v243 (constant (F := Ideal) S_ .f32 0x40A00000#32)) v3 = fun _ => Yolo.lossReg a b := by
  subst h1 h2; funext i; rfl

theorem conf_of (v251 v3 : (⟨S_, .f32⟩ : BufTy).Contents (Elt Ideal)) (a b : Yolo.R) (h1 : v251 = fun _ => a) (h2 : v3 = fun _ => b) :
    Host.divf v251 v3 = fun _ => Yolo.lossConf a b := by
  subst h1 h2; funext i; rfl

theorem total_of (r c n k : (⟨S_, .f32⟩ : BufTy).Contents (Elt Ideal)) (a b d e : Yolo.R) (h1 : r = fun _ => a) (h2 : c = fun _ => b)
    (h3 : n = fun _ => d) (h4 : k = fun _ => e) :
    addf (addf (addf r c) n) k = fun _ => a + b + d + e := by
  subst h1 h2 h3 h4; funext i; rfl

theorem res_cls (x0 : (⟨S4096x14x14x30, .f32⟩ : BufTy).Contents (Elt Ideal)) (x2 : (⟨S4096x14x14x20, .f32⟩ : BufTy).Contents (Elt Ideal)) (x3 : (⟨S4096x14x14, .i1⟩ : BufTy).Contents (Elt Ideal)) :
    val_main_v14 (F := Ideal) x0 x2 x3 = fun _ => Yolo.LCls (Pr x0) (Cr x2) (Or x3) := by
  unfold val_main_v14 val_main_cst_3
  exact (cls_of _ _ (funext (sum_cls x0 x2 x3))).trans rfl

theorem res_no (x0 : (⟨S4096x14x14x30, .f32⟩ : BufTy).Contents (Elt Ideal)) (x3 : (⟨S4096x14x14, .i1⟩ : BufTy).Contents (Elt Ideal)) :
    val_main_v27 (F := Ideal) x0 x3 = fun _ => Yolo.LNo (Pr x0) (Or x3) := by
  unfold val_main_v27 val_main_v26 val_main_v25 val_main_cst_6
  exact (no_of _ _ _ _ _ _ (funext (sum_no1 x0 x3)) (funext (sum_no2 x0 x3)) (funext (sum_nnobj x3))).trans rfl

theorem res_reg (x0 : (⟨S4096x14x14x30, .f32⟩ : BufTy).Contents (Elt Ideal)) (x1 : (⟨S4096x14x14x4, .f32⟩ : BufTy).Contents (Elt Ideal)) (x3 : (⟨S4096x14x14, .i1⟩ : BufTy).Contents (Elt Ideal)) :
    val_main_v245 (F := Ideal) x0 x1 x3 = fun _ => Yolo.LReg (Pr x0) (Br x1) (Or x3) := by
  unfold val_main_v245 val_main_v244 val_main_cst_34
  exact (reg_of _ _ _ _ (funext (sum_reg x0 x1 x3)) (funext (sum_obj x3))).trans rfl

theorem res_conf (x0 : (⟨S4096x14x14x30, .f32⟩ : BufTy).Contents (Elt Ideal)) (x1 : (⟨S4096x14x14x4, .f32⟩ : BufTy).Contents (Elt Ideal)) (x3 : (⟨S4096x14x14, .i1⟩ : BufTy).Contents (Elt Ideal)) :
    val_main_v252 (F := Ideal) x0 x1 x3 = fun _ => Yolo.LConf (Pr x0) (Br x1) (Or x3) := by
  unfold val_main_v252
  exact (conf_of _ _ _ _ (funext (sum_conf x0 x1 x3)) (funext (sum_obj x3))).trans rfl

theorem res_total (x0 : (⟨S4096x14x14x30, .f32⟩ : BufTy).Contents (Elt Ideal)) (x1 : (⟨S4096x14x14x4, .f32⟩ : BufTy).Contents (Elt Ideal)) (x2 : (⟨S4096x14x14x20, .f32⟩ : BufTy).Contents (Elt Ideal)) (x3 : (⟨S4096x14x14, .i1⟩ : BufTy).Contents (Elt Ideal)) :
    val_main_v255 (F := Ideal) x0 x1 x2 x3 = fun _ => Yolo.LTotal (Pr x0) (Br x1) (Cr x2) (Or x3) := by
  unfold val_main_v255 val_main_v254 val_main_v253
  exact (total_of _ _ _ _ _ _ _ _ (res_reg x0 x1 x3) (res_conf x0 x1 x3) (res_no x0 x3) (res_cls x0 x2 x3)).trans rfl

end Cert.ReferenceIdeal.Totals

end
-- ==== Proof.lean ====
/-
  The equivalence of a tiled loss kernel with its reference, over the extended reals.

  Both programs compute, for a batch of 4096 images on a 14 × 14 grid of cells, five losses from six sums over the cells:
  a class sum, a no-object sum (two boxes), a coordinate-regression sum and a confidence sum of the box with the larger
  overlap ratio, and the counts of object and no-object cells.  The reference takes each sum in one `jnp.sum` over the
  whole batch; the kernel walks 128 blocks of 32 images, adds each block's partial sums (taken axis by axis) into six
  accumulators, and divides on the host afterwards.  Cell by cell the two compute the same summand (Spec), and sums over
  a commutative monoid may be grouped at will (Sums): no finiteness of the inputs is used.
-/
import proofs.«169991_j1297080123428_2_alg».proof.Defs
import proofs.«169991_j1297080123428_2_alg».proof.Proof.Gen.Kernel
import proofs.«169991_j1297080123428_2_alg».proof.Proof.Gen.Kernel.Frame
import proofs.«169991_j1297080123428_2_alg».proof.Proof.Gen.KernelIdeal
import proofs.«169991_j1297080123428_2_alg».proof.Proof.Gen.KernelIdeal.Frame
import proofs.«169991_j1297080123428_2_alg».proof.Proof.Gen.ReferenceIdeal
import proofs.«169991_j1297080123428_2_alg».proof.Proof.Gen.Pre_finite_inputs
import proofs.«169991_j1297080123428_2_alg».proof.Proof.KerRun
import proofs.«169991_j1297080123428_2_alg».proof.Proof.RefTotals
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- So does its idealization. -/
theorem frame_ki : Cert.frame_KernelIdeal (hKernelIdeal := Cert.KernelIdeal.Gen.facts)
    (hPre_finite_inputs := Cert.Pre_finite_inputs.Gen.facts) :=
  fun m ρ _ => Cert.KernelIdeal.Gen.frame m ρ

/-- And the reference: its run with the results dropped. -/
theorem frame_ri : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2.2.2.2.2)
    (Cert.ReferenceIdeal.Stages.run (F := Ideal) m ρ)

/-- Both programs end with the five losses of the batch's six sums. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Run.resTotal m c, fun c => Cert.KernelIdeal.Run.resReg m c,
    fun c => Cert.KernelIdeal.Run.resConf m c, fun c => Cert.KernelIdeal.Run.resNo m c,
    fun c => Cert.KernelIdeal.Run.resCls m c, Cert.KernelIdeal.Run.run m ρ, ?_⟩
  refine (θ_run Cert.ReferenceIdeal.defs _ _).mono (fun _ h c => ?_) (Cert.ReferenceIdeal.Stages.run (F := Ideal) m' ρ')
  obtain ⟨h0, h1, h2, h3, h4, ha⟩ := h c
  obtain ⟨e0, e1, e2, e3⟩ := hagree c
  refine ⟨h0.trans ?_, h1.trans ?_, h2.trans ?_, h3.trans ?_, h4.trans ?_, ha⟩
  · rw [e0, e1, e2, e3, Cert.ReferenceIdeal.Totals.res_total]; rfl
  · rw [e0, e1, e3, Cert.ReferenceIdeal.Totals.res_reg]; rfl
  · rw [e0, e1, e3, Cert.ReferenceIdeal.Totals.res_conf]; rfl
  · rw [e0, e3, Cert.ReferenceIdeal.Totals.res_no]; rfl
  · rw [e0, e2, e3, Cert.ReferenceIdeal.Totals.res_cls]; rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
